-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x256 : Shape := ⟨2, ![256, 256]⟩
abbrev S256x40 : Shape := ⟨2, ![256, 40]⟩
abbrev S40 : Shape := ⟨1, ![40]⟩
abbrev S5x256 : Shape := ⟨2, ![5, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_
  bcast_S_S5x256 : S_.BroadcastsInDim S5x256 (![] : Fin 0 → Fin S5x256.rank)
  reducesTo_S5x256_S_d0_1 : S5x256.ReducesTo [0, 1] S_

variable [Facts]

def fn_part3 {F : FTy → Type} [FloatOps F] (main_arg12 : FVec F S5x256 .f32) (main_arg13 : FVec F S5x256 .f32) (main_v48 : IVec S_ 1) (main_v49 : FVec F S5x256 .f32) (main_v50 : FVec F S5x256 .f32) : IVec S_ 1 :=
  let main_v51 : IVec S5x256 1 := cmpf .olt main_v49 main_v50
  let main_c_19 : IVec S_ 1 := constantI S_ 1 1#1
  let main_v52 : IVec S_ 1 := (fun x v => Host.reduce IntOp.andi x v reducesTo_S5x256_S_d0_1 h_S_) main_v51 main_c_19
  let main_v53 : IVec S_ 1 := andi main_v48 main_v52
  let main_v54 : FVec F S5x256 .f32 := Host.absf main_arg12
  let main_cst_20 : FVec F S_ .f32 := constant S_ .f32 0x7F800000#32
  let main_v55 : FVec F S5x256 .f32 := broadcastInDim S5x256 ![] bcast_S_S5x256 main_cst_20
  let main_v56 : IVec S5x256 1 := cmpf .olt main_v54 main_v55
  let main_c_21 : IVec S_ 1 := constantI S_ 1 1#1
  let main_v57 : IVec S_ 1 := (fun x v => Host.reduce IntOp.andi x v reducesTo_S5x256_S_d0_1 h_S_) main_v56 main_c_21
  let main_v58 : IVec S_ 1 := andi main_v53 main_v57
  let main_v59 : FVec F S5x256 .f32 := Host.absf main_arg13
  let main_cst_22 : FVec F S_ .f32 := constant S_ .f32 0x7F800000#32
  let main_v60 : FVec F S5x256 .f32 := broadcastInDim S5x256 ![] bcast_S_S5x256 main_cst_22
  let main_v61 : IVec S5x256 1 := cmpf .olt main_v59 main_v60
  let main_c_23 : IVec S_ 1 := constantI S_ 1 1#1
  let main_v62 : IVec S_ 1 := (fun x v => Host.reduce IntOp.andi x v reducesTo_S5x256_S_d0_1 h_S_) main_v61 main_c_23
  let main_v63 : IVec S_ 1 := andi main_v58 main_v62
  main_v63

def fn_part2 {F : FTy → Type} [FloatOps F] (main_arg8 : FVec F S256x40 .f32) (main_arg9 : FVec F S40 .f32) (main_arg10 : FVec F S5x256 .f32) (main_arg11 : FVec F S5x256 .f32) (main_arg12 : FVec F S5x256 .f32) (main_arg13 : FVec F S5x256 .f32) (main_v33 : IVec S_ 1) : IVec S_ 1 :=
  let main_v34 : FVec F S256x40 .f32 := Host.absf main_arg8
  let main_cst_12 : FVec F S_ .f32 := constant S_ .f32 0x7F800000#32
  let main_v35 : FVec F S256x40 .f32 := broadcastInDim S256x40 ![] bcast_S_S256x40 main_cst_12
  let main_v36 : IVec S256x40 1 := cmpf .olt main_v34 main_v35
  let main_c_13 : IVec S_ 1 := constantI S_ 1 1#1
  let main_v37 : IVec S_ 1 := (fun x v => Host.reduce IntOp.andi x v reducesTo_S256x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : FVec F S5x256 .f32 := Host.absf main_arg10
  let main_cst_16 : FVec F S_ .f32 := constant S_ .f32 0x7F800000#32
  let main_v45 : FVec F S5x256 .f32 := broadcastInDim S5x256 ![] bcast_S_S5x256 main_cst_16
  let main_v46 : IVec S5x256 1 := cmpf .olt main_v44 main_v45
  let main_c_17 : IVec S_ 1 := constantI S_ 1 1#1
  let main_v47 : IVec S_ 1 := (fun x v => Host.reduce IntOp.andi x v reducesTo_S5x256_S_d0_1 h_S_) main_v46 main_c_17
  let main_v48 : IVec S_ 1 := andi main_v43 main_v47
  let main_v49 : FVec F S5x256 .f32 := Host.absf main_arg11
  let main_cst_18 : FVec F S_ .f32 := constant S_ .f32 0x7F800000#32
  let main_v50 : FVec F S5x256 .f32 := broadcastInDim S5x256 ![] bcast_S_S5x256 main_cst_18
  fn_part3 (F := F) main_arg12 main_arg13 main_v48 main_v49 main_v50

def fn_part1 {F : FTy → Type} [FloatOps F] (main_arg5 : FVec F S3x256 .f32) (main_arg6 : FVec F S256x256 .f32) (main_arg7 : FVec F S256 .f32) (main_arg8 : FVec F S256x40 .f32) (main_arg9 : FVec F S40 .f32) (main_arg10 : FVec F S5x256 .f32) (main_arg11 : FVec F S5x256 .f32) (main_arg12 : FVec F S5x256 .f32) (main_arg13 : FVec F S5x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x256 .f32) (main_arg3 : FVec F S256 .f32) (main_arg4 : FVec F S3x256x256 .f32) (main_arg5 : FVec F S3x256 .f32) (main_arg6 : FVec F S256x256 .f32) (main_arg7 : FVec F S256 .f32) (main_arg8 : FVec F S256x40 .f32) (main_arg9 : FVec F S40 .f32) (main_arg10 : FVec F S5x256 .f32) (main_arg11 : FVec F S5x256 .f32) (main_arg12 : FVec F S5x256 .f32) (main_arg13 : FVec F S5x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x256 .f32 := Host.absf main_arg4
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x256 : Shape := ⟨2, ![256, 256]⟩
abbrev S256x40 : Shape := ⟨2, ![256, 40]⟩
abbrev S40 : Shape := ⟨1, ![40]⟩
abbrev S5x256 : Shape := ⟨2, ![5, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S1x256x256 : Shape := ⟨3, ![1, 256, 256]⟩
abbrev S800000x256 : Shape := ⟨2, ![800000, 256]⟩
abbrev S2000x1 : Shape := ⟨2, ![2000, 1]⟩
abbrev S1x40 : Shape := ⟨2, ![1, 40]⟩
abbrev S50000x40 : Shape := ⟨2, ![50000, 40]⟩
abbrev S2000x40 : Shape := ⟨2, ![2000, 40]⟩
abbrev S2000 : Shape := ⟨1, ![2000]⟩

abbrev nBuf : Space → Nat
  | .hbm => 212
  | .vmem => 76
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S3x256x256, .f32⟩
  | 5 => ⟨S3x256, .f32⟩
  | 6 => ⟨S256x256, .f32⟩
  | 7 => ⟨S256, .f32⟩
  | 8 => ⟨S256x40, .f32⟩
  | 9 => ⟨S40, .f32⟩
  | 10 => ⟨S5x256, .f32⟩
  | 11 => ⟨S5x256, .f32⟩
  | 12 => ⟨S5x256, .f32⟩
  | 13 => ⟨S5x256, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .f32⟩
  | 29 => ⟨S50000, .f32⟩
  | 30 => ⟨S50000, .f32⟩
  | 31 => ⟨S50000x1, .f32⟩
  | 32 => ⟨S1x256, .f32⟩
  | 33 => ⟨S50000x256, .f32⟩
  | 34 => ⟨S1x256x256, .f32⟩
  | 35 => ⟨S256x256, .f32⟩
  | 36 => ⟨S50000x256, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x256, .f32⟩
  | 65 => ⟨S800000x1, .f32⟩
  | 66 => ⟨S800000x256, .f32⟩
  | 67 => ⟨S800000x256, .f32⟩
  | 68 => ⟨S_, .f32⟩
  | 69 => ⟨S50000x256, .f32⟩
  | 70 => ⟨S800000x1, .i32⟩
  | 71 => ⟨S50000x256, .f32⟩
  | 72 => ⟨S1x256, .f32⟩
  | 73 => ⟨S256, .f32⟩
  | 74 => ⟨S1x256, .f32⟩
  | 75 => ⟨S1x256, .f32⟩
  | 76 => ⟨S256, .f32⟩
  | 77 => ⟨S1x256, .f32⟩
  | 78 => ⟨S1x256, .f32⟩
  | 79 => ⟨S256, .f32⟩
  | 80 => ⟨S1x256, .f32⟩
  | 81 => ⟨S1x256, .f32⟩
  | 82 => ⟨S256, .f32⟩
  | 83 => ⟨S1x256, .f32⟩
  | 84 => ⟨S1x256, .f32⟩
  | 85 => ⟨S256, .f32⟩
  | 86 => ⟨S1x256, .f32⟩
  | 87 => ⟨S50000x256, .f32⟩
  | 88 => ⟨S1x256x256, .f32⟩
  | 89 => ⟨S256x256, .f32⟩
  | 90 => ⟨S50000x256, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000, .f32⟩
  | 109 => ⟨S800000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x256, .f32⟩
  | 119 => ⟨S800000x1, .f32⟩
  | 120 => ⟨S800000x256, .f32⟩
  | 121 => ⟨S800000x256, .f32⟩
  | 122 => ⟨S_, .f32⟩
  | 123 => ⟨S50000x256, .f32⟩
  | 124 => ⟨S800000x1, .i32⟩
  | 125 => ⟨S50000x256, .f32⟩
  | 126 => ⟨S1x256, .f32⟩
  | 127 => ⟨S256, .f32⟩
  | _ => ⟨S50000x128, .f32⟩

abbrev hbmTy0_1 (i : Nat) : BufTy := match i % 128 with
  | 0 => ⟨S1x256, .f32⟩
  | 1 => ⟨S1x256, .f32⟩
  | 2 => ⟨S256, .f32⟩
  | 3 => ⟨S1x256, .f32⟩
  | 4 => ⟨S1x256, .f32⟩
  | 5 => ⟨S256, .f32⟩
  | 6 => ⟨S1x256, .f32⟩
  | 7 => ⟨S1x256, .f32⟩
  | 8 => ⟨S256, .f32⟩
  | 9 => ⟨S1x256, .f32⟩
  | 10 => ⟨S1x256, .f32⟩
  | 11 => ⟨S256, .f32⟩
  | 12 => ⟨S1x256, .f32⟩
  | 13 => ⟨S50000x256, .f32⟩
  | 14 => ⟨S1x256x256, .f32⟩
  | 15 => ⟨S256x256, .f32⟩
  | 16 => ⟨S50000x256, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x256, .f32⟩
  | 45 => ⟨S800000x1, .f32⟩
  | 46 => ⟨S800000x256, .f32⟩
  | 47 => ⟨S800000x256, .f32⟩
  | 48 => ⟨S_, .f32⟩
  | 49 => ⟨S50000x256, .f32⟩
  | 50 => ⟨S800000x1, .i32⟩
  | 51 => ⟨S50000x256, .f32⟩
  | 52 => ⟨S1x256, .f32⟩
  | 53 => ⟨S256, .f32⟩
  | 54 => ⟨S1x256, .f32⟩
  | 55 => ⟨S1x256, .f32⟩
  | 56 => ⟨S256, .f32⟩
  | 57 => ⟨S1x256, .f32⟩
  | 58 => ⟨S1x256, .f32⟩
  | 59 => ⟨S256, .f32⟩
  | 60 => ⟨S1x256, .f32⟩
  | 61 => ⟨S1x256, .f32⟩
  | 62 => ⟨S256, .f32⟩
  | 63 => ⟨S1x256, .f32⟩
  | 64 => ⟨S1x256, .f32⟩
  | 65 => ⟨S256, .f32⟩
  | 66 => ⟨S1x256, .f32⟩
  | 67 => ⟨S50000x256, .f32⟩
  | 68 => ⟨S1x256, .f32⟩
  | 69 => ⟨S1x256, .f32⟩
  | 70 => ⟨S256, .f32⟩
  | 71 => ⟨S1x256, .f32⟩
  | 72 => ⟨S1x256, .f32⟩
  | 73 => ⟨S256, .f32⟩
  | 74 => ⟨S1x256, .f32⟩
  | 75 => ⟨S1x256, .f32⟩
  | 76 => ⟨S256, .f32⟩
  | 77 => ⟨S1x256, .f32⟩
  | 78 => ⟨S1x256, .f32⟩
  | 79 => ⟨S256, .f32⟩
  | 80 => ⟨S1x256, .f32⟩
  | 81 => ⟨S50000x256, .f32⟩
  | 82 => ⟨S1x40, .f32⟩
  | 83 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x1, .f32⟩
  | .local _ .vmem, ⟨34, _⟩ => ⟨S2000x1, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S256x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x1, .f32⟩
  | .local _ .vmem, ⟨52, _⟩ => ⟨S2000x1, .f32⟩
  | .local _ .vmem, ⟨53, _⟩ => ⟨S1x256, .f32⟩
  | .local _ .vmem, ⟨54, _⟩ => ⟨S1x256, .f32⟩
  | .local _ .vmem, ⟨55, _⟩ => ⟨S1x256, .f32⟩
  | .local _ .vmem, ⟨56, _⟩ => ⟨S1x256, .f32⟩
  | .local _ .vmem, ⟨57, _⟩ => ⟨S1x256, .f32⟩
  | .local _ .vmem, ⟨58, _⟩ => ⟨S2000x256, .f32⟩
  | .local _ .vmem, ⟨59, _⟩ => ⟨S2000x256, .f32⟩
  | .local _ .vmem, ⟨60, _⟩ => ⟨S2000x256, .f32⟩
  | .local _ .vmem, ⟨61, _⟩ => ⟨S2000x256, .f32⟩
  | .local _ .vmem, ⟨62, _⟩ => ⟨S256x256, .f32⟩
  | .local _ .vmem, ⟨63, _⟩ => ⟨S1x256, .f32⟩
  | .local _ .vmem, ⟨64, _⟩ => ⟨S1x256, .f32⟩
  | .local _ .vmem, ⟨65, _⟩ => ⟨S1x256, .f32⟩
  | .local _ .vmem, ⟨66, _⟩ => ⟨S1x256, .f32⟩
  | .local _ .vmem, ⟨67, _⟩ => ⟨S1x256, .f32⟩
  | .local _ .vmem, ⟨68, _⟩ => ⟨S2000x256, .f32⟩
  | .local _ .vmem, ⟨69, _⟩ => ⟨S2000x256, .f32⟩
  | .local _ .vmem, ⟨70, _⟩ => ⟨S2000x256, .f32⟩
  | .local _ .vmem, ⟨71, _⟩ => ⟨S2000x256, .f32⟩
  | .local _ .vmem, ⟨72, _⟩ => ⟨S256x40, .f32⟩
  | .local _ .vmem, ⟨73, _⟩ => ⟨S1x40, .f32⟩
  | .local _ .vmem, ⟨74, _⟩ => ⟨S2000x40, .f32⟩
  | .local _ .vmem, ⟨75, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_9 : Ref sig .tc := ⟨.hbm, 91, rfl⟩
abbrev main_v66 : Ref sig .tc := ⟨.hbm, 92, rfl⟩
abbrev main_v67 : Ref sig .tc := ⟨.hbm, 93, rfl⟩
abbrev main_c_10 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_11 : Ref sig .tc := ⟨.hbm, 100, rfl⟩
abbrev main_v73 : Ref sig .tc := ⟨.hbm, 101, rfl⟩
abbrev main_v74 : Ref sig .tc := ⟨.hbm, 102, rfl⟩
abbrev main_c_12 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_13 : Ref sig .tc := ⟨.hbm, 110, rfl⟩
abbrev main_v81 : Ref sig .tc := ⟨.hbm, 111, rfl⟩
abbrev main_v82 : Ref sig .tc := ⟨.hbm, 112, rfl⟩
abbrev main_c_14 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_15 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_c_16 : Ref sig .tc := ⟨.hbm, 145, rfl⟩
abbrev main_v113 : Ref sig .tc := ⟨.hbm, 146, rfl⟩
abbrev main_v114 : Ref sig .tc := ⟨.hbm, 147, rfl⟩
abbrev main_c_17 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_c_18 : Ref sig .tc := ⟨.hbm, 154, rfl⟩
abbrev main_v120 : Ref sig .tc := ⟨.hbm, 155, rfl⟩
abbrev main_v121 : Ref sig .tc := ⟨.hbm, 156, rfl⟩
abbrev main_c_19 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_c_20 : Ref sig .tc := ⟨.hbm, 164, rfl⟩
abbrev main_v128 : Ref sig .tc := ⟨.hbm, 165, rfl⟩
abbrev main_v129 : Ref sig .tc := ⟨.hbm, 166, rfl⟩
abbrev main_c_21 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_22 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg8_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg8_0 : Ref sig .tc := ⟨.vmem, 40, rfl⟩
abbrev cc4_stg8_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg2_1 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg1_1 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg6_0 : Ref sig .tc := ⟨.vmem, 56, rfl⟩
abbrev cc6_stg7_0 : Ref sig .tc := ⟨.vmem, 57, rfl⟩
abbrev cc6_stg8_0 : Ref sig .tc := ⟨.vmem, 58, rfl⟩
abbrev cc6_stg8_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg6_0 : Ref sig .tc := ⟨.vmem, 67, rfl⟩
abbrev cc7_stg7_0 : Ref sig .tc := ⟨.vmem, 68, rfl⟩
abbrev cc7_stg7_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg3_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem8_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem8_0 : DmaSem sig := 40
abbrev cc4_sem8_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem2_1 : DmaSem sig := 46
abbrev cc6_sem0_0 : DmaSem sig := 47
abbrev cc6_sem0_1 : DmaSem sig := 48
abbrev cc6_sem1_0 : DmaSem sig := 49
abbrev cc6_sem1_1 : DmaSem sig := 50
abbrev cc6_sem2_0 : DmaSem sig := 51
abbrev cc6_sem2_1 : DmaSem sig := 52
abbrev cc6_sem3_0 : DmaSem sig := 53
abbrev cc6_sem4_0 : DmaSem sig := 54
abbrev cc6_sem5_0 : DmaSem sig := 55
abbrev cc6_sem6_0 : DmaSem sig := 56
abbrev cc6_sem7_0 : DmaSem sig := 57
abbrev cc6_sem8_0 : DmaSem sig := 58
abbrev cc6_sem8_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem6_0 : DmaSem sig := 67
abbrev cc7_sem7_0 : DmaSem sig := 68
abbrev cc7_sem7_1 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem3_1 : DmaSem sig := 75

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S2000x256 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x256 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x40 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x40 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x40 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  slices_S3x256x256_S1x256x256_0_0_0 : S3x256x256.Slices ![0, 0, 0] S1x256x256
  shapeCasts_S1x256x256_S256x256 : S1x256x256.ShapeCasts S256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  slices_S3x256_S1x256_0_0 : S3x256.Slices ![0, 0] S1x256
  shapeCasts_S1x256_S256 : S1x256.ShapeCasts S256
  slices_S5x256_S1x256_0_0 : S5x256.Slices ![0, 0] S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  slices_S3x256x256_S1x256x256_1_0_0 : S3x256x256.Slices ![1, 0, 0] S1x256x256
  slices_S3x256_S1x256_1_0 : S3x256.Slices ![1, 0] S1x256
  slices_S5x256_S1x256_1_0 : S5x256.Slices ![1, 0] S1x256
  slices_S3x256x256_S1x256x256_2_0_0 : S3x256x256.Slices ![2, 0, 0] S1x256x256
  slices_S3x256_S1x256_2_0 : S3x256.Slices ![2, 0] S1x256
  slices_S5x256_S1x256_2_0 : S5x256.Slices ![2, 0] S1x256
  slices_S5x256_S1x256_3_0 : S5x256.Slices ![3, 0] S1x256
  shapeCasts_S40_S1x40 : S40.ShapeCasts S1x40
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S50000x256.size a
  hwx2_8 : ∀ i : grid2.Coords, EltTy.bits .f32 = 32 ∨ (Rect.block (s := S50000x256) S2000x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x256.size a ≤ S50000x256.size a
  hwx4_8 : ∀ i : grid4.Coords, EltTy.bits .f32 = 32 ∨ (Rect.block (s := S50000x256) S2000x256.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x256.size a ≤ S1x256.size a
  hwx6_7 : ∀ i : grid6.Coords, EltTy.bits .f32 = 32 ∨ (Rect.block (s := S1x256) S1x256.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2000x256.size a ≤ S50000x256.size a
  hwx6_8 : ∀ i : grid6.Coords, EltTy.bits .f32 = 32 ∨ (Rect.block (s := S50000x256) S2000x256.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .f32 = 32 ∨ (Rect.block (s := S256x256) S256x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x256.size a ≤ S1x256.size a
  hwx7_5 : ∀ i : grid7.Coords, EltTy.bits .f32 = 32 ∨ (Rect.block (s := S1x256) S1x256.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x256.size a ≤ S50000x256.size a
  hwx7_7 : ∀ i : grid7.Coords, EltTy.bits .f32 = 32 ∨ (Rect.block (s := S50000x256) S2000x256.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S50000x256.size a
  hwx8_0 : ∀ i : grid8.Coords, EltTy.bits .f32 = 32 ∨ (Rect.block (s := S50000x256) S2000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x40.size a ≤ S256x40.size a
  hwx8_1 : ∀ i : grid8.Coords, EltTy.bits .f32 = 32 ∨ (Rect.block (s := S256x40) S256x40.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x40.size a ≤ S1x40.size a
  hwx8_2 : ∀ i : grid8.Coords, EltTy.bits .f32 = 32 ∨ (Rect.block (s := S1x40) S1x40.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x40.size a ≤ S50000x40.size a
  hwx8_3 : ∀ i : grid8.Coords, EltTy.bits .f32 = 32 ∨ (Rect.block (s := S50000x40) S2000x40.size (cc8_transform_3 i) (hinb8_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v62) S2000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v62) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v93) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v96) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v99) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v102) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v105) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v108) S1x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v109) S2000x256.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v109) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v112) S2000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v140) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v112) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v13) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v143) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v146) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v149) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v152) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v155) S1x256.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v156) S2000x256.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v156) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg6) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v157) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v160) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v163) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v166) S1x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v169) S1x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v170) S2000x256.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v170) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg8) S256x40.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v171) S1x40.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v172) S2000x40.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x256 : Shape := ⟨2, ![256, 256]⟩
abbrev S256x40 : Shape := ⟨2, ![256, 40]⟩
abbrev S40 : Shape := ⟨1, ![40]⟩
abbrev S5x256 : Shape := ⟨2, ![5, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S1x256 : Shape := ⟨2, ![1, 256]⟩
abbrev S1x256x256 : Shape := ⟨3, ![1, 256, 256]⟩
abbrev S800000x256 : Shape := ⟨2, ![800000, 256]⟩
abbrev S50000x1 : Shape := ⟨2, ![50000, 1]⟩
abbrev S50000x40 : Shape := ⟨2, ![50000, 40]⟩
abbrev S1x40 : Shape := ⟨2, ![1, 40]⟩

abbrev nBuf : Space → Nat
  | .hbm => 302
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S3x256x256, .f32⟩
  | 5 => ⟨S3x256, .f32⟩
  | 6 => ⟨S256x256, .f32⟩
  | 7 => ⟨S256, .f32⟩
  | 8 => ⟨S256x40, .f32⟩
  | 9 => ⟨S40, .f32⟩
  | 10 => ⟨S5x256, .f32⟩
  | 11 => ⟨S5x256, .f32⟩
  | 12 => ⟨S5x256, .f32⟩
  | 13 => ⟨S5x256, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .f32⟩
  | 29 => ⟨S50000, .f32⟩
  | 30 => ⟨S50000, .f32⟩
  | 31 => ⟨S50000x256, .f32⟩
  | 32 => ⟨S1x256, .f32⟩
  | 33 => ⟨S50000x256, .f32⟩
  | 34 => ⟨S50000x256, .f32⟩
  | 35 => ⟨S_, .f32⟩
  | 36 => ⟨S50000x256, .f32⟩
  | 37 => ⟨S50000x256, .f32⟩
  | 38 => ⟨S1x256x256, .f32⟩
  | 39 => ⟨S256x256, .f32⟩
  | 40 => ⟨S1x256, .f32⟩
  | 41 => ⟨S256, .f32⟩
  | 42 => ⟨S50000x256, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x256, .f32⟩
  | 71 => ⟨S800000x1, .f32⟩
  | 72 => ⟨S800000x256, .f32⟩
  | 73 => ⟨S800000x256, .f32⟩
  | 74 => ⟨S_, .f32⟩
  | 75 => ⟨S50000x256, .f32⟩
  | 76 => ⟨S800000x1, .i32⟩
  | 77 => ⟨S50000x256, .f32⟩
  | 78 => ⟨S50000x1, .f32⟩
  | 79 => ⟨S50000x256, .f32⟩
  | 80 => ⟨S50000x256, .f32⟩
  | 81 => ⟨S50000x256, .f32⟩
  | 82 => ⟨S1x256, .f32⟩
  | 83 => ⟨S50000x256, .f32⟩
  | 84 => ⟨S50000x256, .f32⟩
  | 85 => ⟨S1x256, .f32⟩
  | 86 => ⟨S256, .f32⟩
  | 87 => ⟨S1x256, .f32⟩
  | 88 => ⟨S256, .f32⟩
  | 89 => ⟨S1x256, .f32⟩
  | 90 => ⟨S256, .f32⟩
  | 91 => ⟨S1x256, .f32⟩
  | 92 => ⟨S256, .f32⟩
  | 93 => ⟨S1x256, .f32⟩
  | 94 => ⟨S50000x256, .f32⟩
  | 95 => ⟨S50000x256, .f32⟩
  | 96 => ⟨S_, .f32⟩
  | 97 => ⟨S256, .f32⟩
  | 98 => ⟨S256, .f32⟩
  | 99 => ⟨S256, .f32⟩
  | 100 => ⟨S256, .f32⟩
  | 101 => ⟨S1x256, .f32⟩
  | 102 => ⟨S50000x256, .f32⟩
  | 103 => ⟨S50000x256, .f32⟩
  | 104 => ⟨S1x256, .f32⟩
  | 105 => ⟨S50000x256, .f32⟩
  | 106 => ⟨S50000x256, .f32⟩
  | 107 => ⟨S_, .f32⟩
  | 108 => ⟨S50000x256, .f32⟩
  | 109 => ⟨S50000x256, .f32⟩
  | 110 => ⟨S1x256x256, .f32⟩
  | 111 => ⟨S256x256, .f32⟩
  | 112 => ⟨S1x256, .f32⟩
  | 113 => ⟨S256, .f32⟩
  | 114 => ⟨S50000x256, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000, .f32⟩
  | 5 => ⟨S800000, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x256, .f32⟩
  | 15 => ⟨S800000x1, .f32⟩
  | 16 => ⟨S800000x256, .f32⟩
  | 17 => ⟨S800000x256, .f32⟩
  | 18 => ⟨S_, .f32⟩
  | 19 => ⟨S50000x256, .f32⟩
  | 20 => ⟨S800000x1, .i32⟩
  | 21 => ⟨S50000x256, .f32⟩
  | 22 => ⟨S50000x1, .f32⟩
  | 23 => ⟨S50000x256, .f32⟩
  | 24 => ⟨S50000x256, .f32⟩
  | 25 => ⟨S50000x256, .f32⟩
  | 26 => ⟨S1x256, .f32⟩
  | 27 => ⟨S50000x256, .f32⟩
  | 28 => ⟨S50000x256, .f32⟩
  | 29 => ⟨S1x256, .f32⟩
  | 30 => ⟨S256, .f32⟩
  | 31 => ⟨S1x256, .f32⟩
  | 32 => ⟨S256, .f32⟩
  | 33 => ⟨S1x256, .f32⟩
  | 34 => ⟨S256, .f32⟩
  | 35 => ⟨S1x256, .f32⟩
  | 36 => ⟨S256, .f32⟩
  | 37 => ⟨S1x256, .f32⟩
  | 38 => ⟨S50000x256, .f32⟩
  | 39 => ⟨S50000x256, .f32⟩
  | 40 => ⟨S_, .f32⟩
  | 41 => ⟨S256, .f32⟩
  | 42 => ⟨S256, .f32⟩
  | 43 => ⟨S256, .f32⟩
  | 44 => ⟨S256, .f32⟩
  | 45 => ⟨S1x256, .f32⟩
  | 46 => ⟨S50000x256, .f32⟩
  | 47 => ⟨S50000x256, .f32⟩
  | 48 => ⟨S1x256, .f32⟩
  | 49 => ⟨S50000x256, .f32⟩
  | 50 => ⟨S50000x256, .f32⟩
  | 51 => ⟨S_, .f32⟩
  | 52 => ⟨S50000x256, .f32⟩
  | 53 => ⟨S50000x256, .f32⟩
  | 54 => ⟨S1x256x256, .f32⟩
  | 55 => ⟨S256x256, .f32⟩
  | 56 => ⟨S1x256, .f32⟩
  | 57 => ⟨S256, .f32⟩
  | 58 => ⟨S50000x256, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000, .f32⟩
  | 77 => ⟨S800000, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x256, .f32⟩
  | 87 => ⟨S800000x1, .f32⟩
  | 88 => ⟨S800000x256, .f32⟩
  | 89 => ⟨S800000x256, .f32⟩
  | 90 => ⟨S_, .f32⟩
  | 91 => ⟨S50000x256, .f32⟩
  | 92 => ⟨S800000x1, .i32⟩
  | 93 => ⟨S50000x256, .f32⟩
  | 94 => ⟨S50000x1, .f32⟩
  | 95 => ⟨S50000x256, .f32⟩
  | 96 => ⟨S50000x256, .f32⟩
  | 97 => ⟨S50000x256, .f32⟩
  | 98 => ⟨S1x256, .f32⟩
  | 99 => ⟨S50000x256, .f32⟩
  | 100 => ⟨S50000x256, .f32⟩
  | 101 => ⟨S1x256, .f32⟩
  | 102 => ⟨S256, .f32⟩
  | 103 => ⟨S1x256, .f32⟩
  | 104 => ⟨S256, .f32⟩
  | 105 => ⟨S1x256, .f32⟩
  | 106 => ⟨S256, .f32⟩
  | 107 => ⟨S1x256, .f32⟩
  | 108 => ⟨S256, .f32⟩
  | 109 => ⟨S1x256, .f32⟩
  | 110 => ⟨S50000x256, .f32⟩
  | 111 => ⟨S50000x256, .f32⟩
  | 112 => ⟨S_, .f32⟩
  | 113 => ⟨S256, .f32⟩
  | 114 => ⟨S256, .f32⟩
  | 115 => ⟨S256, .f32⟩
  | 116 => ⟨S256, .f32⟩
  | 117 => ⟨S1x256, .f32⟩
  | 118 => ⟨S50000x256, .f32⟩
  | 119 => ⟨S50000x256, .f32⟩
  | 120 => ⟨S1x256, .f32⟩
  | 121 => ⟨S50000x256, .f32⟩
  | 122 => ⟨S50000x256, .f32⟩
  | 123 => ⟨S_, .f32⟩
  | 124 => ⟨S50000x256, .f32⟩
  | 125 => ⟨S50000x256, .f32⟩
  | 126 => ⟨S50000x256, .f32⟩
  | 127 => ⟨S1x256, .f32⟩
  | _ => ⟨S50000x128, .f32⟩

abbrev hbmTy0_2 (i : Nat) : BufTy := match i % 128 with
  | 0 => ⟨S50000x256, .f32⟩
  | 1 => ⟨S50000x256, .f32⟩
  | 2 => ⟨S1x256, .f32⟩
  | 3 => ⟨S256, .f32⟩
  | 4 => ⟨S1x256, .f32⟩
  | 5 => ⟨S256, .f32⟩
  | 6 => ⟨S1x256, .f32⟩
  | 7 => ⟨S256, .f32⟩
  | 8 => ⟨S1x256, .f32⟩
  | 9 => ⟨S256, .f32⟩
  | 10 => ⟨S1x256, .f32⟩
  | 11 => ⟨S50000x256, .f32⟩
  | 12 => ⟨S50000x256, .f32⟩
  | 13 => ⟨S_, .f32⟩
  | 14 => ⟨S256, .f32⟩
  | 15 => ⟨S256, .f32⟩
  | 16 => ⟨S256, .f32⟩
  | 17 => ⟨S256, .f32⟩
  | 18 => ⟨S1x256, .f32⟩
  | 19 => ⟨S50000x256, .f32⟩
  | 20 => ⟨S50000x256, .f32⟩
  | 21 => ⟨S1x256, .f32⟩
  | 22 => ⟨S50000x256, .f32⟩
  | 23 => ⟨S50000x256, .f32⟩
  | 24 => ⟨S_, .f32⟩
  | 25 => ⟨S50000x256, .f32⟩
  | 26 => ⟨S50000x256, .f32⟩
  | 27 => ⟨S50000x40, .f32⟩
  | 28 => ⟨S1x40, .f32⟩
  | 29 => ⟨S50000x40, .f32⟩
  | 30 => ⟨S50000x40, .f32⟩
  | 31 => ⟨S_, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x40, .f32⟩
  | 38 => ⟨S50000x40, .f32⟩
  | 39 => ⟨S50000x40, .f32⟩
  | 40 => ⟨S_, .f32⟩
  | 41 => ⟨S50000, .f32⟩
  | 42 => ⟨S50000x1, .f32⟩
  | 43 => ⟨S50000x1, .f32⟩
  | 44 => ⟨S50000x40, .f32⟩
  | 45 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call0_cst : Ref sig .tc := ⟨.hbm, 35, rfl⟩
abbrev main_call0_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_9 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_call1_cst : Ref sig .tc := ⟨.hbm, 107, rfl⟩
abbrev main_call1_v0 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_10 : Ref sig .tc := ⟨.hbm, 115, rfl⟩
abbrev main_v85 : Ref sig .tc := ⟨.hbm, 116, rfl⟩
abbrev main_v86 : Ref sig .tc := ⟨.hbm, 117, rfl⟩
abbrev main_c_11 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_12 : Ref sig .tc := ⟨.hbm, 124, rfl⟩
abbrev main_v92 : Ref sig .tc := ⟨.hbm, 125, rfl⟩
abbrev main_v93 : Ref sig .tc := ⟨.hbm, 126, rfl⟩
abbrev main_c_13 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_14 : Ref sig .tc := ⟨.hbm, 134, rfl⟩
abbrev main_v100 : Ref sig .tc := ⟨.hbm, 135, rfl⟩
abbrev main_v101 : Ref sig .tc := ⟨.hbm, 136, rfl⟩
abbrev main_c_15 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_16 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_17 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_call2_cst : Ref sig .tc := ⟨.hbm, 179, rfl⟩
abbrev main_call2_v0 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_c_18 : Ref sig .tc := ⟨.hbm, 187, rfl⟩
abbrev main_v147 : Ref sig .tc := ⟨.hbm, 188, rfl⟩
abbrev main_v148 : Ref sig .tc := ⟨.hbm, 189, rfl⟩
abbrev main_c_19 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_c_20 : Ref sig .tc := ⟨.hbm, 196, rfl⟩
abbrev main_v154 : Ref sig .tc := ⟨.hbm, 197, rfl⟩
abbrev main_v155 : Ref sig .tc := ⟨.hbm, 198, rfl⟩
abbrev main_c_21 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_c_22 : Ref sig .tc := ⟨.hbm, 206, rfl⟩
abbrev main_v162 : Ref sig .tc := ⟨.hbm, 207, rfl⟩
abbrev main_v163 : Ref sig .tc := ⟨.hbm, 208, rfl⟩
abbrev main_c_23 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_cst_24 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_cst_25 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_call3_cst : Ref sig .tc := ⟨.hbm, 251, rfl⟩
abbrev main_call3_v0 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_cst_26 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_call4_cst : Ref sig .tc := ⟨.hbm, 280, rfl⟩
abbrev main_call4_v0 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_call5_cst : Ref sig .tc := ⟨.hbm, 287, rfl⟩
abbrev main_call5_v0 : Ref sig .tc := ⟨.hbm, 288, rfl⟩
abbrev main_call5_cst_0 : Ref sig .tc := ⟨.hbm, 289, rfl⟩
abbrev main_call5_v1 : Ref sig .tc := ⟨.hbm, 290, rfl⟩
abbrev main_call5_v2 : Ref sig .tc := ⟨.hbm, 291, rfl⟩
abbrev main_call5_v3 : Ref sig .tc := ⟨.hbm, 292, rfl⟩
abbrev main_call5_v4 : Ref sig .tc := ⟨.hbm, 293, rfl⟩
abbrev main_call5_v5 : Ref sig .tc := ⟨.hbm, 294, rfl⟩
abbrev main_call5_v6 : Ref sig .tc := ⟨.hbm, 295, rfl⟩
abbrev main_call5_cst_1 : Ref sig .tc := ⟨.hbm, 296, rfl⟩
abbrev main_call5_v7 : Ref sig .tc := ⟨.hbm, 297, rfl⟩
abbrev main_call5_v8 : Ref sig .tc := ⟨.hbm, 298, rfl⟩
abbrev main_call5_v9 : Ref sig .tc := ⟨.hbm, 299, rfl⟩
abbrev main_call5_v10 : Ref sig .tc := ⟨.hbm, 300, rfl⟩
abbrev main_v234 : Ref sig .tc := ⟨.hbm, 301, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S800000x1_S800000x256_0_1 : S800000x1.BroadcastsInDim S800000x256 (![0, 1] : Fin 2 → Fin S800000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S5x256_S1x256_0_0 : S5x256.Slices ![0, 0] S1x256
  bcast_S_S256 : S_.BroadcastsInDim S256 (![] : Fin 0 → Fin S256.rank)
  slices_S3x256x256_S1x256x256_1_0_0 : S3x256x256.Slices ![1, 0, 0] S1x256x256
  slices_S3x256_S1x256_1_0 : S3x256.Slices ![1, 0] S1x256
  slices_S5x256_S1x256_1_0 : S5x256.Slices ![1, 0] S1x256
  slices_S3x256x256_S1x256x256_2_0_0 : S3x256x256.Slices ![2, 0, 0] S1x256x256
  slices_S3x256_S1x256_2_0 : S3x256.Slices ![2, 0] S1x256
  slices_S5x256_S1x256_2_0 : S5x256.Slices ![2, 0] S1x256
  slices_S5x256_S1x256_3_0 : S5x256.Slices ![3, 0] S1x256
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x40_S50000x40_1_0_0_1_n_n_wf : DotDims.WF S50000x256 S256x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KernelRun.lean ====
/-
  The idealized kernel's run with its result named.  @main is nine grid launches among stretches of host operations;
  the buffer contents at every boundary are a fold from the launch memory (a stretch applies its operations, a launch
  replaces its arrays by what its write-backs leave).  Every weakly fair execution terminates with each unscoped
  buffer at the last boundary's contents; read at the result buffer this names the result, read at an argument it
  gives the argument as launched.
-/
import proofs.«169431_j32804960207311_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v172) = W18 m ρ c (Proc.devRef .tc main_v172)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v172 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c)⟩)

end Cert.KernelIdeal.Run

end
-- ==== Proof.RefRun.lean ====
/-
  The reference program's run.  Its @main is one line of 288 host operations (the operations of a called function
  stand at its call).  From any memory with zero counters every weakly fair execution terminates with every buffer at
  what the line leaves there: the fold of the operations, in order, over the launch contents.  The line is cut into
  thirteen stretches — the degree vectors, then per layer its parameters and product, its edge gather and scatter, and
  its normalisation — so that what a buffer holds after the line is read one stretch at a time.
-/
import proofs.«169431_j32804960207311_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 288 operations, in order. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    nullary main_cst_2 (constant S_ .f32 0x3F800000#32),
    unary main_cst_2 main_v11 (broadcastInDim S50000 ![] bcast_S_S50000 : (⟨S_, .f32⟩ : BufTy).Contents (Elt F) → (⟨S50000, .f32⟩ : BufTy).Contents (Elt F)),
    binary main_v11 main_v9 main_v12 (Host.divf : (⟨S50000, .f32⟩ : BufTy).Contents (Elt F) → (⟨S50000, .f32⟩ : BufTy).Contents (Elt F) → (⟨S50000, .f32⟩ : BufTy).Contents (Elt F)),
    binary main_arg0 main_arg2 main_v13 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg3 main_v14 (broadcastInDim S1x256 ![1] bcast_S256_S1x256_1 : (⟨S256, .f32⟩ : BufTy).Contents (Elt F) → (⟨S1x256, .f32⟩ : BufTy).Contents (Elt F)),
    unary main_v14 main_v15 (broadcastInDim S50000x256 ![0, 1] bcast_S1x256_S50000x256_0_1 : (⟨S1x256, .f32⟩ : BufTy).Contents (Elt F) → (⟨S50000x256, .f32⟩ : BufTy).Contents (Elt F)),
    binary main_v13 main_v15 main_v16 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v16) (TRef.of (T := ⟨S50000x256, .f32⟩) main_call0_v0) (TRef.of (T := ⟨S50000x256, .f32⟩) main_v17) maximumf,
    unary main_arg4 main_v18 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v18 main_v19 rfl shapeCasts_S1x256x256_S256x256,
    unary main_arg5 main_v20 ((extractStridedSlice S1x256 ![0, 0] · slices_S3x256_S1x256_0_0) : (⟨S3x256, .f32⟩ : BufTy).Contents (Elt F) → (⟨S1x256, .f32⟩ : BufTy).Contents (Elt F)),
    reshape main_v20 main_v21 rfl shapeCasts_S1x256_S256,
    binary main_v17 main_v19 main_v22 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c (constantI S_ 32 0#32),
    unary main_c main_v23 (broadcastInDim S800000 ![] bcast_S_S800000 : (⟨S_, .i32⟩ : BufTy).Contents (Elt F) → (⟨S800000, .i32⟩ : BufTy).Contents (Elt F)),
    binary main_v1 main_v23 main_v24 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v25 (broadcastInDim S800000 ![] bcast_S_S800000 : (⟨S_, .i32⟩ : BufTy).Contents (Elt F) → (⟨S800000, .i32⟩ : BufTy).Contents (Elt F)),
    binary main_v1 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v10 main_v28 main_v29 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_v3 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_v3 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_v3 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v10 main_v35 main_v36 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v29 main_v36 main_v37 (mulf : (⟨S800000, .f32⟩ : BufTy).Contents (Elt F) → (⟨S800000, .f32⟩ : BufTy).Contents (Elt F) → (⟨S800000, .f32⟩ : BufTy).Contents (Elt F)),
    nullary main_c_6 (constantI S_ 32 0#32),
    unary main_c_6 main_v38 (broadcastInDim S800000 ![] bcast_S_S800000 : (⟨S_, .i32⟩ : BufTy).Contents (Elt F) → (⟨S800000, .i32⟩ : BufTy).Contents (Elt F)),
    binary main_v1 main_v38 main_v39 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v40 (broadcastInDim S800000 ![] bcast_S_S800000 : (⟨S_, .i32⟩ : BufTy).Contents (Elt F) → (⟨S800000, .i32⟩ : BufTy).Contents (Elt F)),
    binary main_v1 main_v40 main_v41 (addi : (⟨S800000, .i32⟩ : BufTy).Contents (Elt F) → (⟨S800000, .i32⟩ : BufTy).Contents (Elt F) → (⟨S800000, .i32⟩ : BufTy).Contents (Elt F)),
    ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v42 main_v43 (broadcastInDim S800000x1 ![0] bcast_S800000_S800000x1_0 : (⟨S800000, .i32⟩ : BufTy).Contents (Elt F) → (⟨S800000x1, .i32⟩ : BufTy).Contents (Elt F)),
    binary main_v22 main_v43 main_v44 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v37 main_v45 (broadcastInDim S800000x1 ![0] bcast_S800000_S800000x1_0 : (⟨S800000, .f32⟩ : BufTy).Contents (Elt F) → (⟨S800000x1, .f32⟩ : BufTy).Contents (Elt F)),
    unary main_v45 main_v46 (broadcastInDim S800000x256 ![0, 1] bcast_S800000x1_S800000x256_0_1 : (⟨S800000x1, .f32⟩ : BufTy).Contents (Elt F) → (⟨S800000x256, .f32⟩ : BufTy).Contents (Elt F)),
    binary main_v44 main_v46 main_v47 (mulf : (⟨S800000x256, .f32⟩ : BufTy).Contents (Elt F) → (⟨S800000x256, .f32⟩ : BufTy).Contents (Elt F) → (⟨S800000x256, .f32⟩ : BufTy).Contents (Elt F)),
    nullary main_cst_8 (constant S_ .f32 0x00000000#32),
    unary main_cst_8 main_v48 (broadcastInDim S50000x256 ![] bcast_S_S50000x256 : (⟨S_, .f32⟩ : BufTy).Contents (Elt F) → (⟨S50000x256, .f32⟩ : BufTy).Contents (Elt F)),
    unary main_v3 main_v49 (broadcastInDim S800000x1 ![0] bcast_S800000_S800000x1_0 : (⟨S800000, .i32⟩ : BufTy).Contents (Elt F) → (⟨S800000x1, .i32⟩ : BufTy).Contents (Elt F)),
    ternary main_v48 main_v49 main_v47 main_v50 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x256 ![0, 1] bcast_S50000x1_S50000x256_0_1 : (⟨S50000x1, .f32⟩ : BufTy).Contents (Elt F) → (⟨S50000x256, .f32⟩ : BufTy).Contents (Elt F)),
    binary main_v22 main_v52 main_v53 (mulf : (⟨S50000x256, .f32⟩ : BufTy).Contents (Elt F) → (⟨S50000x256, .f32⟩ : BufTy).Contents (Elt F) → (⟨S50000x256, .f32⟩ : BufTy).Contents (Elt F)),
    binary main_v50 main_v53 main_v54 (addf : (⟨S50000x256, .f32⟩ : BufTy).Contents (Elt F) → (⟨S50000x256, .f32⟩ : BufTy).Contents (Elt F) → (⟨S50000x256, .f32⟩ : BufTy).Contents (Elt F)),
    unary main_v21 main_v55 (broadcastInDim S1x256 ![1] bcast_S256_S1x256_1 : (⟨S256, .f32⟩ : BufTy).Contents (Elt F) → (⟨S1x256, .f32⟩ : BufTy).Contents (Elt F)),
    unary main_v55 main_v56 (broadcastInDim S50000x256 ![0, 1] bcast_S1x256_S50000x256_0_1 : (⟨S1x256, .f32⟩ : BufTy).Contents (Elt F) → (⟨S50000x256, .f32⟩ : BufTy).Contents (Elt F)),
    binary main_v54 main_v56 main_v57 (addf : (⟨S50000x256, .f32⟩ : BufTy).Contents (Elt F) → (⟨S50000x256, .f32⟩ : BufTy).Contents (Elt F) → (⟨S50000x256, .f32⟩ : BufTy).Contents (Elt F)),
    unary main_arg10 main_v58 ((extractStridedSlice S1x256 ![0, 0] · slices_S5x256_S1x256_0_0) : (⟨S5x256, .f32⟩ : BufTy).Contents (Elt F) → (⟨S1x256, .f32⟩ : BufTy).Contents (Elt F)),
    reshape main_v58 main_v59 rfl shapeCasts_S1x256_S256,
    unary main_arg11 main_v60 ((extractStridedSlice S1x256 ![0, 0] · slices_S5x256_S1x256_0_0) : (⟨S5x256, .f32⟩ : BufTy).Contents (Elt F) → (⟨S1x256, .f32⟩ : BufTy).Contents (Elt F)),
    reshape main_v60 main_v61 rfl shapeCasts_S1x256_S256,
    unary main_arg12 main_v62 ((extractStridedSlice S1x256 ![0, 0] · slices_S5x256_S1x256_0_0) : (⟨S5x256, .f32⟩ : BufTy).Contents (Elt F) → (⟨S1x256, .f32⟩ : BufTy).Contents (Elt F)),
    reshape main_v62 main_v63 rfl shapeCasts_S1x256_S256,
    unary main_arg13 main_v64 ((extractStridedSlice S1x256 ![0, 0] · slices_S5x256_S1x256_0_0) : (⟨S5x256, .f32⟩ : BufTy).Contents (Elt F) → (⟨S1x256, .f32⟩ : BufTy).Contents (Elt F)),
    reshape main_v64 main_v65 rfl shapeCasts_S1x256_S256,
    unary main_v63 main_v66 (broadcastInDim S1x256 ![1] bcast_S256_S1x256_1 : (⟨S256, .f32⟩ : BufTy).Contents (Elt F) → (⟨S1x256, .f32⟩ : BufTy).Contents (Elt F)),
    unary main_v66 main_v67 (broadcastInDim S50000x256 ![0, 1] bcast_S1x256_S50000x256_0_1 : (⟨S1x256, .f32⟩ : BufTy).Contents (Elt F) → (⟨S50000x256, .f32⟩ : BufTy).Contents (Elt F)),
    binary main_v57 main_v67 main_v68 (subf : (⟨S50000x256, .f32⟩ : BufTy).Contents (Elt F) → (⟨S50000x256, .f32⟩ : BufTy).Contents (Elt F) → (⟨S50000x256, .f32⟩ : BufTy).Contents (Elt F)),
    nullary main_cst_9 (constant S_ .f32 0x3727C5AC#32),
    unary main_cst_9 main_v69 (broadcastInDim S256 ![] bcast_S_S256 : (⟨S_, .f32⟩ : BufTy).Contents (Elt F) → (⟨S256, .f32⟩ : BufTy).Contents (Elt F)),
    binary main_v65 main_v69 main_v70 (addf : (⟨S256, .f32⟩ : BufTy).Contents (Elt F) → (⟨S256, .f32⟩ : BufTy).Contents (Elt F) → (⟨S256, .f32⟩ : BufTy).Contents (Elt F)),
    unary main_v70 main_v71 (Host.rsqrt : (⟨S256, .f32⟩ : BufTy).Contents (Elt F) → (⟨S256, .f32⟩ : BufTy).Contents (Elt F)),
    binary main_v59 main_v71 main_v72 (mulf : (⟨S256, .f32⟩ : BufTy).Contents (Elt F) → (⟨S256, .f32⟩ : BufTy).Contents (Elt F) → (⟨S256, .f32⟩ : BufTy).Contents (Elt F)),
    unary main_v72 main_v73 (broadcastInDim S1x256 ![1] bcast_S256_S1x256_1 : (⟨S256, .f32⟩ : BufTy).Contents (Elt F) → (⟨S1x256, .f32⟩ : BufTy).Contents (Elt F)),
    unary main_v73 main_v74 (broadcastInDim S50000x256 ![0, 1] bcast_S1x256_S50000x256_0_1 : (⟨S1x256, .f32⟩ : BufTy).Contents (Elt F) → (⟨S50000x256, .f32⟩ : BufTy).Contents (Elt F)),
    binary main_v68 main_v74 main_v75 (mulf : (⟨S50000x256, .f32⟩ : BufTy).Contents (Elt F) → (⟨S50000x256, .f32⟩ : BufTy).Contents (Elt F) → (⟨S50000x256, .f32⟩ : BufTy).Contents (Elt F)),
    unary main_v61 main_v76 (broadcastInDim S1x256 ![1] bcast_S256_S1x256_1 : (⟨S256, .f32⟩ : BufTy).Contents (Elt F) → (⟨S1x256, .f32⟩ : BufTy).Contents (Elt F)),
    unary main_v76 main_v77 (broadcastInDim S50000x256 ![0, 1] bcast_S1x256_S50000x256_0_1 : (⟨S1x256, .f32⟩ : BufTy).Contents (Elt F) → (⟨S50000x256, .f32⟩ : BufTy).Contents (Elt F)),
    binary main_v75 main_v77 main_v78 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v78) (TRef.of (T := ⟨S50000x256, .f32⟩) main_call1_v0) (TRef.of (T := ⟨S50000x256, .f32⟩) main_v79) maximumf,
    unary main_arg4 main_v80 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v80 main_v81 rfl shapeCasts_S1x256x256_S256x256,
    unary main_arg5 main_v82 ((extractStridedSlice S1x256 ![1, 0] · slices_S3x256_S1x256_1_0) : (⟨S3x256, .f32⟩ : BufTy).Contents (Elt F) → (⟨S1x256, .f32⟩ : BufTy).Contents (Elt F)),
    reshape main_v82 main_v83 rfl shapeCasts_S1x256_S256,
    binary main_v79 main_v81 main_v84 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_10 (constantI S_ 32 0#32),
    unary main_c_10 main_v85 (broadcastInDim S800000 ![] bcast_S_S800000 : (⟨S_, .i32⟩ : BufTy).Contents (Elt F) → (⟨S800000, .i32⟩ : BufTy).Contents (Elt F)),
    binary main_v1 main_v85 main_v86 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v87 (broadcastInDim S800000 ![] bcast_S_S800000 : (⟨S_, .i32⟩ : BufTy).Contents (Elt F) → (⟨S800000, .i32⟩ : BufTy).Contents (Elt F)),
    binary main_v1 main_v87 main_v88 (addi : (⟨S800000, .i32⟩ : BufTy).Contents (Elt F) → (⟨S800000, .i32⟩ : BufTy).Contents (Elt F) → (⟨S800000, .i32⟩ : BufTy).Contents (Elt F)),
    ternary main_v86 main_v88 main_v1 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v89 main_v90 (broadcastInDim S800000x1 ![0] bcast_S800000_S800000x1_0 : (⟨S800000, .i32⟩ : BufTy).Contents (Elt F) → (⟨S800000x1, .i32⟩ : BufTy).Contents (Elt F)),
    binary main_v10 main_v90 main_v91 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_12 (constantI S_ 32 0#32),
    unary main_c_12 main_v92 (broadcastInDim S800000 ![] bcast_S_S800000 : (⟨S_, .i32⟩ : BufTy).Contents (Elt F) → (⟨S800000, .i32⟩ : BufTy).Contents (Elt F)),
    binary main_v3 main_v92 main_v93 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v94 (broadcastInDim S800000 ![] bcast_S_S800000 : (⟨S_, .i32⟩ : BufTy).Contents (Elt F) → (⟨S800000, .i32⟩ : BufTy).Contents (Elt F)),
    binary main_v3 main_v94 main_v95 (addi : (⟨S800000, .i32⟩ : BufTy).Contents (Elt F) → (⟨S800000, .i32⟩ : BufTy).Contents (Elt F) → (⟨S800000, .i32⟩ : BufTy).Contents (Elt F)),
    ternary main_v93 main_v95 main_v3 main_v96 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v96 main_v97 (broadcastInDim S800000x1 ![0] bcast_S800000_S800000x1_0 : (⟨S800000, .i32⟩ : BufTy).Contents (Elt F) → (⟨S800000x1, .i32⟩ : BufTy).Contents (Elt F)),
    binary main_v10 main_v97 main_v98 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v91 main_v98 main_v99 (mulf : (⟨S800000, .f32⟩ : BufTy).Contents (Elt F) → (⟨S800000, .f32⟩ : BufTy).Contents (Elt F) → (⟨S800000, .f32⟩ : BufTy).Contents (Elt F)),
    nullary main_c_14 (constantI S_ 32 0#32),
    unary main_c_14 main_v100 (broadcastInDim S800000 ![] bcast_S_S800000 : (⟨S_, .i32⟩ : BufTy).Contents (Elt F) → (⟨S800000, .i32⟩ : BufTy).Contents (Elt F)),
    binary main_v1 main_v100 main_v101 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v102 (broadcastInDim S800000 ![] bcast_S_S800000 : (⟨S_, .i32⟩ : BufTy).Contents (Elt F) → (⟨S800000, .i32⟩ : BufTy).Contents (Elt F)),
    binary main_v1 main_v102 main_v103 (addi : (⟨S800000, .i32⟩ : BufTy).Contents (Elt F) → (⟨S800000, .i32⟩ : BufTy).Contents (Elt F) → (⟨S800000, .i32⟩ : BufTy).Contents (Elt F)),
    ternary main_v101 main_v103 main_v1 main_v104 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v104 main_v105 (broadcastInDim S800000x1 ![0] bcast_S800000_S800000x1_0 : (⟨S800000, .i32⟩ : BufTy).Contents (Elt F) → (⟨S800000x1, .i32⟩ : BufTy).Contents (Elt F)),
    binary main_v84 main_v105 main_v106 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v99 main_v107 (broadcastInDim S800000x1 ![0] bcast_S800000_S800000x1_0 : (⟨S800000, .f32⟩ : BufTy).Contents (Elt F) → (⟨S800000x1, .f32⟩ : BufTy).Contents (Elt F)),
    unary main_v107 main_v108 (broadcastInDim S800000x256 ![0, 1] bcast_S800000x1_S800000x256_0_1 : (⟨S800000x1, .f32⟩ : BufTy).Contents (Elt F) → (⟨S800000x256, .f32⟩ : BufTy).Contents (Elt F)),
    binary main_v106 main_v108 main_v109 (mulf : (⟨S800000x256, .f32⟩ : BufTy).Contents (Elt F) → (⟨S800000x256, .f32⟩ : BufTy).Contents (Elt F) → (⟨S800000x256, .f32⟩ : BufTy).Contents (Elt F)),
    nullary main_cst_16 (constant S_ .f32 0x00000000#32),
    unary main_cst_16 main_v110 (broadcastInDim S50000x256 ![] bcast_S_S50000x256 : (⟨S_, .f32⟩ : BufTy).Contents (Elt F) → (⟨S50000x256, .f32⟩ : BufTy).Contents (Elt F)),
    unary main_v3 main_v111 (broadcastInDim S800000x1 ![0] bcast_S800000_S800000x1_0 : (⟨S800000, .i32⟩ : BufTy).Contents (Elt F) → (⟨S800000x1, .i32⟩ : BufTy).Contents (Elt F)),
    ternary main_v110 main_v111 main_v109 main_v112 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v113 (broadcastInDim S50000x1 ![0] bcast_S50000_S50000x1_0 : (⟨S50000, .f32⟩ : BufTy).Contents (Elt F) → (⟨S50000x1, .f32⟩ : BufTy).Contents (Elt F)),
    unary main_v113 main_v114 (broadcastInDim S50000x256 ![0, 1] bcast_S50000x1_S50000x256_0_1 : (⟨S50000x1, .f32⟩ : BufTy).Contents (Elt F) → (⟨S50000x256, .f32⟩ : BufTy).Contents (Elt F)),
    binary main_v84 main_v114 main_v115 (mulf : (⟨S50000x256, .f32⟩ : BufTy).Contents (Elt F) → (⟨S50000x256, .f32⟩ : BufTy).Contents (Elt F) → (⟨S50000x256, .f32⟩ : BufTy).Contents (Elt F)),
    binary main_v112 main_v115 main_v116 (addf : (⟨S50000x256, .f32⟩ : BufTy).Contents (Elt F) → (⟨S50000x256, .f32⟩ : BufTy).Contents (Elt F) → (⟨S50000x256, .f32⟩ : BufTy).Contents (Elt F)),
    unary main_v83 main_v117 (broadcastInDim S1x256 ![1] bcast_S256_S1x256_1 : (⟨S256, .f32⟩ : BufTy).Contents (Elt F) → (⟨S1x256, .f32⟩ : BufTy).Contents (Elt F)),
    unary main_v117 main_v118 (broadcastInDim S50000x256 ![0, 1] bcast_S1x256_S50000x256_0_1 : (⟨S1x256, .f32⟩ : BufTy).Contents (Elt F) → (⟨S50000x256, .f32⟩ : BufTy).Contents (Elt F)),
    binary main_v116 main_v118 main_v119 (addf : (⟨S50000x256, .f32⟩ : BufTy).Contents (Elt F) → (⟨S50000x256, .f32⟩ : BufTy).Contents (Elt F) → (⟨S50000x256, .f32⟩ : BufTy).Contents (Elt F)),
    unary main_arg10 main_v120 ((extractStridedSlice S1x256 ![1, 0] · slices_S5x256_S1x256_1_0) : (⟨S5x256, .f32⟩ : BufTy).Contents (Elt F) → (⟨S1x256, .f32⟩ : BufTy).Contents (Elt F)),
    reshape main_v120 main_v121 rfl shapeCasts_S1x256_S256,
    unary main_arg11 main_v122 ((extractStridedSlice S1x256 ![1, 0] · slices_S5x256_S1x256_1_0) : (⟨S5x256, .f32⟩ : BufTy).Contents (Elt F) → (⟨S1x256, .f32⟩ : BufTy).Contents (Elt F)),
    reshape main_v122 main_v123 rfl shapeCasts_S1x256_S256,
    unary main_arg12 main_v124 ((extractStridedSlice S1x256 ![1, 0] · slices_S5x256_S1x256_1_0) : (⟨S5x256, .f32⟩ : BufTy).Contents (Elt F) → (⟨S1x256, .f32⟩ : BufTy).Contents (Elt F)),
    reshape main_v124 main_v125 rfl shapeCasts_S1x256_S256,
    unary main_arg13 main_v126 ((extractStridedSlice S1x256 ![1, 0] · slices_S5x256_S1x256_1_0) : (⟨S5x256, .f32⟩ : BufTy).Contents (Elt F) → (⟨S1x256, .f32⟩ : BufTy).Contents (Elt F)),
    reshape main_v126 main_v127 rfl shapeCasts_S1x256_S256,
    unary main_v125 main_v128 (broadcastInDim S1x256 ![1] bcast_S256_S1x256_1 : (⟨S256, .f32⟩ : BufTy).Contents (Elt F) → (⟨S1x256, .f32⟩ : BufTy).Contents (Elt F)),
    unary main_v128 main_v129 (broadcastInDim S50000x256 ![0, 1] bcast_S1x256_S50000x256_0_1 : (⟨S1x256, .f32⟩ : BufTy).Contents (Elt F) → (⟨S50000x256, .f32⟩ : BufTy).Contents (Elt F)),
    binary main_v119 main_v129 main_v130 (subf : (⟨S50000x256, .f32⟩ : BufTy).Contents (Elt F) → (⟨S50000x256, .f32⟩ : BufTy).Contents (Elt F) → (⟨S50000x256, .f32⟩ : BufTy).Contents (Elt F)),
    nullary main_cst_17 (constant S_ .f32 0x3727C5AC#32),
    unary main_cst_17 main_v131 (broadcastInDim S256 ![] bcast_S_S256 : (⟨S_, .f32⟩ : BufTy).Contents (Elt F) → (⟨S256, .f32⟩ : BufTy).Contents (Elt F)),
    binary main_v127 main_v131 main_v132 (addf : (⟨S256, .f32⟩ : BufTy).Contents (Elt F) → (⟨S256, .f32⟩ : BufTy).Contents (Elt F) → (⟨S256, .f32⟩ : BufTy).Contents (Elt F)),
    unary main_v132 main_v133 (Host.rsqrt : (⟨S256, .f32⟩ : BufTy).Contents (Elt F) → (⟨S256, .f32⟩ : BufTy).Contents (Elt F)),
    binary main_v121 main_v133 main_v134 (mulf : (⟨S256, .f32⟩ : BufTy).Contents (Elt F) → (⟨S256, .f32⟩ : BufTy).Contents (Elt F) → (⟨S256, .f32⟩ : BufTy).Contents (Elt F)),
    unary main_v134 main_v135 (broadcastInDim S1x256 ![1] bcast_S256_S1x256_1 : (⟨S256, .f32⟩ : BufTy).Contents (Elt F) → (⟨S1x256, .f32⟩ : BufTy).Contents (Elt F)),
    unary main_v135 main_v136 (broadcastInDim S50000x256 ![0, 1] bcast_S1x256_S50000x256_0_1 : (⟨S1x256, .f32⟩ : BufTy).Contents (Elt F) → (⟨S50000x256, .f32⟩ : BufTy).Contents (Elt F)),
    binary main_v130 main_v136 main_v137 (mulf : (⟨S50000x256, .f32⟩ : BufTy).Contents (Elt F) → (⟨S50000x256, .f32⟩ : BufTy).Contents (Elt F) → (⟨S50000x256, .f32⟩ : BufTy).Contents (Elt F)),
    unary main_v123 main_v138 (broadcastInDim S1x256 ![1] bcast_S256_S1x256_1 : (⟨S256, .f32⟩ : BufTy).Contents (Elt F) → (⟨S1x256, .f32⟩ : BufTy).Contents (Elt F)),
    unary main_v138 main_v139 (broadcastInDim S50000x256 ![0, 1] bcast_S1x256_S50000x256_0_1 : (⟨S1x256, .f32⟩ : BufTy).Contents (Elt F) → (⟨S50000x256, .f32⟩ : BufTy).Contents (Elt F)),
    binary main_v137 main_v139 main_v140 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v140) (TRef.of (T := ⟨S50000x256, .f32⟩) main_call2_v0) (TRef.of (T := ⟨S50000x256, .f32⟩) main_v141) maximumf,
    unary main_arg4 main_v142 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v142 main_v143 rfl shapeCasts_S1x256x256_S256x256,
    unary main_arg5 main_v144 ((extractStridedSlice S1x256 ![2, 0] · slices_S3x256_S1x256_2_0) : (⟨S3x256, .f32⟩ : BufTy).Contents (Elt F) → (⟨S1x256, .f32⟩ : BufTy).Contents (Elt F)),
    reshape main_v144 main_v145 rfl shapeCasts_S1x256_S256,
    binary main_v141 main_v143 main_v146 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_18 (constantI S_ 32 0#32),
    unary main_c_18 main_v147 (broadcastInDim S800000 ![] bcast_S_S800000 : (⟨S_, .i32⟩ : BufTy).Contents (Elt F) → (⟨S800000, .i32⟩ : BufTy).Contents (Elt F)),
    binary main_v1 main_v147 main_v148 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v149 (broadcastInDim S800000 ![] bcast_S_S800000 : (⟨S_, .i32⟩ : BufTy).Contents (Elt F) → (⟨S800000, .i32⟩ : BufTy).Contents (Elt F)),
    binary main_v1 main_v149 main_v150 (addi : (⟨S800000, .i32⟩ : BufTy).Contents (Elt F) → (⟨S800000, .i32⟩ : BufTy).Contents (Elt F) → (⟨S800000, .i32⟩ : BufTy).Contents (Elt F)),
    ternary main_v148 main_v150 main_v1 main_v151 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v151 main_v152 (broadcastInDim S800000x1 ![0] bcast_S800000_S800000x1_0 : (⟨S800000, .i32⟩ : BufTy).Contents (Elt F) → (⟨S800000x1, .i32⟩ : BufTy).Contents (Elt F)),
    binary main_v10 main_v152 main_v153 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_20 (constantI S_ 32 0#32),
    unary main_c_20 main_v154 (broadcastInDim S800000 ![] bcast_S_S800000 : (⟨S_, .i32⟩ : BufTy).Contents (Elt F) → (⟨S800000, .i32⟩ : BufTy).Contents (Elt F)),
    binary main_v3 main_v154 main_v155 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v156 (broadcastInDim S800000 ![] bcast_S_S800000 : (⟨S_, .i32⟩ : BufTy).Contents (Elt F) → (⟨S800000, .i32⟩ : BufTy).Contents (Elt F)),
    binary main_v3 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v3 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v10 main_v159 main_v160 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v153 main_v160 main_v161 (mulf : (⟨S800000, .f32⟩ : BufTy).Contents (Elt F) → (⟨S800000, .f32⟩ : BufTy).Contents (Elt F) → (⟨S800000, .f32⟩ : BufTy).Contents (Elt F)),
    nullary main_c_22 (constantI S_ 32 0#32),
    unary main_c_22 main_v162 (broadcastInDim S800000 ![] bcast_S_S800000 : (⟨S_, .i32⟩ : BufTy).Contents (Elt F) → (⟨S800000, .i32⟩ : BufTy).Contents (Elt F)),
    binary main_v1 main_v162 main_v163 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v164 (broadcastInDim S800000 ![] bcast_S_S800000 : (⟨S_, .i32⟩ : BufTy).Contents (Elt F) → (⟨S800000, .i32⟩ : BufTy).Contents (Elt F)),
    binary main_v1 main_v164 main_v165 (addi : (⟨S800000, .i32⟩ : BufTy).Contents (Elt F) → (⟨S800000, .i32⟩ : BufTy).Contents (Elt F) → (⟨S800000, .i32⟩ : BufTy).Contents (Elt F)),
    ternary main_v163 main_v165 main_v1 main_v166 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v166 main_v167 (broadcastInDim S800000x1 ![0] bcast_S800000_S800000x1_0 : (⟨S800000, .i32⟩ : BufTy).Contents (Elt F) → (⟨S800000x1, .i32⟩ : BufTy).Contents (Elt F)),
    binary main_v146 main_v167 main_v168 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v161 main_v169 (broadcastInDim S800000x1 ![0] bcast_S800000_S800000x1_0 : (⟨S800000, .f32⟩ : BufTy).Contents (Elt F) → (⟨S800000x1, .f32⟩ : BufTy).Contents (Elt F)),
    unary main_v169 main_v170 (broadcastInDim S800000x256 ![0, 1] bcast_S800000x1_S800000x256_0_1 : (⟨S800000x1, .f32⟩ : BufTy).Contents (Elt F) → (⟨S800000x256, .f32⟩ : BufTy).Contents (Elt F)),
    binary main_v168 main_v170 main_v171 (mulf : (⟨S800000x256, .f32⟩ : BufTy).Contents (Elt F) → (⟨S800000x256, .f32⟩ : BufTy).Contents (Elt F) → (⟨S800000x256, .f32⟩ : BufTy).Contents (Elt F)),
    nullary main_cst_24 (constant S_ .f32 0x00000000#32),
    unary main_cst_24 main_v172 (broadcastInDim S50000x256 ![] bcast_S_S50000x256 : (⟨S_, .f32⟩ : BufTy).Contents (Elt F) → (⟨S50000x256, .f32⟩ : BufTy).Contents (Elt F)),
    unary main_v3 main_v173 (broadcastInDim S800000x1 ![0] bcast_S800000_S800000x1_0 : (⟨S800000, .i32⟩ : BufTy).Contents (Elt F) → (⟨S800000x1, .i32⟩ : BufTy).Contents (Elt F)),
    ternary main_v172 main_v173 main_v171 main_v174 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v175 (broadcastInDim S50000x1 ![0] bcast_S50000_S50000x1_0 : (⟨S50000, .f32⟩ : BufTy).Contents (Elt F) → (⟨S50000x1, .f32⟩ : BufTy).Contents (Elt F)),
    unary main_v175 main_v176 (broadcastInDim S50000x256 ![0, 1] bcast_S50000x1_S50000x256_0_1 : (⟨S50000x1, .f32⟩ : BufTy).Contents (Elt F) → (⟨S50000x256, .f32⟩ : BufTy).Contents (Elt F)),
    binary main_v146 main_v176 main_v177 (mulf : (⟨S50000x256, .f32⟩ : BufTy).Contents (Elt F) → (⟨S50000x256, .f32⟩ : BufTy).Contents (Elt F) → (⟨S50000x256, .f32⟩ : BufTy).Contents (Elt F)),
    binary main_v174 main_v177 main_v178 (addf : (⟨S50000x256, .f32⟩ : BufTy).Contents (Elt F) → (⟨S50000x256, .f32⟩ : BufTy).Contents (Elt F) → (⟨S50000x256, .f32⟩ : BufTy).Contents (Elt F)),
    unary main_v145 main_v179 (broadcastInDim S1x256 ![1] bcast_S256_S1x256_1 : (⟨S256, .f32⟩ : BufTy).Contents (Elt F) → (⟨S1x256, .f32⟩ : BufTy).Contents (Elt F)),
    unary main_v179 main_v180 (broadcastInDim S50000x256 ![0, 1] bcast_S1x256_S50000x256_0_1 : (⟨S1x256, .f32⟩ : BufTy).Contents (Elt F) → (⟨S50000x256, .f32⟩ : BufTy).Contents (Elt F)),
    binary main_v178 main_v180 main_v181 (addf : (⟨S50000x256, .f32⟩ : BufTy).Contents (Elt F) → (⟨S50000x256, .f32⟩ : BufTy).Contents (Elt F) → (⟨S50000x256, .f32⟩ : BufTy).Contents (Elt F)),
    unary main_arg10 main_v182 ((extractStridedSlice S1x256 ![2, 0] · slices_S5x256_S1x256_2_0) : (⟨S5x256, .f32⟩ : BufTy).Contents (Elt F) → (⟨S1x256, .f32⟩ : BufTy).Contents (Elt F)),
    reshape main_v182 main_v183 rfl shapeCasts_S1x256_S256,
    unary main_arg11 main_v184 ((extractStridedSlice S1x256 ![2, 0] · slices_S5x256_S1x256_2_0) : (⟨S5x256, .f32⟩ : BufTy).Contents (Elt F) → (⟨S1x256, .f32⟩ : BufTy).Contents (Elt F)),
    reshape main_v184 main_v185 rfl shapeCasts_S1x256_S256,
    unary main_arg12 main_v186 ((extractStridedSlice S1x256 ![2, 0] · slices_S5x256_S1x256_2_0) : (⟨S5x256, .f32⟩ : BufTy).Contents (Elt F) → (⟨S1x256, .f32⟩ : BufTy).Contents (Elt F)),
    reshape main_v186 main_v187 rfl shapeCasts_S1x256_S256,
    unary main_arg13 main_v188 ((extractStridedSlice S1x256 ![2, 0] · slices_S5x256_S1x256_2_0) : (⟨S5x256, .f32⟩ : BufTy).Contents (Elt F) → (⟨S1x256, .f32⟩ : BufTy).Contents (Elt F)),
    reshape main_v188 main_v189 rfl shapeCasts_S1x256_S256,
    unary main_v187 main_v190 (broadcastInDim S1x256 ![1] bcast_S256_S1x256_1 : (⟨S256, .f32⟩ : BufTy).Contents (Elt F) → (⟨S1x256, .f32⟩ : BufTy).Contents (Elt F)),
    unary main_v190 main_v191 (broadcastInDim S50000x256 ![0, 1] bcast_S1x256_S50000x256_0_1 : (⟨S1x256, .f32⟩ : BufTy).Contents (Elt F) → (⟨S50000x256, .f32⟩ : BufTy).Contents (Elt F)),
    binary main_v181 main_v191 main_v192 (subf : (⟨S50000x256, .f32⟩ : BufTy).Contents (Elt F) → (⟨S50000x256, .f32⟩ : BufTy).Contents (Elt F) → (⟨S50000x256, .f32⟩ : BufTy).Contents (Elt F)),
    nullary main_cst_25 (constant S_ .f32 0x3727C5AC#32),
    unary main_cst_25 main_v193 (broadcastInDim S256 ![] bcast_S_S256 : (⟨S_, .f32⟩ : BufTy).Contents (Elt F) → (⟨S256, .f32⟩ : BufTy).Contents (Elt F)),
    binary main_v189 main_v193 main_v194 (addf : (⟨S256, .f32⟩ : BufTy).Contents (Elt F) → (⟨S256, .f32⟩ : BufTy).Contents (Elt F) → (⟨S256, .f32⟩ : BufTy).Contents (Elt F)),
    unary main_v194 main_v195 (Host.rsqrt : (⟨S256, .f32⟩ : BufTy).Contents (Elt F) → (⟨S256, .f32⟩ : BufTy).Contents (Elt F)),
    binary main_v183 main_v195 main_v196 (mulf : (⟨S256, .f32⟩ : BufTy).Contents (Elt F) → (⟨S256, .f32⟩ : BufTy).Contents (Elt F) → (⟨S256, .f32⟩ : BufTy).Contents (Elt F)),
    unary main_v196 main_v197 (broadcastInDim S1x256 ![1] bcast_S256_S1x256_1 : (⟨S256, .f32⟩ : BufTy).Contents (Elt F) → (⟨S1x256, .f32⟩ : BufTy).Contents (Elt F)),
    unary main_v197 main_v198 (broadcastInDim S50000x256 ![0, 1] bcast_S1x256_S50000x256_0_1 : (⟨S1x256, .f32⟩ : BufTy).Contents (Elt F) → (⟨S50000x256, .f32⟩ : BufTy).Contents (Elt F)),
    binary main_v192 main_v198 main_v199 (mulf : (⟨S50000x256, .f32⟩ : BufTy).Contents (Elt F) → (⟨S50000x256, .f32⟩ : BufTy).Contents (Elt F) → (⟨S50000x256, .f32⟩ : BufTy).Contents (Elt F)),
    unary main_v185 main_v200 (broadcastInDim S1x256 ![1] bcast_S256_S1x256_1 : (⟨S256, .f32⟩ : BufTy).Contents (Elt F) → (⟨S1x256, .f32⟩ : BufTy).Contents (Elt F)),
    unary main_v200 main_v201 (broadcastInDim S50000x256 ![0, 1] bcast_S1x256_S50000x256_0_1 : (⟨S1x256, .f32⟩ : BufTy).Contents (Elt F) → (⟨S50000x256, .f32⟩ : BufTy).Contents (Elt F)),
    binary main_v199 main_v201 main_v202 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v202) (TRef.of (T := ⟨S50000x256, .f32⟩) main_call3_v0) (TRef.of (T := ⟨S50000x256, .f32⟩) main_v203) maximumf,
    binary main_v203 main_arg6 main_v204 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg7 main_v205 (broadcastInDim S1x256 ![1] bcast_S256_S1x256_1 : (⟨S256, .f32⟩ : BufTy).Contents (Elt F) → (⟨S1x256, .f32⟩ : BufTy).Contents (Elt F)),
    unary main_v205 main_v206 (broadcastInDim S50000x256 ![0, 1] bcast_S1x256_S50000x256_0_1 : (⟨S1x256, .f32⟩ : BufTy).Contents (Elt F) → (⟨S50000x256, .f32⟩ : BufTy).Contents (Elt F)),
    binary main_v204 main_v206 main_v207 (addf : (⟨S50000x256, .f32⟩ : BufTy).Contents (Elt F) → (⟨S50000x256, .f32⟩ : BufTy).Contents (Elt F) → (⟨S50000x256, .f32⟩ : BufTy).Contents (Elt F)),
    unary main_arg10 main_v208 ((extractStridedSlice S1x256 ![3, 0] · slices_S5x256_S1x256_3_0) : (⟨S5x256, .f32⟩ : BufTy).Contents (Elt F) → (⟨S1x256, .f32⟩ : BufTy).Contents (Elt F)),
    reshape main_v208 main_v209 rfl shapeCasts_S1x256_S256,
    unary main_arg11 main_v210 ((extractStridedSlice S1x256 ![3, 0] · slices_S5x256_S1x256_3_0) : (⟨S5x256, .f32⟩ : BufTy).Contents (Elt F) → (⟨S1x256, .f32⟩ : BufTy).Contents (Elt F)),
    reshape main_v210 main_v211 rfl shapeCasts_S1x256_S256,
    unary main_arg12 main_v212 ((extractStridedSlice S1x256 ![3, 0] · slices_S5x256_S1x256_3_0) : (⟨S5x256, .f32⟩ : BufTy).Contents (Elt F) → (⟨S1x256, .f32⟩ : BufTy).Contents (Elt F)),
    reshape main_v212 main_v213 rfl shapeCasts_S1x256_S256,
    unary main_arg13 main_v214 ((extractStridedSlice S1x256 ![3, 0] · slices_S5x256_S1x256_3_0) : (⟨S5x256, .f32⟩ : BufTy).Contents (Elt F) → (⟨S1x256, .f32⟩ : BufTy).Contents (Elt F)),
    reshape main_v214 main_v215 rfl shapeCasts_S1x256_S256,
    unary main_v213 main_v216 (broadcastInDim S1x256 ![1] bcast_S256_S1x256_1 : (⟨S256, .f32⟩ : BufTy).Contents (Elt F) → (⟨S1x256, .f32⟩ : BufTy).Contents (Elt F)),
    unary main_v216 main_v217 (broadcastInDim S50000x256 ![0, 1] bcast_S1x256_S50000x256_0_1 : (⟨S1x256, .f32⟩ : BufTy).Contents (Elt F) → (⟨S50000x256, .f32⟩ : BufTy).Contents (Elt F)),
    binary main_v207 main_v217 main_v218 (subf : (⟨S50000x256, .f32⟩ : BufTy).Contents (Elt F) → (⟨S50000x256, .f32⟩ : BufTy).Contents (Elt F) → (⟨S50000x256, .f32⟩ : BufTy).Contents (Elt F)),
    nullary main_cst_26 (constant S_ .f32 0x3727C5AC#32),
    unary main_cst_26 main_v219 (broadcastInDim S256 ![] bcast_S_S256 : (⟨S_, .f32⟩ : BufTy).Contents (Elt F) → (⟨S256, .f32⟩ : BufTy).Contents (Elt F)),
    binary main_v215 main_v219 main_v220 (addf : (⟨S256, .f32⟩ : BufTy).Contents (Elt F) → (⟨S256, .f32⟩ : BufTy).Contents (Elt F) → (⟨S256, .f32⟩ : BufTy).Contents (Elt F)),
    unary main_v220 main_v221 (Host.rsqrt : (⟨S256, .f32⟩ : BufTy).Contents (Elt F) → (⟨S256, .f32⟩ : BufTy).Contents (Elt F)),
    binary main_v209 main_v221 main_v222 (mulf : (⟨S256, .f32⟩ : BufTy).Contents (Elt F) → (⟨S256, .f32⟩ : BufTy).Contents (Elt F) → (⟨S256, .f32⟩ : BufTy).Contents (Elt F)),
    unary main_v222 main_v223 (broadcastInDim S1x256 ![1] bcast_S256_S1x256_1 : (⟨S256, .f32⟩ : BufTy).Contents (Elt F) → (⟨S1x256, .f32⟩ : BufTy).Contents (Elt F)),
    unary main_v223 main_v224 (broadcastInDim S50000x256 ![0, 1] bcast_S1x256_S50000x256_0_1 : (⟨S1x256, .f32⟩ : BufTy).Contents (Elt F) → (⟨S50000x256, .f32⟩ : BufTy).Contents (Elt F)),
    binary main_v218 main_v224 main_v225 (mulf : (⟨S50000x256, .f32⟩ : BufTy).Contents (Elt F) → (⟨S50000x256, .f32⟩ : BufTy).Contents (Elt F) → (⟨S50000x256, .f32⟩ : BufTy).Contents (Elt F)),
    unary main_v211 main_v226 (broadcastInDim S1x256 ![1] bcast_S256_S1x256_1 : (⟨S256, .f32⟩ : BufTy).Contents (Elt F) → (⟨S1x256, .f32⟩ : BufTy).Contents (Elt F)),
    unary main_v226 main_v227 (broadcastInDim S50000x256 ![0, 1] bcast_S1x256_S50000x256_0_1 : (⟨S1x256, .f32⟩ : BufTy).Contents (Elt F) → (⟨S50000x256, .f32⟩ : BufTy).Contents (Elt F)),
    binary main_v225 main_v227 main_v228 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x256, .f32⟩) main_call4_v0) (broadcastInDim S50000x256 ![] bcast_S_S50000x256),
    TRef.binary (TRef.of (T := ⟨S50000x256, .f32⟩) main_v228) (TRef.of (T := ⟨S50000x256, .f32⟩) main_call4_v0) (TRef.of (T := ⟨S50000x256, .f32⟩) main_v229) maximumf,
    binary main_v229 main_arg8 main_v230 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg9 main_v231 (broadcastInDim S1x40 ![1] bcast_S40_S1x40_1 : (⟨S40, .f32⟩ : BufTy).Contents (Elt F) → (⟨S1x40, .f32⟩ : BufTy).Contents (Elt F)),
    unary main_v231 main_v232 (broadcastInDim S50000x40 ![0, 1] bcast_S1x40_S50000x40_0_1 : (⟨S1x40, .f32⟩ : BufTy).Contents (Elt F) → (⟨S50000x40, .f32⟩ : BufTy).Contents (Elt F)),
    binary main_v230 main_v232 main_v233 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call5_cst) (constant S_ .f32 0xFF800000#32),
    TRef.binary (TRef.of (T := ⟨S50000x40, .f32⟩) main_v233) (TRef.of (T := ⟨S_, .f32⟩) main_call5_cst) (TRef.of (T := ⟨S50000, .f32⟩) main_call5_v0) (fun x v => Host.reduce FloatOps.maximumf x v reducesTo_S50000x40_S50000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_call5_v0) (TRef.of (T := ⟨S50000, .f32⟩) main_call5_v2) maximumf,
    TRef.unary (TRef.of (T := ⟨S50000, .f32⟩) main_call5_v2) (TRef.of (T := ⟨S50000x1, .f32⟩) main_call5_v3) (broadcastInDim S50000x1 ![0] bcast_S50000_S50000x1_0),
    TRef.unary (TRef.of (T := ⟨S50000x1, .f32⟩) main_call5_v3) (TRef.of (T := ⟨S50000x40, .f32⟩) main_call5_v4) (broadcastInDim S50000x40 ![0, 1] bcast_S50000x1_S50000x40_0_1),
    TRef.binary (TRef.of (T := ⟨S50000x40, .f32⟩) main_v233) (TRef.of (T := ⟨S50000x40, .f32⟩) main_call5_v4) (TRef.of (T := ⟨S50000x40, .f32⟩) main_call5_v5) subf,
    TRef.unary (TRef.of (T := ⟨S50000x40, .f32⟩) main_call5_v5) (TRef.of (T := ⟨S50000x40, .f32⟩) main_call5_v6) Host.exp,
    TRef.nullary (TRef.of (T := ⟨S_, .f32⟩) main_call5_cst_1) (constant S_ .f32 0x00000000#32),
    TRef.binary (TRef.of (T := ⟨S50000x40, .f32⟩) main_call5_v6) (TRef.of (T := ⟨S_, .f32⟩) main_call5_cst_1) (TRef.of (T := ⟨S50000, .f32⟩) main_call5_v7) (fun x v => Host.reduceAdd x v reducesTo_S50000x40_S50000_d1 h_S_),
    TRef.unary (TRef.of (T := ⟨S50000, .f32⟩) main_call5_v7) (TRef.of (T := ⟨S50000x1, .f32⟩) main_call5_v8) (broadcastInDim S50000x1 ![0] bcast_S50000_S50000x1_0),
    TRef.unary (TRef.of (T := ⟨S50000x1, .f32⟩) main_call5_v8) (TRef.of (T := ⟨S50000x1, .f32⟩) main_call5_v9) Host.log,
    TRef.unary (TRef.of (T := ⟨S50000x1, .f32⟩) main_call5_v9) (TRef.of (T := ⟨S50000x40, .f32⟩) main_call5_v10) (broadcastInDim S50000x40 ![0, 1] bcast_S50000x1_S50000x40_0_1),
    TRef.binary (TRef.of (T := ⟨S50000x40, .f32⟩) main_call5_v5) (TRef.of (T := ⟨S50000x40, .f32⟩) main_call5_v10) (TRef.of (T := ⟨S50000x40, .f32⟩) main_v234) subf ]

set_option maxRecDepth 8192 in
set_option maxHeartbeats 4000000 in
/-- @main is the line. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 65536 in
set_option maxHeartbeats 40000000 in
/-- Every weakly fair execution terminates with every buffer at the line's fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- A line run in two parts. -/
theorem after_append {Val : EltTy → Type} (a b : List (HloOp τ sig Val)) (V : Valuation τ sig Val) :
    after (a ++ b) V = after b (after a V) := by
  induction a generalizing V with
  | nil => rfl
  | cons op a ih => exact ih _

/-! ## The stretches -/

/-- Stretch 0: 17 operations, ending at `main_v12`. -/
abbrev seg0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    nullary main_cst_2 (constant S_ .f32 0x3F800000#32),
    unary main_cst_2 main_v11 (broadcastInDim S50000 ![] bcast_S_S50000 : (⟨S_, .f32⟩ : BufTy).Contents (Elt F) → (⟨S50000, .f32⟩ : BufTy).Contents (Elt F)),
    binary main_v11 main_v9 main_v12 (Host.divf : (⟨S50000, .f32⟩ : BufTy).Contents (Elt F) → (⟨S50000, .f32⟩ : BufTy).Contents (Elt F) → (⟨S50000, .f32⟩ : BufTy).Contents (Elt F)) ]

/-- Stretch 1: 7 operations, ending at `main_v17`. -/
abbrev seg1 : List (HloOp τ sig (Elt F)) :=
  [ binary main_arg0 main_arg2 main_v13 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg3 main_v14 (broadcastInDim S1x256 ![1] bcast_S256_S1x256_1 : (⟨S256, .f32⟩ : BufTy).Contents (Elt F) → (⟨S1x256, .f32⟩ : BufTy).Contents (Elt F)),
    unary main_v14 main_v15 (broadcastInDim S50000x256 ![0, 1] bcast_S1x256_S50000x256_0_1 : (⟨S1x256, .f32⟩ : BufTy).Contents (Elt F) → (⟨S50000x256, .f32⟩ : BufTy).Contents (Elt F)),
    binary main_v13 main_v15 main_v16 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v16) (TRef.of (T := ⟨S50000x256, .f32⟩) main_call0_v0) (TRef.of (T := ⟨S50000x256, .f32⟩) main_v17) maximumf ]

/-- Stretch 2: 5 operations, ending at `main_v22`. -/
abbrev seg2 : List (HloOp τ sig (Elt F)) :=
  [ unary main_arg4 main_v18 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v18 main_v19 rfl shapeCasts_S1x256x256_S256x256,
    unary main_arg5 main_v20 ((extractStridedSlice S1x256 ![0, 0] · slices_S3x256_S1x256_0_0) : (⟨S3x256, .f32⟩ : BufTy).Contents (Elt F) → (⟨S1x256, .f32⟩ : BufTy).Contents (Elt F)),
    reshape main_v20 main_v21 rfl shapeCasts_S1x256_S256,
    binary main_v17 main_v19 main_v22 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Stretch 3: 35 operations, ending at `main_v50`. -/
abbrev seg3 : List (HloOp τ sig (Elt F)) :=
  [ nullary main_c (constantI S_ 32 0#32),
    unary main_c main_v23 (broadcastInDim S800000 ![] bcast_S_S800000 : (⟨S_, .i32⟩ : BufTy).Contents (Elt F) → (⟨S800000, .i32⟩ : BufTy).Contents (Elt F)),
    binary main_v1 main_v23 main_v24 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v25 (broadcastInDim S800000 ![] bcast_S_S800000 : (⟨S_, .i32⟩ : BufTy).Contents (Elt F) → (⟨S800000, .i32⟩ : BufTy).Contents (Elt F)),
    binary main_v1 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v10 main_v28 main_v29 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_v3 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_v3 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_v3 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v10 main_v35 main_v36 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v29 main_v36 main_v37 (mulf : (⟨S800000, .f32⟩ : BufTy).Contents (Elt F) → (⟨S800000, .f32⟩ : BufTy).Contents (Elt F) → (⟨S800000, .f32⟩ : BufTy).Contents (Elt F)),
    nullary main_c_6 (constantI S_ 32 0#32),
    unary main_c_6 main_v38 (broadcastInDim S800000 ![] bcast_S_S800000 : (⟨S_, .i32⟩ : BufTy).Contents (Elt F) → (⟨S800000, .i32⟩ : BufTy).Contents (Elt F)),
    binary main_v1 main_v38 main_v39 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v40 (broadcastInDim S800000 ![] bcast_S_S800000 : (⟨S_, .i32⟩ : BufTy).Contents (Elt F) → (⟨S800000, .i32⟩ : BufTy).Contents (Elt F)),
    binary main_v1 main_v40 main_v41 (addi : (⟨S800000, .i32⟩ : BufTy).Contents (Elt F) → (⟨S800000, .i32⟩ : BufTy).Contents (Elt F) → (⟨S800000, .i32⟩ : BufTy).Contents (Elt F)),
    ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v42 main_v43 (broadcastInDim S800000x1 ![0] bcast_S800000_S800000x1_0 : (⟨S800000, .i32⟩ : BufTy).Contents (Elt F) → (⟨S800000x1, .i32⟩ : BufTy).Contents (Elt F)),
    binary main_v22 main_v43 main_v44 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v37 main_v45 (broadcastInDim S800000x1 ![0] bcast_S800000_S800000x1_0 : (⟨S800000, .f32⟩ : BufTy).Contents (Elt F) → (⟨S800000x1, .f32⟩ : BufTy).Contents (Elt F)),
    unary main_v45 main_v46 (broadcastInDim S800000x256 ![0, 1] bcast_S800000x1_S800000x256_0_1 : (⟨S800000x1, .f32⟩ : BufTy).Contents (Elt F) → (⟨S800000x256, .f32⟩ : BufTy).Contents (Elt F)),
    binary main_v44 main_v46 main_v47 (mulf : (⟨S800000x256, .f32⟩ : BufTy).Contents (Elt F) → (⟨S800000x256, .f32⟩ : BufTy).Contents (Elt F) → (⟨S800000x256, .f32⟩ : BufTy).Contents (Elt F)),
    nullary main_cst_8 (constant S_ .f32 0x00000000#32),
    unary main_cst_8 main_v48 (broadcastInDim S50000x256 ![] bcast_S_S50000x256 : (⟨S_, .f32⟩ : BufTy).Contents (Elt F) → (⟨S50000x256, .f32⟩ : BufTy).Contents (Elt F)),
    unary main_v3 main_v49 (broadcastInDim S800000x1 ![0] bcast_S800000_S800000x1_0 : (⟨S800000, .i32⟩ : BufTy).Contents (Elt F) → (⟨S800000x1, .i32⟩ : BufTy).Contents (Elt F)),
    ternary main_v48 main_v49 main_v47 main_v50 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- Stretch 4: 32 operations, ending at `main_v79`. -/
abbrev seg4 : List (HloOp τ sig (Elt F)) :=
  [ unary main_v12 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x256 ![0, 1] bcast_S50000x1_S50000x256_0_1 : (⟨S50000x1, .f32⟩ : BufTy).Contents (Elt F) → (⟨S50000x256, .f32⟩ : BufTy).Contents (Elt F)),
    binary main_v22 main_v52 main_v53 (mulf : (⟨S50000x256, .f32⟩ : BufTy).Contents (Elt F) → (⟨S50000x256, .f32⟩ : BufTy).Contents (Elt F) → (⟨S50000x256, .f32⟩ : BufTy).Contents (Elt F)),
    binary main_v50 main_v53 main_v54 (addf : (⟨S50000x256, .f32⟩ : BufTy).Contents (Elt F) → (⟨S50000x256, .f32⟩ : BufTy).Contents (Elt F) → (⟨S50000x256, .f32⟩ : BufTy).Contents (Elt F)),
    unary main_v21 main_v55 (broadcastInDim S1x256 ![1] bcast_S256_S1x256_1 : (⟨S256, .f32⟩ : BufTy).Contents (Elt F) → (⟨S1x256, .f32⟩ : BufTy).Contents (Elt F)),
    unary main_v55 main_v56 (broadcastInDim S50000x256 ![0, 1] bcast_S1x256_S50000x256_0_1 : (⟨S1x256, .f32⟩ : BufTy).Contents (Elt F) → (⟨S50000x256, .f32⟩ : BufTy).Contents (Elt F)),
    binary main_v54 main_v56 main_v57 (addf : (⟨S50000x256, .f32⟩ : BufTy).Contents (Elt F) → (⟨S50000x256, .f32⟩ : BufTy).Contents (Elt F) → (⟨S50000x256, .f32⟩ : BufTy).Contents (Elt F)),
    unary main_arg10 main_v58 ((extractStridedSlice S1x256 ![0, 0] · slices_S5x256_S1x256_0_0) : (⟨S5x256, .f32⟩ : BufTy).Contents (Elt F) → (⟨S1x256, .f32⟩ : BufTy).Contents (Elt F)),
    reshape main_v58 main_v59 rfl shapeCasts_S1x256_S256,
    unary main_arg11 main_v60 ((extractStridedSlice S1x256 ![0, 0] · slices_S5x256_S1x256_0_0) : (⟨S5x256, .f32⟩ : BufTy).Contents (Elt F) → (⟨S1x256, .f32⟩ : BufTy).Contents (Elt F)),
    reshape main_v60 main_v61 rfl shapeCasts_S1x256_S256,
    unary main_arg12 main_v62 ((extractStridedSlice S1x256 ![0, 0] · slices_S5x256_S1x256_0_0) : (⟨S5x256, .f32⟩ : BufTy).Contents (Elt F) → (⟨S1x256, .f32⟩ : BufTy).Contents (Elt F)),
    reshape main_v62 main_v63 rfl shapeCasts_S1x256_S256,
    unary main_arg13 main_v64 ((extractStridedSlice S1x256 ![0, 0] · slices_S5x256_S1x256_0_0) : (⟨S5x256, .f32⟩ : BufTy).Contents (Elt F) → (⟨S1x256, .f32⟩ : BufTy).Contents (Elt F)),
    reshape main_v64 main_v65 rfl shapeCasts_S1x256_S256,
    unary main_v63 main_v66 (broadcastInDim S1x256 ![1] bcast_S256_S1x256_1 : (⟨S256, .f32⟩ : BufTy).Contents (Elt F) → (⟨S1x256, .f32⟩ : BufTy).Contents (Elt F)),
    unary main_v66 main_v67 (broadcastInDim S50000x256 ![0, 1] bcast_S1x256_S50000x256_0_1 : (⟨S1x256, .f32⟩ : BufTy).Contents (Elt F) → (⟨S50000x256, .f32⟩ : BufTy).Contents (Elt F)),
    binary main_v57 main_v67 main_v68 (subf : (⟨S50000x256, .f32⟩ : BufTy).Contents (Elt F) → (⟨S50000x256, .f32⟩ : BufTy).Contents (Elt F) → (⟨S50000x256, .f32⟩ : BufTy).Contents (Elt F)),
    nullary main_cst_9 (constant S_ .f32 0x3727C5AC#32),
    unary main_cst_9 main_v69 (broadcastInDim S256 ![] bcast_S_S256 : (⟨S_, .f32⟩ : BufTy).Contents (Elt F) → (⟨S256, .f32⟩ : BufTy).Contents (Elt F)),
    binary main_v65 main_v69 main_v70 (addf : (⟨S256, .f32⟩ : BufTy).Contents (Elt F) → (⟨S256, .f32⟩ : BufTy).Contents (Elt F) → (⟨S256, .f32⟩ : BufTy).Contents (Elt F)),
    unary main_v70 main_v71 (Host.rsqrt : (⟨S256, .f32⟩ : BufTy).Contents (Elt F) → (⟨S256, .f32⟩ : BufTy).Contents (Elt F)),
    binary main_v59 main_v71 main_v72 (mulf : (⟨S256, .f32⟩ : BufTy).Contents (Elt F) → (⟨S256, .f32⟩ : BufTy).Contents (Elt F) → (⟨S256, .f32⟩ : BufTy).Contents (Elt F)),
    unary main_v72 main_v73 (broadcastInDim S1x256 ![1] bcast_S256_S1x256_1 : (⟨S256, .f32⟩ : BufTy).Contents (Elt F) → (⟨S1x256, .f32⟩ : BufTy).Contents (Elt F)),
    unary main_v73 main_v74 (broadcastInDim S50000x256 ![0, 1] bcast_S1x256_S50000x256_0_1 : (⟨S1x256, .f32⟩ : BufTy).Contents (Elt F) → (⟨S50000x256, .f32⟩ : BufTy).Contents (Elt F)),
    binary main_v68 main_v74 main_v75 (mulf : (⟨S50000x256, .f32⟩ : BufTy).Contents (Elt F) → (⟨S50000x256, .f32⟩ : BufTy).Contents (Elt F) → (⟨S50000x256, .f32⟩ : BufTy).Contents (Elt F)),
    unary main_v61 main_v76 (broadcastInDim S1x256 ![1] bcast_S256_S1x256_1 : (⟨S256, .f32⟩ : BufTy).Contents (Elt F) → (⟨S1x256, .f32⟩ : BufTy).Contents (Elt F)),
    unary main_v76 main_v77 (broadcastInDim S50000x256 ![0, 1] bcast_S1x256_S50000x256_0_1 : (⟨S1x256, .f32⟩ : BufTy).Contents (Elt F) → (⟨S50000x256, .f32⟩ : BufTy).Contents (Elt F)),
    binary main_v75 main_v77 main_v78 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v78) (TRef.of (T := ⟨S50000x256, .f32⟩) main_call1_v0) (TRef.of (T := ⟨S50000x256, .f32⟩) main_v79) maximumf ]

/-- Stretch 5: 5 operations, ending at `main_v84`. -/
abbrev seg5 : List (HloOp τ sig (Elt F)) :=
  [ unary main_arg4 main_v80 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v80 main_v81 rfl shapeCasts_S1x256x256_S256x256,
    unary main_arg5 main_v82 ((extractStridedSlice S1x256 ![1, 0] · slices_S3x256_S1x256_1_0) : (⟨S3x256, .f32⟩ : BufTy).Contents (Elt F) → (⟨S1x256, .f32⟩ : BufTy).Contents (Elt F)),
    reshape main_v82 main_v83 rfl shapeCasts_S1x256_S256,
    binary main_v79 main_v81 main_v84 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Stretch 6: 35 operations, ending at `main_v112`. -/
abbrev seg6 : List (HloOp τ sig (Elt F)) :=
  [ nullary main_c_10 (constantI S_ 32 0#32),
    unary main_c_10 main_v85 (broadcastInDim S800000 ![] bcast_S_S800000 : (⟨S_, .i32⟩ : BufTy).Contents (Elt F) → (⟨S800000, .i32⟩ : BufTy).Contents (Elt F)),
    binary main_v1 main_v85 main_v86 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v87 (broadcastInDim S800000 ![] bcast_S_S800000 : (⟨S_, .i32⟩ : BufTy).Contents (Elt F) → (⟨S800000, .i32⟩ : BufTy).Contents (Elt F)),
    binary main_v1 main_v87 main_v88 (addi : (⟨S800000, .i32⟩ : BufTy).Contents (Elt F) → (⟨S800000, .i32⟩ : BufTy).Contents (Elt F) → (⟨S800000, .i32⟩ : BufTy).Contents (Elt F)),
    ternary main_v86 main_v88 main_v1 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v89 main_v90 (broadcastInDim S800000x1 ![0] bcast_S800000_S800000x1_0 : (⟨S800000, .i32⟩ : BufTy).Contents (Elt F) → (⟨S800000x1, .i32⟩ : BufTy).Contents (Elt F)),
    binary main_v10 main_v90 main_v91 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_12 (constantI S_ 32 0#32),
    unary main_c_12 main_v92 (broadcastInDim S800000 ![] bcast_S_S800000 : (⟨S_, .i32⟩ : BufTy).Contents (Elt F) → (⟨S800000, .i32⟩ : BufTy).Contents (Elt F)),
    binary main_v3 main_v92 main_v93 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v94 (broadcastInDim S800000 ![] bcast_S_S800000 : (⟨S_, .i32⟩ : BufTy).Contents (Elt F) → (⟨S800000, .i32⟩ : BufTy).Contents (Elt F)),
    binary main_v3 main_v94 main_v95 (addi : (⟨S800000, .i32⟩ : BufTy).Contents (Elt F) → (⟨S800000, .i32⟩ : BufTy).Contents (Elt F) → (⟨S800000, .i32⟩ : BufTy).Contents (Elt F)),
    ternary main_v93 main_v95 main_v3 main_v96 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v96 main_v97 (broadcastInDim S800000x1 ![0] bcast_S800000_S800000x1_0 : (⟨S800000, .i32⟩ : BufTy).Contents (Elt F) → (⟨S800000x1, .i32⟩ : BufTy).Contents (Elt F)),
    binary main_v10 main_v97 main_v98 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v91 main_v98 main_v99 (mulf : (⟨S800000, .f32⟩ : BufTy).Contents (Elt F) → (⟨S800000, .f32⟩ : BufTy).Contents (Elt F) → (⟨S800000, .f32⟩ : BufTy).Contents (Elt F)),
    nullary main_c_14 (constantI S_ 32 0#32),
    unary main_c_14 main_v100 (broadcastInDim S800000 ![] bcast_S_S800000 : (⟨S_, .i32⟩ : BufTy).Contents (Elt F) → (⟨S800000, .i32⟩ : BufTy).Contents (Elt F)),
    binary main_v1 main_v100 main_v101 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v102 (broadcastInDim S800000 ![] bcast_S_S800000 : (⟨S_, .i32⟩ : BufTy).Contents (Elt F) → (⟨S800000, .i32⟩ : BufTy).Contents (Elt F)),
    binary main_v1 main_v102 main_v103 (addi : (⟨S800000, .i32⟩ : BufTy).Contents (Elt F) → (⟨S800000, .i32⟩ : BufTy).Contents (Elt F) → (⟨S800000, .i32⟩ : BufTy).Contents (Elt F)),
    ternary main_v101 main_v103 main_v1 main_v104 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v104 main_v105 (broadcastInDim S800000x1 ![0] bcast_S800000_S800000x1_0 : (⟨S800000, .i32⟩ : BufTy).Contents (Elt F) → (⟨S800000x1, .i32⟩ : BufTy).Contents (Elt F)),
    binary main_v84 main_v105 main_v106 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v99 main_v107 (broadcastInDim S800000x1 ![0] bcast_S800000_S800000x1_0 : (⟨S800000, .f32⟩ : BufTy).Contents (Elt F) → (⟨S800000x1, .f32⟩ : BufTy).Contents (Elt F)),
    unary main_v107 main_v108 (broadcastInDim S800000x256 ![0, 1] bcast_S800000x1_S800000x256_0_1 : (⟨S800000x1, .f32⟩ : BufTy).Contents (Elt F) → (⟨S800000x256, .f32⟩ : BufTy).Contents (Elt F)),
    binary main_v106 main_v108 main_v109 (mulf : (⟨S800000x256, .f32⟩ : BufTy).Contents (Elt F) → (⟨S800000x256, .f32⟩ : BufTy).Contents (Elt F) → (⟨S800000x256, .f32⟩ : BufTy).Contents (Elt F)),
    nullary main_cst_16 (constant S_ .f32 0x00000000#32),
    unary main_cst_16 main_v110 (broadcastInDim S50000x256 ![] bcast_S_S50000x256 : (⟨S_, .f32⟩ : BufTy).Contents (Elt F) → (⟨S50000x256, .f32⟩ : BufTy).Contents (Elt F)),
    unary main_v3 main_v111 (broadcastInDim S800000x1 ![0] bcast_S800000_S800000x1_0 : (⟨S800000, .i32⟩ : BufTy).Contents (Elt F) → (⟨S800000x1, .i32⟩ : BufTy).Contents (Elt F)),
    ternary main_v110 main_v111 main_v109 main_v112 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- Stretch 7: 32 operations, ending at `main_v141`. -/
abbrev seg7 : List (HloOp τ sig (Elt F)) :=
  [ unary main_v12 main_v113 (broadcastInDim S50000x1 ![0] bcast_S50000_S50000x1_0 : (⟨S50000, .f32⟩ : BufTy).Contents (Elt F) → (⟨S50000x1, .f32⟩ : BufTy).Contents (Elt F)),
    unary main_v113 main_v114 (broadcastInDim S50000x256 ![0, 1] bcast_S50000x1_S50000x256_0_1 : (⟨S50000x1, .f32⟩ : BufTy).Contents (Elt F) → (⟨S50000x256, .f32⟩ : BufTy).Contents (Elt F)),
    binary main_v84 main_v114 main_v115 (mulf : (⟨S50000x256, .f32⟩ : BufTy).Contents (Elt F) → (⟨S50000x256, .f32⟩ : BufTy).Contents (Elt F) → (⟨S50000x256, .f32⟩ : BufTy).Contents (Elt F)),
    binary main_v112 main_v115 main_v116 (addf : (⟨S50000x256, .f32⟩ : BufTy).Contents (Elt F) → (⟨S50000x256, .f32⟩ : BufTy).Contents (Elt F) → (⟨S50000x256, .f32⟩ : BufTy).Contents (Elt F)),
    unary main_v83 main_v117 (broadcastInDim S1x256 ![1] bcast_S256_S1x256_1 : (⟨S256, .f32⟩ : BufTy).Contents (Elt F) → (⟨S1x256, .f32⟩ : BufTy).Contents (Elt F)),
    unary main_v117 main_v118 (broadcastInDim S50000x256 ![0, 1] bcast_S1x256_S50000x256_0_1 : (⟨S1x256, .f32⟩ : BufTy).Contents (Elt F) → (⟨S50000x256, .f32⟩ : BufTy).Contents (Elt F)),
    binary main_v116 main_v118 main_v119 (addf : (⟨S50000x256, .f32⟩ : BufTy).Contents (Elt F) → (⟨S50000x256, .f32⟩ : BufTy).Contents (Elt F) → (⟨S50000x256, .f32⟩ : BufTy).Contents (Elt F)),
    unary main_arg10 main_v120 ((extractStridedSlice S1x256 ![1, 0] · slices_S5x256_S1x256_1_0) : (⟨S5x256, .f32⟩ : BufTy).Contents (Elt F) → (⟨S1x256, .f32⟩ : BufTy).Contents (Elt F)),
    reshape main_v120 main_v121 rfl shapeCasts_S1x256_S256,
    unary main_arg11 main_v122 ((extractStridedSlice S1x256 ![1, 0] · slices_S5x256_S1x256_1_0) : (⟨S5x256, .f32⟩ : BufTy).Contents (Elt F) → (⟨S1x256, .f32⟩ : BufTy).Contents (Elt F)),
    reshape main_v122 main_v123 rfl shapeCasts_S1x256_S256,
    unary main_arg12 main_v124 ((extractStridedSlice S1x256 ![1, 0] · slices_S5x256_S1x256_1_0) : (⟨S5x256, .f32⟩ : BufTy).Contents (Elt F) → (⟨S1x256, .f32⟩ : BufTy).Contents (Elt F)),
    reshape main_v124 main_v125 rfl shapeCasts_S1x256_S256,
    unary main_arg13 main_v126 ((extractStridedSlice S1x256 ![1, 0] · slices_S5x256_S1x256_1_0) : (⟨S5x256, .f32⟩ : BufTy).Contents (Elt F) → (⟨S1x256, .f32⟩ : BufTy).Contents (Elt F)),
    reshape main_v126 main_v127 rfl shapeCasts_S1x256_S256,
    unary main_v125 main_v128 (broadcastInDim S1x256 ![1] bcast_S256_S1x256_1 : (⟨S256, .f32⟩ : BufTy).Contents (Elt F) → (⟨S1x256, .f32⟩ : BufTy).Contents (Elt F)),
    unary main_v128 main_v129 (broadcastInDim S50000x256 ![0, 1] bcast_S1x256_S50000x256_0_1 : (⟨S1x256, .f32⟩ : BufTy).Contents (Elt F) → (⟨S50000x256, .f32⟩ : BufTy).Contents (Elt F)),
    binary main_v119 main_v129 main_v130 (subf : (⟨S50000x256, .f32⟩ : BufTy).Contents (Elt F) → (⟨S50000x256, .f32⟩ : BufTy).Contents (Elt F) → (⟨S50000x256, .f32⟩ : BufTy).Contents (Elt F)),
    nullary main_cst_17 (constant S_ .f32 0x3727C5AC#32),
    unary main_cst_17 main_v131 (broadcastInDim S256 ![] bcast_S_S256 : (⟨S_, .f32⟩ : BufTy).Contents (Elt F) → (⟨S256, .f32⟩ : BufTy).Contents (Elt F)),
    binary main_v127 main_v131 main_v132 (addf : (⟨S256, .f32⟩ : BufTy).Contents (Elt F) → (⟨S256, .f32⟩ : BufTy).Contents (Elt F) → (⟨S256, .f32⟩ : BufTy).Contents (Elt F)),
    unary main_v132 main_v133 (Host.rsqrt : (⟨S256, .f32⟩ : BufTy).Contents (Elt F) → (⟨S256, .f32⟩ : BufTy).Contents (Elt F)),
    binary main_v121 main_v133 main_v134 (mulf : (⟨S256, .f32⟩ : BufTy).Contents (Elt F) → (⟨S256, .f32⟩ : BufTy).Contents (Elt F) → (⟨S256, .f32⟩ : BufTy).Contents (Elt F)),
    unary main_v134 main_v135 (broadcastInDim S1x256 ![1] bcast_S256_S1x256_1 : (⟨S256, .f32⟩ : BufTy).Contents (Elt F) → (⟨S1x256, .f32⟩ : BufTy).Contents (Elt F)),
    unary main_v135 main_v136 (broadcastInDim S50000x256 ![0, 1] bcast_S1x256_S50000x256_0_1 : (⟨S1x256, .f32⟩ : BufTy).Contents (Elt F) → (⟨S50000x256, .f32⟩ : BufTy).Contents (Elt F)),
    binary main_v130 main_v136 main_v137 (mulf : (⟨S50000x256, .f32⟩ : BufTy).Contents (Elt F) → (⟨S50000x256, .f32⟩ : BufTy).Contents (Elt F) → (⟨S50000x256, .f32⟩ : BufTy).Contents (Elt F)),
    unary main_v123 main_v138 (broadcastInDim S1x256 ![1] bcast_S256_S1x256_1 : (⟨S256, .f32⟩ : BufTy).Contents (Elt F) → (⟨S1x256, .f32⟩ : BufTy).Contents (Elt F)),
    unary main_v138 main_v139 (broadcastInDim S50000x256 ![0, 1] bcast_S1x256_S50000x256_0_1 : (⟨S1x256, .f32⟩ : BufTy).Contents (Elt F) → (⟨S50000x256, .f32⟩ : BufTy).Contents (Elt F)),
    binary main_v137 main_v139 main_v140 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v140) (TRef.of (T := ⟨S50000x256, .f32⟩) main_call2_v0) (TRef.of (T := ⟨S50000x256, .f32⟩) main_v141) maximumf ]

/-- Stretch 8: 5 operations, ending at `main_v146`. -/
abbrev seg8 : List (HloOp τ sig (Elt F)) :=
  [ unary main_arg4 main_v142 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v142 main_v143 rfl shapeCasts_S1x256x256_S256x256,
    unary main_arg5 main_v144 ((extractStridedSlice S1x256 ![2, 0] · slices_S3x256_S1x256_2_0) : (⟨S3x256, .f32⟩ : BufTy).Contents (Elt F) → (⟨S1x256, .f32⟩ : BufTy).Contents (Elt F)),
    reshape main_v144 main_v145 rfl shapeCasts_S1x256_S256,
    binary main_v141 main_v143 main_v146 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Stretch 9: 35 operations, ending at `main_v174`. -/
abbrev seg9 : List (HloOp τ sig (Elt F)) :=
  [ nullary main_c_18 (constantI S_ 32 0#32),
    unary main_c_18 main_v147 (broadcastInDim S800000 ![] bcast_S_S800000 : (⟨S_, .i32⟩ : BufTy).Contents (Elt F) → (⟨S800000, .i32⟩ : BufTy).Contents (Elt F)),
    binary main_v1 main_v147 main_v148 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v149 (broadcastInDim S800000 ![] bcast_S_S800000 : (⟨S_, .i32⟩ : BufTy).Contents (Elt F) → (⟨S800000, .i32⟩ : BufTy).Contents (Elt F)),
    binary main_v1 main_v149 main_v150 (addi : (⟨S800000, .i32⟩ : BufTy).Contents (Elt F) → (⟨S800000, .i32⟩ : BufTy).Contents (Elt F) → (⟨S800000, .i32⟩ : BufTy).Contents (Elt F)),
    ternary main_v148 main_v150 main_v1 main_v151 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v151 main_v152 (broadcastInDim S800000x1 ![0] bcast_S800000_S800000x1_0 : (⟨S800000, .i32⟩ : BufTy).Contents (Elt F) → (⟨S800000x1, .i32⟩ : BufTy).Contents (Elt F)),
    binary main_v10 main_v152 main_v153 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_20 (constantI S_ 32 0#32),
    unary main_c_20 main_v154 (broadcastInDim S800000 ![] bcast_S_S800000 : (⟨S_, .i32⟩ : BufTy).Contents (Elt F) → (⟨S800000, .i32⟩ : BufTy).Contents (Elt F)),
    binary main_v3 main_v154 main_v155 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v156 (broadcastInDim S800000 ![] bcast_S_S800000 : (⟨S_, .i32⟩ : BufTy).Contents (Elt F) → (⟨S800000, .i32⟩ : BufTy).Contents (Elt F)),
    binary main_v3 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v3 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v10 main_v159 main_v160 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v153 main_v160 main_v161 (mulf : (⟨S800000, .f32⟩ : BufTy).Contents (Elt F) → (⟨S800000, .f32⟩ : BufTy).Contents (Elt F) → (⟨S800000, .f32⟩ : BufTy).Contents (Elt F)),
    nullary main_c_22 (constantI S_ 32 0#32),
    unary main_c_22 main_v162 (broadcastInDim S800000 ![] bcast_S_S800000 : (⟨S_, .i32⟩ : BufTy).Contents (Elt F) → (⟨S800000, .i32⟩ : BufTy).Contents (Elt F)),
    binary main_v1 main_v162 main_v163 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v164 (broadcastInDim S800000 ![] bcast_S_S800000 : (⟨S_, .i32⟩ : BufTy).Contents (Elt F) → (⟨S800000, .i32⟩ : BufTy).Contents (Elt F)),
    binary main_v1 main_v164 main_v165 (addi : (⟨S800000, .i32⟩ : BufTy).Contents (Elt F) → (⟨S800000, .i32⟩ : BufTy).Contents (Elt F) → (⟨S800000, .i32⟩ : BufTy).Contents (Elt F)),
    ternary main_v163 main_v165 main_v1 main_v166 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v166 main_v167 (broadcastInDim S800000x1 ![0] bcast_S800000_S800000x1_0 : (⟨S800000, .i32⟩ : BufTy).Contents (Elt F) → (⟨S800000x1, .i32⟩ : BufTy).Contents (Elt F)),
    binary main_v146 main_v167 main_v168 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v161 main_v169 (broadcastInDim S800000x1 ![0] bcast_S800000_S800000x1_0 : (⟨S800000, .f32⟩ : BufTy).Contents (Elt F) → (⟨S800000x1, .f32⟩ : BufTy).Contents (Elt F)),
    unary main_v169 main_v170 (broadcastInDim S800000x256 ![0, 1] bcast_S800000x1_S800000x256_0_1 : (⟨S800000x1, .f32⟩ : BufTy).Contents (Elt F) → (⟨S800000x256, .f32⟩ : BufTy).Contents (Elt F)),
    binary main_v168 main_v170 main_v171 (mulf : (⟨S800000x256, .f32⟩ : BufTy).Contents (Elt F) → (⟨S800000x256, .f32⟩ : BufTy).Contents (Elt F) → (⟨S800000x256, .f32⟩ : BufTy).Contents (Elt F)),
    nullary main_cst_24 (constant S_ .f32 0x00000000#32),
    unary main_cst_24 main_v172 (broadcastInDim S50000x256 ![] bcast_S_S50000x256 : (⟨S_, .f32⟩ : BufTy).Contents (Elt F) → (⟨S50000x256, .f32⟩ : BufTy).Contents (Elt F)),
    unary main_v3 main_v173 (broadcastInDim S800000x1 ![0] bcast_S800000_S800000x1_0 : (⟨S800000, .i32⟩ : BufTy).Contents (Elt F) → (⟨S800000x1, .i32⟩ : BufTy).Contents (Elt F)),
    ternary main_v172 main_v173 main_v171 main_v174 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- Stretch 10: 32 operations, ending at `main_v203`. -/
abbrev seg10 : List (HloOp τ sig (Elt F)) :=
  [ unary main_v12 main_v175 (broadcastInDim S50000x1 ![0] bcast_S50000_S50000x1_0 : (⟨S50000, .f32⟩ : BufTy).Contents (Elt F) → (⟨S50000x1, .f32⟩ : BufTy).Contents (Elt F)),
    unary main_v175 main_v176 (broadcastInDim S50000x256 ![0, 1] bcast_S50000x1_S50000x256_0_1 : (⟨S50000x1, .f32⟩ : BufTy).Contents (Elt F) → (⟨S50000x256, .f32⟩ : BufTy).Contents (Elt F)),
    binary main_v146 main_v176 main_v177 (mulf : (⟨S50000x256, .f32⟩ : BufTy).Contents (Elt F) → (⟨S50000x256, .f32⟩ : BufTy).Contents (Elt F) → (⟨S50000x256, .f32⟩ : BufTy).Contents (Elt F)),
    binary main_v174 main_v177 main_v178 (addf : (⟨S50000x256, .f32⟩ : BufTy).Contents (Elt F) → (⟨S50000x256, .f32⟩ : BufTy).Contents (Elt F) → (⟨S50000x256, .f32⟩ : BufTy).Contents (Elt F)),
    unary main_v145 main_v179 (broadcastInDim S1x256 ![1] bcast_S256_S1x256_1 : (⟨S256, .f32⟩ : BufTy).Contents (Elt F) → (⟨S1x256, .f32⟩ : BufTy).Contents (Elt F)),
    unary main_v179 main_v180 (broadcastInDim S50000x256 ![0, 1] bcast_S1x256_S50000x256_0_1 : (⟨S1x256, .f32⟩ : BufTy).Contents (Elt F) → (⟨S50000x256, .f32⟩ : BufTy).Contents (Elt F)),
    binary main_v178 main_v180 main_v181 (addf : (⟨S50000x256, .f32⟩ : BufTy).Contents (Elt F) → (⟨S50000x256, .f32⟩ : BufTy).Contents (Elt F) → (⟨S50000x256, .f32⟩ : BufTy).Contents (Elt F)),
    unary main_arg10 main_v182 ((extractStridedSlice S1x256 ![2, 0] · slices_S5x256_S1x256_2_0) : (⟨S5x256, .f32⟩ : BufTy).Contents (Elt F) → (⟨S1x256, .f32⟩ : BufTy).Contents (Elt F)),
    reshape main_v182 main_v183 rfl shapeCasts_S1x256_S256,
    unary main_arg11 main_v184 ((extractStridedSlice S1x256 ![2, 0] · slices_S5x256_S1x256_2_0) : (⟨S5x256, .f32⟩ : BufTy).Contents (Elt F) → (⟨S1x256, .f32⟩ : BufTy).Contents (Elt F)),
    reshape main_v184 main_v185 rfl shapeCasts_S1x256_S256,
    unary main_arg12 main_v186 ((extractStridedSlice S1x256 ![2, 0] · slices_S5x256_S1x256_2_0) : (⟨S5x256, .f32⟩ : BufTy).Contents (Elt F) → (⟨S1x256, .f32⟩ : BufTy).Contents (Elt F)),
    reshape main_v186 main_v187 rfl shapeCasts_S1x256_S256,
    unary main_arg13 main_v188 ((extractStridedSlice S1x256 ![2, 0] · slices_S5x256_S1x256_2_0) : (⟨S5x256, .f32⟩ : BufTy).Contents (Elt F) → (⟨S1x256, .f32⟩ : BufTy).Contents (Elt F)),
    reshape main_v188 main_v189 rfl shapeCasts_S1x256_S256,
    unary main_v187 main_v190 (broadcastInDim S1x256 ![1] bcast_S256_S1x256_1 : (⟨S256, .f32⟩ : BufTy).Contents (Elt F) → (⟨S1x256, .f32⟩ : BufTy).Contents (Elt F)),
    unary main_v190 main_v191 (broadcastInDim S50000x256 ![0, 1] bcast_S1x256_S50000x256_0_1 : (⟨S1x256, .f32⟩ : BufTy).Contents (Elt F) → (⟨S50000x256, .f32⟩ : BufTy).Contents (Elt F)),
    binary main_v181 main_v191 main_v192 (subf : (⟨S50000x256, .f32⟩ : BufTy).Contents (Elt F) → (⟨S50000x256, .f32⟩ : BufTy).Contents (Elt F) → (⟨S50000x256, .f32⟩ : BufTy).Contents (Elt F)),
    nullary main_cst_25 (constant S_ .f32 0x3727C5AC#32),
    unary main_cst_25 main_v193 (broadcastInDim S256 ![] bcast_S_S256 : (⟨S_, .f32⟩ : BufTy).Contents (Elt F) → (⟨S256, .f32⟩ : BufTy).Contents (Elt F)),
    binary main_v189 main_v193 main_v194 (addf : (⟨S256, .f32⟩ : BufTy).Contents (Elt F) → (⟨S256, .f32⟩ : BufTy).Contents (Elt F) → (⟨S256, .f32⟩ : BufTy).Contents (Elt F)),
    unary main_v194 main_v195 (Host.rsqrt : (⟨S256, .f32⟩ : BufTy).Contents (Elt F) → (⟨S256, .f32⟩ : BufTy).Contents (Elt F)),
    binary main_v183 main_v195 main_v196 (mulf : (⟨S256, .f32⟩ : BufTy).Contents (Elt F) → (⟨S256, .f32⟩ : BufTy).Contents (Elt F) → (⟨S256, .f32⟩ : BufTy).Contents (Elt F)),
    unary main_v196 main_v197 (broadcastInDim S1x256 ![1] bcast_S256_S1x256_1 : (⟨S256, .f32⟩ : BufTy).Contents (Elt F) → (⟨S1x256, .f32⟩ : BufTy).Contents (Elt F)),
    unary main_v197 main_v198 (broadcastInDim S50000x256 ![0, 1] bcast_S1x256_S50000x256_0_1 : (⟨S1x256, .f32⟩ : BufTy).Contents (Elt F) → (⟨S50000x256, .f32⟩ : BufTy).Contents (Elt F)),
    binary main_v192 main_v198 main_v199 (mulf : (⟨S50000x256, .f32⟩ : BufTy).Contents (Elt F) → (⟨S50000x256, .f32⟩ : BufTy).Contents (Elt F) → (⟨S50000x256, .f32⟩ : BufTy).Contents (Elt F)),
    unary main_v185 main_v200 (broadcastInDim S1x256 ![1] bcast_S256_S1x256_1 : (⟨S256, .f32⟩ : BufTy).Contents (Elt F) → (⟨S1x256, .f32⟩ : BufTy).Contents (Elt F)),
    unary main_v200 main_v201 (broadcastInDim S50000x256 ![0, 1] bcast_S1x256_S50000x256_0_1 : (⟨S1x256, .f32⟩ : BufTy).Contents (Elt F) → (⟨S50000x256, .f32⟩ : BufTy).Contents (Elt F)),
    binary main_v199 main_v201 main_v202 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v202) (TRef.of (T := ⟨S50000x256, .f32⟩) main_call3_v0) (TRef.of (T := ⟨S50000x256, .f32⟩) main_v203) maximumf ]

/-- Stretch 11: 29 operations, ending at `main_v229`. -/
abbrev seg11 : List (HloOp τ sig (Elt F)) :=
  [ binary main_v203 main_arg6 main_v204 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg7 main_v205 (broadcastInDim S1x256 ![1] bcast_S256_S1x256_1 : (⟨S256, .f32⟩ : BufTy).Contents (Elt F) → (⟨S1x256, .f32⟩ : BufTy).Contents (Elt F)),
    unary main_v205 main_v206 (broadcastInDim S50000x256 ![0, 1] bcast_S1x256_S50000x256_0_1 : (⟨S1x256, .f32⟩ : BufTy).Contents (Elt F) → (⟨S50000x256, .f32⟩ : BufTy).Contents (Elt F)),
    binary main_v204 main_v206 main_v207 (addf : (⟨S50000x256, .f32⟩ : BufTy).Contents (Elt F) → (⟨S50000x256, .f32⟩ : BufTy).Contents (Elt F) → (⟨S50000x256, .f32⟩ : BufTy).Contents (Elt F)),
    unary main_arg10 main_v208 ((extractStridedSlice S1x256 ![3, 0] · slices_S5x256_S1x256_3_0) : (⟨S5x256, .f32⟩ : BufTy).Contents (Elt F) → (⟨S1x256, .f32⟩ : BufTy).Contents (Elt F)),
    reshape main_v208 main_v209 rfl shapeCasts_S1x256_S256,
    unary main_arg11 main_v210 ((extractStridedSlice S1x256 ![3, 0] · slices_S5x256_S1x256_3_0) : (⟨S5x256, .f32⟩ : BufTy).Contents (Elt F) → (⟨S1x256, .f32⟩ : BufTy).Contents (Elt F)),
    reshape main_v210 main_v211 rfl shapeCasts_S1x256_S256,
    unary main_arg12 main_v212 ((extractStridedSlice S1x256 ![3, 0] · slices_S5x256_S1x256_3_0) : (⟨S5x256, .f32⟩ : BufTy).Contents (Elt F) → (⟨S1x256, .f32⟩ : BufTy).Contents (Elt F)),
    reshape main_v212 main_v213 rfl shapeCasts_S1x256_S256,
    unary main_arg13 main_v214 ((extractStridedSlice S1x256 ![3, 0] · slices_S5x256_S1x256_3_0) : (⟨S5x256, .f32⟩ : BufTy).Contents (Elt F) → (⟨S1x256, .f32⟩ : BufTy).Contents (Elt F)),
    reshape main_v214 main_v215 rfl shapeCasts_S1x256_S256,
    unary main_v213 main_v216 (broadcastInDim S1x256 ![1] bcast_S256_S1x256_1 : (⟨S256, .f32⟩ : BufTy).Contents (Elt F) → (⟨S1x256, .f32⟩ : BufTy).Contents (Elt F)),
    unary main_v216 main_v217 (broadcastInDim S50000x256 ![0, 1] bcast_S1x256_S50000x256_0_1 : (⟨S1x256, .f32⟩ : BufTy).Contents (Elt F) → (⟨S50000x256, .f32⟩ : BufTy).Contents (Elt F)),
    binary main_v207 main_v217 main_v218 (subf : (⟨S50000x256, .f32⟩ : BufTy).Contents (Elt F) → (⟨S50000x256, .f32⟩ : BufTy).Contents (Elt F) → (⟨S50000x256, .f32⟩ : BufTy).Contents (Elt F)),
    nullary main_cst_26 (constant S_ .f32 0x3727C5AC#32),
    unary main_cst_26 main_v219 (broadcastInDim S256 ![] bcast_S_S256 : (⟨S_, .f32⟩ : BufTy).Contents (Elt F) → (⟨S256, .f32⟩ : BufTy).Contents (Elt F)),
    binary main_v215 main_v219 main_v220 (addf : (⟨S256, .f32⟩ : BufTy).Contents (Elt F) → (⟨S256, .f32⟩ : BufTy).Contents (Elt F) → (⟨S256, .f32⟩ : BufTy).Contents (Elt F)),
    unary main_v220 main_v221 (Host.rsqrt : (⟨S256, .f32⟩ : BufTy).Contents (Elt F) → (⟨S256, .f32⟩ : BufTy).Contents (Elt F)),
    binary main_v209 main_v221 main_v222 (mulf : (⟨S256, .f32⟩ : BufTy).Contents (Elt F) → (⟨S256, .f32⟩ : BufTy).Contents (Elt F) → (⟨S256, .f32⟩ : BufTy).Contents (Elt F)),
    unary main_v222 main_v223 (broadcastInDim S1x256 ![1] bcast_S256_S1x256_1 : (⟨S256, .f32⟩ : BufTy).Contents (Elt F) → (⟨S1x256, .f32⟩ : BufTy).Contents (Elt F)),
    unary main_v223 main_v224 (broadcastInDim S50000x256 ![0, 1] bcast_S1x256_S50000x256_0_1 : (⟨S1x256, .f32⟩ : BufTy).Contents (Elt F) → (⟨S50000x256, .f32⟩ : BufTy).Contents (Elt F)),
    binary main_v218 main_v224 main_v225 (mulf : (⟨S50000x256, .f32⟩ : BufTy).Contents (Elt F) → (⟨S50000x256, .f32⟩ : BufTy).Contents (Elt F) → (⟨S50000x256, .f32⟩ : BufTy).Contents (Elt F)),
    unary main_v211 main_v226 (broadcastInDim S1x256 ![1] bcast_S256_S1x256_1 : (⟨S256, .f32⟩ : BufTy).Contents (Elt F) → (⟨S1x256, .f32⟩ : BufTy).Contents (Elt F)),
    unary main_v226 main_v227 (broadcastInDim S50000x256 ![0, 1] bcast_S1x256_S50000x256_0_1 : (⟨S1x256, .f32⟩ : BufTy).Contents (Elt F) → (⟨S50000x256, .f32⟩ : BufTy).Contents (Elt F)),
    binary main_v225 main_v227 main_v228 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x256, .f32⟩) main_call4_v0) (broadcastInDim S50000x256 ![] bcast_S_S50000x256),
    TRef.binary (TRef.of (T := ⟨S50000x256, .f32⟩) main_v228) (TRef.of (T := ⟨S50000x256, .f32⟩) main_call4_v0) (TRef.of (T := ⟨S50000x256, .f32⟩) main_v229) maximumf ]

/-- Stretch 12: 19 operations, ending at `main_v234`. -/
abbrev seg12 : List (HloOp τ sig (Elt F)) :=
  [ binary main_v229 main_arg8 main_v230 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg9 main_v231 (broadcastInDim S1x40 ![1] bcast_S40_S1x40_1 : (⟨S40, .f32⟩ : BufTy).Contents (Elt F) → (⟨S1x40, .f32⟩ : BufTy).Contents (Elt F)),
    unary main_v231 main_v232 (broadcastInDim S50000x40 ![0, 1] bcast_S1x40_S50000x40_0_1 : (⟨S1x40, .f32⟩ : BufTy).Contents (Elt F) → (⟨S50000x40, .f32⟩ : BufTy).Contents (Elt F)),
    binary main_v230 main_v232 main_v233 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call5_cst) (constant S_ .f32 0xFF800000#32),
    TRef.binary (TRef.of (T := ⟨S50000x40, .f32⟩) main_v233) (TRef.of (T := ⟨S_, .f32⟩) main_call5_cst) (TRef.of (T := ⟨S50000, .f32⟩) main_call5_v0) (fun x v => Host.reduce FloatOps.maximumf x v reducesTo_S50000x40_S50000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_call5_v0) (TRef.of (T := ⟨S50000, .f32⟩) main_call5_v2) maximumf,
    TRef.unary (TRef.of (T := ⟨S50000, .f32⟩) main_call5_v2) (TRef.of (T := ⟨S50000x1, .f32⟩) main_call5_v3) (broadcastInDim S50000x1 ![0] bcast_S50000_S50000x1_0),
    TRef.unary (TRef.of (T := ⟨S50000x1, .f32⟩) main_call5_v3) (TRef.of (T := ⟨S50000x40, .f32⟩) main_call5_v4) (broadcastInDim S50000x40 ![0, 1] bcast_S50000x1_S50000x40_0_1),
    TRef.binary (TRef.of (T := ⟨S50000x40, .f32⟩) main_v233) (TRef.of (T := ⟨S50000x40, .f32⟩) main_call5_v4) (TRef.of (T := ⟨S50000x40, .f32⟩) main_call5_v5) subf,
    TRef.unary (TRef.of (T := ⟨S50000x40, .f32⟩) main_call5_v5) (TRef.of (T := ⟨S50000x40, .f32⟩) main_call5_v6) Host.exp,
    TRef.nullary (TRef.of (T := ⟨S_, .f32⟩) main_call5_cst_1) (constant S_ .f32 0x00000000#32),
    TRef.binary (TRef.of (T := ⟨S50000x40, .f32⟩) main_call5_v6) (TRef.of (T := ⟨S_, .f32⟩) main_call5_cst_1) (TRef.of (T := ⟨S50000, .f32⟩) main_call5_v7) (fun x v => Host.reduceAdd x v reducesTo_S50000x40_S50000_d1 h_S_),
    TRef.unary (TRef.of (T := ⟨S50000, .f32⟩) main_call5_v7) (TRef.of (T := ⟨S50000x1, .f32⟩) main_call5_v8) (broadcastInDim S50000x1 ![0] bcast_S50000_S50000x1_0),
    TRef.unary (TRef.of (T := ⟨S50000x1, .f32⟩) main_call5_v8) (TRef.of (T := ⟨S50000x1, .f32⟩) main_call5_v9) Host.log,
    TRef.unary (TRef.of (T := ⟨S50000x1, .f32⟩) main_call5_v9) (TRef.of (T := ⟨S50000x40, .f32⟩) main_call5_v10) (broadcastInDim S50000x40 ![0, 1] bcast_S50000x1_S50000x40_0_1),
    TRef.binary (TRef.of (T := ⟨S50000x40, .f32⟩) main_call5_v5) (TRef.of (T := ⟨S50000x40, .f32⟩) main_call5_v10) (TRef.of (T := ⟨S50000x40, .f32⟩) main_v234) subf ]

set_option maxRecDepth 8192 in
/-- The line is its stretches in order. -/
theorem ops_split : (ops : List (HloOp τ sig (Elt F))) = seg0 ++ (seg1 ++ (seg2 ++ (seg3 ++ (seg4 ++ (seg5 ++ (seg6 ++ (seg7 ++ (seg8 ++ (seg9 ++ (seg10 ++ (seg11 ++ (seg12)))))))))))) := rfl

variable (m : (ℓ : Loc nD τ sig) → Buf (Elt F) ℓ) (c : Dev nD)

/-- The buffers at each boundary: the launch contents, then each stretch's fold. -/
def U0 : Valuation τ sig (Elt F) := launchContents m c
def U1 : Valuation τ sig (Elt F) := after seg0 (U0 m c)
def U2 : Valuation τ sig (Elt F) := after seg1 (U1 m c)
def U3 : Valuation τ sig (Elt F) := after seg2 (U2 m c)
def U4 : Valuation τ sig (Elt F) := after seg3 (U3 m c)
def U5 : Valuation τ sig (Elt F) := after seg4 (U4 m c)
def U6 : Valuation τ sig (Elt F) := after seg5 (U5 m c)
def U7 : Valuation τ sig (Elt F) := after seg6 (U6 m c)
def U8 : Valuation τ sig (Elt F) := after seg7 (U7 m c)
def U9 : Valuation τ sig (Elt F) := after seg8 (U8 m c)
def U10 : Valuation τ sig (Elt F) := after seg9 (U9 m c)
def U11 : Valuation τ sig (Elt F) := after seg10 (U10 m c)
def U12 : Valuation τ sig (Elt F) := after seg11 (U11 m c)
def U13 : Valuation τ sig (Elt F) := after seg12 (U12 m c)

/-- The whole line's fold is the last boundary. -/
theorem after_ops : after ops (launchContents m c) = U13 m c := by
  rw [ops_split]
  simp only [after_append]
  rfl

end Cert.ReferenceIdeal.Line

end
-- ==== Proof.LibKept.lean ====
/-
  A line of host operations changes only the buffers it writes.

  If every buffer an operation of the line writes is in a given list, a buffer outside the list holds after the line
  what it held before.  The list is checked once per line (each operation writes one literal buffer), after which
  "this buffer is not written by that line" is a membership test on literals — however many buffers are walked back
  through however many lines.
-/
import Idealize.ShloMosaic.Lib.StableHlo.Run

namespace Cert.LibKept

open Idealize.ShloMosaic

/-- A line all of whose written buffers are in a list leaves every buffer outside the list as it was. -/
theorem kept {sig : RefSig} {τ : Topo} {Val : EltTy → Type} (ops : List (HloOp τ sig Val)) (L : List (Ref sig .tc))
    (hL : ∀ op ∈ ops, ∀ x ∈ op.writes, ∃ y ∈ L, x = Proc.devRef .tc y)
    (V : Valuation τ sig Val) (b : Ref sig .tc) (hb : b ∉ L) :
    StableHlo.after ops V (Proc.devRef .tc b) = V (Proc.devRef .tc b) :=
  StableHlo.after_of_forall_not_mem ops V fun op hop hmem => by
    obtain ⟨y, hy, e⟩ := hL op hop _ hmem
    by_cases hby : b = y
    · exact hb (hby ▸ hy)
    · exact StableHlo.devRef_ne_of_ne hby e

end Cert.LibKept

/-- Decides "every buffer a literal line of host operations writes is in the list": the line's name is unfolded, each
    operation's written set is its one result buffer, and that buffer is found in the list. -/
macro "writes_in" ops:ident : tactic => `(tactic|
  (refine List.forall_iff_forall_mem.mp ?_
   simp only [$ops:ident, List.Forall, Idealize.ShloMosaic.StableHlo.nullary_writes, Idealize.ShloMosaic.StableHlo.unary_writes,
     Idealize.ShloMosaic.StableHlo.binary_writes, Idealize.ShloMosaic.StableHlo.ternary_writes,
     Idealize.ShloMosaic.StableHlo.quaternary_writes, Idealize.ShloMosaic.StableHlo.reshape_writes,
     Idealize.ShloMosaic.StableHlo.binaryIndexed_writes, Finset.mem_singleton]
   repeat' apply And.intro
   all_goals (intro x hx; exact ⟨_, by decide, hx⟩)))
-- ==== Proof.RefKept.lean ====
/-
  What a stretch of the reference program's line leaves alone: every buffer it does not write.
-/
import proofs.«169431_j32804960207311_2_alg».proof.Proof.RefRun
import proofs.«169431_j32804960207311_2_alg».proof.Proof.LibKept
import Idealize.ShloMosaic.PureOps.Ideal

set_option maxRecDepth 16384

noncomputable section

namespace Cert.ReferenceIdeal.Kept

open Idealize.ShloMosaic Idealize.ShloMosaic.TcCoe Cert.ReferenceIdeal Cert.ReferenceIdeal.Gen Cert.ReferenceIdeal.Line

variable (m : (ℓ : Loc nD τ sig) → Buf (Elt Ideal) ℓ) (c : Dev nD)

/-- The buffers stretch 0 writes. -/
def L0 : List (Ref sig .tc) := [main_v0, main_v1, main_v2, main_v3, main_cst, main_v4, main_cst_0, main_v5, main_v6, main_v7, main_cst_1, main_v8, main_v9, main_v10, main_cst_2, main_v11, main_v12]
theorem hL0 : ∀ op ∈ (seg0 : List (HloOp τ sig (Elt Ideal))), ∀ x ∈ op.writes, ∃ y ∈ L0, x = Proc.devRef .tc y := by
  writes_in seg0
/-- A buffer stretch 0 does not write holds after it what it held before. -/
theorem keep0 (b : Ref sig .tc) (hb : b ∉ L0) : U1 m c (Proc.devRef .tc b) = U0 m c (Proc.devRef .tc b) :=
  Cert.LibKept.kept seg0 L0 hL0 _ b hb

/-- The buffers stretch 1 writes. -/
def L1 : List (Ref sig .tc) := [main_v13, main_v14, main_v15, main_v16, main_call0_cst, main_call0_v0, main_v17]
theorem hL1 : ∀ op ∈ (seg1 : List (HloOp τ sig (Elt Ideal))), ∀ x ∈ op.writes, ∃ y ∈ L1, x = Proc.devRef .tc y := by
  writes_in seg1
/-- A buffer stretch 1 does not write holds after it what it held before. -/
theorem keep1 (b : Ref sig .tc) (hb : b ∉ L1) : U2 m c (Proc.devRef .tc b) = U1 m c (Proc.devRef .tc b) :=
  Cert.LibKept.kept seg1 L1 hL1 _ b hb

/-- The buffers stretch 2 writes. -/
def L2 : List (Ref sig .tc) := [main_v18, main_v19, main_v20, main_v21, main_v22]
theorem hL2 : ∀ op ∈ (seg2 : List (HloOp τ sig (Elt Ideal))), ∀ x ∈ op.writes, ∃ y ∈ L2, x = Proc.devRef .tc y := by
  writes_in seg2
/-- A buffer stretch 2 does not write holds after it what it held before. -/
theorem keep2 (b : Ref sig .tc) (hb : b ∉ L2) : U3 m c (Proc.devRef .tc b) = U2 m c (Proc.devRef .tc b) :=
  Cert.LibKept.kept seg2 L2 hL2 _ b hb

/-- The buffers stretch 3 writes. -/
def L3 : List (Ref sig .tc) := [main_c, main_v23, main_v24, main_c_3, main_v25, main_v26, main_v27, main_v28, main_v29, main_c_4, main_v30, main_v31, main_c_5, main_v32, main_v33, main_v34, main_v35, main_v36, main_v37, main_c_6, main_v38, main_v39, main_c_7, main_v40, main_v41, main_v42, main_v43, main_v44, main_v45, main_v46, main_v47, main_cst_8, main_v48, main_v49, main_v50]
theorem hL3 : ∀ op ∈ (seg3 : List (HloOp τ sig (Elt Ideal))), ∀ x ∈ op.writes, ∃ y ∈ L3, x = Proc.devRef .tc y := by
  writes_in seg3
/-- A buffer stretch 3 does not write holds after it what it held before. -/
theorem keep3 (b : Ref sig .tc) (hb : b ∉ L3) : U4 m c (Proc.devRef .tc b) = U3 m c (Proc.devRef .tc b) :=
  Cert.LibKept.kept seg3 L3 hL3 _ b hb

/-- The buffers stretch 4 writes. -/
def L4 : List (Ref sig .tc) := [main_v51, main_v52, main_v53, main_v54, main_v55, main_v56, main_v57, main_v58, main_v59, main_v60, main_v61, main_v62, main_v63, main_v64, main_v65, main_v66, main_v67, main_v68, main_cst_9, main_v69, main_v70, main_v71, main_v72, main_v73, main_v74, main_v75, main_v76, main_v77, main_v78, main_call1_cst, main_call1_v0, main_v79]
theorem hL4 : ∀ op ∈ (seg4 : List (HloOp τ sig (Elt Ideal))), ∀ x ∈ op.writes, ∃ y ∈ L4, x = Proc.devRef .tc y := by
  writes_in seg4
/-- A buffer stretch 4 does not write holds after it what it held before. -/
theorem keep4 (b : Ref sig .tc) (hb : b ∉ L4) : U5 m c (Proc.devRef .tc b) = U4 m c (Proc.devRef .tc b) :=
  Cert.LibKept.kept seg4 L4 hL4 _ b hb

/-- The buffers stretch 5 writes. -/
def L5 : List (Ref sig .tc) := [main_v80, main_v81, main_v82, main_v83, main_v84]
theorem hL5 : ∀ op ∈ (seg5 : List (HloOp τ sig (Elt Ideal))), ∀ x ∈ op.writes, ∃ y ∈ L5, x = Proc.devRef .tc y := by
  writes_in seg5
/-- A buffer stretch 5 does not write holds after it what it held before. -/
theorem keep5 (b : Ref sig .tc) (hb : b ∉ L5) : U6 m c (Proc.devRef .tc b) = U5 m c (Proc.devRef .tc b) :=
  Cert.LibKept.kept seg5 L5 hL5 _ b hb

/-- The buffers stretch 6 writes. -/
def L6 : List (Ref sig .tc) := [main_c_10, main_v85, main_v86, main_c_11, main_v87, main_v88, main_v89, main_v90, main_v91, main_c_12, main_v92, main_v93, main_c_13, main_v94, main_v95, main_v96, main_v97, main_v98, main_v99, main_c_14, main_v100, main_v101, main_c_15, main_v102, main_v103, main_v104, main_v105, main_v106, main_v107, main_v108, main_v109, main_cst_16, main_v110, main_v111, main_v112]
theorem hL6 : ∀ op ∈ (seg6 : List (HloOp τ sig (Elt Ideal))), ∀ x ∈ op.writes, ∃ y ∈ L6, x = Proc.devRef .tc y := by
  writes_in seg6
/-- A buffer stretch 6 does not write holds after it what it held before. -/
theorem keep6 (b : Ref sig .tc) (hb : b ∉ L6) : U7 m c (Proc.devRef .tc b) = U6 m c (Proc.devRef .tc b) :=
  Cert.LibKept.kept seg6 L6 hL6 _ b hb

/-- The buffers stretch 7 writes. -/
def L7 : List (Ref sig .tc) := [main_v113, main_v114, main_v115, main_v116, main_v117, main_v118, main_v119, main_v120, main_v121, main_v122, main_v123, main_v124, main_v125, main_v126, main_v127, main_v128, main_v129, main_v130, main_cst_17, main_v131, main_v132, main_v133, main_v134, main_v135, main_v136, main_v137, main_v138, main_v139, main_v140, main_call2_cst, main_call2_v0, main_v141]
theorem hL7 : ∀ op ∈ (seg7 : List (HloOp τ sig (Elt Ideal))), ∀ x ∈ op.writes, ∃ y ∈ L7, x = Proc.devRef .tc y := by
  writes_in seg7
/-- A buffer stretch 7 does not write holds after it what it held before. -/
theorem keep7 (b : Ref sig .tc) (hb : b ∉ L7) : U8 m c (Proc.devRef .tc b) = U7 m c (Proc.devRef .tc b) :=
  Cert.LibKept.kept seg7 L7 hL7 _ b hb

/-- The buffers stretch 8 writes. -/
def L8 : List (Ref sig .tc) := [main_v142, main_v143, main_v144, main_v145, main_v146]
theorem hL8 : ∀ op ∈ (seg8 : List (HloOp τ sig (Elt Ideal))), ∀ x ∈ op.writes, ∃ y ∈ L8, x = Proc.devRef .tc y := by
  writes_in seg8
/-- A buffer stretch 8 does not write holds after it what it held before. -/
theorem keep8 (b : Ref sig .tc) (hb : b ∉ L8) : U9 m c (Proc.devRef .tc b) = U8 m c (Proc.devRef .tc b) :=
  Cert.LibKept.kept seg8 L8 hL8 _ b hb

/-- The buffers stretch 9 writes. -/
def L9 : List (Ref sig .tc) := [main_c_18, main_v147, main_v148, main_c_19, main_v149, main_v150, main_v151, main_v152, main_v153, main_c_20, main_v154, main_v155, main_c_21, main_v156, main_v157, main_v158, main_v159, main_v160, main_v161, main_c_22, main_v162, main_v163, main_c_23, main_v164, main_v165, main_v166, main_v167, main_v168, main_v169, main_v170, main_v171, main_cst_24, main_v172, main_v173, main_v174]
theorem hL9 : ∀ op ∈ (seg9 : List (HloOp τ sig (Elt Ideal))), ∀ x ∈ op.writes, ∃ y ∈ L9, x = Proc.devRef .tc y := by
  writes_in seg9
/-- A buffer stretch 9 does not write holds after it what it held before. -/
theorem keep9 (b : Ref sig .tc) (hb : b ∉ L9) : U10 m c (Proc.devRef .tc b) = U9 m c (Proc.devRef .tc b) :=
  Cert.LibKept.kept seg9 L9 hL9 _ b hb

/-- The buffers stretch 10 writes. -/
def L10 : List (Ref sig .tc) := [main_v175, main_v176, main_v177, main_v178, main_v179, main_v180, main_v181, main_v182, main_v183, main_v184, main_v185, main_v186, main_v187, main_v188, main_v189, main_v190, main_v191, main_v192, main_cst_25, main_v193, main_v194, main_v195, main_v196, main_v197, main_v198, main_v199, main_v200, main_v201, main_v202, main_call3_cst, main_call3_v0, main_v203]
theorem hL10 : ∀ op ∈ (seg10 : List (HloOp τ sig (Elt Ideal))), ∀ x ∈ op.writes, ∃ y ∈ L10, x = Proc.devRef .tc y := by
  writes_in seg10
/-- A buffer stretch 10 does not write holds after it what it held before. -/
theorem keep10 (b : Ref sig .tc) (hb : b ∉ L10) : U11 m c (Proc.devRef .tc b) = U10 m c (Proc.devRef .tc b) :=
  Cert.LibKept.kept seg10 L10 hL10 _ b hb

/-- The buffers stretch 11 writes. -/
def L11 : List (Ref sig .tc) := [main_v204, main_v205, main_v206, main_v207, main_v208, main_v209, main_v210, main_v211, main_v212, main_v213, main_v214, main_v215, main_v216, main_v217, main_v218, main_cst_26, main_v219, main_v220, main_v221, main_v222, main_v223, main_v224, main_v225, main_v226, main_v227, main_v228, main_call4_cst, main_call4_v0, main_v229]
theorem hL11 : ∀ op ∈ (seg11 : List (HloOp τ sig (Elt Ideal))), ∀ x ∈ op.writes, ∃ y ∈ L11, x = Proc.devRef .tc y := by
  writes_in seg11
/-- A buffer stretch 11 does not write holds after it what it held before. -/
theorem keep11 (b : Ref sig .tc) (hb : b ∉ L11) : U12 m c (Proc.devRef .tc b) = U11 m c (Proc.devRef .tc b) :=
  Cert.LibKept.kept seg11 L11 hL11 _ b hb

/-- The buffers stretch 12 writes. -/
def L12 : List (Ref sig .tc) := [main_v230, main_v231, main_v232, main_v233, main_call5_cst, main_call5_v0, main_call5_cst_0, main_call5_v1, main_call5_v2, main_call5_v3, main_call5_v4, main_call5_v5, main_call5_v6, main_call5_cst_1, main_call5_v7, main_call5_v8, main_call5_v9, main_call5_v10, main_v234]
theorem hL12 : ∀ op ∈ (seg12 : List (HloOp τ sig (Elt Ideal))), ∀ x ∈ op.writes, ∃ y ∈ L12, x = Proc.devRef .tc y := by
  writes_in seg12
/-- A buffer stretch 12 does not write holds after it what it held before. -/
theorem keep12 (b : Ref sig .tc) (hb : b ∉ L12) : U13 m c (Proc.devRef .tc b) = U12 m c (Proc.devRef .tc b) :=
  Cert.LibKept.kept seg12 L12 hL12 _ b hb

end Cert.ReferenceIdeal.Kept

end
-- ==== Proof.RefArgs.lean ====
/-
  The reference program's line writes none of its arguments: after the line each argument buffer holds what it held at
  launch.
-/
import proofs.«169431_j32804960207311_2_alg».proof.Proof.RefRun
import proofs.«169431_j32804960207311_2_alg».proof.Proof.RefKept
import Idealize.ShloMosaic.PureOps.Ideal

set_option maxRecDepth 16384

noncomputable section

namespace Cert.Sim

open Idealize.ShloMosaic Idealize.ShloMosaic.TcCoe Idealize.ShloMosaic.StableHlo Idealize.SL.Sem

variable (m' : (ℓ : Loc Cert.ReferenceIdeal.nD Cert.ReferenceIdeal.τ Cert.ReferenceIdeal.sig) → Buf (Elt Ideal) ℓ) (c : Dev Cert.ReferenceIdeal.nD)

theorem ref_arg0 : StableHlo.after Cert.ReferenceIdeal.Line.ops (launchContents m' c) (Proc.devRef .tc Cert.ReferenceIdeal.main_arg0) = m' ((c.tc : Thread Cert.ReferenceIdeal.nD Cert.ReferenceIdeal.τ).loc Cert.ReferenceIdeal.main_arg0) := by
  rw [Cert.ReferenceIdeal.Line.after_ops]
  exact (((show Cert.ReferenceIdeal.Line.U13 m' c (Proc.devRef .tc Cert.ReferenceIdeal.main_arg0) = Cert.ReferenceIdeal.Line.U12 m' c (Proc.devRef .tc Cert.ReferenceIdeal.main_arg0) from Cert.ReferenceIdeal.Kept.keep12 m' c Cert.ReferenceIdeal.main_arg0 (by decide)).trans ((show Cert.ReferenceIdeal.Line.U12 m' c (Proc.devRef .tc Cert.ReferenceIdeal.main_arg0) = Cert.ReferenceIdeal.Line.U11 m' c (Proc.devRef .tc Cert.ReferenceIdeal.main_arg0) from Cert.ReferenceIdeal.Kept.keep11 m' c Cert.ReferenceIdeal.main_arg0 (by decide)).trans ((show Cert.ReferenceIdeal.Line.U11 m' c (Proc.devRef .tc Cert.ReferenceIdeal.main_arg0) = Cert.ReferenceIdeal.Line.U10 m' c (Proc.devRef .tc Cert.ReferenceIdeal.main_arg0) from Cert.ReferenceIdeal.Kept.keep10 m' c Cert.ReferenceIdeal.main_arg0 (by decide)).trans ((show Cert.ReferenceIdeal.Line.U10 m' c (Proc.devRef .tc Cert.ReferenceIdeal.main_arg0) = Cert.ReferenceIdeal.Line.U9 m' c (Proc.devRef .tc Cert.ReferenceIdeal.main_arg0) from Cert.ReferenceIdeal.Kept.keep9 m' c Cert.ReferenceIdeal.main_arg0 (by decide)).trans ((show Cert.ReferenceIdeal.Line.U9 m' c (Proc.devRef .tc Cert.ReferenceIdeal.main_arg0) = Cert.ReferenceIdeal.Line.U8 m' c (Proc.devRef .tc Cert.ReferenceIdeal.main_arg0) from Cert.ReferenceIdeal.Kept.keep8 m' c Cert.ReferenceIdeal.main_arg0 (by decide)).trans ((show Cert.ReferenceIdeal.Line.U8 m' c (Proc.devRef .tc Cert.ReferenceIdeal.main_arg0) = Cert.ReferenceIdeal.Line.U7 m' c (Proc.devRef .tc Cert.ReferenceIdeal.main_arg0) from Cert.ReferenceIdeal.Kept.keep7 m' c Cert.ReferenceIdeal.main_arg0 (by decide)).trans ((show Cert.ReferenceIdeal.Line.U7 m' c (Proc.devRef .tc Cert.ReferenceIdeal.main_arg0) = Cert.ReferenceIdeal.Line.U6 m' c (Proc.devRef .tc Cert.ReferenceIdeal.main_arg0) from Cert.ReferenceIdeal.Kept.keep6 m' c Cert.ReferenceIdeal.main_arg0 (by decide)).trans ((show Cert.ReferenceIdeal.Line.U6 m' c (Proc.devRef .tc Cert.ReferenceIdeal.main_arg0) = Cert.ReferenceIdeal.Line.U5 m' c (Proc.devRef .tc Cert.ReferenceIdeal.main_arg0) from Cert.ReferenceIdeal.Kept.keep5 m' c Cert.ReferenceIdeal.main_arg0 (by decide)).trans ((show Cert.ReferenceIdeal.Line.U5 m' c (Proc.devRef .tc Cert.ReferenceIdeal.main_arg0) = Cert.ReferenceIdeal.Line.U4 m' c (Proc.devRef .tc Cert.ReferenceIdeal.main_arg0) from Cert.ReferenceIdeal.Kept.keep4 m' c Cert.ReferenceIdeal.main_arg0 (by decide)).trans ((show Cert.ReferenceIdeal.Line.U4 m' c (Proc.devRef .tc Cert.ReferenceIdeal.main_arg0) = Cert.ReferenceIdeal.Line.U3 m' c (Proc.devRef .tc Cert.ReferenceIdeal.main_arg0) from Cert.ReferenceIdeal.Kept.keep3 m' c Cert.ReferenceIdeal.main_arg0 (by decide)).trans ((show Cert.ReferenceIdeal.Line.U3 m' c (Proc.devRef .tc Cert.ReferenceIdeal.main_arg0) = Cert.ReferenceIdeal.Line.U2 m' c (Proc.devRef .tc Cert.ReferenceIdeal.main_arg0) from Cert.ReferenceIdeal.Kept.keep2 m' c Cert.ReferenceIdeal.main_arg0 (by decide)).trans ((show Cert.ReferenceIdeal.Line.U2 m' c (Proc.devRef .tc Cert.ReferenceIdeal.main_arg0) = Cert.ReferenceIdeal.Line.U1 m' c (Proc.devRef .tc Cert.ReferenceIdeal.main_arg0) from Cert.ReferenceIdeal.Kept.keep1 m' c Cert.ReferenceIdeal.main_arg0 (by decide)).trans (show Cert.ReferenceIdeal.Line.U1 m' c (Proc.devRef .tc Cert.ReferenceIdeal.main_arg0) = Cert.ReferenceIdeal.Line.U0 m' c (Proc.devRef .tc Cert.ReferenceIdeal.main_arg0) from Cert.ReferenceIdeal.Kept.keep0 m' c Cert.ReferenceIdeal.main_arg0 (by decide))))))))))))))).trans rfl

theorem ref_arg1 : StableHlo.after Cert.ReferenceIdeal.Line.ops (launchContents m' c) (Proc.devRef .tc Cert.ReferenceIdeal.main_arg1) = m' ((c.tc : Thread Cert.ReferenceIdeal.nD Cert.ReferenceIdeal.τ).loc Cert.ReferenceIdeal.main_arg1) := by
  rw [Cert.ReferenceIdeal.Line.after_ops]
  exact (((show Cert.ReferenceIdeal.Line.U13 m' c (Proc.devRef .tc Cert.ReferenceIdeal.main_arg1) = Cert.ReferenceIdeal.Line.U12 m' c (Proc.devRef .tc Cert.ReferenceIdeal.main_arg1) from Cert.ReferenceIdeal.Kept.keep12 m' c Cert.ReferenceIdeal.main_arg1 (by decide)).trans ((show Cert.ReferenceIdeal.Line.U12 m' c (Proc.devRef .tc Cert.ReferenceIdeal.main_arg1) = Cert.ReferenceIdeal.Line.U11 m' c (Proc.devRef .tc Cert.ReferenceIdeal.main_arg1) from Cert.ReferenceIdeal.Kept.keep11 m' c Cert.ReferenceIdeal.main_arg1 (by decide)).trans ((show Cert.ReferenceIdeal.Line.U11 m' c (Proc.devRef .tc Cert.ReferenceIdeal.main_arg1) = Cert.ReferenceIdeal.Line.U10 m' c (Proc.devRef .tc Cert.ReferenceIdeal.main_arg1) from Cert.ReferenceIdeal.Kept.keep10 m' c Cert.ReferenceIdeal.main_arg1 (by decide)).trans ((show Cert.ReferenceIdeal.Line.U10 m' c (Proc.devRef .tc Cert.ReferenceIdeal.main_arg1) = Cert.ReferenceIdeal.Line.U9 m' c (Proc.devRef .tc Cert.ReferenceIdeal.main_arg1) from Cert.ReferenceIdeal.Kept.keep9 m' c Cert.ReferenceIdeal.main_arg1 (by decide)).trans ((show Cert.ReferenceIdeal.Line.U9 m' c (Proc.devRef .tc Cert.ReferenceIdeal.main_arg1) = Cert.ReferenceIdeal.Line.U8 m' c (Proc.devRef .tc Cert.ReferenceIdeal.main_arg1) from Cert.ReferenceIdeal.Kept.keep8 m' c Cert.ReferenceIdeal.main_arg1 (by decide)).trans ((show Cert.ReferenceIdeal.Line.U8 m' c (Proc.devRef .tc Cert.ReferenceIdeal.main_arg1) = Cert.ReferenceIdeal.Line.U7 m' c (Proc.devRef .tc Cert.ReferenceIdeal.main_arg1) from Cert.ReferenceIdeal.Kept.keep7 m' c Cert.ReferenceIdeal.main_arg1 (by decide)).trans ((show Cert.ReferenceIdeal.Line.U7 m' c (Proc.devRef .tc Cert.ReferenceIdeal.main_arg1) = Cert.ReferenceIdeal.Line.U6 m' c (Proc.devRef .tc Cert.ReferenceIdeal.main_arg1) from Cert.ReferenceIdeal.Kept.keep6 m' c Cert.ReferenceIdeal.main_arg1 (by decide)).trans ((show Cert.ReferenceIdeal.Line.U6 m' c (Proc.devRef .tc Cert.ReferenceIdeal.main_arg1) = Cert.ReferenceIdeal.Line.U5 m' c (Proc.devRef .tc Cert.ReferenceIdeal.main_arg1) from Cert.ReferenceIdeal.Kept.keep5 m' c Cert.ReferenceIdeal.main_arg1 (by decide)).trans ((show Cert.ReferenceIdeal.Line.U5 m' c (Proc.devRef .tc Cert.ReferenceIdeal.main_arg1) = Cert.ReferenceIdeal.Line.U4 m' c (Proc.devRef .tc Cert.ReferenceIdeal.main_arg1) from Cert.ReferenceIdeal.Kept.keep4 m' c Cert.ReferenceIdeal.main_arg1 (by decide)).trans ((show Cert.ReferenceIdeal.Line.U4 m' c (Proc.devRef .tc Cert.ReferenceIdeal.main_arg1) = Cert.ReferenceIdeal.Line.U3 m' c (Proc.devRef .tc Cert.ReferenceIdeal.main_arg1) from Cert.ReferenceIdeal.Kept.keep3 m' c Cert.ReferenceIdeal.main_arg1 (by decide)).trans ((show Cert.ReferenceIdeal.Line.U3 m' c (Proc.devRef .tc Cert.ReferenceIdeal.main_arg1) = Cert.ReferenceIdeal.Line.U2 m' c (Proc.devRef .tc Cert.ReferenceIdeal.main_arg1) from Cert.ReferenceIdeal.Kept.keep2 m' c Cert.ReferenceIdeal.main_arg1 (by decide)).trans ((show Cert.ReferenceIdeal.Line.U2 m' c (Proc.devRef .tc Cert.ReferenceIdeal.main_arg1) = Cert.ReferenceIdeal.Line.U1 m' c (Proc.devRef .tc Cert.ReferenceIdeal.main_arg1) from Cert.ReferenceIdeal.Kept.keep1 m' c Cert.ReferenceIdeal.main_arg1 (by decide)).trans (show Cert.ReferenceIdeal.Line.U1 m' c (Proc.devRef .tc Cert.ReferenceIdeal.main_arg1) = Cert.ReferenceIdeal.Line.U0 m' c (Proc.devRef .tc Cert.ReferenceIdeal.main_arg1) from Cert.ReferenceIdeal.Kept.keep0 m' c Cert.ReferenceIdeal.main_arg1 (by decide))))))))))))))).trans rfl

theorem ref_arg2 : StableHlo.after Cert.ReferenceIdeal.Line.ops (launchContents m' c) (Proc.devRef .tc Cert.ReferenceIdeal.main_arg2) = m' ((c.tc : Thread Cert.ReferenceIdeal.nD Cert.ReferenceIdeal.τ).loc Cert.ReferenceIdeal.main_arg2) := by
  rw [Cert.ReferenceIdeal.Line.after_ops]
  exact (((show Cert.ReferenceIdeal.Line.U13 m' c (Proc.devRef .tc Cert.ReferenceIdeal.main_arg2) = Cert.ReferenceIdeal.Line.U12 m' c (Proc.devRef .tc Cert.ReferenceIdeal.main_arg2) from Cert.ReferenceIdeal.Kept.keep12 m' c Cert.ReferenceIdeal.main_arg2 (by decide)).trans ((show Cert.ReferenceIdeal.Line.U12 m' c (Proc.devRef .tc Cert.ReferenceIdeal.main_arg2) = Cert.ReferenceIdeal.Line.U11 m' c (Proc.devRef .tc Cert.ReferenceIdeal.main_arg2) from Cert.ReferenceIdeal.Kept.keep11 m' c Cert.ReferenceIdeal.main_arg2 (by decide)).trans ((show Cert.ReferenceIdeal.Line.U11 m' c (Proc.devRef .tc Cert.ReferenceIdeal.main_arg2) = Cert.ReferenceIdeal.Line.U10 m' c (Proc.devRef .tc Cert.ReferenceIdeal.main_arg2) from Cert.ReferenceIdeal.Kept.keep10 m' c Cert.ReferenceIdeal.main_arg2 (by decide)).trans ((show Cert.ReferenceIdeal.Line.U10 m' c (Proc.devRef .tc Cert.ReferenceIdeal.main_arg2) = Cert.ReferenceIdeal.Line.U9 m' c (Proc.devRef .tc Cert.ReferenceIdeal.main_arg2) from Cert.ReferenceIdeal.Kept.keep9 m' c Cert.ReferenceIdeal.main_arg2 (by decide)).trans ((show Cert.ReferenceIdeal.Line.U9 m' c (Proc.devRef .tc Cert.ReferenceIdeal.main_arg2) = Cert.ReferenceIdeal.Line.U8 m' c (Proc.devRef .tc Cert.ReferenceIdeal.main_arg2) from Cert.ReferenceIdeal.Kept.keep8 m' c Cert.ReferenceIdeal.main_arg2 (by decide)).trans ((show Cert.ReferenceIdeal.Line.U8 m' c (Proc.devRef .tc Cert.ReferenceIdeal.main_arg2) = Cert.ReferenceIdeal.Line.U7 m' c (Proc.devRef .tc Cert.ReferenceIdeal.main_arg2) from Cert.ReferenceIdeal.Kept.keep7 m' c Cert.ReferenceIdeal.main_arg2 (by decide)).trans ((show Cert.ReferenceIdeal.Line.U7 m' c (Proc.devRef .tc Cert.ReferenceIdeal.main_arg2) = Cert.ReferenceIdeal.Line.U6 m' c (Proc.devRef .tc Cert.ReferenceIdeal.main_arg2) from Cert.ReferenceIdeal.Kept.keep6 m' c Cert.ReferenceIdeal.main_arg2 (by decide)).trans ((show Cert.ReferenceIdeal.Line.U6 m' c (Proc.devRef .tc Cert.ReferenceIdeal.main_arg2) = Cert.ReferenceIdeal.Line.U5 m' c (Proc.devRef .tc Cert.ReferenceIdeal.main_arg2) from Cert.ReferenceIdeal.Kept.keep5 m' c Cert.ReferenceIdeal.main_arg2 (by decide)).trans ((show Cert.ReferenceIdeal.Line.U5 m' c (Proc.devRef .tc Cert.ReferenceIdeal.main_arg2) = Cert.ReferenceIdeal.Line.U4 m' c (Proc.devRef .tc Cert.ReferenceIdeal.main_arg2) from Cert.ReferenceIdeal.Kept.keep4 m' c Cert.ReferenceIdeal.main_arg2 (by decide)).trans ((show Cert.ReferenceIdeal.Line.U4 m' c (Proc.devRef .tc Cert.ReferenceIdeal.main_arg2) = Cert.ReferenceIdeal.Line.U3 m' c (Proc.devRef .tc Cert.ReferenceIdeal.main_arg2) from Cert.ReferenceIdeal.Kept.keep3 m' c Cert.ReferenceIdeal.main_arg2 (by decide)).trans ((show Cert.ReferenceIdeal.Line.U3 m' c (Proc.devRef .tc Cert.ReferenceIdeal.main_arg2) = Cert.ReferenceIdeal.Line.U2 m' c (Proc.devRef .tc Cert.ReferenceIdeal.main_arg2) from Cert.ReferenceIdeal.Kept.keep2 m' c Cert.ReferenceIdeal.main_arg2 (by decide)).trans ((show Cert.ReferenceIdeal.Line.U2 m' c (Proc.devRef .tc Cert.ReferenceIdeal.main_arg2) = Cert.ReferenceIdeal.Line.U1 m' c (Proc.devRef .tc Cert.ReferenceIdeal.main_arg2) from Cert.ReferenceIdeal.Kept.keep1 m' c Cert.ReferenceIdeal.main_arg2 (by decide)).trans (show Cert.ReferenceIdeal.Line.U1 m' c (Proc.devRef .tc Cert.ReferenceIdeal.main_arg2) = Cert.ReferenceIdeal.Line.U0 m' c (Proc.devRef .tc Cert.ReferenceIdeal.main_arg2) from Cert.ReferenceIdeal.Kept.keep0 m' c Cert.ReferenceIdeal.main_arg2 (by decide))))))))))))))).trans rfl

theorem ref_arg3 : StableHlo.after Cert.ReferenceIdeal.Line.ops (launchContents m' c) (Proc.devRef .tc Cert.ReferenceIdeal.main_arg3) = m' ((c.tc : Thread Cert.ReferenceIdeal.nD Cert.ReferenceIdeal.τ).loc Cert.ReferenceIdeal.main_arg3) := by
  rw [Cert.ReferenceIdeal.Line.after_ops]
  exact (((show Cert.ReferenceIdeal.Line.U13 m' c (Proc.devRef .tc Cert.ReferenceIdeal.main_arg3) = Cert.ReferenceIdeal.Line.U12 m' c (Proc.devRef .tc Cert.ReferenceIdeal.main_arg3) from Cert.ReferenceIdeal.Kept.keep12 m' c Cert.ReferenceIdeal.main_arg3 (by decide)).trans ((show Cert.ReferenceIdeal.Line.U12 m' c (Proc.devRef .tc Cert.ReferenceIdeal.main_arg3) = Cert.ReferenceIdeal.Line.U11 m' c (Proc.devRef .tc Cert.ReferenceIdeal.main_arg3) from Cert.ReferenceIdeal.Kept.keep11 m' c Cert.ReferenceIdeal.main_arg3 (by decide)).trans ((show Cert.ReferenceIdeal.Line.U11 m' c (Proc.devRef .tc Cert.ReferenceIdeal.main_arg3) = Cert.ReferenceIdeal.Line.U10 m' c (Proc.devRef .tc Cert.ReferenceIdeal.main_arg3) from Cert.ReferenceIdeal.Kept.keep10 m' c Cert.ReferenceIdeal.main_arg3 (by decide)).trans ((show Cert.ReferenceIdeal.Line.U10 m' c (Proc.devRef .tc Cert.ReferenceIdeal.main_arg3) = Cert.ReferenceIdeal.Line.U9 m' c (Proc.devRef .tc Cert.ReferenceIdeal.main_arg3) from Cert.ReferenceIdeal.Kept.keep9 m' c Cert.ReferenceIdeal.main_arg3 (by decide)).trans ((show Cert.ReferenceIdeal.Line.U9 m' c (Proc.devRef .tc Cert.ReferenceIdeal.main_arg3) = Cert.ReferenceIdeal.Line.U8 m' c (Proc.devRef .tc Cert.ReferenceIdeal.main_arg3) from Cert.ReferenceIdeal.Kept.keep8 m' c Cert.ReferenceIdeal.main_arg3 (by decide)).trans ((show Cert.ReferenceIdeal.Line.U8 m' c (Proc.devRef .tc Cert.ReferenceIdeal.main_arg3) = Cert.ReferenceIdeal.Line.U7 m' c (Proc.devRef .tc Cert.ReferenceIdeal.main_arg3) from Cert.ReferenceIdeal.Kept.keep7 m' c Cert.ReferenceIdeal.main_arg3 (by decide)).trans ((show Cert.ReferenceIdeal.Line.U7 m' c (Proc.devRef .tc Cert.ReferenceIdeal.main_arg3) = Cert.ReferenceIdeal.Line.U6 m' c (Proc.devRef .tc Cert.ReferenceIdeal.main_arg3) from Cert.ReferenceIdeal.Kept.keep6 m' c Cert.ReferenceIdeal.main_arg3 (by decide)).trans ((show Cert.ReferenceIdeal.Line.U6 m' c (Proc.devRef .tc Cert.ReferenceIdeal.main_arg3) = Cert.ReferenceIdeal.Line.U5 m' c (Proc.devRef .tc Cert.ReferenceIdeal.main_arg3) from Cert.ReferenceIdeal.Kept.keep5 m' c Cert.ReferenceIdeal.main_arg3 (by decide)).trans ((show Cert.ReferenceIdeal.Line.U5 m' c (Proc.devRef .tc Cert.ReferenceIdeal.main_arg3) = Cert.ReferenceIdeal.Line.U4 m' c (Proc.devRef .tc Cert.ReferenceIdeal.main_arg3) from Cert.ReferenceIdeal.Kept.keep4 m' c Cert.ReferenceIdeal.main_arg3 (by decide)).trans ((show Cert.ReferenceIdeal.Line.U4 m' c (Proc.devRef .tc Cert.ReferenceIdeal.main_arg3) = Cert.ReferenceIdeal.Line.U3 m' c (Proc.devRef .tc Cert.ReferenceIdeal.main_arg3) from Cert.ReferenceIdeal.Kept.keep3 m' c Cert.ReferenceIdeal.main_arg3 (by decide)).trans ((show Cert.ReferenceIdeal.Line.U3 m' c (Proc.devRef .tc Cert.ReferenceIdeal.main_arg3) = Cert.ReferenceIdeal.Line.U2 m' c (Proc.devRef .tc Cert.ReferenceIdeal.main_arg3) from Cert.ReferenceIdeal.Kept.keep2 m' c Cert.ReferenceIdeal.main_arg3 (by decide)).trans ((show Cert.ReferenceIdeal.Line.U2 m' c (Proc.devRef .tc Cert.ReferenceIdeal.main_arg3) = Cert.ReferenceIdeal.Line.U1 m' c (Proc.devRef .tc Cert.ReferenceIdeal.main_arg3) from Cert.ReferenceIdeal.Kept.keep1 m' c Cert.ReferenceIdeal.main_arg3 (by decide)).trans (show Cert.ReferenceIdeal.Line.U1 m' c (Proc.devRef .tc Cert.ReferenceIdeal.main_arg3) = Cert.ReferenceIdeal.Line.U0 m' c (Proc.devRef .tc Cert.ReferenceIdeal.main_arg3) from Cert.ReferenceIdeal.Kept.keep0 m' c Cert.ReferenceIdeal.main_arg3 (by decide))))))))))))))).trans rfl

theorem ref_arg4 : StableHlo.after Cert.ReferenceIdeal.Line.ops (launchContents m' c) (Proc.devRef .tc Cert.ReferenceIdeal.main_arg4) = m' ((c.tc : Thread Cert.ReferenceIdeal.nD Cert.ReferenceIdeal.τ).loc Cert.ReferenceIdeal.main_arg4) := by
  rw [Cert.ReferenceIdeal.Line.after_ops]
  exact (((show Cert.ReferenceIdeal.Line.U13 m' c (Proc.devRef .tc Cert.ReferenceIdeal.main_arg4) = Cert.ReferenceIdeal.Line.U12 m' c (Proc.devRef .tc Cert.ReferenceIdeal.main_arg4) from Cert.ReferenceIdeal.Kept.keep12 m' c Cert.ReferenceIdeal.main_arg4 (by decide)).trans ((show Cert.ReferenceIdeal.Line.U12 m' c (Proc.devRef .tc Cert.ReferenceIdeal.main_arg4) = Cert.ReferenceIdeal.Line.U11 m' c (Proc.devRef .tc Cert.ReferenceIdeal.main_arg4) from Cert.ReferenceIdeal.Kept.keep11 m' c Cert.ReferenceIdeal.main_arg4 (by decide)).trans ((show Cert.ReferenceIdeal.Line.U11 m' c (Proc.devRef .tc Cert.ReferenceIdeal.main_arg4) = Cert.ReferenceIdeal.Line.U10 m' c (Proc.devRef .tc Cert.ReferenceIdeal.main_arg4) from Cert.ReferenceIdeal.Kept.keep10 m' c Cert.ReferenceIdeal.main_arg4 (by decide)).trans ((show Cert.ReferenceIdeal.Line.U10 m' c (Proc.devRef .tc Cert.ReferenceIdeal.main_arg4) = Cert.ReferenceIdeal.Line.U9 m' c (Proc.devRef .tc Cert.ReferenceIdeal.main_arg4) from Cert.ReferenceIdeal.Kept.keep9 m' c Cert.ReferenceIdeal.main_arg4 (by decide)).trans ((show Cert.ReferenceIdeal.Line.U9 m' c (Proc.devRef .tc Cert.ReferenceIdeal.main_arg4) = Cert.ReferenceIdeal.Line.U8 m' c (Proc.devRef .tc Cert.ReferenceIdeal.main_arg4) from Cert.ReferenceIdeal.Kept.keep8 m' c Cert.ReferenceIdeal.main_arg4 (by decide)).trans ((show Cert.ReferenceIdeal.Line.U8 m' c (Proc.devRef .tc Cert.ReferenceIdeal.main_arg4) = Cert.ReferenceIdeal.Line.U7 m' c (Proc.devRef .tc Cert.ReferenceIdeal.main_arg4) from Cert.ReferenceIdeal.Kept.keep7 m' c Cert.ReferenceIdeal.main_arg4 (by decide)).trans ((show Cert.ReferenceIdeal.Line.U7 m' c (Proc.devRef .tc Cert.ReferenceIdeal.main_arg4) = Cert.ReferenceIdeal.Line.U6 m' c (Proc.devRef .tc Cert.ReferenceIdeal.main_arg4) from Cert.ReferenceIdeal.Kept.keep6 m' c Cert.ReferenceIdeal.main_arg4 (by decide)).trans ((show Cert.ReferenceIdeal.Line.U6 m' c (Proc.devRef .tc Cert.ReferenceIdeal.main_arg4) = Cert.ReferenceIdeal.Line.U5 m' c (Proc.devRef .tc Cert.ReferenceIdeal.main_arg4) from Cert.ReferenceIdeal.Kept.keep5 m' c Cert.ReferenceIdeal.main_arg4 (by decide)).trans ((show Cert.ReferenceIdeal.Line.U5 m' c (Proc.devRef .tc Cert.ReferenceIdeal.main_arg4) = Cert.ReferenceIdeal.Line.U4 m' c (Proc.devRef .tc Cert.ReferenceIdeal.main_arg4) from Cert.ReferenceIdeal.Kept.keep4 m' c Cert.ReferenceIdeal.main_arg4 (by decide)).trans ((show Cert.ReferenceIdeal.Line.U4 m' c (Proc.devRef .tc Cert.ReferenceIdeal.main_arg4) = Cert.ReferenceIdeal.Line.U3 m' c (Proc.devRef .tc Cert.ReferenceIdeal.main_arg4) from Cert.ReferenceIdeal.Kept.keep3 m' c Cert.ReferenceIdeal.main_arg4 (by decide)).trans ((show Cert.ReferenceIdeal.Line.U3 m' c (Proc.devRef .tc Cert.ReferenceIdeal.main_arg4) = Cert.ReferenceIdeal.Line.U2 m' c (Proc.devRef .tc Cert.ReferenceIdeal.main_arg4) from Cert.ReferenceIdeal.Kept.keep2 m' c Cert.ReferenceIdeal.main_arg4 (by decide)).trans ((show Cert.ReferenceIdeal.Line.U2 m' c (Proc.devRef .tc Cert.ReferenceIdeal.main_arg4) = Cert.ReferenceIdeal.Line.U1 m' c (Proc.devRef .tc Cert.ReferenceIdeal.main_arg4) from Cert.ReferenceIdeal.Kept.keep1 m' c Cert.ReferenceIdeal.main_arg4 (by decide)).trans (show Cert.ReferenceIdeal.Line.U1 m' c (Proc.devRef .tc Cert.ReferenceIdeal.main_arg4) = Cert.ReferenceIdeal.Line.U0 m' c (Proc.devRef .tc Cert.ReferenceIdeal.main_arg4) from Cert.ReferenceIdeal.Kept.keep0 m' c Cert.ReferenceIdeal.main_arg4 (by decide))))))))))))))).trans rfl

theorem ref_arg5 : StableHlo.after Cert.ReferenceIdeal.Line.ops (launchContents m' c) (Proc.devRef .tc Cert.ReferenceIdeal.main_arg5) = m' ((c.tc : Thread Cert.ReferenceIdeal.nD Cert.ReferenceIdeal.τ).loc Cert.ReferenceIdeal.main_arg5) := by
  rw [Cert.ReferenceIdeal.Line.after_ops]
  exact (((show Cert.ReferenceIdeal.Line.U13 m' c (Proc.devRef .tc Cert.ReferenceIdeal.main_arg5) = Cert.ReferenceIdeal.Line.U12 m' c (Proc.devRef .tc Cert.ReferenceIdeal.main_arg5) from Cert.ReferenceIdeal.Kept.keep12 m' c Cert.ReferenceIdeal.main_arg5 (by decide)).trans ((show Cert.ReferenceIdeal.Line.U12 m' c (Proc.devRef .tc Cert.ReferenceIdeal.main_arg5) = Cert.ReferenceIdeal.Line.U11 m' c (Proc.devRef .tc Cert.ReferenceIdeal.main_arg5) from Cert.ReferenceIdeal.Kept.keep11 m' c Cert.ReferenceIdeal.main_arg5 (by decide)).trans ((show Cert.ReferenceIdeal.Line.U11 m' c (Proc.devRef .tc Cert.ReferenceIdeal.main_arg5) = Cert.ReferenceIdeal.Line.U10 m' c (Proc.devRef .tc Cert.ReferenceIdeal.main_arg5) from Cert.ReferenceIdeal.Kept.keep10 m' c Cert.ReferenceIdeal.main_arg5 (by decide)).trans ((show Cert.ReferenceIdeal.Line.U10 m' c (Proc.devRef .tc Cert.ReferenceIdeal.main_arg5) = Cert.ReferenceIdeal.Line.U9 m' c (Proc.devRef .tc Cert.ReferenceIdeal.main_arg5) from Cert.ReferenceIdeal.Kept.keep9 m' c Cert.ReferenceIdeal.main_arg5 (by decide)).trans ((show Cert.ReferenceIdeal.Line.U9 m' c (Proc.devRef .tc Cert.ReferenceIdeal.main_arg5) = Cert.ReferenceIdeal.Line.U8 m' c (Proc.devRef .tc Cert.ReferenceIdeal.main_arg5) from Cert.ReferenceIdeal.Kept.keep8 m' c Cert.ReferenceIdeal.main_arg5 (by decide)).trans ((show Cert.ReferenceIdeal.Line.U8 m' c (Proc.devRef .tc Cert.ReferenceIdeal.main_arg5) = Cert.ReferenceIdeal.Line.U7 m' c (Proc.devRef .tc Cert.ReferenceIdeal.main_arg5) from Cert.ReferenceIdeal.Kept.keep7 m' c Cert.ReferenceIdeal.main_arg5 (by decide)).trans ((show Cert.ReferenceIdeal.Line.U7 m' c (Proc.devRef .tc Cert.ReferenceIdeal.main_arg5) = Cert.ReferenceIdeal.Line.U6 m' c (Proc.devRef .tc Cert.ReferenceIdeal.main_arg5) from Cert.ReferenceIdeal.Kept.keep6 m' c Cert.ReferenceIdeal.main_arg5 (by decide)).trans ((show Cert.ReferenceIdeal.Line.U6 m' c (Proc.devRef .tc Cert.ReferenceIdeal.main_arg5) = Cert.ReferenceIdeal.Line.U5 m' c (Proc.devRef .tc Cert.ReferenceIdeal.main_arg5) from Cert.ReferenceIdeal.Kept.keep5 m' c Cert.ReferenceIdeal.main_arg5 (by decide)).trans ((show Cert.ReferenceIdeal.Line.U5 m' c (Proc.devRef .tc Cert.ReferenceIdeal.main_arg5) = Cert.ReferenceIdeal.Line.U4 m' c (Proc.devRef .tc Cert.ReferenceIdeal.main_arg5) from Cert.ReferenceIdeal.Kept.keep4 m' c Cert.ReferenceIdeal.main_arg5 (by decide)).trans ((show Cert.ReferenceIdeal.Line.U4 m' c (Proc.devRef .tc Cert.ReferenceIdeal.main_arg5) = Cert.ReferenceIdeal.Line.U3 m' c (Proc.devRef .tc Cert.ReferenceIdeal.main_arg5) from Cert.ReferenceIdeal.Kept.keep3 m' c Cert.ReferenceIdeal.main_arg5 (by decide)).trans ((show Cert.ReferenceIdeal.Line.U3 m' c (Proc.devRef .tc Cert.ReferenceIdeal.main_arg5) = Cert.ReferenceIdeal.Line.U2 m' c (Proc.devRef .tc Cert.ReferenceIdeal.main_arg5) from Cert.ReferenceIdeal.Kept.keep2 m' c Cert.ReferenceIdeal.main_arg5 (by decide)).trans ((show Cert.ReferenceIdeal.Line.U2 m' c (Proc.devRef .tc Cert.ReferenceIdeal.main_arg5) = Cert.ReferenceIdeal.Line.U1 m' c (Proc.devRef .tc Cert.ReferenceIdeal.main_arg5) from Cert.ReferenceIdeal.Kept.keep1 m' c Cert.ReferenceIdeal.main_arg5 (by decide)).trans (show Cert.ReferenceIdeal.Line.U1 m' c (Proc.devRef .tc Cert.ReferenceIdeal.main_arg5) = Cert.ReferenceIdeal.Line.U0 m' c (Proc.devRef .tc Cert.ReferenceIdeal.main_arg5) from Cert.ReferenceIdeal.Kept.keep0 m' c Cert.ReferenceIdeal.main_arg5 (by decide))))))))))))))).trans rfl

theorem ref_arg6 : StableHlo.after Cert.ReferenceIdeal.Line.ops (launchContents m' c) (Proc.devRef .tc Cert.ReferenceIdeal.main_arg6) = m' ((c.tc : Thread Cert.ReferenceIdeal.nD Cert.ReferenceIdeal.τ).loc Cert.ReferenceIdeal.main_arg6) := by
  rw [Cert.ReferenceIdeal.Line.after_ops]
  exact (((show Cert.ReferenceIdeal.Line.U13 m' c (Proc.devRef .tc Cert.ReferenceIdeal.main_arg6) = Cert.ReferenceIdeal.Line.U12 m' c (Proc.devRef .tc Cert.ReferenceIdeal.main_arg6) from Cert.ReferenceIdeal.Kept.keep12 m' c Cert.ReferenceIdeal.main_arg6 (by decide)).trans ((show Cert.ReferenceIdeal.Line.U12 m' c (Proc.devRef .tc Cert.ReferenceIdeal.main_arg6) = Cert.ReferenceIdeal.Line.U11 m' c (Proc.devRef .tc Cert.ReferenceIdeal.main_arg6) from Cert.ReferenceIdeal.Kept.keep11 m' c Cert.ReferenceIdeal.main_arg6 (by decide)).trans ((show Cert.ReferenceIdeal.Line.U11 m' c (Proc.devRef .tc Cert.ReferenceIdeal.main_arg6) = Cert.ReferenceIdeal.Line.U10 m' c (Proc.devRef .tc Cert.ReferenceIdeal.main_arg6) from Cert.ReferenceIdeal.Kept.keep10 m' c Cert.ReferenceIdeal.main_arg6 (by decide)).trans ((show Cert.ReferenceIdeal.Line.U10 m' c (Proc.devRef .tc Cert.ReferenceIdeal.main_arg6) = Cert.ReferenceIdeal.Line.U9 m' c (Proc.devRef .tc Cert.ReferenceIdeal.main_arg6) from Cert.ReferenceIdeal.Kept.keep9 m' c Cert.ReferenceIdeal.main_arg6 (by decide)).trans ((show Cert.ReferenceIdeal.Line.U9 m' c (Proc.devRef .tc Cert.ReferenceIdeal.main_arg6) = Cert.ReferenceIdeal.Line.U8 m' c (Proc.devRef .tc Cert.ReferenceIdeal.main_arg6) from Cert.ReferenceIdeal.Kept.keep8 m' c Cert.ReferenceIdeal.main_arg6 (by decide)).trans ((show Cert.ReferenceIdeal.Line.U8 m' c (Proc.devRef .tc Cert.ReferenceIdeal.main_arg6) = Cert.ReferenceIdeal.Line.U7 m' c (Proc.devRef .tc Cert.ReferenceIdeal.main_arg6) from Cert.ReferenceIdeal.Kept.keep7 m' c Cert.ReferenceIdeal.main_arg6 (by decide)).trans ((show Cert.ReferenceIdeal.Line.U7 m' c (Proc.devRef .tc Cert.ReferenceIdeal.main_arg6) = Cert.ReferenceIdeal.Line.U6 m' c (Proc.devRef .tc Cert.ReferenceIdeal.main_arg6) from Cert.ReferenceIdeal.Kept.keep6 m' c Cert.ReferenceIdeal.main_arg6 (by decide)).trans ((show Cert.ReferenceIdeal.Line.U6 m' c (Proc.devRef .tc Cert.ReferenceIdeal.main_arg6) = Cert.ReferenceIdeal.Line.U5 m' c (Proc.devRef .tc Cert.ReferenceIdeal.main_arg6) from Cert.ReferenceIdeal.Kept.keep5 m' c Cert.ReferenceIdeal.main_arg6 (by decide)).trans ((show Cert.ReferenceIdeal.Line.U5 m' c (Proc.devRef .tc Cert.ReferenceIdeal.main_arg6) = Cert.ReferenceIdeal.Line.U4 m' c (Proc.devRef .tc Cert.ReferenceIdeal.main_arg6) from Cert.ReferenceIdeal.Kept.keep4 m' c Cert.ReferenceIdeal.main_arg6 (by decide)).trans ((show Cert.ReferenceIdeal.Line.U4 m' c (Proc.devRef .tc Cert.ReferenceIdeal.main_arg6) = Cert.ReferenceIdeal.Line.U3 m' c (Proc.devRef .tc Cert.ReferenceIdeal.main_arg6) from Cert.ReferenceIdeal.Kept.keep3 m' c Cert.ReferenceIdeal.main_arg6 (by decide)).trans ((show Cert.ReferenceIdeal.Line.U3 m' c (Proc.devRef .tc Cert.ReferenceIdeal.main_arg6) = Cert.ReferenceIdeal.Line.U2 m' c (Proc.devRef .tc Cert.ReferenceIdeal.main_arg6) from Cert.ReferenceIdeal.Kept.keep2 m' c Cert.ReferenceIdeal.main_arg6 (by decide)).trans ((show Cert.ReferenceIdeal.Line.U2 m' c (Proc.devRef .tc Cert.ReferenceIdeal.main_arg6) = Cert.ReferenceIdeal.Line.U1 m' c (Proc.devRef .tc Cert.ReferenceIdeal.main_arg6) from Cert.ReferenceIdeal.Kept.keep1 m' c Cert.ReferenceIdeal.main_arg6 (by decide)).trans (show Cert.ReferenceIdeal.Line.U1 m' c (Proc.devRef .tc Cert.ReferenceIdeal.main_arg6) = Cert.ReferenceIdeal.Line.U0 m' c (Proc.devRef .tc Cert.ReferenceIdeal.main_arg6) from Cert.ReferenceIdeal.Kept.keep0 m' c Cert.ReferenceIdeal.main_arg6 (by decide))))))))))))))).trans rfl

theorem ref_arg7 : StableHlo.after Cert.ReferenceIdeal.Line.ops (launchContents m' c) (Proc.devRef .tc Cert.ReferenceIdeal.main_arg7) = m' ((c.tc : Thread Cert.ReferenceIdeal.nD Cert.ReferenceIdeal.τ).loc Cert.ReferenceIdeal.main_arg7) := by
  rw [Cert.ReferenceIdeal.Line.after_ops]
  exact (((show Cert.ReferenceIdeal.Line.U13 m' c (Proc.devRef .tc Cert.ReferenceIdeal.main_arg7) = Cert.ReferenceIdeal.Line.U12 m' c (Proc.devRef .tc Cert.ReferenceIdeal.main_arg7) from Cert.ReferenceIdeal.Kept.keep12 m' c Cert.ReferenceIdeal.main_arg7 (by decide)).trans ((show Cert.ReferenceIdeal.Line.U12 m' c (Proc.devRef .tc Cert.ReferenceIdeal.main_arg7) = Cert.ReferenceIdeal.Line.U11 m' c (Proc.devRef .tc Cert.ReferenceIdeal.main_arg7) from Cert.ReferenceIdeal.Kept.keep11 m' c Cert.ReferenceIdeal.main_arg7 (by decide)).trans ((show Cert.ReferenceIdeal.Line.U11 m' c (Proc.devRef .tc Cert.ReferenceIdeal.main_arg7) = Cert.ReferenceIdeal.Line.U10 m' c (Proc.devRef .tc Cert.ReferenceIdeal.main_arg7) from Cert.ReferenceIdeal.Kept.keep10 m' c Cert.ReferenceIdeal.main_arg7 (by decide)).trans ((show Cert.ReferenceIdeal.Line.U10 m' c (Proc.devRef .tc Cert.ReferenceIdeal.main_arg7) = Cert.ReferenceIdeal.Line.U9 m' c (Proc.devRef .tc Cert.ReferenceIdeal.main_arg7) from Cert.ReferenceIdeal.Kept.keep9 m' c Cert.ReferenceIdeal.main_arg7 (by decide)).trans ((show Cert.ReferenceIdeal.Line.U9 m' c (Proc.devRef .tc Cert.ReferenceIdeal.main_arg7) = Cert.ReferenceIdeal.Line.U8 m' c (Proc.devRef .tc Cert.ReferenceIdeal.main_arg7) from Cert.ReferenceIdeal.Kept.keep8 m' c Cert.ReferenceIdeal.main_arg7 (by decide)).trans ((show Cert.ReferenceIdeal.Line.U8 m' c (Proc.devRef .tc Cert.ReferenceIdeal.main_arg7) = Cert.ReferenceIdeal.Line.U7 m' c (Proc.devRef .tc Cert.ReferenceIdeal.main_arg7) from Cert.ReferenceIdeal.Kept.keep7 m' c Cert.ReferenceIdeal.main_arg7 (by decide)).trans ((show Cert.ReferenceIdeal.Line.U7 m' c (Proc.devRef .tc Cert.ReferenceIdeal.main_arg7) = Cert.ReferenceIdeal.Line.U6 m' c (Proc.devRef .tc Cert.ReferenceIdeal.main_arg7) from Cert.ReferenceIdeal.Kept.keep6 m' c Cert.ReferenceIdeal.main_arg7 (by decide)).trans ((show Cert.ReferenceIdeal.Line.U6 m' c (Proc.devRef .tc Cert.ReferenceIdeal.main_arg7) = Cert.ReferenceIdeal.Line.U5 m' c (Proc.devRef .tc Cert.ReferenceIdeal.main_arg7) from Cert.ReferenceIdeal.Kept.keep5 m' c Cert.ReferenceIdeal.main_arg7 (by decide)).trans ((show Cert.ReferenceIdeal.Line.U5 m' c (Proc.devRef .tc Cert.ReferenceIdeal.main_arg7) = Cert.ReferenceIdeal.Line.U4 m' c (Proc.devRef .tc Cert.ReferenceIdeal.main_arg7) from Cert.ReferenceIdeal.Kept.keep4 m' c Cert.ReferenceIdeal.main_arg7 (by decide)).trans ((show Cert.ReferenceIdeal.Line.U4 m' c (Proc.devRef .tc Cert.ReferenceIdeal.main_arg7) = Cert.ReferenceIdeal.Line.U3 m' c (Proc.devRef .tc Cert.ReferenceIdeal.main_arg7) from Cert.ReferenceIdeal.Kept.keep3 m' c Cert.ReferenceIdeal.main_arg7 (by decide)).trans ((show Cert.ReferenceIdeal.Line.U3 m' c (Proc.devRef .tc Cert.ReferenceIdeal.main_arg7) = Cert.ReferenceIdeal.Line.U2 m' c (Proc.devRef .tc Cert.ReferenceIdeal.main_arg7) from Cert.ReferenceIdeal.Kept.keep2 m' c Cert.ReferenceIdeal.main_arg7 (by decide)).trans ((show Cert.ReferenceIdeal.Line.U2 m' c (Proc.devRef .tc Cert.ReferenceIdeal.main_arg7) = Cert.ReferenceIdeal.Line.U1 m' c (Proc.devRef .tc Cert.ReferenceIdeal.main_arg7) from Cert.ReferenceIdeal.Kept.keep1 m' c Cert.ReferenceIdeal.main_arg7 (by decide)).trans (show Cert.ReferenceIdeal.Line.U1 m' c (Proc.devRef .tc Cert.ReferenceIdeal.main_arg7) = Cert.ReferenceIdeal.Line.U0 m' c (Proc.devRef .tc Cert.ReferenceIdeal.main_arg7) from Cert.ReferenceIdeal.Kept.keep0 m' c Cert.ReferenceIdeal.main_arg7 (by decide))))))))))))))).trans rfl

theorem ref_arg8 : StableHlo.after Cert.ReferenceIdeal.Line.ops (launchContents m' c) (Proc.devRef .tc Cert.ReferenceIdeal.main_arg8) = m' ((c.tc : Thread Cert.ReferenceIdeal.nD Cert.ReferenceIdeal.τ).loc Cert.ReferenceIdeal.main_arg8) := by
  rw [Cert.ReferenceIdeal.Line.after_ops]
  exact (((show Cert.ReferenceIdeal.Line.U13 m' c (Proc.devRef .tc Cert.ReferenceIdeal.main_arg8) = Cert.ReferenceIdeal.Line.U12 m' c (Proc.devRef .tc Cert.ReferenceIdeal.main_arg8) from Cert.ReferenceIdeal.Kept.keep12 m' c Cert.ReferenceIdeal.main_arg8 (by decide)).trans ((show Cert.ReferenceIdeal.Line.U12 m' c (Proc.devRef .tc Cert.ReferenceIdeal.main_arg8) = Cert.ReferenceIdeal.Line.U11 m' c (Proc.devRef .tc Cert.ReferenceIdeal.main_arg8) from Cert.ReferenceIdeal.Kept.keep11 m' c Cert.ReferenceIdeal.main_arg8 (by decide)).trans ((show Cert.ReferenceIdeal.Line.U11 m' c (Proc.devRef .tc Cert.ReferenceIdeal.main_arg8) = Cert.ReferenceIdeal.Line.U10 m' c (Proc.devRef .tc Cert.ReferenceIdeal.main_arg8) from Cert.ReferenceIdeal.Kept.keep10 m' c Cert.ReferenceIdeal.main_arg8 (by decide)).trans ((show Cert.ReferenceIdeal.Line.U10 m' c (Proc.devRef .tc Cert.ReferenceIdeal.main_arg8) = Cert.ReferenceIdeal.Line.U9 m' c (Proc.devRef .tc Cert.ReferenceIdeal.main_arg8) from Cert.ReferenceIdeal.Kept.keep9 m' c Cert.ReferenceIdeal.main_arg8 (by decide)).trans ((show Cert.ReferenceIdeal.Line.U9 m' c (Proc.devRef .tc Cert.ReferenceIdeal.main_arg8) = Cert.ReferenceIdeal.Line.U8 m' c (Proc.devRef .tc Cert.ReferenceIdeal.main_arg8) from Cert.ReferenceIdeal.Kept.keep8 m' c Cert.ReferenceIdeal.main_arg8 (by decide)).trans ((show Cert.ReferenceIdeal.Line.U8 m' c (Proc.devRef .tc Cert.ReferenceIdeal.main_arg8) = Cert.ReferenceIdeal.Line.U7 m' c (Proc.devRef .tc Cert.ReferenceIdeal.main_arg8) from Cert.ReferenceIdeal.Kept.keep7 m' c Cert.ReferenceIdeal.main_arg8 (by decide)).trans ((show Cert.ReferenceIdeal.Line.U7 m' c (Proc.devRef .tc Cert.ReferenceIdeal.main_arg8) = Cert.ReferenceIdeal.Line.U6 m' c (Proc.devRef .tc Cert.ReferenceIdeal.main_arg8) from Cert.ReferenceIdeal.Kept.keep6 m' c Cert.ReferenceIdeal.main_arg8 (by decide)).trans ((show Cert.ReferenceIdeal.Line.U6 m' c (Proc.devRef .tc Cert.ReferenceIdeal.main_arg8) = Cert.ReferenceIdeal.Line.U5 m' c (Proc.devRef .tc Cert.ReferenceIdeal.main_arg8) from Cert.ReferenceIdeal.Kept.keep5 m' c Cert.ReferenceIdeal.main_arg8 (by decide)).trans ((show Cert.ReferenceIdeal.Line.U5 m' c (Proc.devRef .tc Cert.ReferenceIdeal.main_arg8) = Cert.ReferenceIdeal.Line.U4 m' c (Proc.devRef .tc Cert.ReferenceIdeal.main_arg8) from Cert.ReferenceIdeal.Kept.keep4 m' c Cert.ReferenceIdeal.main_arg8 (by decide)).trans ((show Cert.ReferenceIdeal.Line.U4 m' c (Proc.devRef .tc Cert.ReferenceIdeal.main_arg8) = Cert.ReferenceIdeal.Line.U3 m' c (Proc.devRef .tc Cert.ReferenceIdeal.main_arg8) from Cert.ReferenceIdeal.Kept.keep3 m' c Cert.ReferenceIdeal.main_arg8 (by decide)).trans ((show Cert.ReferenceIdeal.Line.U3 m' c (Proc.devRef .tc Cert.ReferenceIdeal.main_arg8) = Cert.ReferenceIdeal.Line.U2 m' c (Proc.devRef .tc Cert.ReferenceIdeal.main_arg8) from Cert.ReferenceIdeal.Kept.keep2 m' c Cert.ReferenceIdeal.main_arg8 (by decide)).trans ((show Cert.ReferenceIdeal.Line.U2 m' c (Proc.devRef .tc Cert.ReferenceIdeal.main_arg8) = Cert.ReferenceIdeal.Line.U1 m' c (Proc.devRef .tc Cert.ReferenceIdeal.main_arg8) from Cert.ReferenceIdeal.Kept.keep1 m' c Cert.ReferenceIdeal.main_arg8 (by decide)).trans (show Cert.ReferenceIdeal.Line.U1 m' c (Proc.devRef .tc Cert.ReferenceIdeal.main_arg8) = Cert.ReferenceIdeal.Line.U0 m' c (Proc.devRef .tc Cert.ReferenceIdeal.main_arg8) from Cert.ReferenceIdeal.Kept.keep0 m' c Cert.ReferenceIdeal.main_arg8 (by decide))))))))))))))).trans rfl

theorem ref_arg9 : StableHlo.after Cert.ReferenceIdeal.Line.ops (launchContents m' c) (Proc.devRef .tc Cert.ReferenceIdeal.main_arg9) = m' ((c.tc : Thread Cert.ReferenceIdeal.nD Cert.ReferenceIdeal.τ).loc Cert.ReferenceIdeal.main_arg9) := by
  rw [Cert.ReferenceIdeal.Line.after_ops]
  exact (((show Cert.ReferenceIdeal.Line.U13 m' c (Proc.devRef .tc Cert.ReferenceIdeal.main_arg9) = Cert.ReferenceIdeal.Line.U12 m' c (Proc.devRef .tc Cert.ReferenceIdeal.main_arg9) from Cert.ReferenceIdeal.Kept.keep12 m' c Cert.ReferenceIdeal.main_arg9 (by decide)).trans ((show Cert.ReferenceIdeal.Line.U12 m' c (Proc.devRef .tc Cert.ReferenceIdeal.main_arg9) = Cert.ReferenceIdeal.Line.U11 m' c (Proc.devRef .tc Cert.ReferenceIdeal.main_arg9) from Cert.ReferenceIdeal.Kept.keep11 m' c Cert.ReferenceIdeal.main_arg9 (by decide)).trans ((show Cert.ReferenceIdeal.Line.U11 m' c (Proc.devRef .tc Cert.ReferenceIdeal.main_arg9) = Cert.ReferenceIdeal.Line.U10 m' c (Proc.devRef .tc Cert.ReferenceIdeal.main_arg9) from Cert.ReferenceIdeal.Kept.keep10 m' c Cert.ReferenceIdeal.main_arg9 (by decide)).trans ((show Cert.ReferenceIdeal.Line.U10 m' c (Proc.devRef .tc Cert.ReferenceIdeal.main_arg9) = Cert.ReferenceIdeal.Line.U9 m' c (Proc.devRef .tc Cert.ReferenceIdeal.main_arg9) from Cert.ReferenceIdeal.Kept.keep9 m' c Cert.ReferenceIdeal.main_arg9 (by decide)).trans ((show Cert.ReferenceIdeal.Line.U9 m' c (Proc.devRef .tc Cert.ReferenceIdeal.main_arg9) = Cert.ReferenceIdeal.Line.U8 m' c (Proc.devRef .tc Cert.ReferenceIdeal.main_arg9) from Cert.ReferenceIdeal.Kept.keep8 m' c Cert.ReferenceIdeal.main_arg9 (by decide)).trans ((show Cert.ReferenceIdeal.Line.U8 m' c (Proc.devRef .tc Cert.ReferenceIdeal.main_arg9) = Cert.ReferenceIdeal.Line.U7 m' c (Proc.devRef .tc Cert.ReferenceIdeal.main_arg9) from Cert.ReferenceIdeal.Kept.keep7 m' c Cert.ReferenceIdeal.main_arg9 (by decide)).trans ((show Cert.ReferenceIdeal.Line.U7 m' c (Proc.devRef .tc Cert.ReferenceIdeal.main_arg9) = Cert.ReferenceIdeal.Line.U6 m' c (Proc.devRef .tc Cert.ReferenceIdeal.main_arg9) from Cert.ReferenceIdeal.Kept.keep6 m' c Cert.ReferenceIdeal.main_arg9 (by decide)).trans ((show Cert.ReferenceIdeal.Line.U6 m' c (Proc.devRef .tc Cert.ReferenceIdeal.main_arg9) = Cert.ReferenceIdeal.Line.U5 m' c (Proc.devRef .tc Cert.ReferenceIdeal.main_arg9) from Cert.ReferenceIdeal.Kept.keep5 m' c Cert.ReferenceIdeal.main_arg9 (by decide)).trans ((show Cert.ReferenceIdeal.Line.U5 m' c (Proc.devRef .tc Cert.ReferenceIdeal.main_arg9) = Cert.ReferenceIdeal.Line.U4 m' c (Proc.devRef .tc Cert.ReferenceIdeal.main_arg9) from Cert.ReferenceIdeal.Kept.keep4 m' c Cert.ReferenceIdeal.main_arg9 (by decide)).trans ((show Cert.ReferenceIdeal.Line.U4 m' c (Proc.devRef .tc Cert.ReferenceIdeal.main_arg9) = Cert.ReferenceIdeal.Line.U3 m' c (Proc.devRef .tc Cert.ReferenceIdeal.main_arg9) from Cert.ReferenceIdeal.Kept.keep3 m' c Cert.ReferenceIdeal.main_arg9 (by decide)).trans ((show Cert.ReferenceIdeal.Line.U3 m' c (Proc.devRef .tc Cert.ReferenceIdeal.main_arg9) = Cert.ReferenceIdeal.Line.U2 m' c (Proc.devRef .tc Cert.ReferenceIdeal.main_arg9) from Cert.ReferenceIdeal.Kept.keep2 m' c Cert.ReferenceIdeal.main_arg9 (by decide)).trans ((show Cert.ReferenceIdeal.Line.U2 m' c (Proc.devRef .tc Cert.ReferenceIdeal.main_arg9) = Cert.ReferenceIdeal.Line.U1 m' c (Proc.devRef .tc Cert.ReferenceIdeal.main_arg9) from Cert.ReferenceIdeal.Kept.keep1 m' c Cert.ReferenceIdeal.main_arg9 (by decide)).trans (show Cert.ReferenceIdeal.Line.U1 m' c (Proc.devRef .tc Cert.ReferenceIdeal.main_arg9) = Cert.ReferenceIdeal.Line.U0 m' c (Proc.devRef .tc Cert.ReferenceIdeal.main_arg9) from Cert.ReferenceIdeal.Kept.keep0 m' c Cert.ReferenceIdeal.main_arg9 (by decide))))))))))))))).trans rfl

theorem ref_arg10 : StableHlo.after Cert.ReferenceIdeal.Line.ops (launchContents m' c) (Proc.devRef .tc Cert.ReferenceIdeal.main_arg10) = m' ((c.tc : Thread Cert.ReferenceIdeal.nD Cert.ReferenceIdeal.τ).loc Cert.ReferenceIdeal.main_arg10) := by
  rw [Cert.ReferenceIdeal.Line.after_ops]
  exact (((show Cert.ReferenceIdeal.Line.U13 m' c (Proc.devRef .tc Cert.ReferenceIdeal.main_arg10) = Cert.ReferenceIdeal.Line.U12 m' c (Proc.devRef .tc Cert.ReferenceIdeal.main_arg10) from Cert.ReferenceIdeal.Kept.keep12 m' c Cert.ReferenceIdeal.main_arg10 (by decide)).trans ((show Cert.ReferenceIdeal.Line.U12 m' c (Proc.devRef .tc Cert.ReferenceIdeal.main_arg10) = Cert.ReferenceIdeal.Line.U11 m' c (Proc.devRef .tc Cert.ReferenceIdeal.main_arg10) from Cert.ReferenceIdeal.Kept.keep11 m' c Cert.ReferenceIdeal.main_arg10 (by decide)).trans ((show Cert.ReferenceIdeal.Line.U11 m' c (Proc.devRef .tc Cert.ReferenceIdeal.main_arg10) = Cert.ReferenceIdeal.Line.U10 m' c (Proc.devRef .tc Cert.ReferenceIdeal.main_arg10) from Cert.ReferenceIdeal.Kept.keep10 m' c Cert.ReferenceIdeal.main_arg10 (by decide)).trans ((show Cert.ReferenceIdeal.Line.U10 m' c (Proc.devRef .tc Cert.ReferenceIdeal.main_arg10) = Cert.ReferenceIdeal.Line.U9 m' c (Proc.devRef .tc Cert.ReferenceIdeal.main_arg10) from Cert.ReferenceIdeal.Kept.keep9 m' c Cert.ReferenceIdeal.main_arg10 (by decide)).trans ((show Cert.ReferenceIdeal.Line.U9 m' c (Proc.devRef .tc Cert.ReferenceIdeal.main_arg10) = Cert.ReferenceIdeal.Line.U8 m' c (Proc.devRef .tc Cert.ReferenceIdeal.main_arg10) from Cert.ReferenceIdeal.Kept.keep8 m' c Cert.ReferenceIdeal.main_arg10 (by decide)).trans ((show Cert.ReferenceIdeal.Line.U8 m' c (Proc.devRef .tc Cert.ReferenceIdeal.main_arg10) = Cert.ReferenceIdeal.Line.U7 m' c (Proc.devRef .tc Cert.ReferenceIdeal.main_arg10) from Cert.ReferenceIdeal.Kept.keep7 m' c Cert.ReferenceIdeal.main_arg10 (by decide)).trans ((show Cert.ReferenceIdeal.Line.U7 m' c (Proc.devRef .tc Cert.ReferenceIdeal.main_arg10) = Cert.ReferenceIdeal.Line.U6 m' c (Proc.devRef .tc Cert.ReferenceIdeal.main_arg10) from Cert.ReferenceIdeal.Kept.keep6 m' c Cert.ReferenceIdeal.main_arg10 (by decide)).trans ((show Cert.ReferenceIdeal.Line.U6 m' c (Proc.devRef .tc Cert.ReferenceIdeal.main_arg10) = Cert.ReferenceIdeal.Line.U5 m' c (Proc.devRef .tc Cert.ReferenceIdeal.main_arg10) from Cert.ReferenceIdeal.Kept.keep5 m' c Cert.ReferenceIdeal.main_arg10 (by decide)).trans ((show Cert.ReferenceIdeal.Line.U5 m' c (Proc.devRef .tc Cert.ReferenceIdeal.main_arg10) = Cert.ReferenceIdeal.Line.U4 m' c (Proc.devRef .tc Cert.ReferenceIdeal.main_arg10) from Cert.ReferenceIdeal.Kept.keep4 m' c Cert.ReferenceIdeal.main_arg10 (by decide)).trans ((show Cert.ReferenceIdeal.Line.U4 m' c (Proc.devRef .tc Cert.ReferenceIdeal.main_arg10) = Cert.ReferenceIdeal.Line.U3 m' c (Proc.devRef .tc Cert.ReferenceIdeal.main_arg10) from Cert.ReferenceIdeal.Kept.keep3 m' c Cert.ReferenceIdeal.main_arg10 (by decide)).trans ((show Cert.ReferenceIdeal.Line.U3 m' c (Proc.devRef .tc Cert.ReferenceIdeal.main_arg10) = Cert.ReferenceIdeal.Line.U2 m' c (Proc.devRef .tc Cert.ReferenceIdeal.main_arg10) from Cert.ReferenceIdeal.Kept.keep2 m' c Cert.ReferenceIdeal.main_arg10 (by decide)).trans ((show Cert.ReferenceIdeal.Line.U2 m' c (Proc.devRef .tc Cert.ReferenceIdeal.main_arg10) = Cert.ReferenceIdeal.Line.U1 m' c (Proc.devRef .tc Cert.ReferenceIdeal.main_arg10) from Cert.ReferenceIdeal.Kept.keep1 m' c Cert.ReferenceIdeal.main_arg10 (by decide)).trans (show Cert.ReferenceIdeal.Line.U1 m' c (Proc.devRef .tc Cert.ReferenceIdeal.main_arg10) = Cert.ReferenceIdeal.Line.U0 m' c (Proc.devRef .tc Cert.ReferenceIdeal.main_arg10) from Cert.ReferenceIdeal.Kept.keep0 m' c Cert.ReferenceIdeal.main_arg10 (by decide))))))))))))))).trans rfl

theorem ref_arg11 : StableHlo.after Cert.ReferenceIdeal.Line.ops (launchContents m' c) (Proc.devRef .tc Cert.ReferenceIdeal.main_arg11) = m' ((c.tc : Thread Cert.ReferenceIdeal.nD Cert.ReferenceIdeal.τ).loc Cert.ReferenceIdeal.main_arg11) := by
  rw [Cert.ReferenceIdeal.Line.after_ops]
  exact (((show Cert.ReferenceIdeal.Line.U13 m' c (Proc.devRef .tc Cert.ReferenceIdeal.main_arg11) = Cert.ReferenceIdeal.Line.U12 m' c (Proc.devRef .tc Cert.ReferenceIdeal.main_arg11) from Cert.ReferenceIdeal.Kept.keep12 m' c Cert.ReferenceIdeal.main_arg11 (by decide)).trans ((show Cert.ReferenceIdeal.Line.U12 m' c (Proc.devRef .tc Cert.ReferenceIdeal.main_arg11) = Cert.ReferenceIdeal.Line.U11 m' c (Proc.devRef .tc Cert.ReferenceIdeal.main_arg11) from Cert.ReferenceIdeal.Kept.keep11 m' c Cert.ReferenceIdeal.main_arg11 (by decide)).trans ((show Cert.ReferenceIdeal.Line.U11 m' c (Proc.devRef .tc Cert.ReferenceIdeal.main_arg11) = Cert.ReferenceIdeal.Line.U10 m' c (Proc.devRef .tc Cert.ReferenceIdeal.main_arg11) from Cert.ReferenceIdeal.Kept.keep10 m' c Cert.ReferenceIdeal.main_arg11 (by decide)).trans ((show Cert.ReferenceIdeal.Line.U10 m' c (Proc.devRef .tc Cert.ReferenceIdeal.main_arg11) = Cert.ReferenceIdeal.Line.U9 m' c (Proc.devRef .tc Cert.ReferenceIdeal.main_arg11) from Cert.ReferenceIdeal.Kept.keep9 m' c Cert.ReferenceIdeal.main_arg11 (by decide)).trans ((show Cert.ReferenceIdeal.Line.U9 m' c (Proc.devRef .tc Cert.ReferenceIdeal.main_arg11) = Cert.ReferenceIdeal.Line.U8 m' c (Proc.devRef .tc Cert.ReferenceIdeal.main_arg11) from Cert.ReferenceIdeal.Kept.keep8 m' c Cert.ReferenceIdeal.main_arg11 (by decide)).trans ((show Cert.ReferenceIdeal.Line.U8 m' c (Proc.devRef .tc Cert.ReferenceIdeal.main_arg11) = Cert.ReferenceIdeal.Line.U7 m' c (Proc.devRef .tc Cert.ReferenceIdeal.main_arg11) from Cert.ReferenceIdeal.Kept.keep7 m' c Cert.ReferenceIdeal.main_arg11 (by decide)).trans ((show Cert.ReferenceIdeal.Line.U7 m' c (Proc.devRef .tc Cert.ReferenceIdeal.main_arg11) = Cert.ReferenceIdeal.Line.U6 m' c (Proc.devRef .tc Cert.ReferenceIdeal.main_arg11) from Cert.ReferenceIdeal.Kept.keep6 m' c Cert.ReferenceIdeal.main_arg11 (by decide)).trans ((show Cert.ReferenceIdeal.Line.U6 m' c (Proc.devRef .tc Cert.ReferenceIdeal.main_arg11) = Cert.ReferenceIdeal.Line.U5 m' c (Proc.devRef .tc Cert.ReferenceIdeal.main_arg11) from Cert.ReferenceIdeal.Kept.keep5 m' c Cert.ReferenceIdeal.main_arg11 (by decide)).trans ((show Cert.ReferenceIdeal.Line.U5 m' c (Proc.devRef .tc Cert.ReferenceIdeal.main_arg11) = Cert.ReferenceIdeal.Line.U4 m' c (Proc.devRef .tc Cert.ReferenceIdeal.main_arg11) from Cert.ReferenceIdeal.Kept.keep4 m' c Cert.ReferenceIdeal.main_arg11 (by decide)).trans ((show Cert.ReferenceIdeal.Line.U4 m' c (Proc.devRef .tc Cert.ReferenceIdeal.main_arg11) = Cert.ReferenceIdeal.Line.U3 m' c (Proc.devRef .tc Cert.ReferenceIdeal.main_arg11) from Cert.ReferenceIdeal.Kept.keep3 m' c Cert.ReferenceIdeal.main_arg11 (by decide)).trans ((show Cert.ReferenceIdeal.Line.U3 m' c (Proc.devRef .tc Cert.ReferenceIdeal.main_arg11) = Cert.ReferenceIdeal.Line.U2 m' c (Proc.devRef .tc Cert.ReferenceIdeal.main_arg11) from Cert.ReferenceIdeal.Kept.keep2 m' c Cert.ReferenceIdeal.main_arg11 (by decide)).trans ((show Cert.ReferenceIdeal.Line.U2 m' c (Proc.devRef .tc Cert.ReferenceIdeal.main_arg11) = Cert.ReferenceIdeal.Line.U1 m' c (Proc.devRef .tc Cert.ReferenceIdeal.main_arg11) from Cert.ReferenceIdeal.Kept.keep1 m' c Cert.ReferenceIdeal.main_arg11 (by decide)).trans (show Cert.ReferenceIdeal.Line.U1 m' c (Proc.devRef .tc Cert.ReferenceIdeal.main_arg11) = Cert.ReferenceIdeal.Line.U0 m' c (Proc.devRef .tc Cert.ReferenceIdeal.main_arg11) from Cert.ReferenceIdeal.Kept.keep0 m' c Cert.ReferenceIdeal.main_arg11 (by decide))))))))))))))).trans rfl

theorem ref_arg12 : StableHlo.after Cert.ReferenceIdeal.Line.ops (launchContents m' c) (Proc.devRef .tc Cert.ReferenceIdeal.main_arg12) = m' ((c.tc : Thread Cert.ReferenceIdeal.nD Cert.ReferenceIdeal.τ).loc Cert.ReferenceIdeal.main_arg12) := by
  rw [Cert.ReferenceIdeal.Line.after_ops]
  exact (((show Cert.ReferenceIdeal.Line.U13 m' c (Proc.devRef .tc Cert.ReferenceIdeal.main_arg12) = Cert.ReferenceIdeal.Line.U12 m' c (Proc.devRef .tc Cert.ReferenceIdeal.main_arg12) from Cert.ReferenceIdeal.Kept.keep12 m' c Cert.ReferenceIdeal.main_arg12 (by decide)).trans ((show Cert.ReferenceIdeal.Line.U12 m' c (Proc.devRef .tc Cert.ReferenceIdeal.main_arg12) = Cert.ReferenceIdeal.Line.U11 m' c (Proc.devRef .tc Cert.ReferenceIdeal.main_arg12) from Cert.ReferenceIdeal.Kept.keep11 m' c Cert.ReferenceIdeal.main_arg12 (by decide)).trans ((show Cert.ReferenceIdeal.Line.U11 m' c (Proc.devRef .tc Cert.ReferenceIdeal.main_arg12) = Cert.ReferenceIdeal.Line.U10 m' c (Proc.devRef .tc Cert.ReferenceIdeal.main_arg12) from Cert.ReferenceIdeal.Kept.keep10 m' c Cert.ReferenceIdeal.main_arg12 (by decide)).trans ((show Cert.ReferenceIdeal.Line.U10 m' c (Proc.devRef .tc Cert.ReferenceIdeal.main_arg12) = Cert.ReferenceIdeal.Line.U9 m' c (Proc.devRef .tc Cert.ReferenceIdeal.main_arg12) from Cert.ReferenceIdeal.Kept.keep9 m' c Cert.ReferenceIdeal.main_arg12 (by decide)).trans ((show Cert.ReferenceIdeal.Line.U9 m' c (Proc.devRef .tc Cert.ReferenceIdeal.main_arg12) = Cert.ReferenceIdeal.Line.U8 m' c (Proc.devRef .tc Cert.ReferenceIdeal.main_arg12) from Cert.ReferenceIdeal.Kept.keep8 m' c Cert.ReferenceIdeal.main_arg12 (by decide)).trans ((show Cert.ReferenceIdeal.Line.U8 m' c (Proc.devRef .tc Cert.ReferenceIdeal.main_arg12) = Cert.ReferenceIdeal.Line.U7 m' c (Proc.devRef .tc Cert.ReferenceIdeal.main_arg12) from Cert.ReferenceIdeal.Kept.keep7 m' c Cert.ReferenceIdeal.main_arg12 (by decide)).trans ((show Cert.ReferenceIdeal.Line.U7 m' c (Proc.devRef .tc Cert.ReferenceIdeal.main_arg12) = Cert.ReferenceIdeal.Line.U6 m' c (Proc.devRef .tc Cert.ReferenceIdeal.main_arg12) from Cert.ReferenceIdeal.Kept.keep6 m' c Cert.ReferenceIdeal.main_arg12 (by decide)).trans ((show Cert.ReferenceIdeal.Line.U6 m' c (Proc.devRef .tc Cert.ReferenceIdeal.main_arg12) = Cert.ReferenceIdeal.Line.U5 m' c (Proc.devRef .tc Cert.ReferenceIdeal.main_arg12) from Cert.ReferenceIdeal.Kept.keep5 m' c Cert.ReferenceIdeal.main_arg12 (by decide)).trans ((show Cert.ReferenceIdeal.Line.U5 m' c (Proc.devRef .tc Cert.ReferenceIdeal.main_arg12) = Cert.ReferenceIdeal.Line.U4 m' c (Proc.devRef .tc Cert.ReferenceIdeal.main_arg12) from Cert.ReferenceIdeal.Kept.keep4 m' c Cert.ReferenceIdeal.main_arg12 (by decide)).trans ((show Cert.ReferenceIdeal.Line.U4 m' c (Proc.devRef .tc Cert.ReferenceIdeal.main_arg12) = Cert.ReferenceIdeal.Line.U3 m' c (Proc.devRef .tc Cert.ReferenceIdeal.main_arg12) from Cert.ReferenceIdeal.Kept.keep3 m' c Cert.ReferenceIdeal.main_arg12 (by decide)).trans ((show Cert.ReferenceIdeal.Line.U3 m' c (Proc.devRef .tc Cert.ReferenceIdeal.main_arg12) = Cert.ReferenceIdeal.Line.U2 m' c (Proc.devRef .tc Cert.ReferenceIdeal.main_arg12) from Cert.ReferenceIdeal.Kept.keep2 m' c Cert.ReferenceIdeal.main_arg12 (by decide)).trans ((show Cert.ReferenceIdeal.Line.U2 m' c (Proc.devRef .tc Cert.ReferenceIdeal.main_arg12) = Cert.ReferenceIdeal.Line.U1 m' c (Proc.devRef .tc Cert.ReferenceIdeal.main_arg12) from Cert.ReferenceIdeal.Kept.keep1 m' c Cert.ReferenceIdeal.main_arg12 (by decide)).trans (show Cert.ReferenceIdeal.Line.U1 m' c (Proc.devRef .tc Cert.ReferenceIdeal.main_arg12) = Cert.ReferenceIdeal.Line.U0 m' c (Proc.devRef .tc Cert.ReferenceIdeal.main_arg12) from Cert.ReferenceIdeal.Kept.keep0 m' c Cert.ReferenceIdeal.main_arg12 (by decide))))))))))))))).trans rfl

theorem ref_arg13 : StableHlo.after Cert.ReferenceIdeal.Line.ops (launchContents m' c) (Proc.devRef .tc Cert.ReferenceIdeal.main_arg13) = m' ((c.tc : Thread Cert.ReferenceIdeal.nD Cert.ReferenceIdeal.τ).loc Cert.ReferenceIdeal.main_arg13) := by
  rw [Cert.ReferenceIdeal.Line.after_ops]
  exact (((show Cert.ReferenceIdeal.Line.U13 m' c (Proc.devRef .tc Cert.ReferenceIdeal.main_arg13) = Cert.ReferenceIdeal.Line.U12 m' c (Proc.devRef .tc Cert.ReferenceIdeal.main_arg13) from Cert.ReferenceIdeal.Kept.keep12 m' c Cert.ReferenceIdeal.main_arg13 (by decide)).trans ((show Cert.ReferenceIdeal.Line.U12 m' c (Proc.devRef .tc Cert.ReferenceIdeal.main_arg13) = Cert.ReferenceIdeal.Line.U11 m' c (Proc.devRef .tc Cert.ReferenceIdeal.main_arg13) from Cert.ReferenceIdeal.Kept.keep11 m' c Cert.ReferenceIdeal.main_arg13 (by decide)).trans ((show Cert.ReferenceIdeal.Line.U11 m' c (Proc.devRef .tc Cert.ReferenceIdeal.main_arg13) = Cert.ReferenceIdeal.Line.U10 m' c (Proc.devRef .tc Cert.ReferenceIdeal.main_arg13) from Cert.ReferenceIdeal.Kept.keep10 m' c Cert.ReferenceIdeal.main_arg13 (by decide)).trans ((show Cert.ReferenceIdeal.Line.U10 m' c (Proc.devRef .tc Cert.ReferenceIdeal.main_arg13) = Cert.ReferenceIdeal.Line.U9 m' c (Proc.devRef .tc Cert.ReferenceIdeal.main_arg13) from Cert.ReferenceIdeal.Kept.keep9 m' c Cert.ReferenceIdeal.main_arg13 (by decide)).trans ((show Cert.ReferenceIdeal.Line.U9 m' c (Proc.devRef .tc Cert.ReferenceIdeal.main_arg13) = Cert.ReferenceIdeal.Line.U8 m' c (Proc.devRef .tc Cert.ReferenceIdeal.main_arg13) from Cert.ReferenceIdeal.Kept.keep8 m' c Cert.ReferenceIdeal.main_arg13 (by decide)).trans ((show Cert.ReferenceIdeal.Line.U8 m' c (Proc.devRef .tc Cert.ReferenceIdeal.main_arg13) = Cert.ReferenceIdeal.Line.U7 m' c (Proc.devRef .tc Cert.ReferenceIdeal.main_arg13) from Cert.ReferenceIdeal.Kept.keep7 m' c Cert.ReferenceIdeal.main_arg13 (by decide)).trans ((show Cert.ReferenceIdeal.Line.U7 m' c (Proc.devRef .tc Cert.ReferenceIdeal.main_arg13) = Cert.ReferenceIdeal.Line.U6 m' c (Proc.devRef .tc Cert.ReferenceIdeal.main_arg13) from Cert.ReferenceIdeal.Kept.keep6 m' c Cert.ReferenceIdeal.main_arg13 (by decide)).trans ((show Cert.ReferenceIdeal.Line.U6 m' c (Proc.devRef .tc Cert.ReferenceIdeal.main_arg13) = Cert.ReferenceIdeal.Line.U5 m' c (Proc.devRef .tc Cert.ReferenceIdeal.main_arg13) from Cert.ReferenceIdeal.Kept.keep5 m' c Cert.ReferenceIdeal.main_arg13 (by decide)).trans ((show Cert.ReferenceIdeal.Line.U5 m' c (Proc.devRef .tc Cert.ReferenceIdeal.main_arg13) = Cert.ReferenceIdeal.Line.U4 m' c (Proc.devRef .tc Cert.ReferenceIdeal.main_arg13) from Cert.ReferenceIdeal.Kept.keep4 m' c Cert.ReferenceIdeal.main_arg13 (by decide)).trans ((show Cert.ReferenceIdeal.Line.U4 m' c (Proc.devRef .tc Cert.ReferenceIdeal.main_arg13) = Cert.ReferenceIdeal.Line.U3 m' c (Proc.devRef .tc Cert.ReferenceIdeal.main_arg13) from Cert.ReferenceIdeal.Kept.keep3 m' c Cert.ReferenceIdeal.main_arg13 (by decide)).trans ((show Cert.ReferenceIdeal.Line.U3 m' c (Proc.devRef .tc Cert.ReferenceIdeal.main_arg13) = Cert.ReferenceIdeal.Line.U2 m' c (Proc.devRef .tc Cert.ReferenceIdeal.main_arg13) from Cert.ReferenceIdeal.Kept.keep2 m' c Cert.ReferenceIdeal.main_arg13 (by decide)).trans ((show Cert.ReferenceIdeal.Line.U2 m' c (Proc.devRef .tc Cert.ReferenceIdeal.main_arg13) = Cert.ReferenceIdeal.Line.U1 m' c (Proc.devRef .tc Cert.ReferenceIdeal.main_arg13) from Cert.ReferenceIdeal.Kept.keep1 m' c Cert.ReferenceIdeal.main_arg13 (by decide)).trans (show Cert.ReferenceIdeal.Line.U1 m' c (Proc.devRef .tc Cert.ReferenceIdeal.main_arg13) = Cert.ReferenceIdeal.Line.U0 m' c (Proc.devRef .tc Cert.ReferenceIdeal.main_arg13) from Cert.ReferenceIdeal.Kept.keep0 m' c Cert.ReferenceIdeal.main_arg13 (by decide))))))))))))))).trans rfl

end Cert.Sim

end
-- ==== Proof.KernelKept.lean ====
/-
  What a stretch of the kernel program's host operations leaves alone: every buffer it does not write.
-/
import proofs.«169431_j32804960207311_2_alg».proof.Proof.Gen.KernelIdeal.Frame
import proofs.«169431_j32804960207311_2_alg».proof.Proof.LibKept
import Idealize.ShloMosaic.PureOps.Ideal

set_option maxRecDepth 16384

noncomputable section

namespace Cert.KernelIdeal.Kept

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The buffers stretch 0 writes. -/
def L0 : List (Ref sig .tc) := [main_v0, main_v1, main_v2, main_v3, main_cst, main_v4, main_cst_0, main_v5, main_v6, main_v7, main_cst_1, main_v8, main_v9, main_v10, main_cst_2, main_v11, main_v12, main_v13, main_v14]
theorem hL0 : ∀ op ∈ (hostOps0 : List (HloOp τ sig (Elt Ideal))), ∀ x ∈ op.writes, ∃ y ∈ L0, x = Proc.devRef .tc y := by
  writes_in hostOps0
/-- A buffer stretch 0 does not write holds after it what it held before. -/
theorem host0 (b : Ref sig .tc) (hb : b ∉ L0) : W1 m ρ c (Proc.devRef .tc b) = W0 m ρ c (Proc.devRef .tc b) :=
  Cert.LibKept.kept hostOps0 L0 hL0 _ b hb

/-- The buffers stretch 1 writes. -/
def L1 : List (Ref sig .tc) := [main_v16, main_v17]
theorem hL1 : ∀ op ∈ (hostOps1 : List (HloOp τ sig (Elt Ideal))), ∀ x ∈ op.writes, ∃ y ∈ L1, x = Proc.devRef .tc y := by
  writes_in hostOps1
/-- A buffer stretch 1 does not write holds after it what it held before. -/
theorem host1 (b : Ref sig .tc) (hb : b ∉ L1) : W3 m ρ c (Proc.devRef .tc b) = W2 m ρ c (Proc.devRef .tc b) :=
  Cert.LibKept.kept hostOps1 L1 hL1 _ b hb

/-- The buffers stretch 2 writes. -/
def L2 : List (Ref sig .tc) := [main_c, main_v19, main_v20, main_c_3, main_v21, main_v22, main_v23, main_v24, main_v25, main_c_4, main_v26, main_v27, main_c_5, main_v28, main_v29, main_v30, main_v31, main_v32, main_v33, main_c_6, main_v34, main_v35, main_c_7, main_v36, main_v37, main_v38, main_v39, main_v40, main_v41, main_v42, main_v43, main_cst_8, main_v44, main_v45, main_v46, main_v47, main_v48, main_v49, main_v50, main_v51, main_v52, main_v53, main_v54, main_v55, main_v56, main_v57, main_v58, main_v59, main_v60, main_v61]
theorem hL2 : ∀ op ∈ (hostOps2 : List (HloOp τ sig (Elt Ideal))), ∀ x ∈ op.writes, ∃ y ∈ L2, x = Proc.devRef .tc y := by
  writes_in hostOps2
/-- A buffer stretch 2 does not write holds after it what it held before. -/
theorem host2 (b : Ref sig .tc) (hb : b ∉ L2) : W5 m ρ c (Proc.devRef .tc b) = W4 m ρ c (Proc.devRef .tc b) :=
  Cert.LibKept.kept hostOps2 L2 hL2 _ b hb

/-- The buffers stretch 3 writes. -/
def L3 : List (Ref sig .tc) := [main_v63, main_v64]
theorem hL3 : ∀ op ∈ (hostOps3 : List (HloOp τ sig (Elt Ideal))), ∀ x ∈ op.writes, ∃ y ∈ L3, x = Proc.devRef .tc y := by
  writes_in hostOps3
/-- A buffer stretch 3 does not write holds after it what it held before. -/
theorem host3 (b : Ref sig .tc) (hb : b ∉ L3) : W7 m ρ c (Proc.devRef .tc b) = W6 m ρ c (Proc.devRef .tc b) :=
  Cert.LibKept.kept hostOps3 L3 hL3 _ b hb

/-- The buffers stretch 4 writes. -/
def L4 : List (Ref sig .tc) := [main_c_9, main_v66, main_v67, main_c_10, main_v68, main_v69, main_v70, main_v71, main_v72, main_c_11, main_v73, main_v74, main_c_12, main_v75, main_v76, main_v77, main_v78, main_v79, main_v80, main_c_13, main_v81, main_v82, main_c_14, main_v83, main_v84, main_v85, main_v86, main_v87, main_v88, main_v89, main_v90, main_cst_15, main_v91, main_v92, main_v93, main_v94, main_v95, main_v96, main_v97, main_v98, main_v99, main_v100, main_v101, main_v102, main_v103, main_v104, main_v105, main_v106, main_v107, main_v108]
theorem hL4 : ∀ op ∈ (hostOps4 : List (HloOp τ sig (Elt Ideal))), ∀ x ∈ op.writes, ∃ y ∈ L4, x = Proc.devRef .tc y := by
  writes_in hostOps4
/-- A buffer stretch 4 does not write holds after it what it held before. -/
theorem host4 (b : Ref sig .tc) (hb : b ∉ L4) : W9 m ρ c (Proc.devRef .tc b) = W8 m ρ c (Proc.devRef .tc b) :=
  Cert.LibKept.kept hostOps4 L4 hL4 _ b hb

/-- The buffers stretch 5 writes. -/
def L5 : List (Ref sig .tc) := [main_v110, main_v111]
theorem hL5 : ∀ op ∈ (hostOps5 : List (HloOp τ sig (Elt Ideal))), ∀ x ∈ op.writes, ∃ y ∈ L5, x = Proc.devRef .tc y := by
  writes_in hostOps5
/-- A buffer stretch 5 does not write holds after it what it held before. -/
theorem host5 (b : Ref sig .tc) (hb : b ∉ L5) : W11 m ρ c (Proc.devRef .tc b) = W10 m ρ c (Proc.devRef .tc b) :=
  Cert.LibKept.kept hostOps5 L5 hL5 _ b hb

/-- The buffers stretch 6 writes. -/
def L6 : List (Ref sig .tc) := [main_c_16, main_v113, main_v114, main_c_17, main_v115, main_v116, main_v117, main_v118, main_v119, main_c_18, main_v120, main_v121, main_c_19, main_v122, main_v123, main_v124, main_v125, main_v126, main_v127, main_c_20, main_v128, main_v129, main_c_21, main_v130, main_v131, main_v132, main_v133, main_v134, main_v135, main_v136, main_v137, main_cst_22, main_v138, main_v139, main_v140, main_v141, main_v142, main_v143, main_v144, main_v145, main_v146, main_v147, main_v148, main_v149, main_v150, main_v151, main_v152, main_v153, main_v154, main_v155]
theorem hL6 : ∀ op ∈ (hostOps6 : List (HloOp τ sig (Elt Ideal))), ∀ x ∈ op.writes, ∃ y ∈ L6, x = Proc.devRef .tc y := by
  writes_in hostOps6
/-- A buffer stretch 6 does not write holds after it what it held before. -/
theorem host6 (b : Ref sig .tc) (hb : b ∉ L6) : W13 m ρ c (Proc.devRef .tc b) = W12 m ρ c (Proc.devRef .tc b) :=
  Cert.LibKept.kept hostOps6 L6 hL6 _ b hb

/-- The buffers stretch 7 writes. -/
def L7 : List (Ref sig .tc) := [main_v157, main_v158, main_v159, main_v160, main_v161, main_v162, main_v163, main_v164, main_v165, main_v166, main_v167, main_v168, main_v169]
theorem hL7 : ∀ op ∈ (hostOps7 : List (HloOp τ sig (Elt Ideal))), ∀ x ∈ op.writes, ∃ y ∈ L7, x = Proc.devRef .tc y := by
  writes_in hostOps7
/-- A buffer stretch 7 does not write holds after it what it held before. -/
theorem host7 (b : Ref sig .tc) (hb : b ∉ L7) : W15 m ρ c (Proc.devRef .tc b) = W14 m ρ c (Proc.devRef .tc b) :=
  Cert.LibKept.kept hostOps7 L7 hL7 _ b hb

/-- The buffers stretch 8 writes. -/
def L8 : List (Ref sig .tc) := [main_v171]
theorem hL8 : ∀ op ∈ (hostOps8 : List (HloOp τ sig (Elt Ideal))), ∀ x ∈ op.writes, ∃ y ∈ L8, x = Proc.devRef .tc y := by
  writes_in hostOps8
/-- A buffer stretch 8 does not write holds after it what it held before. -/
theorem host8 (b : Ref sig .tc) (hb : b ∉ L8) : W17 m ρ c (Proc.devRef .tc b) = W16 m ρ c (Proc.devRef .tc b) :=
  Cert.LibKept.kept hostOps8 L8 hL8 _ b hb

end Cert.KernelIdeal.Kept

end
-- ==== Proof.Spec.lean ====
/-
  A three-layer graph convolution network over 50000 nodes, as functions of whole arrays of extended reals.

  Every dense stage acts row by row: entry (p, q) of a stage depends on row p of its left operand only, so a stage
  computed on a block of consecutive rows is that block of the stage computed on all rows.  The stages:
  * `dense`      : max (x·W + b, 0)
  * `proj`       : h·W
  * `combine`    : max (bn (agg + hp · invdeg + b), 0), the neighbour sum joined with the node's own projection
                   scaled by the reciprocal degree, normalised with fixed statistics
  * `denseBn`    : max (bn (h·W + b), 0)
  * `logSoftmax` : y − rowmax y − log Σ exp (y − rowmax y) for y = h·W + b
  where bn y = (y − μ) · (γ · rsqrt (σ² + ε)) + β, the parameters one value per column.
-/
import Idealize.ShloMosaic.PureOps.Ideal
import Idealize.ShloMosaic.Lib.ValueIdx

noncomputable section

namespace Cert.GraphNet

open Idealize.ShloMosaic Idealize.ShloMosaic.ValueIdx

/-- An `a × b` array of extended reals. -/
abbrev A2 (a b : ℕ) : Type := (⟨2, ![a, b]⟩ : Shape).Idx → EReal
/-- A vector of `a` extended reals. -/
abbrev A1 (a : ℕ) : Type := (⟨1, ![a]⟩ : Shape).Idx → EReal

/-- The normalisation's ε, the float nearest 1e-5, as its exact binary value. -/
abbrev epsBn : EReal := Ideal.ofBits .f32 0x3727C5AC#32
/-- The float zero. -/
abbrev zero32 : EReal := Ideal.ofBits .f32 0x00000000#32
/-- The float −∞, the start of a running maximum. -/
abbrev negInf32 : EReal := Ideal.ofBits .f32 0xFF800000#32

variable {M K N : ℕ}

/-- A vector laid as a one-row matrix. -/
def row (v : A1 N) : A2 1 N := fun i => v (ix1 (i 1))
/-- A vector laid as a one-column matrix. -/
def col (v : A1 M) : A2 M 1 := fun i => v (ix1 (i 0))

/-- Entry (p, q) of the product x·W. -/
def prod (x : A2 M K) (w : A2 K N) (p : Fin M) (q : Fin N) : EReal := ∑ c : Fin K, x (ix2 p c) * w (ix2 c q)

/-- Normalisation of one value with fixed statistics: (y − μ) · (γ · rsqrt (σ² + ε)) + β. -/
def bn (y g be mu var : EReal) : EReal := (y - mu) * (g * Ideal.rsqrt (var + epsBn)) + be

/-- max (x·W + b, 0). -/
def dense (x : A2 M K) (w : A2 K N) (b : A2 1 N) : A2 M N := fun i =>
  max (prod x w (i 0) (i 1) + b (ix2 (0 : Fin 1) (i 1))) zero32

/-- h·W. -/
def proj (h : A2 M K) (w : A2 K N) : A2 M N := fun i => prod h w (i 0) (i 1)

/-- max (bn (agg + hp · invdeg + b), 0). -/
def combine (agg hp : A2 M N) (invdeg : A2 M 1) (b g be mu var : A2 1 N) : A2 M N := fun i =>
  max (bn (agg (ix2 (i 0) (i 1)) + hp (ix2 (i 0) (i 1)) * invdeg (ix2 (i 0) (0 : Fin 1)) + b (ix2 (0 : Fin 1) (i 1)))
        (g (ix2 (0 : Fin 1) (i 1))) (be (ix2 (0 : Fin 1) (i 1))) (mu (ix2 (0 : Fin 1) (i 1))) (var (ix2 (0 : Fin 1) (i 1)))) zero32

/-- max (bn (h·W + b), 0). -/
def denseBn (h : A2 M K) (w : A2 K N) (b g be mu var : A2 1 N) : A2 M N := fun i =>
  max (bn (prod h w (i 0) (i 1) + b (ix2 (0 : Fin 1) (i 1)))
        (g (ix2 (0 : Fin 1) (i 1))) (be (ix2 (0 : Fin 1) (i 1))) (mu (ix2 (0 : Fin 1) (i 1))) (var (ix2 (0 : Fin 1) (i 1)))) zero32

/-- Row p of h·W + b. -/
def logits (h : A2 M K) (w : A2 K N) (b : A2 1 N) (p : Fin M) (q : Fin N) : EReal := prod h w p q + b (ix2 (0 : Fin 1) q)

/-- The largest entry of a row, as a running maximum from −∞. -/
def rowMax (y : Fin N → EReal) : EReal := (Finset.univ : Finset (Fin N)).fold max negInf32 y

/-- The log-softmax of one row at q: (y q − max y) − log Σ exp (y − max y). -/
def logSoftmaxRow (y : Fin N → EReal) (q : Fin N) : EReal :=
  (y q - rowMax y) - Ideal.log (∑ r : Fin N, Ideal.exp (y r - rowMax y))

/-- The log-softmax of every row of h·W + b. -/
def logSoftmax (h : A2 M K) (w : A2 K N) (b : A2 1 N) : A2 M N := fun i => logSoftmaxRow (logits h w b (i 0)) (i 1)

end Cert.GraphNet

end
-- ==== Proof.Casts.lean ====
/-
  A vector laid as a one-row or a one-column matrix by a change of shape: the entries are the vector's.
-/
import proofs.«169431_j32804960207311_2_alg».proof.Proof.Spec
import Idealize.ShloMosaic.Lib.Pipeline.Value
import Idealize.ShloMosaic.Lib.ValueIdx
import Idealize.ShloMosaic.Lib.ValueLayout

noncomputable section

namespace Cert.GraphNet

open Idealize.ShloMosaic Idealize.ShloMosaic.ValueIdx

/-- A vector of length N reshaped to [1, N] is the vector as a row. -/
theorem cast_row {N : ℕ} (v : A1 N) (h : (⟨1, ![N]⟩ : Shape).ShapeCasts ⟨2, ![1, N]⟩) :
    shapeCast ⟨2, ![1, N]⟩ v h = row v := by
  funext i
  obtain ⟨u, q, rfl⟩ : ∃ (u : Fin 1) (q : Fin N), i = ix2 u q := ⟨i 0, i 1, eq_ix2 i⟩
  exact shapeCast_a_1a_apply v h u q

/-- A vector of length M reshaped to [M, 1] is the vector as a column. -/
theorem cast_col {M : ℕ} (v : A1 M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  refine shapeCast_apply v h _ (ix1 p) ?_
  have hu : u.val = 0 := by omega
  rw [Shape.rowMajor_val_two, Shape.rowMajor_val_one]
  show p.val = p.val * 1 + u.val
  omega

end Cert.GraphNet

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.LibRowVector.lean ====
/-
  A vector laid along every row of a matrix, and a scalar repeated over an array, read at an entry, at any
  sizes.

  The array [M, N] whose entry (p, q) is v q has two spellings: the vector cast to the one-row matrix [1, N]
  and that row repeated M times, and the vector broadcast along its own axis to [1, N] and then along both
  axes to [M, N]. Either way the entry (p, q) is v q. A rank-0 array broadcast to any shape reads its one
  value everywhere.
-/
import Idealize.ShloMosaic.Lib.Pipeline.Value
import Idealize.ShloMosaic.Lib.ValueIdx
import Idealize.ShloMosaic.Lib.ValueLayout

noncomputable section

namespace Cert.LibRowVector

open Idealize.ShloMosaic Idealize.ShloMosaic.ValueIdx

variable {α : Type} {M N : ℕ}

/-- The vector cast to one row and the row repeated: entry (p, q) is v q. -/
theorem castRow_apply (v : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix1 q) := by
  rw [broadcastTo_1b_ab_apply, shapeCast_a_1a_apply]

/-- The vector broadcast along its own axis to one row: entry (0, q) is v q. -/
theorem inDimOneRow_apply (v : (⟨1, ![N]⟩ : Shape).Idx → α)
    (h1 : (⟨1, ![N]⟩ : Shape).BroadcastsInDim ⟨2, ![1, N]⟩ ![1]) (u : Fin 1) (q : Fin N) :
    broadcastInDim ⟨2, ![1, N]⟩ ![1] h1 v (ix2 u q) = v (ix1 q) :=
  broadcastInDim_apply ![1] h1 v (ix2 u q) (ix1 q) (fun a => by
    match a with
    | ⟨0, _⟩ =>
      show q.val = if N = 1 then 0 else q.val
      split
      · have := q.isLt; omega
      · rfl)

/-- One row broadcast along both axes to M rows: entry (p, q) is the row's entry q. -/
theorem inDimRows_apply (w : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 w (ix2 p q) = w (ix2 (0 : Fin 1) q) :=
  broadcastInDim_apply ![0, 1] h2 w (ix2 p q) (ix2 (0 : Fin 1) q) (fun a => by
    match a with
    | ⟨0, _⟩ => show 0 = if (1 : ℕ) = 1 then 0 else p.val; rw [if_pos rfl]
    | ⟨1, _⟩ =>
      show q.val = if N = 1 then 0 else q.val
      split
      · have := q.isLt; omega
      · rfl)

/-- The vector broadcast to one row and the row to M rows: entry (p, q) is v q. -/
theorem inDimRow_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 v) (ix2 p q) = v (ix1 q) := by
  rw [inDimRows_apply, inDimOneRow_apply]

/-- A rank-0 array broadcast to any shape reads its one value at every index. -/
theorem inDimScalar_apply {s : Shape} (x : (⟨0, ![]⟩ : Shape).Idx → α) (h : (⟨0, ![]⟩ : Shape).BroadcastsInDim s ![])
    (i : s.Idx) : broadcastInDim s ![] h x i = x ix0 :=
  broadcastInDim_apply ![] h x i ix0 (fun a => a.elim0)

end Cert.LibRowVector

end
-- ==== Proof.RefOps.lean ====
/-
  Compositions of host operations that are one layer of the graph network, at any sizes.

  Each statement reads both sides at an entry (p, q).  A general product at (p, q) is the sum over the shared
  coordinate of the left factor's row p against the right factor's column q.  A vector of per-column values laid as
  one row and repeated down the rows reads its entry q; a vector of per-row values laid as one column and repeated
  across the columns reads its entry p; a scalar repeated over an array reads its one value.  The elementwise
  operations act entry by entry.  A reduce along the rows with a maximum body is the running maximum of the row
  from the start value, and the float sum along the rows is the start value plus the sum of the row.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import proofs.«169431_j32804960207311_2_alg».proof.Proof.Spec
import proofs.«169431_j32804960207311_2_alg».proof.Proof.LibProduct
import proofs.«169431_j32804960207311_2_alg».proof.Proof.LibRowVector

noncomputable section

namespace Cert.GraphNet.RefOps

open Idealize.ShloMosaic Idealize.ShloMosaic.ValueIdx Cert.GraphNet

/-- The shape of an a × b matrix. -/
abbrev Sh2 (a b : ℕ) : Shape := ⟨2, ![a, b]⟩
/-- The shape of a vector of a entries. -/
abbrev Sh1 (a : ℕ) : Shape := ⟨1, ![a]⟩
/-- The shape of a scalar. -/
abbrev Sh0 : Shape := ⟨0, ![]⟩

variable {M K N : ℕ}

/-! ## Layouts read at an entry -/

/-- A vector laid as one column: entry (p, 0) is v p. -/
theorem inDimOneCol_apply {α : Type} (v : (Sh1 M).Idx → α) (hc0 : (Sh1 M).BroadcastsInDim (Sh2 M 1) ![0]) (p : Fin M) (u : Fin 1) :
    broadcastInDim (Sh2 M 1) ![0] hc0 v (ix2 p u) = v (ix1 p) :=
  broadcastInDim_apply ![0] hc0 v (ix2 p u) (ix1 p) (fun a => by
    match a with
    | ⟨0, _⟩ =>
      show p.val = if M = 1 then 0 else p.val
      split
      · have := p.isLt; omega
      · rfl)

/-- One column repeated across N columns: entry (p, q) is the column's entry p. -/
theorem inDimCols_apply {α : Type} (w : (Sh2 M 1).Idx → α) (hc1 : (Sh2 M 1).BroadcastsInDim (Sh2 M N) ![0, 1]) (p : Fin M) (q : Fin N) :
    broadcastInDim (Sh2 M N) ![0, 1] hc1 w (ix2 p q) = w (ix2 p (0 : Fin 1)) :=
  broadcastInDim_apply ![0, 1] hc1 w (ix2 p q) (ix2 p (0 : Fin 1)) (fun a => by
    match a with
    | ⟨0, _⟩ =>
      show p.val = if M = 1 then 0 else p.val
      split
      · have := p.isLt; omega
      · rfl
    | ⟨1, _⟩ => show 0 = if (1 : ℕ) = 1 then 0 else q.val; rw [if_pos rfl])

/-- A vector laid as one column and the column repeated: entry (p, q) is v p. -/
theorem inDimCol_apply {α : Type} (v : (Sh1 M).Idx → α) (hc0 : (Sh1 M).BroadcastsInDim (Sh2 M 1) ![0])
    (hc1 : (Sh2 M 1).BroadcastsInDim (Sh2 M N) ![0, 1]) (p : Fin M) (q : Fin N) :
    broadcastInDim (Sh2 M N) ![0, 1] hc1 (broadcastInDim (Sh2 M 1) ![0] hc0 v) (ix2 p q) = v (ix1 p) := by
  rw [inDimCols_apply, inDimOneCol_apply]

/-! ## Reductions along the rows, read at a row -/

/-- The host's exponential at an entry. -/
theorem hostExp_apply {s : Shape} (x : FVec Ideal s .f32) (i : s.Idx) : Host.exp x i = Ideal.exp (x i) := rfl
/-- The host's logarithm at an entry. -/
theorem hostLog_apply {s : Shape} (x : FVec Ideal s .f32) (i : s.Idx) : Host.log x i = Ideal.log (x i) := rfl
/-- The host's reciprocal square root at an entry. -/
theorem hostRsqrt_apply {s : Shape} (x : FVec Ideal s .f32) (i : s.Idx) : Host.rsqrt x i = Ideal.rsqrt (x i) := rfl

/-- A shape that drops to a vector has the vector's one axis, so the two shape conditions of a reduction agree. -/
theorem reduces_of_reducesTo (hred : (Sh2 M N).ReducesTo [1] (Sh1 M)) : (Sh2 M N).Reduces [1] (Sh1 M) :=
  ⟨hred.1, Nat.one_pos, hred.2⟩

/-- The reduced index p with column k put back is (p, k). -/
theorem lift_row (h : (Sh2 M N).Reduces [1] (Sh1 M)) (p : Fin M) (k : Fin ((Sh2 M N).size 1)) :
    h.lift (ix1 p) k = ix2 p (⟨k.val, k.isLt⟩ : Fin N) := by
  funext c; apply Fin.ext
  fin_cases c <;> rfl

/-- A reduce with a maximum body along the rows is, at row p, the running maximum over that row from the start value. -/
theorem hostReduce_max_row (x : FVec Ideal (Sh2 M N) .f32) (init : Sh0.Idx → Ideal .f32)
    (hred : (Sh2 M N).ReducesTo [1] (Sh1 M)) (hS : 0 < Sh0.numel) (p : Fin M) :
    Host.reduce FloatOps.maximumf x init hred hS (ix1 p)
      = (Finset.univ : Finset (Fin N)).fold max (init (Shape.Idx.first hS)) (fun k => x (ix2 p k)) := by
  have h := reduces_of_reducesTo hred
  rw [Host.reduce_eq_fold_single FloatOps.maximumf x _ hred h hS]
  have hf : (x ∘ h.lift (ix1 p)) = fun k : Fin N => x (ix2 p k) := funext fun k => congrArg x (lift_row h p k)
  exact congrArg (fun f => Finset.fold max (init (Shape.Idx.first hS)) f (Finset.univ : Finset (Fin N))) hf

/-- The float sum along the rows is, at row p, the start value plus the sum of that row. -/
theorem hostReduceAdd_row (x : FVec Ideal (Sh2 M N) .f32) (init : Sh0.Idx → Ideal .f32)
    (hred : (Sh2 M N).ReducesTo [1] (Sh1 M)) (hS : 0 < Sh0.numel) (p : Fin M) :
    Host.reduceAdd x init hred hS (ix1 p) = init (Shape.Idx.first hS) + ∑ k : Fin N, x (ix2 p k) := by
  have h := reduces_of_reducesTo hred
  show Ideal.hostReduceAdd hred x (init (Shape.Idx.first hS)) (ix1 p) = _
  rw [Ideal.hostReduceAdd_single hred h]
  exact congrArg (fun f : Fin N → EReal => init (Shape.Idx.first hS) + ∑ k : Fin N, f k)
    (funext fun k => congrArg x (lift_row h p k))

/-- The maximum of the start value and a running maximum from it is the running maximum. -/
theorem max_start_fold {ι : Type} (s : Finset ι) (b : EReal) (f : ι → EReal) : max b (s.fold max b f) = s.fold max b f :=
  max_eq_right ((Finset.le_fold_max b).2 (Or.inl le_rfl))

/-! ## The layers -/

/-- (2) The general product is the projection layer. -/
theorem ref_proj (d : DotDims (Sh2 M K) (Sh2 K N) (Sh2 M N))
    (h1 : d.lhsContracting = [1]) (h2 : d.rhsContracting = [0]) (h3 : d.lhsNonContracting = [0])
    (h4 : d.rhsNonContracting = [1]) (h5 : d.lhsBatch = []) (h6 : d.rhsBatch = [])
    (h : FVec Ideal (Sh2 M K) .f32) (w : FVec Ideal (Sh2 K N) .f32) :
    Host.dotGeneral d none h w = proj h w := by
  funext i
  obtain ⟨p, q, rfl⟩ : ∃ (p : Fin M) (q : Fin N), i = ix2 p q := ⟨i 0, i 1, eq_ix2 i⟩
  exact Cert.LibProduct.dotGeneral_apply d h1 h2 h3 h4 h5 h6 none h w p q

/-- (1) The product plus the bias row, rectified, is the dense layer. -/
theorem ref_dense (d : DotDims (Sh2 M K) (Sh2 K N) (Sh2 M N))
    (h1 : d.lhsContracting = [1]) (h2 : d.rhsContracting = [0]) (h3 : d.lhsNonContracting = [0])
    (h4 : d.rhsNonContracting = [1]) (h5 : d.lhsBatch = []) (h6 : d.rhsBatch = [])
    (hb1 : (Sh1 N).BroadcastsInDim (Sh2 1 N) ![1]) (hb2 : (Sh2 1 N).BroadcastsInDim (Sh2 M N) ![0, 1]) (hz : Sh0.BroadcastsInDim (Sh2 M N) ![])
    (x : FVec Ideal (Sh2 M K) .f32) (w : FVec Ideal (Sh2 K N) .f32) (b : FVec Ideal (Sh1 N) .f32) :
    maximumf (addf (Host.dotGeneral d none x w) (broadcastInDim (Sh2 M N) ![0, 1] hb2 (broadcastInDim (Sh2 1 N) ![1] hb1 b))) (broadcastInDim (Sh2 M N) ![] hz (constant (F := Ideal) Sh0 .f32 0x00000000#32))
      = dense x w (row b) := by
  funext i
  obtain ⟨p, q, rfl⟩ : ∃ (p : Fin M) (q : Fin N), i = ix2 p q := ⟨i 0, i 1, eq_ix2 i⟩
  rw [maximumf_apply, addf_apply, Cert.LibProduct.dotGeneral_apply d h1 h2 h3 h4 h5 h6, Cert.LibRowVector.inDimRow_apply,
    Cert.LibRowVector.inDimScalar_apply]
  rfl

/-- (4) The product plus the bias row, normalised with fixed statistics and rectified, is the normalised dense layer. -/
theorem ref_denseBn (d : DotDims (Sh2 M K) (Sh2 K N) (Sh2 M N))
    (h1 : d.lhsContracting = [1]) (h2 : d.rhsContracting = [0]) (h3 : d.lhsNonContracting = [0])
    (h4 : d.rhsNonContracting = [1]) (h5 : d.lhsBatch = []) (h6 : d.rhsBatch = [])
    (hb1 : (Sh1 N).BroadcastsInDim (Sh2 1 N) ![1]) (hb2 : (Sh2 1 N).BroadcastsInDim (Sh2 M N) ![0, 1]) (hz : Sh0.BroadcastsInDim (Sh2 M N) ![])
    (hv : Sh0.BroadcastsInDim (Sh1 N) ![])
    (h : FVec Ideal (Sh2 M K) .f32) (w : FVec Ideal (Sh2 K N) .f32) (b g be mu var : FVec Ideal (Sh1 N) .f32) :
    maximumf (addf (mulf (subf (addf (Host.dotGeneral d none h w) (broadcastInDim (Sh2 M N) ![0, 1] hb2 (broadcastInDim (Sh2 1 N) ![1] hb1 b))) (broadcastInDim (Sh2 M N) ![0, 1] hb2 (broadcastInDim (Sh2 1 N) ![1] hb1 mu)))
        (broadcastInDim (Sh2 M N) ![0, 1] hb2 (broadcastInDim (Sh2 1 N) ![1] hb1 (mulf g (Host.rsqrt (addf var (broadcastInDim (Sh1 N) ![] hv (constant (F := Ideal) Sh0 .f32 0x3727C5AC#32))))))))
        (broadcastInDim (Sh2 M N) ![0, 1] hb2 (broadcastInDim (Sh2 1 N) ![1] hb1 be))) (broadcastInDim (Sh2 M N) ![] hz (constant (F := Ideal) Sh0 .f32 0x00000000#32))
      = denseBn h w (row b) (row g) (row be) (row mu) (row var) := by
  funext i
  obtain ⟨p, q, rfl⟩ : ∃ (p : Fin M) (q : Fin N), i = ix2 p q := ⟨i 0, i 1, eq_ix2 i⟩
  simp only [maximumf_apply, addf_apply, mulf_apply, subf_apply, Cert.LibProduct.dotGeneral_apply d h1 h2 h3 h4 h5 h6]
  rw [Cert.LibRowVector.inDimRow_apply, Cert.LibRowVector.inDimRow_apply, Cert.LibRowVector.inDimRow_apply, Cert.LibRowVector.inDimRow_apply]
  rfl

/-- (3) The neighbour sum joined with the node's own projection scaled by the reciprocal degree, plus the bias row,
    normalised with fixed statistics and rectified, is the convolution layer. -/
theorem ref_combine (hb1 : (Sh1 N).BroadcastsInDim (Sh2 1 N) ![1]) (hb2 : (Sh2 1 N).BroadcastsInDim (Sh2 M N) ![0, 1]) (hz : Sh0.BroadcastsInDim (Sh2 M N) ![])
    (hv : Sh0.BroadcastsInDim (Sh1 N) ![])
    (hc0 : (Sh1 M).BroadcastsInDim (Sh2 M 1) ![0]) (hc1 : (Sh2 M 1).BroadcastsInDim (Sh2 M N) ![0, 1])
    (agg hp : FVec Ideal (Sh2 M N) .f32) (invdeg : FVec Ideal (Sh1 M) .f32) (b g be mu var : FVec Ideal (Sh1 N) .f32) :
    maximumf (addf (mulf (subf (addf (addf agg (mulf hp (broadcastInDim (Sh2 M N) ![0, 1] hc1 (broadcastInDim (Sh2 M 1) ![0] hc0 invdeg)))) (broadcastInDim (Sh2 M N) ![0, 1] hb2 (broadcastInDim (Sh2 1 N) ![1] hb1 b))) (broadcastInDim (Sh2 M N) ![0, 1] hb2 (broadcastInDim (Sh2 1 N) ![1] hb1 mu)))
        (broadcastInDim (Sh2 M N) ![0, 1] hb2 (broadcastInDim (Sh2 1 N) ![1] hb1 (mulf g (Host.rsqrt (addf var (broadcastInDim (Sh1 N) ![] hv (constant (F := Ideal) Sh0 .f32 0x3727C5AC#32))))))))
        (broadcastInDim (Sh2 M N) ![0, 1] hb2 (broadcastInDim (Sh2 1 N) ![1] hb1 be))) (broadcastInDim (Sh2 M N) ![] hz (constant (F := Ideal) Sh0 .f32 0x00000000#32))
      = combine agg hp (col invdeg) (row b) (row g) (row be) (row mu) (row var) := by
  funext i
  obtain ⟨p, q, rfl⟩ : ∃ (p : Fin M) (q : Fin N), i = ix2 p q := ⟨i 0, i 1, eq_ix2 i⟩
  simp only [maximumf_apply, addf_apply, mulf_apply, subf_apply]
  rw [inDimCol_apply, Cert.LibRowVector.inDimRow_apply, Cert.LibRowVector.inDimRow_apply, Cert.LibRowVector.inDimRow_apply, Cert.LibRowVector.inDimRow_apply]
  rfl

/-- (5) The logits less their row maximum, less the logarithm of the row sum of their exponentials, is the
    log-softmax layer.  The row maximum is the maximum of −∞ and the reduce from −∞, which is that reduce. -/
theorem ref_logSoftmax (d : DotDims (Sh2 M K) (Sh2 K N) (Sh2 M N))
    (h1 : d.lhsContracting = [1]) (h2 : d.rhsContracting = [0]) (h3 : d.lhsNonContracting = [0])
    (h4 : d.rhsNonContracting = [1]) (h5 : d.lhsBatch = []) (h6 : d.rhsBatch = [])
    (hb1 : (Sh1 N).BroadcastsInDim (Sh2 1 N) ![1]) (hb2 : (Sh2 1 N).BroadcastsInDim (Sh2 M N) ![0, 1])
    (hc0 : (Sh1 M).BroadcastsInDim (Sh2 M 1) ![0]) (hc1 : (Sh2 M 1).BroadcastsInDim (Sh2 M N) ![0, 1])
    (hm : Sh0.BroadcastsInDim (Sh1 M) ![]) (hred : (Sh2 M N).ReducesTo [1] (Sh1 M)) (hS : 0 < Sh0.numel)
    (h : FVec Ideal (Sh2 M K) .f32) (w : FVec Ideal (Sh2 K N) .f32) (b : FVec Ideal (Sh1 N) .f32) :
    subf (subf (addf (Host.dotGeneral d none h w) (broadcastInDim (Sh2 M N) ![0, 1] hb2 (broadcastInDim (Sh2 1 N) ![1] hb1 b))) (broadcastInDim (Sh2 M N) ![0, 1] hc1 (broadcastInDim (Sh2 M 1) ![0] hc0 (maximumf (broadcastInDim (Sh1 M) ![] hm (constant (F := Ideal) Sh0 .f32 0xFF800000#32)) (Host.reduce FloatOps.maximumf (addf (Host.dotGeneral d none h w) (broadcastInDim (Sh2 M N) ![0, 1] hb2 (broadcastInDim (Sh2 1 N) ![1] hb1 b))) (constant (F := Ideal) Sh0 .f32 0xFF800000#32) hred hS)))))
        (broadcastInDim (Sh2 M N) ![0, 1] hc1 (Host.log (broadcastInDim (Sh2 M 1) ![0] hc0 (Host.reduceAdd (Host.exp (subf (addf (Host.dotGeneral d none h w) (broadcastInDim (Sh2 M N) ![0, 1] hb2 (broadcastInDim (Sh2 1 N) ![1] hb1 b))) (broadcastInDim (Sh2 M N) ![0, 1] hc1 (broadcastInDim (Sh2 M 1) ![0] hc0 (maximumf (broadcastInDim (Sh1 M) ![] hm (constant (F := Ideal) Sh0 .f32 0xFF800000#32)) (Host.reduce FloatOps.maximumf (addf (Host.dotGeneral d none h w) (broadcastInDim (Sh2 M N) ![0, 1] hb2 (broadcastInDim (Sh2 1 N) ![1] hb1 b))) (constant (F := Ideal) Sh0 .f32 0xFF800000#32) hred hS)))))) (constant (F := Ideal) Sh0 .f32 0x00000000#32) hred hS))))
      = logSoftmax h w (row b) := by
  funext i
  obtain ⟨p, q, rfl⟩ : ∃ (p : Fin M) (q : Fin N), i = ix2 p q := ⟨i 0, i 1, eq_ix2 i⟩
  have hy : ∀ k : Fin N, (addf (Host.dotGeneral d none h w) (broadcastInDim (Sh2 M N) ![0, 1] hb2 (broadcastInDim (Sh2 1 N) ![1] hb1 b))) (ix2 p k) = logits h w (row b) p k := fun k => by
    rw [addf_apply, Cert.LibProduct.dotGeneral_apply d h1 h2 h3 h4 h5 h6, Cert.LibRowVector.inDimRow_apply]
    rfl
  have hmx : (maximumf (broadcastInDim (Sh1 M) ![] hm (constant (F := Ideal) Sh0 .f32 0xFF800000#32)) (Host.reduce FloatOps.maximumf (addf (Host.dotGeneral d none h w) (broadcastInDim (Sh2 M N) ![0, 1] hb2 (broadcastInDim (Sh2 1 N) ![1] hb1 b))) (constant (F := Ideal) Sh0 .f32 0xFF800000#32) hred hS)) (ix1 p) = rowMax (logits h w (row b) p) := by
    rw [maximumf_apply, Cert.LibRowVector.inDimScalar_apply, hostReduce_max_row]
    simp only [hy, constant_apply]
    exact max_start_fold _ _ _
  have hs : ∀ k : Fin N, (subf (addf (Host.dotGeneral d none h w) (broadcastInDim (Sh2 M N) ![0, 1] hb2 (broadcastInDim (Sh2 1 N) ![1] hb1 b))) (broadcastInDim (Sh2 M N) ![0, 1] hc1 (broadcastInDim (Sh2 M 1) ![0] hc0 (maximumf (broadcastInDim (Sh1 M) ![] hm (constant (F := Ideal) Sh0 .f32 0xFF800000#32)) (Host.reduce FloatOps.maximumf (addf (Host.dotGeneral d none h w) (broadcastInDim (Sh2 M N) ![0, 1] hb2 (broadcastInDim (Sh2 1 N) ![1] hb1 b))) (constant (F := Ideal) Sh0 .f32 0xFF800000#32) hred hS))))) (ix2 p k) = logits h w (row b) p k - rowMax (logits h w (row b) p) := fun k => by
    rw [subf_apply, inDimCol_apply, hy, hmx]
  rw [subf_apply, hs q, inDimCols_apply, hostLog_apply, inDimOneCol_apply, hostReduceAdd_row]
  simp only [hostExp_apply, hs, constant_apply, Ideal.ofBits_zero_f32, zero_add]
  rfl

end Cert.GraphNet.RefOps

end
-- ==== Proof.SimBase.lean ====
/-
  The two programs side by side.  Both are folds of host operations over their launch memories — the kernel program's
  interleaved with nine grid launches — and on memories that agree on the arguments they hold equal arrays at
  matching boundaries.  This module fixes the agreement and reads the first stretch, which both programs share.
-/
import proofs.«169431_j32804960207311_2_alg».proof.Proof.Gen.KernelIdeal.Frame
import proofs.«169431_j32804960207311_2_alg».proof.Proof.RefRun
import proofs.«169431_j32804960207311_2_alg».proof.Proof.KernelKept
import proofs.«169431_j32804960207311_2_alg».proof.Proof.RefKept
import proofs.«169431_j32804960207311_2_alg».proof.Proof.Spec
import proofs.«169431_j32804960207311_2_alg».proof.Proof.Casts
import proofs.«169431_j32804960207311_2_alg».proof.Proof.RefOps

import Idealize.ShloMosaic.PureOps.Ideal
import Idealize.ShloMosaic.Lib.StableHlo.Run

set_option maxRecDepth 16384
set_option maxHeartbeats 8000000

noncomputable section

namespace Cert.Sim

open Idealize.ShloMosaic Idealize.ShloMosaic.TcCoe Idealize.ShloMosaic.StableHlo Idealize.SL.Sem Cert.GraphNet

/-- The two launch memories agree on the fourteen arguments, on device `c`. -/
structure Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-! ## The degree stretch: both programs compute the edge endpoints, the inverse square root of the degree and the
    reciprocal degree by the same operations of the edge list -/

theorem b_v1 (hA : Agree m m' c) : Cert.KernelIdeal.Gen.W1 m ρ c (Proc.devRef .tc Cert.KernelIdeal.main_v1) = Cert.ReferenceIdeal.Line.U1 m' c (Proc.devRef .tc Cert.ReferenceIdeal.main_v1) := by
  show StableHlo.after Cert.KernelIdeal.Gen.hostOps0 (Cert.KernelIdeal.Gen.W0 m ρ c) (Proc.devRef .tc Cert.KernelIdeal.main_v1) = StableHlo.after Cert.ReferenceIdeal.Line.seg0 (Cert.ReferenceIdeal.Line.U0 m' c) (Proc.devRef .tc Cert.ReferenceIdeal.main_v1)
  after_results
  rw [(show Cert.ReferenceIdeal.Line.U0 m' c (Proc.devRef .tc Cert.ReferenceIdeal.main_arg1) = Cert.KernelIdeal.Gen.W0 m ρ c (Proc.devRef .tc Cert.KernelIdeal.main_arg1) from hA.a1)]
  rfl

theorem b_v3 (hA : Agree m m' c) : Cert.KernelIdeal.Gen.W1 m ρ c (Proc.devRef .tc Cert.KernelIdeal.main_v3) = Cert.ReferenceIdeal.Line.U1 m' c (Proc.devRef .tc Cert.ReferenceIdeal.main_v3) := by
  show StableHlo.after Cert.KernelIdeal.Gen.hostOps0 (Cert.KernelIdeal.Gen.W0 m ρ c) (Proc.devRef .tc Cert.KernelIdeal.main_v3) = StableHlo.after Cert.ReferenceIdeal.Line.seg0 (Cert.ReferenceIdeal.Line.U0 m' c) (Proc.devRef .tc Cert.ReferenceIdeal.main_v3)
  after_results
  rw [(show Cert.ReferenceIdeal.Line.U0 m' c (Proc.devRef .tc Cert.ReferenceIdeal.main_arg1) = Cert.KernelIdeal.Gen.W0 m ρ c (Proc.devRef .tc Cert.KernelIdeal.main_arg1) from hA.a1)]
  rfl

theorem b_v10 (hA : Agree m m' c) : Cert.KernelIdeal.Gen.W1 m ρ c (Proc.devRef .tc Cert.KernelIdeal.main_v10) = Cert.ReferenceIdeal.Line.U1 m' c (Proc.devRef .tc Cert.ReferenceIdeal.main_v10) := by
  show StableHlo.after Cert.KernelIdeal.Gen.hostOps0 (Cert.KernelIdeal.Gen.W0 m ρ c) (Proc.devRef .tc Cert.KernelIdeal.main_v10) = StableHlo.after Cert.ReferenceIdeal.Line.seg0 (Cert.ReferenceIdeal.Line.U0 m' c) (Proc.devRef .tc Cert.ReferenceIdeal.main_v10)
  after_results
  rw [(show Cert.ReferenceIdeal.Line.U0 m' c (Proc.devRef .tc Cert.ReferenceIdeal.main_arg1) = Cert.KernelIdeal.Gen.W0 m ρ c (Proc.devRef .tc Cert.KernelIdeal.main_arg1) from hA.a1)]
  rfl

/-- The kernel program keeps the reciprocal degree as a column. -/
theorem b_v13 (hA : Agree m m' c) : Cert.KernelIdeal.Gen.W1 m ρ c (Proc.devRef .tc Cert.KernelIdeal.main_v13) = col (Cert.ReferenceIdeal.Line.U1 m' c (Proc.devRef .tc Cert.ReferenceIdeal.main_v12)) := by
  show StableHlo.after Cert.KernelIdeal.Gen.hostOps0 (Cert.KernelIdeal.Gen.W0 m ρ c) (Proc.devRef .tc Cert.KernelIdeal.main_v13) = col (StableHlo.after Cert.ReferenceIdeal.Line.seg0 (Cert.ReferenceIdeal.Line.U0 m' c) (Proc.devRef .tc Cert.ReferenceIdeal.main_v12))
  after_results
  rw [(show Cert.ReferenceIdeal.Line.U0 m' c (Proc.devRef .tc Cert.ReferenceIdeal.main_arg1) = Cert.KernelIdeal.Gen.W0 m ρ c (Proc.devRef .tc Cert.KernelIdeal.main_arg1) from hA.a1)]
  exact cast_col _ _

/-- The kernel program lays the first bias as a row. -/
theorem b_v14 : Cert.KernelIdeal.Gen.W1 m ρ c (Proc.devRef .tc Cert.KernelIdeal.main_v14) = row (m ((c.tc : Thread Cert.KernelIdeal.nD Cert.KernelIdeal.τ).loc Cert.KernelIdeal.main_arg3)) := by
  show StableHlo.after Cert.KernelIdeal.Gen.hostOps0 (Cert.KernelIdeal.Gen.W0 m ρ c) (Proc.devRef .tc Cert.KernelIdeal.main_v14) = _
  after_results
  exact cast_row _ _

end Cert.Sim

end
-- ==== Proof.BodyDense.lean ====
/-
  The dense stages read at one entry.

  Each dense stage's value is an elementwise expression in a matrix product into a zero accumulator and in
  one-row parameter arrays repeated down the rows.  At the ideal instance a change of format is the identity,
  a cast of an array to its own shape is the identity, the product's entry (p, q) is the sum over the shared
  coordinate c of l (p, c) · r (c, q), and a one-row array repeated down the rows reads its entry (0, q) at
  (p, q).  So entry (p, q) of each stage is the stage's scalar formula in the product's entry (p, q) and the
  parameters' entries at column q.
-/
import proofs.«169431_j32804960207311_2_alg».proof.Proof.Gen.KernelIdeal.Skeleton
import proofs.«169431_j32804960207311_2_alg».proof.Proof.Spec
import proofs.«169431_j32804960207311_2_alg».proof.Proof.LibProduct
import proofs.«169431_j32804960207311_2_alg».proof.Proof.LibRowVector
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.GraphNet

/-- The bare product stage: entry (p, q) is the product's entry (p, q). -/
theorem pay1_apply (h : Vec Ideal S2000x256 .f32) (w : Vec Ideal S256x256 .f32) (p : Fin 2000) (q : Fin 256) :
    Gen.k1_pay1 (F := Ideal) h w (ix2 p q) = prod h w p q := by
  unfold Gen.k1_pay1
  refine (Cert.LibProduct.matmul_zero_apply _ rfl rfl rfl rfl rfl rfl none _ _ p q).trans ?_
  simp only [shapeCast_self]
  rfl

/-- The second bare product stage: the same expression as the first. -/
theorem pay3_apply (h : Vec Ideal S2000x256 .f32) (w : Vec Ideal S256x256 .f32) (p : Fin 2000) (q : Fin 256) :
    Gen.k3_pay1 (F := Ideal) h w (ix2 p q) = prod h w p q := pay1_apply h w p q

/-- The third bare product stage: the same expression as the first. -/
theorem pay5_apply (h : Vec Ideal S2000x256 .f32) (w : Vec Ideal S256x256 .f32) (p : Fin 2000) (q : Fin 256) :
    Gen.k5_pay1 (F := Ideal) h w (ix2 p q) = prod h w p q := pay1_apply h w p q

/-- The product stage with a bias and a floor at zero: entry (p, q) is max (x·W (p, q) + b q, 0). -/
theorem pay0_apply (x : Vec Ideal S2000x128 .f32) (w : Vec Ideal S128x256 .f32) (b : Vec Ideal S1x256 .f32)
    (p : Fin 2000) (q : Fin 256) :
    Gen.k0_pay1 (F := Ideal) x w b (ix2 p q) = max (prod x w p q + b (ix2 (0 : Fin 1) q)) zero32 := by
  unfold Gen.k0_pay1
  rw [maximumf_apply, addf_apply, broadcast_apply]
  refine congrArg₂ max (congrArg₂ (· + ·) ?_ ?_) rfl
  · refine (Cert.LibProduct.matmul_zero_apply _ rfl rfl rfl rfl rfl rfl none _ _ p q).trans ?_
    rfl
  · refine (broadcastTo_1b_ab_apply _ _ p q).trans ?_
    rw [shapeCast_self]

/-- The product stage with a bias, the fixed-statistics normalisation and a floor at zero: entry (p, q) is
    max (bn (h·W (p, q) + b q) γ_q β_q μ_q σ²_q, 0), the scale γ_q · rsqrt (σ²_q + ε) formed once per column. -/
theorem pay7_apply (h : Vec Ideal S2000x256 .f32) (w : Vec Ideal S256x256 .f32) (b g var mu be : Vec Ideal S1x256 .f32)
    (p : Fin 2000) (q : Fin 256) :
    Gen.k7_pay1 (F := Ideal) h w b g var mu be (ix2 p q)
      = max (bn (prod h w p q + b (ix2 (0 : Fin 1) q)) (g (ix2 (0 : Fin 1) q)) (be (ix2 (0 : Fin 1) q))
              (mu (ix2 (0 : Fin 1) q)) (var (ix2 (0 : Fin 1) q))) zero32 := by
  unfold Gen.k7_pay1
  rw [maximumf_apply, addf_apply, mulf_apply, subf_apply, addf_apply, broadcast_apply]
  refine congrArg₂ max ?_ rfl
  unfold bn
  refine congrArg₂ (· + ·) (congrArg₂ (· * ·) (congrArg₂ (· - ·) (congrArg₂ (· + ·) ?_ ?_) ?_) ?_) ?_
  · refine (Cert.LibProduct.matmul_zero_apply _ rfl rfl rfl rfl rfl rfl none _ _ p q).trans ?_
    simp only [shapeCast_self]
    rfl
  · refine (broadcastTo_1b_ab_apply _ _ p q).trans ?_
    rw [shapeCast_self]
  · refine (broadcastTo_1b_ab_apply _ _ p q).trans ?_
    rw [shapeCast_self]
  · refine (broadcastTo_1b_ab_apply _ _ p q).trans ?_
    simp only [shapeCast_self]
    rfl
  · refine (broadcastTo_1b_ab_apply _ _ p q).trans ?_
    rw [shapeCast_self]

end Cert.KernelIdeal.Body

end
-- ==== Proof.RegionRows.lean ====
/-
  Rows of a 50000-row array cut into 25 blocks of 2000: row p of block t is row 2000·t + p.
-/
import Idealize.ShloMosaic.Lib.ValueIdx

namespace Cert.KernelIdeal.Regions

/-- Row `p` of block `t`, of 25 blocks of 2000 rows. -/
def rowAt {n : ℕ} (hn : n = 25) (t : Fin n) (p : Fin 2000) : Fin 50000 :=
  ⟨t.val * 2000 + p.val, by have := t.isLt; have := p.isLt; omega⟩

theorem rowAt_val {n : ℕ} (hn : n = 25) (t : Fin n) (p : Fin 2000) : (rowAt hn t p).val = t.val * 2000 + p.val := rfl

/-- The zero offset of a whole-block access. -/
theorem hz : (![0, 0] : Fin 2 → Nat) = fun _ => 0 := funext fun a => by fin_cases a <;> rfl

end Cert.KernelIdeal.Regions
-- ==== Proof.Region0.lean ====
/-
  One grid launch of the network: 25 points, point t holding rows 2000·t … 2000·t + 1999 of every row-tiled array and
  the whole of every parameter array.  The body's value at entry (p, q) of its block depends on row p of the row-tiled
  blocks only, and row p of block t is row 2000·t + p of the array; so what point t writes back is block t of the layer
  applied to the whole arrays, and since the 25 blocks tile the output, the output array after the launch is that layer.
-/
import proofs.«169431_j32804960207311_2_alg».proof.Proof.Gen.KernelIdeal.Frame
import proofs.«169431_j32804960207311_2_alg».proof.Proof.Spec
import proofs.«169431_j32804960207311_2_alg».proof.Proof.BodyDense
import proofs.«169431_j32804960207311_2_alg».proof.Proof.RegionRows
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen Cert.GraphNet

variable (V : (c : Dev nD) → (b : Ref sig .tc) → Buf (Elt Ideal) ((c : Thread nD τ).loc b))

/-! ## Launch 0: `dense` of the arrays it finds -/

/-- The printed block index maps over the grid: a row window's block index is the point, a fixed window's is zero. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Point `t` writes back rows 2000·t … 2000·t + 1999 of the layer of the arrays the launch finds. -/
theorem flushed0 (c : Dev nD) (t : Fin cfg0.N) :
    (dat0 V c).flushed 3 t = ((cfg0.win 3).blk t).view.read (Elt Ideal) (dense (V c main_arg0) (V c main_arg2) (V c main_v14)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz, View.ld_unit_zero (S := S1x256) hz, View.ld_unit_zero (S := S2000x256) hz]
  obtain ⟨e0, e1, e2, e3, e4, e5, e6, e7⟩ := idx0 t
  funext j
  obtain ⟨p, q, rfl⟩ : ∃ (p : Fin 2000) (q : Fin 256), j = ix2 p q := ⟨j 0, j 1, eq_ix2 j⟩
  refine (Body.pay0_apply (iblk0 V c 0 t) (iblk0 V c 1 t) (iblk0 V c 2 t) p q).trans ?_
  have ho : ((cfg0.win 3).blk t).view.emb (ix2 p q) = ix2 (rowAt N_0 t p) q := by
    funext d; apply Fin.ext
    match d with
    | ⟨0, _⟩ => show win0_3.index t (0 : Fin 2) * 2000 + 1 * p.val = t.val * 2000 + p.val; omega
    | ⟨1, _⟩ => show win0_3.index t (1 : Fin 2) * 256 + 1 * q.val = q.val; omega
  have hw0 : ∀ (a : Fin 2000) (b : Fin 128), ((cfg0.win 0).blk t).view.emb (ix2 a b) = ix2 (rowAt N_0 t a) b := by
    intro a b; funext d; apply Fin.ext
    match d with
    | ⟨0, _⟩ => show win0_0.index t (0 : Fin 2) * 2000 + 1 * a.val = t.val * 2000 + a.val; omega
    | ⟨1, _⟩ => show win0_0.index t (1 : Fin 2) * 128 + 1 * b.val = b.val; omega
  have hw1 : ∀ (a : Fin 128) (b : Fin 256), ((cfg0.win 1).blk t).view.emb (ix2 a b) = ix2 a b := by
    intro a b; funext d; apply Fin.ext
    match d with
    | ⟨0, _⟩ => show win0_1.index t (0 : Fin 2) * 128 + 1 * a.val = a.val; omega
    | ⟨1, _⟩ => show win0_1.index t (1 : Fin 2) * 256 + 1 * b.val = b.val; omega
  have hw2 : ∀ (a : Fin 1) (b : Fin 256), ((cfg0.win 2).blk t).view.emb (ix2 a b) = ix2 a b := by
    intro a b; funext d; apply Fin.ext
    match d with
    | ⟨0, _⟩ => show win0_2.index t (0 : Fin 2) * 1 + 1 * a.val = a.val; omega
    | ⟨1, _⟩ => show win0_2.index t (1 : Fin 2) * 256 + 1 * b.val = b.val; omega
  show _ = (dense (V c main_arg0) (V c main_arg2) (V c main_v14)) (((cfg0.win 3).blk t).view.emb (ix2 p q))
  rw [ho]
  show (max ((∑ k : Fin 128, (id (V c main_arg0 (((cfg0.win 0).blk t).view.emb (ix2 p k))) : EReal) * (id (V c main_arg2 (((cfg0.win 1).blk t).view.emb (ix2 k q))) : EReal)) + (id (V c main_v14 (((cfg0.win 2).blk t).view.emb (ix2 (0 : Fin 1) q))) : EReal)) zero32)
    = (max ((∑ k : Fin 128, (id (V c main_arg0 (ix2 (rowAt N_0 t p) k)) : EReal) * (id (V c main_arg2 (ix2 k q)) : EReal)) + (id (V c main_v14 (ix2 (0 : Fin 1) q)) : EReal)) zero32)
  simp only [hw0, hw1, hw2]

/-- An index is in point `t`'s block iff each coordinate is in the block's range. -/
theorem mem_blk0 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v15).slice (win0_3.rect t)).set ↔ _
  rw [View.set_slice_whole, Rect.mem_set_unit]
  exact Iff.rfl

/-- The 25 blocks of 2000 rows tile the array: row r is in block r / 2000. -/
theorem cover0 (c : Dev nD) (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  have ht : (i 0).val / 2000 < cfg0.N := by omega
  obtain ⟨e0, e1, e2, e3, e4, e5, e6, e7⟩ := idx0 ⟨(i 0).val / 2000, ht⟩
  refine ⟨⟨(i 0).val / 2000, ht⟩, flush0_3 _, ?_⟩
  rw [mem_blk0]
  intro a
  match a with
  | ⟨0, _⟩ => show win0_3.index ⟨(i 0).val / 2000, ht⟩ (0 : Fin 2) * 2000 ≤ (i 0).val ∧ (i 0).val < win0_3.index ⟨(i 0).val / 2000, ht⟩ (0 : Fin 2) * 2000 + 2000; simp only [e6]; omega
  | ⟨1, _⟩ => show win0_3.index ⟨(i 0).val / 2000, ht⟩ (1 : Fin 2) * 256 ≤ (i 1).val ∧ (i 1).val < win0_3.index ⟨(i 0).val / 2000, ht⟩ (1 : Fin 2) * 256 + 256; simp only [e7]; omega

/-- After launch 0 its output array is the layer of the arrays it found. -/
theorem final0 (c : Dev nD) : (dat0 V c).arrAt 3 cfg0.N = (dense (V c main_arg0) (V c main_arg2) (V c main_v14)) :=
  (dat0 V c).arrAt_eq_of_cover 3 _ (fun t _ => flushed0 V c t) (cover0 c)

end Cert.KernelIdeal.Regions

end
-- ==== Proof.Region1.lean ====
/-
  One grid launch of the network: 25 points, point t holding rows 2000·t … 2000·t + 1999 of every row-tiled array and
  the whole of every parameter array.  The body's value at entry (p, q) of its block depends on row p of the row-tiled
  blocks only, and row p of block t is row 2000·t + p of the array; so what point t writes back is block t of the layer
  applied to the whole arrays, and since the 25 blocks tile the output, the output array after the launch is that layer.
-/
import proofs.«169431_j32804960207311_2_alg».proof.Proof.Gen.KernelIdeal.Frame
import proofs.«169431_j32804960207311_2_alg».proof.Proof.Spec
import proofs.«169431_j32804960207311_2_alg».proof.Proof.BodyDense
import proofs.«169431_j32804960207311_2_alg».proof.Proof.RegionRows
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen Cert.GraphNet

variable (V : (c : Dev nD) → (b : Ref sig .tc) → Buf (Elt Ideal) ((c : Thread nD τ).loc b))

/-! ## Launch 1: `proj` of the arrays it finds -/

/-- The printed block index maps over the grid: a row window's block index is the point, a fixed window's is zero. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Point `t` writes back rows 2000·t … 2000·t + 1999 of the layer of the arrays the launch finds. -/
theorem flushed1 (c : Dev nD) (t : Fin cfg1.N) :
    (dat1 V c).flushed 2 t = ((cfg1.win 2).blk t).view.read (Elt Ideal) (proj (V c main_v15) (V c main_v17)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x256) hz]
  obtain ⟨e0, e1, e2, e3, e4, e5⟩ := idx1 t
  funext j
  obtain ⟨p, q, rfl⟩ : ∃ (p : Fin 2000) (q : Fin 256), j = ix2 p q := ⟨j 0, j 1, eq_ix2 j⟩
  refine (Body.pay1_apply (iblk1 V c 0 t) (iblk1 V c 1 t) p q).trans ?_
  have ho : ((cfg1.win 2).blk t).view.emb (ix2 p q) = ix2 (rowAt N_1 t p) q := by
    funext d; apply Fin.ext
    match d with
    | ⟨0, _⟩ => show win1_2.index t (0 : Fin 2) * 2000 + 1 * p.val = t.val * 2000 + p.val; omega
    | ⟨1, _⟩ => show win1_2.index t (1 : Fin 2) * 256 + 1 * q.val = q.val; omega
  have hw0 : ∀ (a : Fin 2000) (b : Fin 256), ((cfg1.win 0).blk t).view.emb (ix2 a b) = ix2 (rowAt N_1 t a) b := by
    intro a b; funext d; apply Fin.ext
    match d with
    | ⟨0, _⟩ => show win1_0.index t (0 : Fin 2) * 2000 + 1 * a.val = t.val * 2000 + a.val; omega
    | ⟨1, _⟩ => show win1_0.index t (1 : Fin 2) * 256 + 1 * b.val = b.val; omega
  have hw1 : ∀ (a : Fin 256) (b : Fin 256), ((cfg1.win 1).blk t).view.emb (ix2 a b) = ix2 a b := by
    intro a b; funext d; apply Fin.ext
    match d with
    | ⟨0, _⟩ => show win1_1.index t (0 : Fin 2) * 256 + 1 * a.val = a.val; omega
    | ⟨1, _⟩ => show win1_1.index t (1 : Fin 2) * 256 + 1 * b.val = b.val; omega
  show _ = (proj (V c main_v15) (V c main_v17)) (((cfg1.win 2).blk t).view.emb (ix2 p q))
  rw [ho]
  show (∑ k : Fin 256, (id (V c main_v15 (((cfg1.win 0).blk t).view.emb (ix2 p k))) : EReal) * (id (V c main_v17 (((cfg1.win 1).blk t).view.emb (ix2 k q))) : EReal))
    = (∑ k : Fin 256, (id (V c main_v15 (ix2 (rowAt N_1 t p) k)) : EReal) * (id (V c main_v17 (ix2 k q)) : EReal))
  simp only [hw0, hw1]

/-- An index is in point `t`'s block iff each coordinate is in the block's range. -/
theorem mem_blk1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v18).slice (win1_2.rect t)).set ↔ _
  rw [View.set_slice_whole, Rect.mem_set_unit]
  exact Iff.rfl

/-- The 25 blocks of 2000 rows tile the array: row r is in block r / 2000. -/
theorem cover1 (c : Dev nD) (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  have ht : (i 0).val / 2000 < cfg1.N := by omega
  obtain ⟨e0, e1, e2, e3, e4, e5⟩ := idx1 ⟨(i 0).val / 2000, ht⟩
  refine ⟨⟨(i 0).val / 2000, ht⟩, flush1_2 _, ?_⟩
  rw [mem_blk1]
  intro a
  match a with
  | ⟨0, _⟩ => show win1_2.index ⟨(i 0).val / 2000, ht⟩ (0 : Fin 2) * 2000 ≤ (i 0).val ∧ (i 0).val < win1_2.index ⟨(i 0).val / 2000, ht⟩ (0 : Fin 2) * 2000 + 2000; simp only [e4]; omega
  | ⟨1, _⟩ => show win1_2.index ⟨(i 0).val / 2000, ht⟩ (1 : Fin 2) * 256 ≤ (i 1).val ∧ (i 1).val < win1_2.index ⟨(i 0).val / 2000, ht⟩ (1 : Fin 2) * 256 + 256; simp only [e5]; omega

/-- After launch 1 its output array is the layer of the arrays it found. -/
theorem final1 (c : Dev nD) : (dat1 V c).arrAt 2 cfg1.N = (proj (V c main_v15) (V c main_v17)) :=
  (dat1 V c).arrAt_eq_of_cover 2 _ (fun t _ => flushed1 V c t) (cover1 c)

end Cert.KernelIdeal.Regions

end
-- ==== Proof.LibColumnBroadcast.lean ====
/-
  One column broadcast over many: a reusable fact about array layouts, independent of any program.
-/
import Idealize.ShloMosaic.Lib.Pipeline.Value
import Idealize.ShloMosaic.Lib.ValueIdx

namespace LibColumnBroadcast

open Idealize.ShloMosaic Idealize.ShloMosaic.ValueIdx

/-- An `[a, 1]` array (one value per row, kept as a column) broadcast to `[a, b]` reads, at `(p, c)`, the column's value
    in row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end LibColumnBroadcast
-- ==== Proof.BodyCombine.lean ====
/-
  The neighbour sum joined with the node's own projection and normalised, read at one entry.

  Every operation of the stage acts entry by entry, the per-row reciprocal degree is a column repeated along each
  row, and the five per-column parameters are one-row arrays repeated down every column.  So entry (p, q) of the
  stage is max (bn (agg (p, q) + hp (p, q) · invdeg (p, 0) + b (0, q)), 0) with the parameters read at column q.
-/
import proofs.«169431_j32804960207311_2_alg».proof.Proof.Gen.KernelIdeal.Skeleton
import proofs.«169431_j32804960207311_2_alg».proof.Proof.Spec
import proofs.«169431_j32804960207311_2_alg».proof.Proof.LibColumnBroadcast
import Idealize.ShloMosaic.Lib.ValueIdx
import Idealize.ShloMosaic.Lib.ValueLayout
import Idealize.ShloMosaic.Lib.Pipeline.Value

set_option maxRecDepth 16384

noncomputable section

namespace Cert.KernelIdeal.Body

open Idealize.ShloMosaic Idealize.ShloMosaic.ValueIdx Cert.GraphNet

/-- The stage with its same-shape casts removed, at entry (p, q): the column of reciprocal degrees reads row p, each
    one-row parameter reads column q, and what remains is the normalisation followed by the maximum with zero. -/
theorem combine_entry (agg hp : Vec Ideal S2000x256 .f32) (invdeg : Vec Ideal S2000x1 .f32)
    (b g var mu be : Vec Ideal S1x256 .f32) (hc : S2000x1.Broadcasts S2000x256) (hr : S1x256.Broadcasts S2000x256)
    (p : Fin 2000) (q : Fin 256) :
    maximumf
        (addf
          (mulf
            (subf (addf (addf agg (mulf hp (broadcastTo S2000x256 invdeg hc))) (broadcastTo S2000x256 b hr))
              (broadcastTo S2000x256 mu hr))
            (broadcastTo S2000x256
              (mulf g (rsqrt (addf var (broadcast S1x256 (Scalar.ofBits (F := Ideal) .f32 0x3727C5AC#32))))) hr))
          (broadcastTo S2000x256 be hr))
        (broadcast S2000x256 (Scalar.ofBits (F := Ideal) .f32 0x00000000#32)) (ix2 p q)
      = max (bn (agg (ix2 p q) + hp (ix2 p q) * invdeg (ix2 p (0 : Fin 1)) + b (ix2 (0 : Fin 1) q))
              (g (ix2 (0 : Fin 1) q)) (be (ix2 (0 : Fin 1) q)) (mu (ix2 (0 : Fin 1) q)) (var (ix2 (0 : Fin 1) q))) zero32 := by
  show max
      ((agg (ix2 p q) + hp (ix2 p q) * broadcastTo S2000x256 invdeg hc (ix2 p q) + broadcastTo S2000x256 b hr (ix2 p q)
          - broadcastTo S2000x256 mu hr (ix2 p q))
        * broadcastTo S2000x256
            (mulf g (rsqrt (addf var (broadcast S1x256 (Scalar.ofBits (F := Ideal) .f32 0x3727C5AC#32))))) hr (ix2 p q)
        + broadcastTo S2000x256 be hr (ix2 p q)) zero32 = _
  rw [LibColumnBroadcast.broadcastTo_a1_ab_apply invdeg hc p q, broadcastTo_1b_ab_apply b hr p q,
    broadcastTo_1b_ab_apply mu hr p q, broadcastTo_1b_ab_apply be hr p q, broadcastTo_1b_ab_apply _ hr p q]
  rfl

theorem pay2_apply (agg hp : Vec Ideal S2000x256 .f32) (invdeg : Vec Ideal S2000x1 .f32)
    (b g var mu be : Vec Ideal S1x256 .f32) (p : Fin 2000) (q : Fin 256) :
    Gen.k2_pay1 (F := Ideal) agg hp invdeg b g var mu be (ix2 p q)
      = max (bn (agg (ix2 p q) + hp (ix2 p q) * invdeg (ix2 p (0 : Fin 1)) + b (ix2 (0 : Fin 1) q))
              (g (ix2 (0 : Fin 1) q)) (be (ix2 (0 : Fin 1) q)) (mu (ix2 (0 : Fin 1) q)) (var (ix2 (0 : Fin 1) q))) zero32 := by
  unfold Gen.k2_pay1
  simp only [shapeCast_self]
  exact combine_entry agg hp invdeg b g var mu be _ _ p q

theorem pay4_apply (agg hp : Vec Ideal S2000x256 .f32) (invdeg : Vec Ideal S2000x1 .f32)
    (b g var mu be : Vec Ideal S1x256 .f32) (p : Fin 2000) (q : Fin 256) :
    Gen.k4_pay1 (F := Ideal) agg hp invdeg b g var mu be (ix2 p q)
      = max (bn (agg (ix2 p q) + hp (ix2 p q) * invdeg (ix2 p (0 : Fin 1)) + b (ix2 (0 : Fin 1) q))
              (g (ix2 (0 : Fin 1) q)) (be (ix2 (0 : Fin 1) q)) (mu (ix2 (0 : Fin 1) q)) (var (ix2 (0 : Fin 1) q))) zero32 := by
  unfold Gen.k4_pay1
  simp only [shapeCast_self]
  exact combine_entry agg hp invdeg b g var mu be _ _ p q

theorem pay6_apply (agg hp : Vec Ideal S2000x256 .f32) (invdeg : Vec Ideal S2000x1 .f32)
    (b g var mu be : Vec Ideal S1x256 .f32) (p : Fin 2000) (q : Fin 256) :
    Gen.k6_pay1 (F := Ideal) agg hp invdeg b g var mu be (ix2 p q)
      = max (bn (agg (ix2 p q) + hp (ix2 p q) * invdeg (ix2 p (0 : Fin 1)) + b (ix2 (0 : Fin 1) q))
              (g (ix2 (0 : Fin 1) q)) (be (ix2 (0 : Fin 1) q)) (mu (ix2 (0 : Fin 1) q)) (var (ix2 (0 : Fin 1) q))) zero32 := by
  unfold Gen.k6_pay1
  simp only [shapeCast_self]
  exact combine_entry agg hp invdeg b g var mu be _ _ p q

end Cert.KernelIdeal.Body

end
-- ==== Proof.Region2.lean ====
/-
  One grid launch of the network: 25 points, point t holding rows 2000·t … 2000·t + 1999 of every row-tiled array and
  the whole of every parameter array.  The body's value at entry (p, q) of its block depends on row p of the row-tiled
  blocks only, and row p of block t is row 2000·t + p of the array; so what point t writes back is block t of the layer
  applied to the whole arrays, and since the 25 blocks tile the output, the output array after the launch is that layer.
-/
import proofs.«169431_j32804960207311_2_alg».proof.Proof.Gen.KernelIdeal.Frame
import proofs.«169431_j32804960207311_2_alg».proof.Proof.Spec
import proofs.«169431_j32804960207311_2_alg».proof.Proof.BodyCombine
import proofs.«169431_j32804960207311_2_alg».proof.Proof.RegionRows
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen Cert.GraphNet

variable (V : (c : Dev nD) → (b : Ref sig .tc) → Buf (Elt Ideal) ((c : Thread nD τ).loc b))

/-! ## Launch 2: `combine` of the arrays it finds -/

/-- The printed block index maps over the grid: a row window's block index is the point, a fixed window's is zero. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = t.val
    ∧ win2_8.index t (1 : Fin 2) = 0 :=
  (by decide +kernel : ∀ t : Fin grid2.N, _)

set_option maxHeartbeats 4000000 in
/-- Point `t` writes back rows 2000·t … 2000·t + 1999 of the layer of the arrays the launch finds. -/
theorem flushed2 (c : Dev nD) (t : Fin cfg2.N) :
    (dat2 V c).flushed 8 t = ((cfg2.win 8).blk t).view.read (Elt Ideal) (combine (V c main_v46) (V c main_v18) (V c main_v13) (V c main_v49) (V c main_v52) (V c main_v55) (V c main_v58) (V c main_v61)) := by
  show (cfg2.win 8).cut (grid2.coords t) ((dat2 V c).after 8 t) = _
  rw [after2_8]
  unfold out2_8
  rw [View.canon_unit_zero hz]
  simp only [View.ld_unit_zero (S := S2000x256) hz, View.ld_unit_zero (S := S2000x1) hz, View.ld_unit_zero (S := S1x256) hz]
  obtain ⟨e0, e1, e2, e3, e4, e5, e6, e7, e8, e9, e10, e11, e12, e13, e14, e15, e16, e17⟩ := idx2 t
  funext j
  obtain ⟨p, q, rfl⟩ : ∃ (p : Fin 2000) (q : Fin 256), j = ix2 p q := ⟨j 0, j 1, eq_ix2 j⟩
  refine (Body.pay2_apply (iblk2 V c 0 t) (iblk2 V c 1 t) (iblk2 V c 2 t) (iblk2 V c 3 t) (iblk2 V c 4 t) (iblk2 V c 7 t) (iblk2 V c 6 t) (iblk2 V c 5 t) p q).trans ?_
  have ho : ((cfg2.win 8).blk t).view.emb (ix2 p q) = ix2 (rowAt N_2 t p) q := by
    funext d; apply Fin.ext
    match d with
    | ⟨0, _⟩ => show win2_8.index t (0 : Fin 2) * 2000 + 1 * p.val = t.val * 2000 + p.val; omega
    | ⟨1, _⟩ => show win2_8.index t (1 : Fin 2) * 256 + 1 * q.val = q.val; omega
  have hw0 : ∀ (a : Fin 2000) (b : Fin 256), ((cfg2.win 0).blk t).view.emb (ix2 a b) = ix2 (rowAt N_2 t a) b := by
    intro a b; funext d; apply Fin.ext
    match d with
    | ⟨0, _⟩ => show win2_0.index t (0 : Fin 2) * 2000 + 1 * a.val = t.val * 2000 + a.val; omega
    | ⟨1, _⟩ => show win2_0.index t (1 : Fin 2) * 256 + 1 * b.val = b.val; omega
  have hw1 : ∀ (a : Fin 2000) (b : Fin 256), ((cfg2.win 1).blk t).view.emb (ix2 a b) = ix2 (rowAt N_2 t a) b := by
    intro a b; funext d; apply Fin.ext
    match d with
    | ⟨0, _⟩ => show win2_1.index t (0 : Fin 2) * 2000 + 1 * a.val = t.val * 2000 + a.val; omega
    | ⟨1, _⟩ => show win2_1.index t (1 : Fin 2) * 256 + 1 * b.val = b.val; omega
  have hw2 : ∀ (a : Fin 2000) (b : Fin 1), ((cfg2.win 2).blk t).view.emb (ix2 a b) = ix2 (rowAt N_2 t a) b := by
    intro a b; funext d; apply Fin.ext
    match d with
    | ⟨0, _⟩ => show win2_2.index t (0 : Fin 2) * 2000 + 1 * a.val = t.val * 2000 + a.val; omega
    | ⟨1, _⟩ => show win2_2.index t (1 : Fin 2) * 1 + 1 * b.val = b.val; omega
  have hw3 : ∀ (a : Fin 1) (b : Fin 256), ((cfg2.win 3).blk t).view.emb (ix2 a b) = ix2 a b := by
    intro a b; funext d; apply Fin.ext
    match d with
    | ⟨0, _⟩ => show win2_3.index t (0 : Fin 2) * 1 + 1 * a.val = a.val; omega
    | ⟨1, _⟩ => show win2_3.index t (1 : Fin 2) * 256 + 1 * b.val = b.val; omega
  have hw4 : ∀ (a : Fin 1) (b : Fin 256), ((cfg2.win 4).blk t).view.emb (ix2 a b) = ix2 a b := by
    intro a b; funext d; apply Fin.ext
    match d with
    | ⟨0, _⟩ => show win2_4.index t (0 : Fin 2) * 1 + 1 * a.val = a.val; omega
    | ⟨1, _⟩ => show win2_4.index t (1 : Fin 2) * 256 + 1 * b.val = b.val; omega
  have hw5 : ∀ (a : Fin 1) (b : Fin 256), ((cfg2.win 5).blk t).view.emb (ix2 a b) = ix2 a b := by
    intro a b; funext d; apply Fin.ext
    match d with
    | ⟨0, _⟩ => show win2_5.index t (0 : Fin 2) * 1 + 1 * a.val = a.val; omega
    | ⟨1, _⟩ => show win2_5.index t (1 : Fin 2) * 256 + 1 * b.val = b.val; omega
  have hw6 : ∀ (a : Fin 1) (b : Fin 256), ((cfg2.win 6).blk t).view.emb (ix2 a b) = ix2 a b := by
    intro a b; funext d; apply Fin.ext
    match d with
    | ⟨0, _⟩ => show win2_6.index t (0 : Fin 2) * 1 + 1 * a.val = a.val; omega
    | ⟨1, _⟩ => show win2_6.index t (1 : Fin 2) * 256 + 1 * b.val = b.val; omega
  have hw7 : ∀ (a : Fin 1) (b : Fin 256), ((cfg2.win 7).blk t).view.emb (ix2 a b) = ix2 a b := by
    intro a b; funext d; apply Fin.ext
    match d with
    | ⟨0, _⟩ => show win2_7.index t (0 : Fin 2) * 1 + 1 * a.val = a.val; omega
    | ⟨1, _⟩ => show win2_7.index t (1 : Fin 2) * 256 + 1 * b.val = b.val; omega
  show _ = (combine (V c main_v46) (V c main_v18) (V c main_v13) (V c main_v49) (V c main_v52) (V c main_v55) (V c main_v58) (V c main_v61)) (((cfg2.win 8).blk t).view.emb (ix2 p q))
  rw [ho]
  show (max (bn ((id (V c main_v46 (((cfg2.win 0).blk t).view.emb (ix2 p q))) : EReal) + (id (V c main_v18 (((cfg2.win 1).blk t).view.emb (ix2 p q))) : EReal) * (id (V c main_v13 (((cfg2.win 2).blk t).view.emb (ix2 p (0 : Fin 1)))) : EReal) + (id (V c main_v49 (((cfg2.win 3).blk t).view.emb (ix2 (0 : Fin 1) q))) : EReal)) (id (V c main_v52 (((cfg2.win 4).blk t).view.emb (ix2 (0 : Fin 1) q))) : EReal) (id (V c main_v55 (((cfg2.win 5).blk t).view.emb (ix2 (0 : Fin 1) q))) : EReal) (id (V c main_v58 (((cfg2.win 6).blk t).view.emb (ix2 (0 : Fin 1) q))) : EReal) (id (V c main_v61 (((cfg2.win 7).blk t).view.emb (ix2 (0 : Fin 1) q))) : EReal)) zero32)
    = (max (bn ((id (V c main_v46 (ix2 (rowAt N_2 t p) q)) : EReal) + (id (V c main_v18 (ix2 (rowAt N_2 t p) q)) : EReal) * (id (V c main_v13 (ix2 (rowAt N_2 t p) (0 : Fin 1))) : EReal) + (id (V c main_v49 (ix2 (0 : Fin 1) q)) : EReal)) (id (V c main_v52 (ix2 (0 : Fin 1) q)) : EReal) (id (V c main_v55 (ix2 (0 : Fin 1) q)) : EReal) (id (V c main_v58 (ix2 (0 : Fin 1) q)) : EReal) (id (V c main_v61 (ix2 (0 : Fin 1) q)) : EReal)) zero32)
  simp only [hw0, hw1, hw2, hw3, hw4, hw5, hw6, hw7]

/-- An index is in point `t`'s block iff each coordinate is in the block's range. -/
theorem mem_blk2 (t : Fin cfg2.N) (i : S50000x256.Idx) :
    i ∈ ((cfg2.win 8).blk t).view.set ↔ ∀ a : Fin 2, win2_8.index t a * S2000x256.size a ≤ (i a).val ∧ (i a).val < win2_8.index t a * S2000x256.size a + S2000x256.size a := by
  show i ∈ ((View.whole main_v62).slice (win2_8.rect t)).set ↔ _
  rw [View.set_slice_whole, Rect.mem_set_unit]
  exact Iff.rfl

/-- The 25 blocks of 2000 rows tile the array: row r is in block r / 2000. -/
theorem cover2 (c : Dev nD) (i : S50000x256.Idx) :
    ∃ t : Fin cfg2.N, (cfg2.win 8).flush t = true ∧ i ∈ ((cfg2.win 8).blk t).view.set := by
  have hi0 : (i 0).val < 50000 := (i 0).isLt
  have hi1 : (i 1).val < 256 := (i 1).isLt
  have hN : cfg2.N = 25 := N_2
  have ht : (i 0).val / 2000 < cfg2.N := by omega
  obtain ⟨e0, e1, e2, e3, e4, e5, e6, e7, e8, e9, e10, e11, e12, e13, e14, e15, e16, e17⟩ := idx2 ⟨(i 0).val / 2000, ht⟩
  refine ⟨⟨(i 0).val / 2000, ht⟩, flush2_8 _, ?_⟩
  rw [mem_blk2]
  intro a
  match a with
  | ⟨0, _⟩ => show win2_8.index ⟨(i 0).val / 2000, ht⟩ (0 : Fin 2) * 2000 ≤ (i 0).val ∧ (i 0).val < win2_8.index ⟨(i 0).val / 2000, ht⟩ (0 : Fin 2) * 2000 + 2000; simp only [e16]; omega
  | ⟨1, _⟩ => show win2_8.index ⟨(i 0).val / 2000, ht⟩ (1 : Fin 2) * 256 ≤ (i 1).val ∧ (i 1).val < win2_8.index ⟨(i 0).val / 2000, ht⟩ (1 : Fin 2) * 256 + 256; simp only [e17]; omega

/-- After launch 2 its output array is the layer of the arrays it found. -/
theorem final2 (c : Dev nD) : (dat2 V c).arrAt 8 cfg2.N = (combine (V c main_v46) (V c main_v18) (V c main_v13) (V c main_v49) (V c main_v52) (V c main_v55) (V c main_v58) (V c main_v61)) :=
  (dat2 V c).arrAt_eq_of_cover 8 _ (fun t _ => flushed2 V c t) (cover2 c)

end Cert.KernelIdeal.Regions

end
-- ==== Proof.Sim1.lean ====
/-
  The first dense layer and the first graph convolution, on both programs: at matching boundaries the two programs
  hold the same arrays.
-/
import proofs.«169431_j32804960207311_2_alg».proof.Proof.Gen.KernelIdeal.Frame
import proofs.«169431_j32804960207311_2_alg».proof.Proof.RefRun
import proofs.«169431_j32804960207311_2_alg».proof.Proof.KernelKept
import proofs.«169431_j32804960207311_2_alg».proof.Proof.RefKept
import proofs.«169431_j32804960207311_2_alg».proof.Proof.Spec
import proofs.«169431_j32804960207311_2_alg».proof.Proof.Casts
import proofs.«169431_j32804960207311_2_alg».proof.Proof.RefOps
import proofs.«169431_j32804960207311_2_alg».proof.Proof.SimBase
import proofs.«169431_j32804960207311_2_alg».proof.Proof.Region0
import proofs.«169431_j32804960207311_2_alg».proof.Proof.Region1
import proofs.«169431_j32804960207311_2_alg».proof.Proof.Region2
import Idealize.ShloMosaic.PureOps.Ideal
import Idealize.ShloMosaic.Lib.StableHlo.Run

set_option maxRecDepth 16384
set_option maxHeartbeats 8000000

noncomputable section

namespace Cert.Sim

open Idealize.ShloMosaic Idealize.ShloMosaic.TcCoe Idealize.ShloMosaic.StableHlo Idealize.SL.Sem Cert.GraphNet

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)
/-! ## The first dense layer -/

theorem k_h0 : Cert.KernelIdeal.Gen.W2 m ρ c (Proc.devRef .tc Cert.KernelIdeal.main_v15) = dense (Cert.KernelIdeal.Gen.W1 m ρ c (Proc.devRef .tc Cert.KernelIdeal.main_arg0)) (Cert.KernelIdeal.Gen.W1 m ρ c (Proc.devRef .tc Cert.KernelIdeal.main_arg2)) (Cert.KernelIdeal.Gen.W1 m ρ c (Proc.devRef .tc Cert.KernelIdeal.main_v14)) :=
  (Cert.KernelIdeal.Gen.W2_arr m ρ c 3).trans ((Cert.KernelIdeal.Regions.final0 (Cert.KernelIdeal.Gen.V1 m ρ) c).trans rfl)

theorem r_h0 : Cert.ReferenceIdeal.Line.U2 m' c (Proc.devRef .tc Cert.ReferenceIdeal.main_v17) = dense (Cert.ReferenceIdeal.Line.U1 m' c (Proc.devRef .tc Cert.ReferenceIdeal.main_arg0)) (Cert.ReferenceIdeal.Line.U1 m' c (Proc.devRef .tc Cert.ReferenceIdeal.main_arg2)) (row (Cert.ReferenceIdeal.Line.U1 m' c (Proc.devRef .tc Cert.ReferenceIdeal.main_arg3))) := by
  show StableHlo.after Cert.ReferenceIdeal.Line.seg1 (Cert.ReferenceIdeal.Line.U1 m' c) (Proc.devRef .tc Cert.ReferenceIdeal.main_v17) = _
  after_results
  exact RefOps.ref_dense (hb1 := Cert.ReferenceIdeal.Gen.bcast_S256_S1x256_1) (hb2 := Cert.ReferenceIdeal.Gen.bcast_S1x256_S50000x256_0_1) (hz := Cert.ReferenceIdeal.Gen.bcast_S_S50000x256) _ rfl rfl rfl rfl rfl rfl _ _ _

theorem s_h0 (hA : Agree m m' c) : Cert.KernelIdeal.Gen.W2 m ρ c (Proc.devRef .tc Cert.KernelIdeal.main_v15) = Cert.ReferenceIdeal.Line.U2 m' c (Proc.devRef .tc Cert.ReferenceIdeal.main_v17) := by
  have i0 : Cert.KernelIdeal.Gen.W1 m ρ c (Proc.devRef .tc Cert.KernelIdeal.main_arg0) = Cert.ReferenceIdeal.Line.U1 m' c (Proc.devRef .tc Cert.ReferenceIdeal.main_arg0) := (((show Cert.KernelIdeal.Gen.W1 m ρ c (Proc.devRef .tc Cert.KernelIdeal.main_arg0) = Cert.KernelIdeal.Gen.W0 m ρ c (Proc.devRef .tc Cert.KernelIdeal.main_arg0) from Cert.KernelIdeal.Kept.host0 m ρ c Cert.KernelIdeal.main_arg0 (by decide))).trans ((show Cert.KernelIdeal.Gen.W0 m ρ c (Proc.devRef .tc Cert.KernelIdeal.main_arg0) = Cert.ReferenceIdeal.Line.U0 m' c (Proc.devRef .tc Cert.ReferenceIdeal.main_arg0) from hA.a0.symm).trans ((show Cert.ReferenceIdeal.Line.U1 m' c (Proc.devRef .tc Cert.ReferenceIdeal.main_arg0) = Cert.ReferenceIdeal.Line.U0 m' c (Proc.devRef .tc Cert.ReferenceIdeal.main_arg0) from Cert.ReferenceIdeal.Kept.keep0 m' c Cert.ReferenceIdeal.main_arg0 (by decide))).symm))
  have i2 : Cert.KernelIdeal.Gen.W1 m ρ c (Proc.devRef .tc Cert.KernelIdeal.main_arg2) = Cert.ReferenceIdeal.Line.U1 m' c (Proc.devRef .tc Cert.ReferenceIdeal.main_arg2) := (((show Cert.KernelIdeal.Gen.W1 m ρ c (Proc.devRef .tc Cert.KernelIdeal.main_arg2) = Cert.KernelIdeal.Gen.W0 m ρ c (Proc.devRef .tc Cert.KernelIdeal.main_arg2) from Cert.KernelIdeal.Kept.host0 m ρ c Cert.KernelIdeal.main_arg2 (by decide))).trans ((show Cert.KernelIdeal.Gen.W0 m ρ c (Proc.devRef .tc Cert.KernelIdeal.main_arg2) = Cert.ReferenceIdeal.Line.U0 m' c (Proc.devRef .tc Cert.ReferenceIdeal.main_arg2) from hA.a2.symm).trans ((show Cert.ReferenceIdeal.Line.U1 m' c (Proc.devRef .tc Cert.ReferenceIdeal.main_arg2) = Cert.ReferenceIdeal.Line.U0 m' c (Proc.devRef .tc Cert.ReferenceIdeal.main_arg2) from Cert.ReferenceIdeal.Kept.keep0 m' c Cert.ReferenceIdeal.main_arg2 (by decide))).symm))
  have i3 : Cert.KernelIdeal.Gen.W1 m ρ c (Proc.devRef .tc Cert.KernelIdeal.main_v14) = row (Cert.ReferenceIdeal.Line.U1 m' c (Proc.devRef .tc Cert.ReferenceIdeal.main_arg3)) :=
    (b_v14 m ρ c).trans (congrArg row ((show (m ((c.tc : Thread Cert.KernelIdeal.nD Cert.KernelIdeal.τ).loc Cert.KernelIdeal.main_arg3)) = Cert.ReferenceIdeal.Line.U0 m' c (Proc.devRef .tc Cert.ReferenceIdeal.main_arg3) from hA.a3.symm).trans ((show Cert.ReferenceIdeal.Line.U1 m' c (Proc.devRef .tc Cert.ReferenceIdeal.main_arg3) = Cert.ReferenceIdeal.Line.U0 m' c (Proc.devRef .tc Cert.ReferenceIdeal.main_arg3) from Cert.ReferenceIdeal.Kept.keep0 m' c Cert.ReferenceIdeal.main_arg3 (by decide))).symm))
  rw [k_h0 m ρ c, i0, i2, i3, r_h0 m' c]
/-! ## Graph convolution 1: the projection, the edge gather and scatter, and the normalised combination -/

theorem s_w0 (hA : Agree m m' c) : Cert.KernelIdeal.Gen.W3 m ρ c (Proc.devRef .tc Cert.KernelIdeal.main_v17) = Cert.ReferenceIdeal.Line.U3 m' c (Proc.devRef .tc Cert.ReferenceIdeal.main_v19) := by
  show StableHlo.after Cert.KernelIdeal.Gen.hostOps1 (Cert.KernelIdeal.Gen.W2 m ρ c) (Proc.devRef .tc Cert.KernelIdeal.main_v17) = StableHlo.after Cert.ReferenceIdeal.Line.seg2 (Cert.ReferenceIdeal.Line.U2 m' c) (Proc.devRef .tc Cert.ReferenceIdeal.main_v19)
  after_results
  rw [((((show Cert.KernelIdeal.Gen.W2 m ρ c (Proc.devRef .tc Cert.KernelIdeal.main_arg4) = Cert.KernelIdeal.Gen.W1 m ρ c (Proc.devRef .tc Cert.KernelIdeal.main_arg4) from Cert.KernelIdeal.Gen.W2_of_ne m ρ c Cert.KernelIdeal.main_arg4 (by decide)).trans (show Cert.KernelIdeal.Gen.W1 m ρ c (Proc.devRef .tc Cert.KernelIdeal.main_arg4) = Cert.KernelIdeal.Gen.W0 m ρ c (Proc.devRef .tc Cert.KernelIdeal.main_arg4) from Cert.KernelIdeal.Kept.host0 m ρ c Cert.KernelIdeal.main_arg4 (by decide)))).trans ((show Cert.KernelIdeal.Gen.W0 m ρ c (Proc.devRef .tc Cert.KernelIdeal.main_arg4) = Cert.ReferenceIdeal.Line.U0 m' c (Proc.devRef .tc Cert.ReferenceIdeal.main_arg4) from hA.a4.symm).trans (((show Cert.ReferenceIdeal.Line.U2 m' c (Proc.devRef .tc Cert.ReferenceIdeal.main_arg4) = Cert.ReferenceIdeal.Line.U1 m' c (Proc.devRef .tc Cert.ReferenceIdeal.main_arg4) from Cert.ReferenceIdeal.Kept.keep1 m' c Cert.ReferenceIdeal.main_arg4 (by decide)).trans (show Cert.ReferenceIdeal.Line.U1 m' c (Proc.devRef .tc Cert.ReferenceIdeal.main_arg4) = Cert.ReferenceIdeal.Line.U0 m' c (Proc.devRef .tc Cert.ReferenceIdeal.main_arg4) from Cert.ReferenceIdeal.Kept.keep0 m' c Cert.ReferenceIdeal.main_arg4 (by decide)))).symm))]
  rfl

theorem k_p0 : Cert.KernelIdeal.Gen.W4 m ρ c (Proc.devRef .tc Cert.KernelIdeal.main_v18) = proj (Cert.KernelIdeal.Gen.W3 m ρ c (Proc.devRef .tc Cert.KernelIdeal.main_v15)) (Cert.KernelIdeal.Gen.W3 m ρ c (Proc.devRef .tc Cert.KernelIdeal.main_v17)) :=
  (Cert.KernelIdeal.Gen.W4_arr m ρ c 2).trans ((Cert.KernelIdeal.Regions.final1 (Cert.KernelIdeal.Gen.V3 m ρ) c).trans rfl)

theorem r_p0 : Cert.ReferenceIdeal.Line.U3 m' c (Proc.devRef .tc Cert.ReferenceIdeal.main_v22) = proj (Cert.ReferenceIdeal.Line.U2 m' c (Proc.devRef .tc Cert.ReferenceIdeal.main_v17)) (Cert.ReferenceIdeal.Line.U3 m' c (Proc.devRef .tc Cert.ReferenceIdeal.main_v19)) := by
  show StableHlo.after Cert.ReferenceIdeal.Line.seg2 (Cert.ReferenceIdeal.Line.U2 m' c) (Proc.devRef .tc Cert.ReferenceIdeal.main_v22) = proj (Cert.ReferenceIdeal.Line.U2 m' c (Proc.devRef .tc Cert.ReferenceIdeal.main_v17)) (StableHlo.after Cert.ReferenceIdeal.Line.seg2 (Cert.ReferenceIdeal.Line.U2 m' c) (Proc.devRef .tc Cert.ReferenceIdeal.main_v19))
  after_results
  exact RefOps.ref_proj _ rfl rfl rfl rfl rfl rfl _ _

theorem s_p0 (hA : Agree m m' c) : Cert.KernelIdeal.Gen.W4 m ρ c (Proc.devRef .tc Cert.KernelIdeal.main_v18) = Cert.ReferenceIdeal.Line.U3 m' c (Proc.devRef .tc Cert.ReferenceIdeal.main_v22) := by
  have ih : Cert.KernelIdeal.Gen.W3 m ρ c (Proc.devRef .tc Cert.KernelIdeal.main_v15) = Cert.ReferenceIdeal.Line.U2 m' c (Proc.devRef .tc Cert.ReferenceIdeal.main_v17) := ((show Cert.KernelIdeal.Gen.W3 m ρ c (Proc.devRef .tc Cert.KernelIdeal.main_v15) = Cert.KernelIdeal.Gen.W2 m ρ c (Proc.devRef .tc Cert.KernelIdeal.main_v15) from Cert.KernelIdeal.Kept.host1 m ρ c Cert.KernelIdeal.main_v15 (by decide))).trans (s_h0 m ρ m' c hA)
  rw [k_p0 m ρ c, ih, s_w0 m ρ m' c hA, r_p0 m' c]

theorem s_agg0 (hA : Agree m m' c) : Cert.KernelIdeal.Gen.W5 m ρ c (Proc.devRef .tc Cert.KernelIdeal.main_v46) = Cert.ReferenceIdeal.Line.U4 m' c (Proc.devRef .tc Cert.ReferenceIdeal.main_v50) := by
  have l1 : Cert.KernelIdeal.Gen.W4 m ρ c (Proc.devRef .tc Cert.KernelIdeal.main_v1) = Cert.ReferenceIdeal.Line.U3 m' c (Proc.devRef .tc Cert.ReferenceIdeal.main_v1) := (((show Cert.KernelIdeal.Gen.W4 m ρ c (Proc.devRef .tc Cert.KernelIdeal.main_v1) = Cert.KernelIdeal.Gen.W3 m ρ c (Proc.devRef .tc Cert.KernelIdeal.main_v1) from Cert.KernelIdeal.Gen.W4_of_ne m ρ c Cert.KernelIdeal.main_v1 (by decide)).trans ((show Cert.KernelIdeal.Gen.W3 m ρ c (Proc.devRef .tc Cert.KernelIdeal.main_v1) = Cert.KernelIdeal.Gen.W2 m ρ c (Proc.devRef .tc Cert.KernelIdeal.main_v1) from Cert.KernelIdeal.Kept.host1 m ρ c Cert.KernelIdeal.main_v1 (by decide)).trans (show Cert.KernelIdeal.Gen.W2 m ρ c (Proc.devRef .tc Cert.KernelIdeal.main_v1) = Cert.KernelIdeal.Gen.W1 m ρ c (Proc.devRef .tc Cert.KernelIdeal.main_v1) from Cert.KernelIdeal.Gen.W2_of_ne m ρ c Cert.KernelIdeal.main_v1 (by decide))))).trans ((b_v1 m ρ m' c hA).trans (((show Cert.ReferenceIdeal.Line.U3 m' c (Proc.devRef .tc Cert.ReferenceIdeal.main_v1) = Cert.ReferenceIdeal.Line.U2 m' c (Proc.devRef .tc Cert.ReferenceIdeal.main_v1) from Cert.ReferenceIdeal.Kept.keep2 m' c Cert.ReferenceIdeal.main_v1 (by decide)).trans (show Cert.ReferenceIdeal.Line.U2 m' c (Proc.devRef .tc Cert.ReferenceIdeal.main_v1) = Cert.ReferenceIdeal.Line.U1 m' c (Proc.devRef .tc Cert.ReferenceIdeal.main_v1) from Cert.ReferenceIdeal.Kept.keep1 m' c Cert.ReferenceIdeal.main_v1 (by decide)))).symm)
  have l3 : Cert.KernelIdeal.Gen.W4 m ρ c (Proc.devRef .tc Cert.KernelIdeal.main_v3) = Cert.ReferenceIdeal.Line.U3 m' c (Proc.devRef .tc Cert.ReferenceIdeal.main_v3) := (((show Cert.KernelIdeal.Gen.W4 m ρ c (Proc.devRef .tc Cert.KernelIdeal.main_v3) = Cert.KernelIdeal.Gen.W3 m ρ c (Proc.devRef .tc Cert.KernelIdeal.main_v3) from Cert.KernelIdeal.Gen.W4_of_ne m ρ c Cert.KernelIdeal.main_v3 (by decide)).trans ((show Cert.KernelIdeal.Gen.W3 m ρ c (Proc.devRef .tc Cert.KernelIdeal.main_v3) = Cert.KernelIdeal.Gen.W2 m ρ c (Proc.devRef .tc Cert.KernelIdeal.main_v3) from Cert.KernelIdeal.Kept.host1 m ρ c Cert.KernelIdeal.main_v3 (by decide)).trans (show Cert.KernelIdeal.Gen.W2 m ρ c (Proc.devRef .tc Cert.KernelIdeal.main_v3) = Cert.KernelIdeal.Gen.W1 m ρ c (Proc.devRef .tc Cert.KernelIdeal.main_v3) from Cert.KernelIdeal.Gen.W2_of_ne m ρ c Cert.KernelIdeal.main_v3 (by decide))))).trans ((b_v3 m ρ m' c hA).trans (((show Cert.ReferenceIdeal.Line.U3 m' c (Proc.devRef .tc Cert.ReferenceIdeal.main_v3) = Cert.ReferenceIdeal.Line.U2 m' c (Proc.devRef .tc Cert.ReferenceIdeal.main_v3) from Cert.ReferenceIdeal.Kept.keep2 m' c Cert.ReferenceIdeal.main_v3 (by decide)).trans (show Cert.ReferenceIdeal.Line.U2 m' c (Proc.devRef .tc Cert.ReferenceIdeal.main_v3) = Cert.ReferenceIdeal.Line.U1 m' c (Proc.devRef .tc Cert.ReferenceIdeal.main_v3) from Cert.ReferenceIdeal.Kept.keep1 m' c Cert.ReferenceIdeal.main_v3 (by decide)))).symm)
  have l10 : Cert.KernelIdeal.Gen.W4 m ρ c (Proc.devRef .tc Cert.KernelIdeal.main_v10) = Cert.ReferenceIdeal.Line.U3 m' c (Proc.devRef .tc Cert.ReferenceIdeal.main_v10) := (((show Cert.KernelIdeal.Gen.W4 m ρ c (Proc.devRef .tc Cert.KernelIdeal.main_v10) = Cert.KernelIdeal.Gen.W3 m ρ c (Proc.devRef .tc Cert.KernelIdeal.main_v10) from Cert.KernelIdeal.Gen.W4_of_ne m ρ c Cert.KernelIdeal.main_v10 (by decide)).trans ((show Cert.KernelIdeal.Gen.W3 m ρ c (Proc.devRef .tc Cert.KernelIdeal.main_v10) = Cert.KernelIdeal.Gen.W2 m ρ c (Proc.devRef .tc Cert.KernelIdeal.main_v10) from Cert.KernelIdeal.Kept.host1 m ρ c Cert.KernelIdeal.main_v10 (by decide)).trans (show Cert.KernelIdeal.Gen.W2 m ρ c (Proc.devRef .tc Cert.KernelIdeal.main_v10) = Cert.KernelIdeal.Gen.W1 m ρ c (Proc.devRef .tc Cert.KernelIdeal.main_v10) from Cert.KernelIdeal.Gen.W2_of_ne m ρ c Cert.KernelIdeal.main_v10 (by decide))))).trans ((b_v10 m ρ m' c hA).trans (((show Cert.ReferenceIdeal.Line.U3 m' c (Proc.devRef .tc Cert.ReferenceIdeal.main_v10) = Cert.ReferenceIdeal.Line.U2 m' c (Proc.devRef .tc Cert.ReferenceIdeal.main_v10) from Cert.ReferenceIdeal.Kept.keep2 m' c Cert.ReferenceIdeal.main_v10 (by decide)).trans (show Cert.ReferenceIdeal.Line.U2 m' c (Proc.devRef .tc Cert.ReferenceIdeal.main_v10) = Cert.ReferenceIdeal.Line.U1 m' c (Proc.devRef .tc Cert.ReferenceIdeal.main_v10) from Cert.ReferenceIdeal.Kept.keep1 m' c Cert.ReferenceIdeal.main_v10 (by decide)))).symm)
  have lp := s_p0 m ρ m' c hA
  show StableHlo.after Cert.KernelIdeal.Gen.hostOps2 (Cert.KernelIdeal.Gen.W4 m ρ c) (Proc.devRef .tc Cert.KernelIdeal.main_v46) = StableHlo.after Cert.ReferenceIdeal.Line.seg3 (Cert.ReferenceIdeal.Line.U3 m' c) (Proc.devRef .tc Cert.ReferenceIdeal.main_v50)
  after_results_simp
  rw [l1, l3, l10, lp]
  rfl

theorem s_b0 (hA : Agree m m' c) : Cert.KernelIdeal.Gen.W5 m ρ c (Proc.devRef .tc Cert.KernelIdeal.main_v49) = row (Cert.ReferenceIdeal.Line.U3 m' c (Proc.devRef .tc Cert.ReferenceIdeal.main_v21)) := by
  show StableHlo.after Cert.KernelIdeal.Gen.hostOps2 (Cert.KernelIdeal.Gen.W4 m ρ c) (Proc.devRef .tc Cert.KernelIdeal.main_v49) = row (StableHlo.after Cert.ReferenceIdeal.Line.seg2 (Cert.ReferenceIdeal.Line.U2 m' c) (Proc.devRef .tc Cert.ReferenceIdeal.main_v21))
  after_results_simp
  rw [((((show Cert.KernelIdeal.Gen.W4 m ρ c (Proc.devRef .tc Cert.KernelIdeal.main_arg5) = Cert.KernelIdeal.Gen.W3 m ρ c (Proc.devRef .tc Cert.KernelIdeal.main_arg5) from Cert.KernelIdeal.Gen.W4_of_ne m ρ c Cert.KernelIdeal.main_arg5 (by decide)).trans ((show Cert.KernelIdeal.Gen.W3 m ρ c (Proc.devRef .tc Cert.KernelIdeal.main_arg5) = Cert.KernelIdeal.Gen.W2 m ρ c (Proc.devRef .tc Cert.KernelIdeal.main_arg5) from Cert.KernelIdeal.Kept.host1 m ρ c Cert.KernelIdeal.main_arg5 (by decide)).trans ((show Cert.KernelIdeal.Gen.W2 m ρ c (Proc.devRef .tc Cert.KernelIdeal.main_arg5) = Cert.KernelIdeal.Gen.W1 m ρ c (Proc.devRef .tc Cert.KernelIdeal.main_arg5) from Cert.KernelIdeal.Gen.W2_of_ne m ρ c Cert.KernelIdeal.main_arg5 (by decide)).trans (show Cert.KernelIdeal.Gen.W1 m ρ c (Proc.devRef .tc Cert.KernelIdeal.main_arg5) = Cert.KernelIdeal.Gen.W0 m ρ c (Proc.devRef .tc Cert.KernelIdeal.main_arg5) from Cert.KernelIdeal.Kept.host0 m ρ c Cert.KernelIdeal.main_arg5 (by decide)))))).trans ((show Cert.KernelIdeal.Gen.W0 m ρ c (Proc.devRef .tc Cert.KernelIdeal.main_arg5) = Cert.ReferenceIdeal.Line.U0 m' c (Proc.devRef .tc Cert.ReferenceIdeal.main_arg5) from hA.a5.symm).trans (((show Cert.ReferenceIdeal.Line.U2 m' c (Proc.devRef .tc Cert.ReferenceIdeal.main_arg5) = Cert.ReferenceIdeal.Line.U1 m' c (Proc.devRef .tc Cert.ReferenceIdeal.main_arg5) from Cert.ReferenceIdeal.Kept.keep1 m' c Cert.ReferenceIdeal.main_arg5 (by decide)).trans (show Cert.ReferenceIdeal.Line.U1 m' c (Proc.devRef .tc Cert.ReferenceIdeal.main_arg5) = Cert.ReferenceIdeal.Line.U0 m' c (Proc.devRef .tc Cert.ReferenceIdeal.main_arg5) from Cert.ReferenceIdeal.Kept.keep0 m' c Cert.ReferenceIdeal.main_arg5 (by decide)))).symm))]
  exact cast_row _ _

theorem s_g0 (hA : Agree m m' c) : Cert.KernelIdeal.Gen.W5 m ρ c (Proc.devRef .tc Cert.KernelIdeal.main_v52) = row (Cert.ReferenceIdeal.Line.U5 m' c (Proc.devRef .tc Cert.ReferenceIdeal.main_v59)) := by
  show StableHlo.after Cert.KernelIdeal.Gen.hostOps2 (Cert.KernelIdeal.Gen.W4 m ρ c) (Proc.devRef .tc Cert.KernelIdeal.main_v52) = row (StableHlo.after Cert.ReferenceIdeal.Line.seg4 (Cert.ReferenceIdeal.Line.U4 m' c) (Proc.devRef .tc Cert.ReferenceIdeal.main_v59))
  after_results_simp
  rw [((((show Cert.KernelIdeal.Gen.W4 m ρ c (Proc.devRef .tc Cert.KernelIdeal.main_arg10) = Cert.KernelIdeal.Gen.W3 m ρ c (Proc.devRef .tc Cert.KernelIdeal.main_arg10) from Cert.KernelIdeal.Gen.W4_of_ne m ρ c Cert.KernelIdeal.main_arg10 (by decide)).trans ((show Cert.KernelIdeal.Gen.W3 m ρ c (Proc.devRef .tc Cert.KernelIdeal.main_arg10) = Cert.KernelIdeal.Gen.W2 m ρ c (Proc.devRef .tc Cert.KernelIdeal.main_arg10) from Cert.KernelIdeal.Kept.host1 m ρ c Cert.KernelIdeal.main_arg10 (by decide)).trans ((show Cert.KernelIdeal.Gen.W2 m ρ c (Proc.devRef .tc Cert.KernelIdeal.main_arg10) = Cert.KernelIdeal.Gen.W1 m ρ c (Proc.devRef .tc Cert.KernelIdeal.main_arg10) from Cert.KernelIdeal.Gen.W2_of_ne m ρ c Cert.KernelIdeal.main_arg10 (by decide)).trans (show Cert.KernelIdeal.Gen.W1 m ρ c (Proc.devRef .tc Cert.KernelIdeal.main_arg10) = Cert.KernelIdeal.Gen.W0 m ρ c (Proc.devRef .tc Cert.KernelIdeal.main_arg10) from Cert.KernelIdeal.Kept.host0 m ρ c Cert.KernelIdeal.main_arg10 (by decide)))))).trans ((show Cert.KernelIdeal.Gen.W0 m ρ c (Proc.devRef .tc Cert.KernelIdeal.main_arg10) = Cert.ReferenceIdeal.Line.U0 m' c (Proc.devRef .tc Cert.ReferenceIdeal.main_arg10) from hA.a10.symm).trans (((show Cert.ReferenceIdeal.Line.U4 m' c (Proc.devRef .tc Cert.ReferenceIdeal.main_arg10) = Cert.ReferenceIdeal.Line.U3 m' c (Proc.devRef .tc Cert.ReferenceIdeal.main_arg10) from Cert.ReferenceIdeal.Kept.keep3 m' c Cert.ReferenceIdeal.main_arg10 (by decide)).trans ((show Cert.ReferenceIdeal.Line.U3 m' c (Proc.devRef .tc Cert.ReferenceIdeal.main_arg10) = Cert.ReferenceIdeal.Line.U2 m' c (Proc.devRef .tc Cert.ReferenceIdeal.main_arg10) from Cert.ReferenceIdeal.Kept.keep2 m' c Cert.ReferenceIdeal.main_arg10 (by decide)).trans ((show Cert.ReferenceIdeal.Line.U2 m' c (Proc.devRef .tc Cert.ReferenceIdeal.main_arg10) = Cert.ReferenceIdeal.Line.U1 m' c (Proc.devRef .tc Cert.ReferenceIdeal.main_arg10) from Cert.ReferenceIdeal.Kept.keep1 m' c Cert.ReferenceIdeal.main_arg10 (by decide)).trans (show Cert.ReferenceIdeal.Line.U1 m' c (Proc.devRef .tc Cert.ReferenceIdeal.main_arg10) = Cert.ReferenceIdeal.Line.U0 m' c (Proc.devRef .tc Cert.ReferenceIdeal.main_arg10) from Cert.ReferenceIdeal.Kept.keep0 m' c Cert.ReferenceIdeal.main_arg10 (by decide)))))).symm))]
  exact cast_row _ _

theorem s_be0 (hA : Agree m m' c) : Cert.KernelIdeal.Gen.W5 m ρ c (Proc.devRef .tc Cert.KernelIdeal.main_v55) = row (Cert.ReferenceIdeal.Line.U5 m' c (Proc.devRef .tc Cert.ReferenceIdeal.main_v61)) := by
  show StableHlo.after Cert.KernelIdeal.Gen.hostOps2 (Cert.KernelIdeal.Gen.W4 m ρ c) (Proc.devRef .tc Cert.KernelIdeal.main_v55) = row (StableHlo.after Cert.ReferenceIdeal.Line.seg4 (Cert.ReferenceIdeal.Line.U4 m' c) (Proc.devRef .tc Cert.ReferenceIdeal.main_v61))
  after_results_simp
  rw [((((show Cert.KernelIdeal.Gen.W4 m ρ c (Proc.devRef .tc Cert.KernelIdeal.main_arg11) = Cert.KernelIdeal.Gen.W3 m ρ c (Proc.devRef .tc Cert.KernelIdeal.main_arg11) from Cert.KernelIdeal.Gen.W4_of_ne m ρ c Cert.KernelIdeal.main_arg11 (by decide)).trans ((show Cert.KernelIdeal.Gen.W3 m ρ c (Proc.devRef .tc Cert.KernelIdeal.main_arg11) = Cert.KernelIdeal.Gen.W2 m ρ c (Proc.devRef .tc Cert.KernelIdeal.main_arg11) from Cert.KernelIdeal.Kept.host1 m ρ c Cert.KernelIdeal.main_arg11 (by decide)).trans ((show Cert.KernelIdeal.Gen.W2 m ρ c (Proc.devRef .tc Cert.KernelIdeal.main_arg11) = Cert.KernelIdeal.Gen.W1 m ρ c (Proc.devRef .tc Cert.KernelIdeal.main_arg11) from Cert.KernelIdeal.Gen.W2_of_ne m ρ c Cert.KernelIdeal.main_arg11 (by decide)).trans (show Cert.KernelIdeal.Gen.W1 m ρ c (Proc.devRef .tc Cert.KernelIdeal.main_arg11) = Cert.KernelIdeal.Gen.W0 m ρ c (Proc.devRef .tc Cert.KernelIdeal.main_arg11) from Cert.KernelIdeal.Kept.host0 m ρ c Cert.KernelIdeal.main_arg11 (by decide)))))).trans ((show Cert.KernelIdeal.Gen.W0 m ρ c (Proc.devRef .tc Cert.KernelIdeal.main_arg11) = Cert.ReferenceIdeal.Line.U0 m' c (Proc.devRef .tc Cert.ReferenceIdeal.main_arg11) from hA.a11.symm).trans (((show Cert.ReferenceIdeal.Line.U4 m' c (Proc.devRef .tc Cert.ReferenceIdeal.main_arg11) = Cert.ReferenceIdeal.Line.U3 m' c (Proc.devRef .tc Cert.ReferenceIdeal.main_arg11) from Cert.ReferenceIdeal.Kept.keep3 m' c Cert.ReferenceIdeal.main_arg11 (by decide)).trans ((show Cert.ReferenceIdeal.Line.U3 m' c (Proc.devRef .tc Cert.ReferenceIdeal.main_arg11) = Cert.ReferenceIdeal.Line.U2 m' c (Proc.devRef .tc Cert.ReferenceIdeal.main_arg11) from Cert.ReferenceIdeal.Kept.keep2 m' c Cert.ReferenceIdeal.main_arg11 (by decide)).trans ((show Cert.ReferenceIdeal.Line.U2 m' c (Proc.devRef .tc Cert.ReferenceIdeal.main_arg11) = Cert.ReferenceIdeal.Line.U1 m' c (Proc.devRef .tc Cert.ReferenceIdeal.main_arg11) from Cert.ReferenceIdeal.Kept.keep1 m' c Cert.ReferenceIdeal.main_arg11 (by decide)).trans (show Cert.ReferenceIdeal.Line.U1 m' c (Proc.devRef .tc Cert.ReferenceIdeal.main_arg11) = Cert.ReferenceIdeal.Line.U0 m' c (Proc.devRef .tc Cert.ReferenceIdeal.main_arg11) from Cert.ReferenceIdeal.Kept.keep0 m' c Cert.ReferenceIdeal.main_arg11 (by decide)))))).symm))]
  exact cast_row _ _

theorem s_mu0 (hA : Agree m m' c) : Cert.KernelIdeal.Gen.W5 m ρ c (Proc.devRef .tc Cert.KernelIdeal.main_v58) = row (Cert.ReferenceIdeal.Line.U5 m' c (Proc.devRef .tc Cert.ReferenceIdeal.main_v63)) := by
  show StableHlo.after Cert.KernelIdeal.Gen.hostOps2 (Cert.KernelIdeal.Gen.W4 m ρ c) (Proc.devRef .tc Cert.KernelIdeal.main_v58) = row (StableHlo.after Cert.ReferenceIdeal.Line.seg4 (Cert.ReferenceIdeal.Line.U4 m' c) (Proc.devRef .tc Cert.ReferenceIdeal.main_v63))
  after_results_simp
  rw [((((show Cert.KernelIdeal.Gen.W4 m ρ c (Proc.devRef .tc Cert.KernelIdeal.main_arg12) = Cert.KernelIdeal.Gen.W3 m ρ c (Proc.devRef .tc Cert.KernelIdeal.main_arg12) from Cert.KernelIdeal.Gen.W4_of_ne m ρ c Cert.KernelIdeal.main_arg12 (by decide)).trans ((show Cert.KernelIdeal.Gen.W3 m ρ c (Proc.devRef .tc Cert.KernelIdeal.main_arg12) = Cert.KernelIdeal.Gen.W2 m ρ c (Proc.devRef .tc Cert.KernelIdeal.main_arg12) from Cert.KernelIdeal.Kept.host1 m ρ c Cert.KernelIdeal.main_arg12 (by decide)).trans ((show Cert.KernelIdeal.Gen.W2 m ρ c (Proc.devRef .tc Cert.KernelIdeal.main_arg12) = Cert.KernelIdeal.Gen.W1 m ρ c (Proc.devRef .tc Cert.KernelIdeal.main_arg12) from Cert.KernelIdeal.Gen.W2_of_ne m ρ c Cert.KernelIdeal.main_arg12 (by decide)).trans (show Cert.KernelIdeal.Gen.W1 m ρ c (Proc.devRef .tc Cert.KernelIdeal.main_arg12) = Cert.KernelIdeal.Gen.W0 m ρ c (Proc.devRef .tc Cert.KernelIdeal.main_arg12) from Cert.KernelIdeal.Kept.host0 m ρ c Cert.KernelIdeal.main_arg12 (by decide)))))).trans ((show Cert.KernelIdeal.Gen.W0 m ρ c (Proc.devRef .tc Cert.KernelIdeal.main_arg12) = Cert.ReferenceIdeal.Line.U0 m' c (Proc.devRef .tc Cert.ReferenceIdeal.main_arg12) from hA.a12.symm).trans (((show Cert.ReferenceIdeal.Line.U4 m' c (Proc.devRef .tc Cert.ReferenceIdeal.main_arg12) = Cert.ReferenceIdeal.Line.U3 m' c (Proc.devRef .tc Cert.ReferenceIdeal.main_arg12) from Cert.ReferenceIdeal.Kept.keep3 m' c Cert.ReferenceIdeal.main_arg12 (by decide)).trans ((show Cert.ReferenceIdeal.Line.U3 m' c (Proc.devRef .tc Cert.ReferenceIdeal.main_arg12) = Cert.ReferenceIdeal.Line.U2 m' c (Proc.devRef .tc Cert.ReferenceIdeal.main_arg12) from Cert.ReferenceIdeal.Kept.keep2 m' c Cert.ReferenceIdeal.main_arg12 (by decide)).trans ((show Cert.ReferenceIdeal.Line.U2 m' c (Proc.devRef .tc Cert.ReferenceIdeal.main_arg12) = Cert.ReferenceIdeal.Line.U1 m' c (Proc.devRef .tc Cert.ReferenceIdeal.main_arg12) from Cert.ReferenceIdeal.Kept.keep1 m' c Cert.ReferenceIdeal.main_arg12 (by decide)).trans (show Cert.ReferenceIdeal.Line.U1 m' c (Proc.devRef .tc Cert.ReferenceIdeal.main_arg12) = Cert.ReferenceIdeal.Line.U0 m' c (Proc.devRef .tc Cert.ReferenceIdeal.main_arg12) from Cert.ReferenceIdeal.Kept.keep0 m' c Cert.ReferenceIdeal.main_arg12 (by decide)))))).symm))]
  exact cast_row _ _

theorem s_var0 (hA : Agree m m' c) : Cert.KernelIdeal.Gen.W5 m ρ c (Proc.devRef .tc Cert.KernelIdeal.main_v61) = row (Cert.ReferenceIdeal.Line.U5 m' c (Proc.devRef .tc Cert.ReferenceIdeal.main_v65)) := by
  show StableHlo.after Cert.KernelIdeal.Gen.hostOps2 (Cert.KernelIdeal.Gen.W4 m ρ c) (Proc.devRef .tc Cert.KernelIdeal.main_v61) = row (StableHlo.after Cert.ReferenceIdeal.Line.seg4 (Cert.ReferenceIdeal.Line.U4 m' c) (Proc.devRef .tc Cert.ReferenceIdeal.main_v65))
  after_results_simp
  rw [((((show Cert.KernelIdeal.Gen.W4 m ρ c (Proc.devRef .tc Cert.KernelIdeal.main_arg13) = Cert.KernelIdeal.Gen.W3 m ρ c (Proc.devRef .tc Cert.KernelIdeal.main_arg13) from Cert.KernelIdeal.Gen.W4_of_ne m ρ c Cert.KernelIdeal.main_arg13 (by decide)).trans ((show Cert.KernelIdeal.Gen.W3 m ρ c (Proc.devRef .tc Cert.KernelIdeal.main_arg13) = Cert.KernelIdeal.Gen.W2 m ρ c (Proc.devRef .tc Cert.KernelIdeal.main_arg13) from Cert.KernelIdeal.Kept.host1 m ρ c Cert.KernelIdeal.main_arg13 (by decide)).trans ((show Cert.KernelIdeal.Gen.W2 m ρ c (Proc.devRef .tc Cert.KernelIdeal.main_arg13) = Cert.KernelIdeal.Gen.W1 m ρ c (Proc.devRef .tc Cert.KernelIdeal.main_arg13) from Cert.KernelIdeal.Gen.W2_of_ne m ρ c Cert.KernelIdeal.main_arg13 (by decide)).trans (show Cert.KernelIdeal.Gen.W1 m ρ c (Proc.devRef .tc Cert.KernelIdeal.main_arg13) = Cert.KernelIdeal.Gen.W0 m ρ c (Proc.devRef .tc Cert.KernelIdeal.main_arg13) from Cert.KernelIdeal.Kept.host0 m ρ c Cert.KernelIdeal.main_arg13 (by decide)))))).trans ((show Cert.KernelIdeal.Gen.W0 m ρ c (Proc.devRef .tc Cert.KernelIdeal.main_arg13) = Cert.ReferenceIdeal.Line.U0 m' c (Proc.devRef .tc Cert.ReferenceIdeal.main_arg13) from hA.a13.symm).trans (((show Cert.ReferenceIdeal.Line.U4 m' c (Proc.devRef .tc Cert.ReferenceIdeal.main_arg13) = Cert.ReferenceIdeal.Line.U3 m' c (Proc.devRef .tc Cert.ReferenceIdeal.main_arg13) from Cert.ReferenceIdeal.Kept.keep3 m' c Cert.ReferenceIdeal.main_arg13 (by decide)).trans ((show Cert.ReferenceIdeal.Line.U3 m' c (Proc.devRef .tc Cert.ReferenceIdeal.main_arg13) = Cert.ReferenceIdeal.Line.U2 m' c (Proc.devRef .tc Cert.ReferenceIdeal.main_arg13) from Cert.ReferenceIdeal.Kept.keep2 m' c Cert.ReferenceIdeal.main_arg13 (by decide)).trans ((show Cert.ReferenceIdeal.Line.U2 m' c (Proc.devRef .tc Cert.ReferenceIdeal.main_arg13) = Cert.ReferenceIdeal.Line.U1 m' c (Proc.devRef .tc Cert.ReferenceIdeal.main_arg13) from Cert.ReferenceIdeal.Kept.keep1 m' c Cert.ReferenceIdeal.main_arg13 (by decide)).trans (show Cert.ReferenceIdeal.Line.U1 m' c (Proc.devRef .tc Cert.ReferenceIdeal.main_arg13) = Cert.ReferenceIdeal.Line.U0 m' c (Proc.devRef .tc Cert.ReferenceIdeal.main_arg13) from Cert.ReferenceIdeal.Kept.keep0 m' c Cert.ReferenceIdeal.main_arg13 (by decide)))))).symm))]
  exact cast_row _ _

theorem k_c0 : Cert.KernelIdeal.Gen.W6 m ρ c (Proc.devRef .tc Cert.KernelIdeal.main_v62) = combine (Cert.KernelIdeal.Gen.W5 m ρ c (Proc.devRef .tc Cert.KernelIdeal.main_v46)) (Cert.KernelIdeal.Gen.W5 m ρ c (Proc.devRef .tc Cert.KernelIdeal.main_v18)) (Cert.KernelIdeal.Gen.W5 m ρ c (Proc.devRef .tc Cert.KernelIdeal.main_v13)) (Cert.KernelIdeal.Gen.W5 m ρ c (Proc.devRef .tc Cert.KernelIdeal.main_v49)) (Cert.KernelIdeal.Gen.W5 m ρ c (Proc.devRef .tc Cert.KernelIdeal.main_v52)) (Cert.KernelIdeal.Gen.W5 m ρ c (Proc.devRef .tc Cert.KernelIdeal.main_v55)) (Cert.KernelIdeal.Gen.W5 m ρ c (Proc.devRef .tc Cert.KernelIdeal.main_v58)) (Cert.KernelIdeal.Gen.W5 m ρ c (Proc.devRef .tc Cert.KernelIdeal.main_v61)) :=
  (Cert.KernelIdeal.Gen.W6_arr m ρ c 8).trans ((Cert.KernelIdeal.Regions.final2 (Cert.KernelIdeal.Gen.V5 m ρ) c).trans rfl)

theorem r_c0 : Cert.ReferenceIdeal.Line.U5 m' c (Proc.devRef .tc Cert.ReferenceIdeal.main_v79) = combine (Cert.ReferenceIdeal.Line.U4 m' c (Proc.devRef .tc Cert.ReferenceIdeal.main_v50)) (Cert.ReferenceIdeal.Line.U4 m' c (Proc.devRef .tc Cert.ReferenceIdeal.main_v22)) (col (Cert.ReferenceIdeal.Line.U4 m' c (Proc.devRef .tc Cert.ReferenceIdeal.main_v12))) (row (Cert.ReferenceIdeal.Line.U4 m' c (Proc.devRef .tc Cert.ReferenceIdeal.main_v21))) (row (Cert.ReferenceIdeal.Line.U5 m' c (Proc.devRef .tc Cert.ReferenceIdeal.main_v59))) (row (Cert.ReferenceIdeal.Line.U5 m' c (Proc.devRef .tc Cert.ReferenceIdeal.main_v61))) (row (Cert.ReferenceIdeal.Line.U5 m' c (Proc.devRef .tc Cert.ReferenceIdeal.main_v63))) (row (Cert.ReferenceIdeal.Line.U5 m' c (Proc.devRef .tc Cert.ReferenceIdeal.main_v65))) := by
  show StableHlo.after Cert.ReferenceIdeal.Line.seg4 (Cert.ReferenceIdeal.Line.U4 m' c) (Proc.devRef .tc Cert.ReferenceIdeal.main_v79) = combine (Cert.ReferenceIdeal.Line.U4 m' c (Proc.devRef .tc Cert.ReferenceIdeal.main_v50)) (Cert.ReferenceIdeal.Line.U4 m' c (Proc.devRef .tc Cert.ReferenceIdeal.main_v22)) (col (Cert.ReferenceIdeal.Line.U4 m' c (Proc.devRef .tc Cert.ReferenceIdeal.main_v12))) (row (Cert.ReferenceIdeal.Line.U4 m' c (Proc.devRef .tc Cert.ReferenceIdeal.main_v21))) (row (StableHlo.after Cert.ReferenceIdeal.Line.seg4 (Cert.ReferenceIdeal.Line.U4 m' c) (Proc.devRef .tc Cert.ReferenceIdeal.main_v59))) (row (StableHlo.after Cert.ReferenceIdeal.Line.seg4 (Cert.ReferenceIdeal.Line.U4 m' c) (Proc.devRef .tc Cert.ReferenceIdeal.main_v61))) (row (StableHlo.after Cert.ReferenceIdeal.Line.seg4 (Cert.ReferenceIdeal.Line.U4 m' c) (Proc.devRef .tc Cert.ReferenceIdeal.main_v63))) (row (StableHlo.after Cert.ReferenceIdeal.Line.seg4 (Cert.ReferenceIdeal.Line.U4 m' c) (Proc.devRef .tc Cert.ReferenceIdeal.main_v65)))
  after_results_simp
  rw [← RefOps.ref_combine (hb1 := Cert.ReferenceIdeal.Gen.bcast_S256_S1x256_1) (hb2 := Cert.ReferenceIdeal.Gen.bcast_S1x256_S50000x256_0_1) (hz := Cert.ReferenceIdeal.Gen.bcast_S_S50000x256) (hv := Cert.ReferenceIdeal.Gen.bcast_S_S256) (hc0 := Cert.ReferenceIdeal.Gen.bcast_S50000_S50000x1_0) (hc1 := Cert.ReferenceIdeal.Gen.bcast_S50000x1_S50000x256_0_1)]
  have relu_strip : ∀ X : (⟨Cert.ReferenceIdeal.S50000x256, .f32⟩ : BufTy).Contents (Elt Ideal),
      (TRef.of (T := (⟨Cert.ReferenceIdeal.S50000x256, .f32⟩ : BufTy)) Cert.ReferenceIdeal.main_v79).toBuf (Val := Elt Ideal) (maximumf (F := Ideal) (s := Cert.ReferenceIdeal.S50000x256) (φ := .f32) ((TRef.of (T := (⟨Cert.ReferenceIdeal.S50000x256, .f32⟩ : BufTy)) Cert.ReferenceIdeal.main_v78).ofBuf (Val := Elt Ideal) X) ((TRef.of (T := (⟨Cert.ReferenceIdeal.S50000x256, .f32⟩ : BufTy)) Cert.ReferenceIdeal.main_call1_v0).ofBuf (Val := Elt Ideal) ((TRef.of (T := (⟨Cert.ReferenceIdeal.S50000x256, .f32⟩ : BufTy)) Cert.ReferenceIdeal.main_call1_v0).toBuf (Val := Elt Ideal) (broadcastInDim Cert.ReferenceIdeal.S50000x256 ![] Cert.ReferenceIdeal.Gen.bcast_S_S50000x256 ((TRef.of (T := (⟨Cert.ReferenceIdeal.S_, .f32⟩ : BufTy)) Cert.ReferenceIdeal.main_call1_cst).ofBuf (Val := Elt Ideal) ((TRef.of (T := (⟨Cert.ReferenceIdeal.S_, .f32⟩ : BufTy)) Cert.ReferenceIdeal.main_call1_cst).toBuf (Val := Elt Ideal) (constant (F := Ideal) Cert.ReferenceIdeal.S_ .f32 0x00000000#32)))))))
        = maximumf (F := Ideal) (s := Cert.ReferenceIdeal.S50000x256) (φ := .f32) X (broadcastInDim Cert.ReferenceIdeal.S50000x256 ![] Cert.ReferenceIdeal.Gen.bcast_S_S50000x256 (constant (F := Ideal) Cert.ReferenceIdeal.S_ .f32 0x00000000#32)) := fun X => rfl
  refine (relu_strip _).trans ?_
  rfl

theorem s_c0 (hA : Agree m m' c) : Cert.KernelIdeal.Gen.W6 m ρ c (Proc.devRef .tc Cert.KernelIdeal.main_v62) = Cert.ReferenceIdeal.Line.U5 m' c (Proc.devRef .tc Cert.ReferenceIdeal.main_v79) := by
  have i1 := s_agg0 m ρ m' c hA
  have i2 : Cert.KernelIdeal.Gen.W5 m ρ c (Proc.devRef .tc Cert.KernelIdeal.main_v18) = Cert.ReferenceIdeal.Line.U4 m' c (Proc.devRef .tc Cert.ReferenceIdeal.main_v22) := ((show Cert.KernelIdeal.Gen.W5 m ρ c (Proc.devRef .tc Cert.KernelIdeal.main_v18) = Cert.KernelIdeal.Gen.W4 m ρ c (Proc.devRef .tc Cert.KernelIdeal.main_v18) from Cert.KernelIdeal.Kept.host2 m ρ c Cert.KernelIdeal.main_v18 (by decide))).trans ((s_p0 m ρ m' c hA).trans ((show Cert.ReferenceIdeal.Line.U4 m' c (Proc.devRef .tc Cert.ReferenceIdeal.main_v22) = Cert.ReferenceIdeal.Line.U3 m' c (Proc.devRef .tc Cert.ReferenceIdeal.main_v22) from Cert.ReferenceIdeal.Kept.keep3 m' c Cert.ReferenceIdeal.main_v22 (by decide))).symm)
  have i3 : Cert.KernelIdeal.Gen.W5 m ρ c (Proc.devRef .tc Cert.KernelIdeal.main_v13) = col (Cert.ReferenceIdeal.Line.U4 m' c (Proc.devRef .tc Cert.ReferenceIdeal.main_v12)) :=
    (((show Cert.KernelIdeal.Gen.W5 m ρ c (Proc.devRef .tc Cert.KernelIdeal.main_v13) = Cert.KernelIdeal.Gen.W4 m ρ c (Proc.devRef .tc Cert.KernelIdeal.main_v13) from Cert.KernelIdeal.Kept.host2 m ρ c Cert.KernelIdeal.main_v13 (by decide)).trans ((show Cert.KernelIdeal.Gen.W4 m ρ c (Proc.devRef .tc Cert.KernelIdeal.main_v13) = Cert.KernelIdeal.Gen.W3 m ρ c (Proc.devRef .tc Cert.KernelIdeal.main_v13) from Cert.KernelIdeal.Gen.W4_of_ne m ρ c Cert.KernelIdeal.main_v13 (by decide)).trans ((show Cert.KernelIdeal.Gen.W3 m ρ c (Proc.devRef .tc Cert.KernelIdeal.main_v13) = Cert.KernelIdeal.Gen.W2 m ρ c (Proc.devRef .tc Cert.KernelIdeal.main_v13) from Cert.KernelIdeal.Kept.host1 m ρ c Cert.KernelIdeal.main_v13 (by decide)).trans (show Cert.KernelIdeal.Gen.W2 m ρ c (Proc.devRef .tc Cert.KernelIdeal.main_v13) = Cert.KernelIdeal.Gen.W1 m ρ c (Proc.devRef .tc Cert.KernelIdeal.main_v13) from Cert.KernelIdeal.Gen.W2_of_ne m ρ c Cert.KernelIdeal.main_v13 (by decide)))))).trans ((b_v13 m ρ m' c hA).trans (congrArg col (((show Cert.ReferenceIdeal.Line.U4 m' c (Proc.devRef .tc Cert.ReferenceIdeal.main_v12) = Cert.ReferenceIdeal.Line.U3 m' c (Proc.devRef .tc Cert.ReferenceIdeal.main_v12) from Cert.ReferenceIdeal.Kept.keep3 m' c Cert.ReferenceIdeal.main_v12 (by decide)).trans ((show Cert.ReferenceIdeal.Line.U3 m' c (Proc.devRef .tc Cert.ReferenceIdeal.main_v12) = Cert.ReferenceIdeal.Line.U2 m' c (Proc.devRef .tc Cert.ReferenceIdeal.main_v12) from Cert.ReferenceIdeal.Kept.keep2 m' c Cert.ReferenceIdeal.main_v12 (by decide)).trans (show Cert.ReferenceIdeal.Line.U2 m' c (Proc.devRef .tc Cert.ReferenceIdeal.main_v12) = Cert.ReferenceIdeal.Line.U1 m' c (Proc.devRef .tc Cert.ReferenceIdeal.main_v12) from Cert.ReferenceIdeal.Kept.keep1 m' c Cert.ReferenceIdeal.main_v12 (by decide))))).symm))
  have i4 : Cert.KernelIdeal.Gen.W5 m ρ c (Proc.devRef .tc Cert.KernelIdeal.main_v49) = row (Cert.ReferenceIdeal.Line.U4 m' c (Proc.devRef .tc Cert.ReferenceIdeal.main_v21)) := (s_b0 m ρ m' c hA).trans (congrArg row ((show Cert.ReferenceIdeal.Line.U4 m' c (Proc.devRef .tc Cert.ReferenceIdeal.main_v21) = Cert.ReferenceIdeal.Line.U3 m' c (Proc.devRef .tc Cert.ReferenceIdeal.main_v21) from Cert.ReferenceIdeal.Kept.keep3 m' c Cert.ReferenceIdeal.main_v21 (by decide))).symm)
  rw [k_c0 m ρ c, i1, i2, i3, i4, s_g0 m ρ m' c hA, s_be0 m ρ m' c hA, s_mu0 m ρ m' c hA, s_var0 m ρ m' c hA, r_c0 m' c]

end Cert.Sim

end
-- ==== Proof.Region3.lean ====
/-
  One grid launch of the network: 25 points, point t holding rows 2000·t … 2000·t + 1999 of every row-tiled array and
  the whole of every parameter array.  The body's value at entry (p, q) of its block depends on row p of the row-tiled
  blocks only, and row p of block t is row 2000·t + p of the array; so what point t writes back is block t of the layer
  applied to the whole arrays, and since the 25 blocks tile the output, the output array after the launch is that layer.
-/
import proofs.«169431_j32804960207311_2_alg».proof.Proof.Gen.KernelIdeal.Frame
import proofs.«169431_j32804960207311_2_alg».proof.Proof.Spec
import proofs.«169431_j32804960207311_2_alg».proof.Proof.BodyDense
import proofs.«169431_j32804960207311_2_alg».proof.Proof.RegionRows
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen Cert.GraphNet

variable (V : (c : Dev nD) → (b : Ref sig .tc) → Buf (Elt Ideal) ((c : Thread nD τ).loc b))

/-! ## Launch 3: `proj` of the arrays it finds -/

/-- The printed block index maps over the grid: a row window's block index is the point, a fixed window's is zero. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Point `t` writes back rows 2000·t … 2000·t + 1999 of the layer of the arrays the launch finds. -/
theorem flushed3 (c : Dev nD) (t : Fin cfg3.N) :
    (dat3 V c).flushed 2 t = ((cfg3.win 2).blk t).view.read (Elt Ideal) (proj (V c main_v62) (V c main_v64)) := by
  show (cfg3.win 2).cut (grid3.coords t) ((dat3 V c).after 2 t) = _
  rw [after3_2]
  unfold out3_2
  rw [View.canon_unit_zero hz]
  simp only [View.ld_unit_zero (S := S2000x256) hz, View.ld_unit_zero (S := S256x256) hz]
  obtain ⟨e0, e1, e2, e3, e4, e5⟩ := idx3 t
  funext j
  obtain ⟨p, q, rfl⟩ : ∃ (p : Fin 2000) (q : Fin 256), j = ix2 p q := ⟨j 0, j 1, eq_ix2 j⟩
  refine (Body.pay3_apply (iblk3 V c 0 t) (iblk3 V c 1 t) p q).trans ?_
  have ho : ((cfg3.win 2).blk t).view.emb (ix2 p q) = ix2 (rowAt N_3 t p) q := by
    funext d; apply Fin.ext
    match d with
    | ⟨0, _⟩ => show win3_2.index t (0 : Fin 2) * 2000 + 1 * p.val = t.val * 2000 + p.val; omega
    | ⟨1, _⟩ => show win3_2.index t (1 : Fin 2) * 256 + 1 * q.val = q.val; omega
  have hw0 : ∀ (a : Fin 2000) (b : Fin 256), ((cfg3.win 0).blk t).view.emb (ix2 a b) = ix2 (rowAt N_3 t a) b := by
    intro a b; funext d; apply Fin.ext
    match d with
    | ⟨0, _⟩ => show win3_0.index t (0 : Fin 2) * 2000 + 1 * a.val = t.val * 2000 + a.val; omega
    | ⟨1, _⟩ => show win3_0.index t (1 : Fin 2) * 256 + 1 * b.val = b.val; omega
  have hw1 : ∀ (a : Fin 256) (b : Fin 256), ((cfg3.win 1).blk t).view.emb (ix2 a b) = ix2 a b := by
    intro a b; funext d; apply Fin.ext
    match d with
    | ⟨0, _⟩ => show win3_1.index t (0 : Fin 2) * 256 + 1 * a.val = a.val; omega
    | ⟨1, _⟩ => show win3_1.index t (1 : Fin 2) * 256 + 1 * b.val = b.val; omega
  show _ = (proj (V c main_v62) (V c main_v64)) (((cfg3.win 2).blk t).view.emb (ix2 p q))
  rw [ho]
  show (∑ k : Fin 256, (id (V c main_v62 (((cfg3.win 0).blk t).view.emb (ix2 p k))) : EReal) * (id (V c main_v64 (((cfg3.win 1).blk t).view.emb (ix2 k q))) : EReal))
    = (∑ k : Fin 256, (id (V c main_v62 (ix2 (rowAt N_3 t p) k)) : EReal) * (id (V c main_v64 (ix2 k q)) : EReal))
  simp only [hw0, hw1]

/-- An index is in point `t`'s block iff each coordinate is in the block's range. -/
theorem mem_blk3 (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v65).slice (win3_2.rect t)).set ↔ _
  rw [View.set_slice_whole, Rect.mem_set_unit]
  exact Iff.rfl

/-- The 25 blocks of 2000 rows tile the array: row r is in block r / 2000. -/
theorem cover3 (c : Dev nD) (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hN : cfg3.N = 25 := N_3
  have ht : (i 0).val / 2000 < cfg3.N := by omega
  obtain ⟨e0, e1, e2, e3, e4, e5⟩ := idx3 ⟨(i 0).val / 2000, ht⟩
  refine ⟨⟨(i 0).val / 2000, ht⟩, flush3_2 _, ?_⟩
  rw [mem_blk3]
  intro a
  match a with
  | ⟨0, _⟩ => show win3_2.index ⟨(i 0).val / 2000, ht⟩ (0 : Fin 2) * 2000 ≤ (i 0).val ∧ (i 0).val < win3_2.index ⟨(i 0).val / 2000, ht⟩ (0 : Fin 2) * 2000 + 2000; simp only [e4]; omega
  | ⟨1, _⟩ => show win3_2.index ⟨(i 0).val / 2000, ht⟩ (1 : Fin 2) * 256 ≤ (i 1).val ∧ (i 1).val < win3_2.index ⟨(i 0).val / 2000, ht⟩ (1 : Fin 2) * 256 + 256; simp only [e5]; omega

/-- After launch 3 its output array is the layer of the arrays it found. -/
theorem final3 (c : Dev nD) : (dat3 V c).arrAt 2 cfg3.N = (proj (V c main_v62) (V c main_v64)) :=
  (dat3 V c).arrAt_eq_of_cover 2 _ (fun t _ => flushed3 V c t) (cover3 c)

end Cert.KernelIdeal.Regions

end
-- ==== Proof.Region4.lean ====
/-
  One grid launch of the network: 25 points, point t holding rows 2000·t … 2000·t + 1999 of every row-tiled array and
  the whole of every parameter array.  The body's value at entry (p, q) of its block depends on row p of the row-tiled
  blocks only, and row p of block t is row 2000·t + p of the array; so what point t writes back is block t of the layer
  applied to the whole arrays, and since the 25 blocks tile the output, the output array after the launch is that layer.
-/
import proofs.«169431_j32804960207311_2_alg».proof.Proof.Gen.KernelIdeal.Frame
import proofs.«169431_j32804960207311_2_alg».proof.Proof.Spec
import proofs.«169431_j32804960207311_2_alg».proof.Proof.BodyCombine
import proofs.«169431_j32804960207311_2_alg».proof.Proof.RegionRows
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen Cert.GraphNet

variable (V : (c : Dev nD) → (b : Ref sig .tc) → Buf (Elt Ideal) ((c : Thread nD τ).loc b))

/-! ## Launch 4: `combine` of the arrays it finds -/

/-- The printed block index maps over the grid: a row window's block index is the point, a fixed window's is zero. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = t.val
    ∧ win4_8.index t (1 : Fin 2) = 0 :=
  (by decide +kernel : ∀ t : Fin grid4.N, _)

set_option maxHeartbeats 4000000 in
/-- Point `t` writes back rows 2000·t … 2000·t + 1999 of the layer of the arrays the launch finds. -/
theorem flushed4 (c : Dev nD) (t : Fin cfg4.N) :
    (dat4 V c).flushed 8 t = ((cfg4.win 8).blk t).view.read (Elt Ideal) (combine (V c main_v93) (V c main_v65) (V c main_v13) (V c main_v96) (V c main_v99) (V c main_v102) (V c main_v105) (V c main_v108)) := by
  show (cfg4.win 8).cut (grid4.coords t) ((dat4 V c).after 8 t) = _
  rw [after4_8]
  unfold out4_8
  rw [View.canon_unit_zero hz]
  simp only [View.ld_unit_zero (S := S2000x256) hz, View.ld_unit_zero (S := S2000x1) hz, View.ld_unit_zero (S := S1x256) hz]
  obtain ⟨e0, e1, e2, e3, e4, e5, e6, e7, e8, e9, e10, e11, e12, e13, e14, e15, e16, e17⟩ := idx4 t
  funext j
  obtain ⟨p, q, rfl⟩ : ∃ (p : Fin 2000) (q : Fin 256), j = ix2 p q := ⟨j 0, j 1, eq_ix2 j⟩
  refine (Body.pay4_apply (iblk4 V c 0 t) (iblk4 V c 1 t) (iblk4 V c 2 t) (iblk4 V c 3 t) (iblk4 V c 4 t) (iblk4 V c 7 t) (iblk4 V c 6 t) (iblk4 V c 5 t) p q).trans ?_
  have ho : ((cfg4.win 8).blk t).view.emb (ix2 p q) = ix2 (rowAt N_4 t p) q := by
    funext d; apply Fin.ext
    match d with
    | ⟨0, _⟩ => show win4_8.index t (0 : Fin 2) * 2000 + 1 * p.val = t.val * 2000 + p.val; omega
    | ⟨1, _⟩ => show win4_8.index t (1 : Fin 2) * 256 + 1 * q.val = q.val; omega
  have hw0 : ∀ (a : Fin 2000) (b : Fin 256), ((cfg4.win 0).blk t).view.emb (ix2 a b) = ix2 (rowAt N_4 t a) b := by
    intro a b; funext d; apply Fin.ext
    match d with
    | ⟨0, _⟩ => show win4_0.index t (0 : Fin 2) * 2000 + 1 * a.val = t.val * 2000 + a.val; omega
    | ⟨1, _⟩ => show win4_0.index t (1 : Fin 2) * 256 + 1 * b.val = b.val; omega
  have hw1 : ∀ (a : Fin 2000) (b : Fin 256), ((cfg4.win 1).blk t).view.emb (ix2 a b) = ix2 (rowAt N_4 t a) b := by
    intro a b; funext d; apply Fin.ext
    match d with
    | ⟨0, _⟩ => show win4_1.index t (0 : Fin 2) * 2000 + 1 * a.val = t.val * 2000 + a.val; omega
    | ⟨1, _⟩ => show win4_1.index t (1 : Fin 2) * 256 + 1 * b.val = b.val; omega
  have hw2 : ∀ (a : Fin 2000) (b : Fin 1), ((cfg4.win 2).blk t).view.emb (ix2 a b) = ix2 (rowAt N_4 t a) b := by
    intro a b; funext d; apply Fin.ext
    match d with
    | ⟨0, _⟩ => show win4_2.index t (0 : Fin 2) * 2000 + 1 * a.val = t.val * 2000 + a.val; omega
    | ⟨1, _⟩ => show win4_2.index t (1 : Fin 2) * 1 + 1 * b.val = b.val; omega
  have hw3 : ∀ (a : Fin 1) (b : Fin 256), ((cfg4.win 3).blk t).view.emb (ix2 a b) = ix2 a b := by
    intro a b; funext d; apply Fin.ext
    match d with
    | ⟨0, _⟩ => show win4_3.index t (0 : Fin 2) * 1 + 1 * a.val = a.val; omega
    | ⟨1, _⟩ => show win4_3.index t (1 : Fin 2) * 256 + 1 * b.val = b.val; omega
  have hw4 : ∀ (a : Fin 1) (b : Fin 256), ((cfg4.win 4).blk t).view.emb (ix2 a b) = ix2 a b := by
    intro a b; funext d; apply Fin.ext
    match d with
    | ⟨0, _⟩ => show win4_4.index t (0 : Fin 2) * 1 + 1 * a.val = a.val; omega
    | ⟨1, _⟩ => show win4_4.index t (1 : Fin 2) * 256 + 1 * b.val = b.val; omega
  have hw5 : ∀ (a : Fin 1) (b : Fin 256), ((cfg4.win 5).blk t).view.emb (ix2 a b) = ix2 a b := by
    intro a b; funext d; apply Fin.ext
    match d with
    | ⟨0, _⟩ => show win4_5.index t (0 : Fin 2) * 1 + 1 * a.val = a.val; omega
    | ⟨1, _⟩ => show win4_5.index t (1 : Fin 2) * 256 + 1 * b.val = b.val; omega
  have hw6 : ∀ (a : Fin 1) (b : Fin 256), ((cfg4.win 6).blk t).view.emb (ix2 a b) = ix2 a b := by
    intro a b; funext d; apply Fin.ext
    match d with
    | ⟨0, _⟩ => show win4_6.index t (0 : Fin 2) * 1 + 1 * a.val = a.val; omega
    | ⟨1, _⟩ => show win4_6.index t (1 : Fin 2) * 256 + 1 * b.val = b.val; omega
  have hw7 : ∀ (a : Fin 1) (b : Fin 256), ((cfg4.win 7).blk t).view.emb (ix2 a b) = ix2 a b := by
    intro a b; funext d; apply Fin.ext
    match d with
    | ⟨0, _⟩ => show win4_7.index t (0 : Fin 2) * 1 + 1 * a.val = a.val; omega
    | ⟨1, _⟩ => show win4_7.index t (1 : Fin 2) * 256 + 1 * b.val = b.val; omega
  show _ = (combine (V c main_v93) (V c main_v65) (V c main_v13) (V c main_v96) (V c main_v99) (V c main_v102) (V c main_v105) (V c main_v108)) (((cfg4.win 8).blk t).view.emb (ix2 p q))
  rw [ho]
  show (max (bn ((id (V c main_v93 (((cfg4.win 0).blk t).view.emb (ix2 p q))) : EReal) + (id (V c main_v65 (((cfg4.win 1).blk t).view.emb (ix2 p q))) : EReal) * (id (V c main_v13 (((cfg4.win 2).blk t).view.emb (ix2 p (0 : Fin 1)))) : EReal) + (id (V c main_v96 (((cfg4.win 3).blk t).view.emb (ix2 (0 : Fin 1) q))) : EReal)) (id (V c main_v99 (((cfg4.win 4).blk t).view.emb (ix2 (0 : Fin 1) q))) : EReal) (id (V c main_v102 (((cfg4.win 5).blk t).view.emb (ix2 (0 : Fin 1) q))) : EReal) (id (V c main_v105 (((cfg4.win 6).blk t).view.emb (ix2 (0 : Fin 1) q))) : EReal) (id (V c main_v108 (((cfg4.win 7).blk t).view.emb (ix2 (0 : Fin 1) q))) : EReal)) zero32)
    = (max (bn ((id (V c main_v93 (ix2 (rowAt N_4 t p) q)) : EReal) + (id (V c main_v65 (ix2 (rowAt N_4 t p) q)) : EReal) * (id (V c main_v13 (ix2 (rowAt N_4 t p) (0 : Fin 1))) : EReal) + (id (V c main_v96 (ix2 (0 : Fin 1) q)) : EReal)) (id (V c main_v99 (ix2 (0 : Fin 1) q)) : EReal) (id (V c main_v102 (ix2 (0 : Fin 1) q)) : EReal) (id (V c main_v105 (ix2 (0 : Fin 1) q)) : EReal) (id (V c main_v108 (ix2 (0 : Fin 1) q)) : EReal)) zero32)
  simp only [hw0, hw1, hw2, hw3, hw4, hw5, hw6, hw7]

/-- An index is in point `t`'s block iff each coordinate is in the block's range. -/
theorem mem_blk4 (t : Fin cfg4.N) (i : S50000x256.Idx) :
    i ∈ ((cfg4.win 8).blk t).view.set ↔ ∀ a : Fin 2, win4_8.index t a * S2000x256.size a ≤ (i a).val ∧ (i a).val < win4_8.index t a * S2000x256.size a + S2000x256.size a := by
  show i ∈ ((View.whole main_v109).slice (win4_8.rect t)).set ↔ _
  rw [View.set_slice_whole, Rect.mem_set_unit]
  exact Iff.rfl

/-- The 25 blocks of 2000 rows tile the array: row r is in block r / 2000. -/
theorem cover4 (c : Dev nD) (i : S50000x256.Idx) :
    ∃ t : Fin cfg4.N, (cfg4.win 8).flush t = true ∧ i ∈ ((cfg4.win 8).blk t).view.set := by
  have hi0 : (i 0).val < 50000 := (i 0).isLt
  have hi1 : (i 1).val < 256 := (i 1).isLt
  have hN : cfg4.N = 25 := N_4
  have ht : (i 0).val / 2000 < cfg4.N := by omega
  obtain ⟨e0, e1, e2, e3, e4, e5, e6, e7, e8, e9, e10, e11, e12, e13, e14, e15, e16, e17⟩ := idx4 ⟨(i 0).val / 2000, ht⟩
  refine ⟨⟨(i 0).val / 2000, ht⟩, flush4_8 _, ?_⟩
  rw [mem_blk4]
  intro a
  match a with
  | ⟨0, _⟩ => show win4_8.index ⟨(i 0).val / 2000, ht⟩ (0 : Fin 2) * 2000 ≤ (i 0).val ∧ (i 0).val < win4_8.index ⟨(i 0).val / 2000, ht⟩ (0 : Fin 2) * 2000 + 2000; simp only [e16]; omega
  | ⟨1, _⟩ => show win4_8.index ⟨(i 0).val / 2000, ht⟩ (1 : Fin 2) * 256 ≤ (i 1).val ∧ (i 1).val < win4_8.index ⟨(i 0).val / 2000, ht⟩ (1 : Fin 2) * 256 + 256; simp only [e17]; omega

/-- After launch 4 its output array is the layer of the arrays it found. -/
theorem final4 (c : Dev nD) : (dat4 V c).arrAt 8 cfg4.N = (combine (V c main_v93) (V c main_v65) (V c main_v13) (V c main_v96) (V c main_v99) (V c main_v102) (V c main_v105) (V c main_v108)) :=
  (dat4 V c).arrAt_eq_of_cover 8 _ (fun t _ => flushed4 V c t) (cover4 c)

end Cert.KernelIdeal.Regions

end
-- ==== Proof.Sim2.lean ====
/-
  The second graph convolution on both programs.
-/
import proofs.«169431_j32804960207311_2_alg».proof.Proof.Gen.KernelIdeal.Frame
import proofs.«169431_j32804960207311_2_alg».proof.Proof.RefRun
import proofs.«169431_j32804960207311_2_alg».proof.Proof.KernelKept
import proofs.«169431_j32804960207311_2_alg».proof.Proof.RefKept
import proofs.«169431_j32804960207311_2_alg».proof.Proof.Spec
import proofs.«169431_j32804960207311_2_alg».proof.Proof.Casts
import proofs.«169431_j32804960207311_2_alg».proof.Proof.RefOps
import proofs.«169431_j32804960207311_2_alg».proof.Proof.Sim1
import proofs.«169431_j32804960207311_2_alg».proof.Proof.Region3
import proofs.«169431_j32804960207311_2_alg».proof.Proof.Region4
import Idealize.ShloMosaic.PureOps.Ideal
import Idealize.ShloMosaic.Lib.StableHlo.Run

set_option maxRecDepth 16384
set_option maxHeartbeats 8000000

noncomputable section

namespace Cert.Sim

open Idealize.ShloMosaic Idealize.ShloMosaic.TcCoe Idealize.ShloMosaic.StableHlo Idealize.SL.Sem Cert.GraphNet

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)
/-! ## Graph convolution 2: the projection, the edge gather and scatter, and the normalised combination -/

theorem s_w1 (hA : Agree m m' c) : Cert.KernelIdeal.Gen.W7 m ρ c (Proc.devRef .tc Cert.KernelIdeal.main_v64) = Cert.ReferenceIdeal.Line.U6 m' c (Proc.devRef .tc Cert.ReferenceIdeal.main_v81) := by
  show StableHlo.after Cert.KernelIdeal.Gen.hostOps3 (Cert.KernelIdeal.Gen.W6 m ρ c) (Proc.devRef .tc Cert.KernelIdeal.main_v64) = StableHlo.after Cert.ReferenceIdeal.Line.seg5 (Cert.ReferenceIdeal.Line.U5 m' c) (Proc.devRef .tc Cert.ReferenceIdeal.main_v81)
  after_results
  rw [((((show Cert.KernelIdeal.Gen.W6 m ρ c (Proc.devRef .tc Cert.KernelIdeal.main_arg4) = Cert.KernelIdeal.Gen.W5 m ρ c (Proc.devRef .tc Cert.KernelIdeal.main_arg4) from Cert.KernelIdeal.Gen.W6_of_ne m ρ c Cert.KernelIdeal.main_arg4 (by decide)).trans ((show Cert.KernelIdeal.Gen.W5 m ρ c (Proc.devRef .tc Cert.KernelIdeal.main_arg4) = Cert.KernelIdeal.Gen.W4 m ρ c (Proc.devRef .tc Cert.KernelIdeal.main_arg4) from Cert.KernelIdeal.Kept.host2 m ρ c Cert.KernelIdeal.main_arg4 (by decide)).trans ((show Cert.KernelIdeal.Gen.W4 m ρ c (Proc.devRef .tc Cert.KernelIdeal.main_arg4) = Cert.KernelIdeal.Gen.W3 m ρ c (Proc.devRef .tc Cert.KernelIdeal.main_arg4) from Cert.KernelIdeal.Gen.W4_of_ne m ρ c Cert.KernelIdeal.main_arg4 (by decide)).trans ((show Cert.KernelIdeal.Gen.W3 m ρ c (Proc.devRef .tc Cert.KernelIdeal.main_arg4) = Cert.KernelIdeal.Gen.W2 m ρ c (Proc.devRef .tc Cert.KernelIdeal.main_arg4) from Cert.KernelIdeal.Kept.host1 m ρ c Cert.KernelIdeal.main_arg4 (by decide)).trans ((show Cert.KernelIdeal.Gen.W2 m ρ c (Proc.devRef .tc Cert.KernelIdeal.main_arg4) = Cert.KernelIdeal.Gen.W1 m ρ c (Proc.devRef .tc Cert.KernelIdeal.main_arg4) from Cert.KernelIdeal.Gen.W2_of_ne m ρ c Cert.KernelIdeal.main_arg4 (by decide)).trans (show Cert.KernelIdeal.Gen.W1 m ρ c (Proc.devRef .tc Cert.KernelIdeal.main_arg4) = Cert.KernelIdeal.Gen.W0 m ρ c (Proc.devRef .tc Cert.KernelIdeal.main_arg4) from Cert.KernelIdeal.Kept.host0 m ρ c Cert.KernelIdeal.main_arg4 (by decide)))))))).trans ((show Cert.KernelIdeal.Gen.W0 m ρ c (Proc.devRef .tc Cert.KernelIdeal.main_arg4) = Cert.ReferenceIdeal.Line.U0 m' c (Proc.devRef .tc Cert.ReferenceIdeal.main_arg4) from hA.a4.symm).trans (((show Cert.ReferenceIdeal.Line.U5 m' c (Proc.devRef .tc Cert.ReferenceIdeal.main_arg4) = Cert.ReferenceIdeal.Line.U4 m' c (Proc.devRef .tc Cert.ReferenceIdeal.main_arg4) from Cert.ReferenceIdeal.Kept.keep4 m' c Cert.ReferenceIdeal.main_arg4 (by decide)).trans ((show Cert.ReferenceIdeal.Line.U4 m' c (Proc.devRef .tc Cert.ReferenceIdeal.main_arg4) = Cert.ReferenceIdeal.Line.U3 m' c (Proc.devRef .tc Cert.ReferenceIdeal.main_arg4) from Cert.ReferenceIdeal.Kept.keep3 m' c Cert.ReferenceIdeal.main_arg4 (by decide)).trans ((show Cert.ReferenceIdeal.Line.U3 m' c (Proc.devRef .tc Cert.ReferenceIdeal.main_arg4) = Cert.ReferenceIdeal.Line.U2 m' c (Proc.devRef .tc Cert.ReferenceIdeal.main_arg4) from Cert.ReferenceIdeal.Kept.keep2 m' c Cert.ReferenceIdeal.main_arg4 (by decide)).trans ((show Cert.ReferenceIdeal.Line.U2 m' c (Proc.devRef .tc Cert.ReferenceIdeal.main_arg4) = Cert.ReferenceIdeal.Line.U1 m' c (Proc.devRef .tc Cert.ReferenceIdeal.main_arg4) from Cert.ReferenceIdeal.Kept.keep1 m' c Cert.ReferenceIdeal.main_arg4 (by decide)).trans (show Cert.ReferenceIdeal.Line.U1 m' c (Proc.devRef .tc Cert.ReferenceIdeal.main_arg4) = Cert.ReferenceIdeal.Line.U0 m' c (Proc.devRef .tc Cert.ReferenceIdeal.main_arg4) from Cert.ReferenceIdeal.Kept.keep0 m' c Cert.ReferenceIdeal.main_arg4 (by decide))))))).symm))]
  rfl

theorem k_p1 : Cert.KernelIdeal.Gen.W8 m ρ c (Proc.devRef .tc Cert.KernelIdeal.main_v65) = proj (Cert.KernelIdeal.Gen.W7 m ρ c (Proc.devRef .tc Cert.KernelIdeal.main_v62)) (Cert.KernelIdeal.Gen.W7 m ρ c (Proc.devRef .tc Cert.KernelIdeal.main_v64)) :=
  (Cert.KernelIdeal.Gen.W8_arr m ρ c 2).trans ((Cert.KernelIdeal.Regions.final3 (Cert.KernelIdeal.Gen.V7 m ρ) c).trans rfl)

theorem r_p1 : Cert.ReferenceIdeal.Line.U6 m' c (Proc.devRef .tc Cert.ReferenceIdeal.main_v84) = proj (Cert.ReferenceIdeal.Line.U5 m' c (Proc.devRef .tc Cert.ReferenceIdeal.main_v79)) (Cert.ReferenceIdeal.Line.U6 m' c (Proc.devRef .tc Cert.ReferenceIdeal.main_v81)) := by
  show StableHlo.after Cert.ReferenceIdeal.Line.seg5 (Cert.ReferenceIdeal.Line.U5 m' c) (Proc.devRef .tc Cert.ReferenceIdeal.main_v84) = proj (Cert.ReferenceIdeal.Line.U5 m' c (Proc.devRef .tc Cert.ReferenceIdeal.main_v79)) (StableHlo.after Cert.ReferenceIdeal.Line.seg5 (Cert.ReferenceIdeal.Line.U5 m' c) (Proc.devRef .tc Cert.ReferenceIdeal.main_v81))
  after_results
  exact RefOps.ref_proj _ rfl rfl rfl rfl rfl rfl _ _

theorem s_p1 (hA : Agree m m' c) : Cert.KernelIdeal.Gen.W8 m ρ c (Proc.devRef .tc Cert.KernelIdeal.main_v65) = Cert.ReferenceIdeal.Line.U6 m' c (Proc.devRef .tc Cert.ReferenceIdeal.main_v84) := by
  have ih : Cert.KernelIdeal.Gen.W7 m ρ c (Proc.devRef .tc Cert.KernelIdeal.main_v62) = Cert.ReferenceIdeal.Line.U5 m' c (Proc.devRef .tc Cert.ReferenceIdeal.main_v79) := ((show Cert.KernelIdeal.Gen.W7 m ρ c (Proc.devRef .tc Cert.KernelIdeal.main_v62) = Cert.KernelIdeal.Gen.W6 m ρ c (Proc.devRef .tc Cert.KernelIdeal.main_v62) from Cert.KernelIdeal.Kept.host3 m ρ c Cert.KernelIdeal.main_v62 (by decide))).trans (s_c0 m ρ m' c hA)
  rw [k_p1 m ρ c, ih, s_w1 m ρ m' c hA, r_p1 m' c]

theorem s_agg1 (hA : Agree m m' c) : Cert.KernelIdeal.Gen.W9 m ρ c (Proc.devRef .tc Cert.KernelIdeal.main_v93) = Cert.ReferenceIdeal.Line.U7 m' c (Proc.devRef .tc Cert.ReferenceIdeal.main_v112) := by
  have l1 : Cert.KernelIdeal.Gen.W8 m ρ c (Proc.devRef .tc Cert.KernelIdeal.main_v1) = Cert.ReferenceIdeal.Line.U6 m' c (Proc.devRef .tc Cert.ReferenceIdeal.main_v1) := (((show Cert.KernelIdeal.Gen.W8 m ρ c (Proc.devRef .tc Cert.KernelIdeal.main_v1) = Cert.KernelIdeal.Gen.W7 m ρ c (Proc.devRef .tc Cert.KernelIdeal.main_v1) from Cert.KernelIdeal.Gen.W8_of_ne m ρ c Cert.KernelIdeal.main_v1 (by decide)).trans ((show Cert.KernelIdeal.Gen.W7 m ρ c (Proc.devRef .tc Cert.KernelIdeal.main_v1) = Cert.KernelIdeal.Gen.W6 m ρ c (Proc.devRef .tc Cert.KernelIdeal.main_v1) from Cert.KernelIdeal.Kept.host3 m ρ c Cert.KernelIdeal.main_v1 (by decide)).trans ((show Cert.KernelIdeal.Gen.W6 m ρ c (Proc.devRef .tc Cert.KernelIdeal.main_v1) = Cert.KernelIdeal.Gen.W5 m ρ c (Proc.devRef .tc Cert.KernelIdeal.main_v1) from Cert.KernelIdeal.Gen.W6_of_ne m ρ c Cert.KernelIdeal.main_v1 (by decide)).trans ((show Cert.KernelIdeal.Gen.W5 m ρ c (Proc.devRef .tc Cert.KernelIdeal.main_v1) = Cert.KernelIdeal.Gen.W4 m ρ c (Proc.devRef .tc Cert.KernelIdeal.main_v1) from Cert.KernelIdeal.Kept.host2 m ρ c Cert.KernelIdeal.main_v1 (by decide)).trans ((show Cert.KernelIdeal.Gen.W4 m ρ c (Proc.devRef .tc Cert.KernelIdeal.main_v1) = Cert.KernelIdeal.Gen.W3 m ρ c (Proc.devRef .tc Cert.KernelIdeal.main_v1) from Cert.KernelIdeal.Gen.W4_of_ne m ρ c Cert.KernelIdeal.main_v1 (by decide)).trans ((show Cert.KernelIdeal.Gen.W3 m ρ c (Proc.devRef .tc Cert.KernelIdeal.main_v1) = Cert.KernelIdeal.Gen.W2 m ρ c (Proc.devRef .tc Cert.KernelIdeal.main_v1) from Cert.KernelIdeal.Kept.host1 m ρ c Cert.KernelIdeal.main_v1 (by decide)).trans (show Cert.KernelIdeal.Gen.W2 m ρ c (Proc.devRef .tc Cert.KernelIdeal.main_v1) = Cert.KernelIdeal.Gen.W1 m ρ c (Proc.devRef .tc Cert.KernelIdeal.main_v1) from Cert.KernelIdeal.Gen.W2_of_ne m ρ c Cert.KernelIdeal.main_v1 (by decide))))))))).trans ((b_v1 m ρ m' c hA).trans (((show Cert.ReferenceIdeal.Line.U6 m' c (Proc.devRef .tc Cert.ReferenceIdeal.main_v1) = Cert.ReferenceIdeal.Line.U5 m' c (Proc.devRef .tc Cert.ReferenceIdeal.main_v1) from Cert.ReferenceIdeal.Kept.keep5 m' c Cert.ReferenceIdeal.main_v1 (by decide)).trans ((show Cert.ReferenceIdeal.Line.U5 m' c (Proc.devRef .tc Cert.ReferenceIdeal.main_v1) = Cert.ReferenceIdeal.Line.U4 m' c (Proc.devRef .tc Cert.ReferenceIdeal.main_v1) from Cert.ReferenceIdeal.Kept.keep4 m' c Cert.ReferenceIdeal.main_v1 (by decide)).trans ((show Cert.ReferenceIdeal.Line.U4 m' c (Proc.devRef .tc Cert.ReferenceIdeal.main_v1) = Cert.ReferenceIdeal.Line.U3 m' c (Proc.devRef .tc Cert.ReferenceIdeal.main_v1) from Cert.ReferenceIdeal.Kept.keep3 m' c Cert.ReferenceIdeal.main_v1 (by decide)).trans ((show Cert.ReferenceIdeal.Line.U3 m' c (Proc.devRef .tc Cert.ReferenceIdeal.main_v1) = Cert.ReferenceIdeal.Line.U2 m' c (Proc.devRef .tc Cert.ReferenceIdeal.main_v1) from Cert.ReferenceIdeal.Kept.keep2 m' c Cert.ReferenceIdeal.main_v1 (by decide)).trans (show Cert.ReferenceIdeal.Line.U2 m' c (Proc.devRef .tc Cert.ReferenceIdeal.main_v1) = Cert.ReferenceIdeal.Line.U1 m' c (Proc.devRef .tc Cert.ReferenceIdeal.main_v1) from Cert.ReferenceIdeal.Kept.keep1 m' c Cert.ReferenceIdeal.main_v1 (by decide))))))).symm)
  have l3 : Cert.KernelIdeal.Gen.W8 m ρ c (Proc.devRef .tc Cert.KernelIdeal.main_v3) = Cert.ReferenceIdeal.Line.U6 m' c (Proc.devRef .tc Cert.ReferenceIdeal.main_v3) := (((show Cert.KernelIdeal.Gen.W8 m ρ c (Proc.devRef .tc Cert.KernelIdeal.main_v3) = Cert.KernelIdeal.Gen.W7 m ρ c (Proc.devRef .tc Cert.KernelIdeal.main_v3) from Cert.KernelIdeal.Gen.W8_of_ne m ρ c Cert.KernelIdeal.main_v3 (by decide)).trans ((show Cert.KernelIdeal.Gen.W7 m ρ c (Proc.devRef .tc Cert.KernelIdeal.main_v3) = Cert.KernelIdeal.Gen.W6 m ρ c (Proc.devRef .tc Cert.KernelIdeal.main_v3) from Cert.KernelIdeal.Kept.host3 m ρ c Cert.KernelIdeal.main_v3 (by decide)).trans ((show Cert.KernelIdeal.Gen.W6 m ρ c (Proc.devRef .tc Cert.KernelIdeal.main_v3) = Cert.KernelIdeal.Gen.W5 m ρ c (Proc.devRef .tc Cert.KernelIdeal.main_v3) from Cert.KernelIdeal.Gen.W6_of_ne m ρ c Cert.KernelIdeal.main_v3 (by decide)).trans ((show Cert.KernelIdeal.Gen.W5 m ρ c (Proc.devRef .tc Cert.KernelIdeal.main_v3) = Cert.KernelIdeal.Gen.W4 m ρ c (Proc.devRef .tc Cert.KernelIdeal.main_v3) from Cert.KernelIdeal.Kept.host2 m ρ c Cert.KernelIdeal.main_v3 (by decide)).trans ((show Cert.KernelIdeal.Gen.W4 m ρ c (Proc.devRef .tc Cert.KernelIdeal.main_v3) = Cert.KernelIdeal.Gen.W3 m ρ c (Proc.devRef .tc Cert.KernelIdeal.main_v3) from Cert.KernelIdeal.Gen.W4_of_ne m ρ c Cert.KernelIdeal.main_v3 (by decide)).trans ((show Cert.KernelIdeal.Gen.W3 m ρ c (Proc.devRef .tc Cert.KernelIdeal.main_v3) = Cert.KernelIdeal.Gen.W2 m ρ c (Proc.devRef .tc Cert.KernelIdeal.main_v3) from Cert.KernelIdeal.Kept.host1 m ρ c Cert.KernelIdeal.main_v3 (by decide)).trans (show Cert.KernelIdeal.Gen.W2 m ρ c (Proc.devRef .tc Cert.KernelIdeal.main_v3) = Cert.KernelIdeal.Gen.W1 m ρ c (Proc.devRef .tc Cert.KernelIdeal.main_v3) from Cert.KernelIdeal.Gen.W2_of_ne m ρ c Cert.KernelIdeal.main_v3 (by decide))))))))).trans ((b_v3 m ρ m' c hA).trans (((show Cert.ReferenceIdeal.Line.U6 m' c (Proc.devRef .tc Cert.ReferenceIdeal.main_v3) = Cert.ReferenceIdeal.Line.U5 m' c (Proc.devRef .tc Cert.ReferenceIdeal.main_v3) from Cert.ReferenceIdeal.Kept.keep5 m' c Cert.ReferenceIdeal.main_v3 (by decide)).trans ((show Cert.ReferenceIdeal.Line.U5 m' c (Proc.devRef .tc Cert.ReferenceIdeal.main_v3) = Cert.ReferenceIdeal.Line.U4 m' c (Proc.devRef .tc Cert.ReferenceIdeal.main_v3) from Cert.ReferenceIdeal.Kept.keep4 m' c Cert.ReferenceIdeal.main_v3 (by decide)).trans ((show Cert.ReferenceIdeal.Line.U4 m' c (Proc.devRef .tc Cert.ReferenceIdeal.main_v3) = Cert.ReferenceIdeal.Line.U3 m' c (Proc.devRef .tc Cert.ReferenceIdeal.main_v3) from Cert.ReferenceIdeal.Kept.keep3 m' c Cert.ReferenceIdeal.main_v3 (by decide)).trans ((show Cert.ReferenceIdeal.Line.U3 m' c (Proc.devRef .tc Cert.ReferenceIdeal.main_v3) = Cert.ReferenceIdeal.Line.U2 m' c (Proc.devRef .tc Cert.ReferenceIdeal.main_v3) from Cert.ReferenceIdeal.Kept.keep2 m' c Cert.ReferenceIdeal.main_v3 (by decide)).trans (show Cert.ReferenceIdeal.Line.U2 m' c (Proc.devRef .tc Cert.ReferenceIdeal.main_v3) = Cert.ReferenceIdeal.Line.U1 m' c (Proc.devRef .tc Cert.ReferenceIdeal.main_v3) from Cert.ReferenceIdeal.Kept.keep1 m' c Cert.ReferenceIdeal.main_v3 (by decide))))))).symm)
  have l10 : Cert.KernelIdeal.Gen.W8 m ρ c (Proc.devRef .tc Cert.KernelIdeal.main_v10) = Cert.ReferenceIdeal.Line.U6 m' c (Proc.devRef .tc Cert.ReferenceIdeal.main_v10) := (((show Cert.KernelIdeal.Gen.W8 m ρ c (Proc.devRef .tc Cert.KernelIdeal.main_v10) = Cert.KernelIdeal.Gen.W7 m ρ c (Proc.devRef .tc Cert.KernelIdeal.main_v10) from Cert.KernelIdeal.Gen.W8_of_ne m ρ c Cert.KernelIdeal.main_v10 (by decide)).trans ((show Cert.KernelIdeal.Gen.W7 m ρ c (Proc.devRef .tc Cert.KernelIdeal.main_v10) = Cert.KernelIdeal.Gen.W6 m ρ c (Proc.devRef .tc Cert.KernelIdeal.main_v10) from Cert.KernelIdeal.Kept.host3 m ρ c Cert.KernelIdeal.main_v10 (by decide)).trans ((show Cert.KernelIdeal.Gen.W6 m ρ c (Proc.devRef .tc Cert.KernelIdeal.main_v10) = Cert.KernelIdeal.Gen.W5 m ρ c (Proc.devRef .tc Cert.KernelIdeal.main_v10) from Cert.KernelIdeal.Gen.W6_of_ne m ρ c Cert.KernelIdeal.main_v10 (by decide)).trans ((show Cert.KernelIdeal.Gen.W5 m ρ c (Proc.devRef .tc Cert.KernelIdeal.main_v10) = Cert.KernelIdeal.Gen.W4 m ρ c (Proc.devRef .tc Cert.KernelIdeal.main_v10) from Cert.KernelIdeal.Kept.host2 m ρ c Cert.KernelIdeal.main_v10 (by decide)).trans ((show Cert.KernelIdeal.Gen.W4 m ρ c (Proc.devRef .tc Cert.KernelIdeal.main_v10) = Cert.KernelIdeal.Gen.W3 m ρ c (Proc.devRef .tc Cert.KernelIdeal.main_v10) from Cert.KernelIdeal.Gen.W4_of_ne m ρ c Cert.KernelIdeal.main_v10 (by decide)).trans ((show Cert.KernelIdeal.Gen.W3 m ρ c (Proc.devRef .tc Cert.KernelIdeal.main_v10) = Cert.KernelIdeal.Gen.W2 m ρ c (Proc.devRef .tc Cert.KernelIdeal.main_v10) from Cert.KernelIdeal.Kept.host1 m ρ c Cert.KernelIdeal.main_v10 (by decide)).trans (show Cert.KernelIdeal.Gen.W2 m ρ c (Proc.devRef .tc Cert.KernelIdeal.main_v10) = Cert.KernelIdeal.Gen.W1 m ρ c (Proc.devRef .tc Cert.KernelIdeal.main_v10) from Cert.KernelIdeal.Gen.W2_of_ne m ρ c Cert.KernelIdeal.main_v10 (by decide))))))))).trans ((b_v10 m ρ m' c hA).trans (((show Cert.ReferenceIdeal.Line.U6 m' c (Proc.devRef .tc Cert.ReferenceIdeal.main_v10) = Cert.ReferenceIdeal.Line.U5 m' c (Proc.devRef .tc Cert.ReferenceIdeal.main_v10) from Cert.ReferenceIdeal.Kept.keep5 m' c Cert.ReferenceIdeal.main_v10 (by decide)).trans ((show Cert.ReferenceIdeal.Line.U5 m' c (Proc.devRef .tc Cert.ReferenceIdeal.main_v10) = Cert.ReferenceIdeal.Line.U4 m' c (Proc.devRef .tc Cert.ReferenceIdeal.main_v10) from Cert.ReferenceIdeal.Kept.keep4 m' c Cert.ReferenceIdeal.main_v10 (by decide)).trans ((show Cert.ReferenceIdeal.Line.U4 m' c (Proc.devRef .tc Cert.ReferenceIdeal.main_v10) = Cert.ReferenceIdeal.Line.U3 m' c (Proc.devRef .tc Cert.ReferenceIdeal.main_v10) from Cert.ReferenceIdeal.Kept.keep3 m' c Cert.ReferenceIdeal.main_v10 (by decide)).trans ((show Cert.ReferenceIdeal.Line.U3 m' c (Proc.devRef .tc Cert.ReferenceIdeal.main_v10) = Cert.ReferenceIdeal.Line.U2 m' c (Proc.devRef .tc Cert.ReferenceIdeal.main_v10) from Cert.ReferenceIdeal.Kept.keep2 m' c Cert.ReferenceIdeal.main_v10 (by decide)).trans (show Cert.ReferenceIdeal.Line.U2 m' c (Proc.devRef .tc Cert.ReferenceIdeal.main_v10) = Cert.ReferenceIdeal.Line.U1 m' c (Proc.devRef .tc Cert.ReferenceIdeal.main_v10) from Cert.ReferenceIdeal.Kept.keep1 m' c Cert.ReferenceIdeal.main_v10 (by decide))))))).symm)
  have lp := s_p1 m ρ m' c hA
  show StableHlo.after Cert.KernelIdeal.Gen.hostOps4 (Cert.KernelIdeal.Gen.W8 m ρ c) (Proc.devRef .tc Cert.KernelIdeal.main_v93) = StableHlo.after Cert.ReferenceIdeal.Line.seg6 (Cert.ReferenceIdeal.Line.U6 m' c) (Proc.devRef .tc Cert.ReferenceIdeal.main_v112)
  after_results_simp
  rw [l1, l3, l10, lp]
  rfl

theorem s_b1 (hA : Agree m m' c) : Cert.KernelIdeal.Gen.W9 m ρ c (Proc.devRef .tc Cert.KernelIdeal.main_v96) = row (Cert.ReferenceIdeal.Line.U6 m' c (Proc.devRef .tc Cert.ReferenceIdeal.main_v83)) := by
  show StableHlo.after Cert.KernelIdeal.Gen.hostOps4 (Cert.KernelIdeal.Gen.W8 m ρ c) (Proc.devRef .tc Cert.KernelIdeal.main_v96) = row (StableHlo.after Cert.ReferenceIdeal.Line.seg5 (Cert.ReferenceIdeal.Line.U5 m' c) (Proc.devRef .tc Cert.ReferenceIdeal.main_v83))
  after_results_simp
  rw [((((show Cert.KernelIdeal.Gen.W8 m ρ c (Proc.devRef .tc Cert.KernelIdeal.main_arg5) = Cert.KernelIdeal.Gen.W7 m ρ c (Proc.devRef .tc Cert.KernelIdeal.main_arg5) from Cert.KernelIdeal.Gen.W8_of_ne m ρ c Cert.KernelIdeal.main_arg5 (by decide)).trans ((show Cert.KernelIdeal.Gen.W7 m ρ c (Proc.devRef .tc Cert.KernelIdeal.main_arg5) = Cert.KernelIdeal.Gen.W6 m ρ c (Proc.devRef .tc Cert.KernelIdeal.main_arg5) from Cert.KernelIdeal.Kept.host3 m ρ c Cert.KernelIdeal.main_arg5 (by decide)).trans ((show Cert.KernelIdeal.Gen.W6 m ρ c (Proc.devRef .tc Cert.KernelIdeal.main_arg5) = Cert.KernelIdeal.Gen.W5 m ρ c (Proc.devRef .tc Cert.KernelIdeal.main_arg5) from Cert.KernelIdeal.Gen.W6_of_ne m ρ c Cert.KernelIdeal.main_arg5 (by decide)).trans ((show Cert.KernelIdeal.Gen.W5 m ρ c (Proc.devRef .tc Cert.KernelIdeal.main_arg5) = Cert.KernelIdeal.Gen.W4 m ρ c (Proc.devRef .tc Cert.KernelIdeal.main_arg5) from Cert.KernelIdeal.Kept.host2 m ρ c Cert.KernelIdeal.main_arg5 (by decide)).trans ((show Cert.KernelIdeal.Gen.W4 m ρ c (Proc.devRef .tc Cert.KernelIdeal.main_arg5) = Cert.KernelIdeal.Gen.W3 m ρ c (Proc.devRef .tc Cert.KernelIdeal.main_arg5) from Cert.KernelIdeal.Gen.W4_of_ne m ρ c Cert.KernelIdeal.main_arg5 (by decide)).trans ((show Cert.KernelIdeal.Gen.W3 m ρ c (Proc.devRef .tc Cert.KernelIdeal.main_arg5) = Cert.KernelIdeal.Gen.W2 m ρ c (Proc.devRef .tc Cert.KernelIdeal.main_arg5) from Cert.KernelIdeal.Kept.host1 m ρ c Cert.KernelIdeal.main_arg5 (by decide)).trans ((show Cert.KernelIdeal.Gen.W2 m ρ c (Proc.devRef .tc Cert.KernelIdeal.main_arg5) = Cert.KernelIdeal.Gen.W1 m ρ c (Proc.devRef .tc Cert.KernelIdeal.main_arg5) from Cert.KernelIdeal.Gen.W2_of_ne m ρ c Cert.KernelIdeal.main_arg5 (by decide)).trans (show Cert.KernelIdeal.Gen.W1 m ρ c (Proc.devRef .tc Cert.KernelIdeal.main_arg5) = Cert.KernelIdeal.Gen.W0 m ρ c (Proc.devRef .tc Cert.KernelIdeal.main_arg5) from Cert.KernelIdeal.Kept.host0 m ρ c Cert.KernelIdeal.main_arg5 (by decide)))))))))).trans ((show Cert.KernelIdeal.Gen.W0 m ρ c (Proc.devRef .tc Cert.KernelIdeal.main_arg5) = Cert.ReferenceIdeal.Line.U0 m' c (Proc.devRef .tc Cert.ReferenceIdeal.main_arg5) from hA.a5.symm).trans (((show Cert.ReferenceIdeal.Line.U5 m' c (Proc.devRef .tc Cert.ReferenceIdeal.main_arg5) = Cert.ReferenceIdeal.Line.U4 m' c (Proc.devRef .tc Cert.ReferenceIdeal.main_arg5) from Cert.ReferenceIdeal.Kept.keep4 m' c Cert.ReferenceIdeal.main_arg5 (by decide)).trans ((show Cert.ReferenceIdeal.Line.U4 m' c (Proc.devRef .tc Cert.ReferenceIdeal.main_arg5) = Cert.ReferenceIdeal.Line.U3 m' c (Proc.devRef .tc Cert.ReferenceIdeal.main_arg5) from Cert.ReferenceIdeal.Kept.keep3 m' c Cert.ReferenceIdeal.main_arg5 (by decide)).trans ((show Cert.ReferenceIdeal.Line.U3 m' c (Proc.devRef .tc Cert.ReferenceIdeal.main_arg5) = Cert.ReferenceIdeal.Line.U2 m' c (Proc.devRef .tc Cert.ReferenceIdeal.main_arg5) from Cert.ReferenceIdeal.Kept.keep2 m' c Cert.ReferenceIdeal.main_arg5 (by decide)).trans ((show Cert.ReferenceIdeal.Line.U2 m' c (Proc.devRef .tc Cert.ReferenceIdeal.main_arg5) = Cert.ReferenceIdeal.Line.U1 m' c (Proc.devRef .tc Cert.ReferenceIdeal.main_arg5) from Cert.ReferenceIdeal.Kept.keep1 m' c Cert.ReferenceIdeal.main_arg5 (by decide)).trans (show Cert.ReferenceIdeal.Line.U1 m' c (Proc.devRef .tc Cert.ReferenceIdeal.main_arg5) = Cert.ReferenceIdeal.Line.U0 m' c (Proc.devRef .tc Cert.ReferenceIdeal.main_arg5) from Cert.ReferenceIdeal.Kept.keep0 m' c Cert.ReferenceIdeal.main_arg5 (by decide))))))).symm))]
  exact cast_row _ _

theorem s_g1 (hA : Agree m m' c) : Cert.KernelIdeal.Gen.W9 m ρ c (Proc.devRef .tc Cert.KernelIdeal.main_v99) = row (Cert.ReferenceIdeal.Line.U8 m' c (Proc.devRef .tc Cert.ReferenceIdeal.main_v121)) := by
  show StableHlo.after Cert.KernelIdeal.Gen.hostOps4 (Cert.KernelIdeal.Gen.W8 m ρ c) (Proc.devRef .tc Cert.KernelIdeal.main_v99) = row (StableHlo.after Cert.ReferenceIdeal.Line.seg7 (Cert.ReferenceIdeal.Line.U7 m' c) (Proc.devRef .tc Cert.ReferenceIdeal.main_v121))
  after_results_simp
  rw [((((show Cert.KernelIdeal.Gen.W8 m ρ c (Proc.devRef .tc Cert.KernelIdeal.main_arg10) = Cert.KernelIdeal.Gen.W7 m ρ c (Proc.devRef .tc Cert.KernelIdeal.main_arg10) from Cert.KernelIdeal.Gen.W8_of_ne m ρ c Cert.KernelIdeal.main_arg10 (by decide)).trans ((show Cert.KernelIdeal.Gen.W7 m ρ c (Proc.devRef .tc Cert.KernelIdeal.main_arg10) = Cert.KernelIdeal.Gen.W6 m ρ c (Proc.devRef .tc Cert.KernelIdeal.main_arg10) from Cert.KernelIdeal.Kept.host3 m ρ c Cert.KernelIdeal.main_arg10 (by decide)).trans ((show Cert.KernelIdeal.Gen.W6 m ρ c (Proc.devRef .tc Cert.KernelIdeal.main_arg10) = Cert.KernelIdeal.Gen.W5 m ρ c (Proc.devRef .tc Cert.KernelIdeal.main_arg10) from Cert.KernelIdeal.Gen.W6_of_ne m ρ c Cert.KernelIdeal.main_arg10 (by decide)).trans ((show Cert.KernelIdeal.Gen.W5 m ρ c (Proc.devRef .tc Cert.KernelIdeal.main_arg10) = Cert.KernelIdeal.Gen.W4 m ρ c (Proc.devRef .tc Cert.KernelIdeal.main_arg10) from Cert.KernelIdeal.Kept.host2 m ρ c Cert.KernelIdeal.main_arg10 (by decide)).trans ((show Cert.KernelIdeal.Gen.W4 m ρ c (Proc.devRef .tc Cert.KernelIdeal.main_arg10) = Cert.KernelIdeal.Gen.W3 m ρ c (Proc.devRef .tc Cert.KernelIdeal.main_arg10) from Cert.KernelIdeal.Gen.W4_of_ne m ρ c Cert.KernelIdeal.main_arg10 (by decide)).trans ((show Cert.KernelIdeal.Gen.W3 m ρ c (Proc.devRef .tc Cert.KernelIdeal.main_arg10) = Cert.KernelIdeal.Gen.W2 m ρ c (Proc.devRef .tc Cert.KernelIdeal.main_arg10) from Cert.KernelIdeal.Kept.host1 m ρ c Cert.KernelIdeal.main_arg10 (by decide)).trans ((show Cert.KernelIdeal.Gen.W2 m ρ c (Proc.devRef .tc Cert.KernelIdeal.main_arg10) = Cert.KernelIdeal.Gen.W1 m ρ c (Proc.devRef .tc Cert.KernelIdeal.main_arg10) from Cert.KernelIdeal.Gen.W2_of_ne m ρ c Cert.KernelIdeal.main_arg10 (by decide)).trans (show Cert.KernelIdeal.Gen.W1 m ρ c (Proc.devRef .tc Cert.KernelIdeal.main_arg10) = Cert.KernelIdeal.Gen.W0 m ρ c (Proc.devRef .tc Cert.KernelIdeal.main_arg10) from Cert.KernelIdeal.Kept.host0 m ρ c Cert.KernelIdeal.main_arg10 (by decide)))))))))).trans ((show Cert.KernelIdeal.Gen.W0 m ρ c (Proc.devRef .tc Cert.KernelIdeal.main_arg10) = Cert.ReferenceIdeal.Line.U0 m' c (Proc.devRef .tc Cert.ReferenceIdeal.main_arg10) from hA.a10.symm).trans (((show Cert.ReferenceIdeal.Line.U7 m' c (Proc.devRef .tc Cert.ReferenceIdeal.main_arg10) = Cert.ReferenceIdeal.Line.U6 m' c (Proc.devRef .tc Cert.ReferenceIdeal.main_arg10) from Cert.ReferenceIdeal.Kept.keep6 m' c Cert.ReferenceIdeal.main_arg10 (by decide)).trans ((show Cert.ReferenceIdeal.Line.U6 m' c (Proc.devRef .tc Cert.ReferenceIdeal.main_arg10) = Cert.ReferenceIdeal.Line.U5 m' c (Proc.devRef .tc Cert.ReferenceIdeal.main_arg10) from Cert.ReferenceIdeal.Kept.keep5 m' c Cert.ReferenceIdeal.main_arg10 (by decide)).trans ((show Cert.ReferenceIdeal.Line.U5 m' c (Proc.devRef .tc Cert.ReferenceIdeal.main_arg10) = Cert.ReferenceIdeal.Line.U4 m' c (Proc.devRef .tc Cert.ReferenceIdeal.main_arg10) from Cert.ReferenceIdeal.Kept.keep4 m' c Cert.ReferenceIdeal.main_arg10 (by decide)).trans ((show Cert.ReferenceIdeal.Line.U4 m' c (Proc.devRef .tc Cert.ReferenceIdeal.main_arg10) = Cert.ReferenceIdeal.Line.U3 m' c (Proc.devRef .tc Cert.ReferenceIdeal.main_arg10) from Cert.ReferenceIdeal.Kept.keep3 m' c Cert.ReferenceIdeal.main_arg10 (by decide)).trans ((show Cert.ReferenceIdeal.Line.U3 m' c (Proc.devRef .tc Cert.ReferenceIdeal.main_arg10) = Cert.ReferenceIdeal.Line.U2 m' c (Proc.devRef .tc Cert.ReferenceIdeal.main_arg10) from Cert.ReferenceIdeal.Kept.keep2 m' c Cert.ReferenceIdeal.main_arg10 (by decide)).trans ((show Cert.ReferenceIdeal.Line.U2 m' c (Proc.devRef .tc Cert.ReferenceIdeal.main_arg10) = Cert.ReferenceIdeal.Line.U1 m' c (Proc.devRef .tc Cert.ReferenceIdeal.main_arg10) from Cert.ReferenceIdeal.Kept.keep1 m' c Cert.ReferenceIdeal.main_arg10 (by decide)).trans (show Cert.ReferenceIdeal.Line.U1 m' c (Proc.devRef .tc Cert.ReferenceIdeal.main_arg10) = Cert.ReferenceIdeal.Line.U0 m' c (Proc.devRef .tc Cert.ReferenceIdeal.main_arg10) from Cert.ReferenceIdeal.Kept.keep0 m' c Cert.ReferenceIdeal.main_arg10 (by decide))))))))).symm))]
  exact cast_row _ _

theorem s_be1 (hA : Agree m m' c) : Cert.KernelIdeal.Gen.W9 m ρ c (Proc.devRef .tc Cert.KernelIdeal.main_v102) = row (Cert.ReferenceIdeal.Line.U8 m' c (Proc.devRef .tc Cert.ReferenceIdeal.main_v123)) := by
  show StableHlo.after Cert.KernelIdeal.Gen.hostOps4 (Cert.KernelIdeal.Gen.W8 m ρ c) (Proc.devRef .tc Cert.KernelIdeal.main_v102) = row (StableHlo.after Cert.ReferenceIdeal.Line.seg7 (Cert.ReferenceIdeal.Line.U7 m' c) (Proc.devRef .tc Cert.ReferenceIdeal.main_v123))
  after_results_simp
  rw [((((show Cert.KernelIdeal.Gen.W8 m ρ c (Proc.devRef .tc Cert.KernelIdeal.main_arg11) = Cert.KernelIdeal.Gen.W7 m ρ c (Proc.devRef .tc Cert.KernelIdeal.main_arg11) from Cert.KernelIdeal.Gen.W8_of_ne m ρ c Cert.KernelIdeal.main_arg11 (by decide)).trans ((show Cert.KernelIdeal.Gen.W7 m ρ c (Proc.devRef .tc Cert.KernelIdeal.main_arg11) = Cert.KernelIdeal.Gen.W6 m ρ c (Proc.devRef .tc Cert.KernelIdeal.main_arg11) from Cert.KernelIdeal.Kept.host3 m ρ c Cert.KernelIdeal.main_arg11 (by decide)).trans ((show Cert.KernelIdeal.Gen.W6 m ρ c (Proc.devRef .tc Cert.KernelIdeal.main_arg11) = Cert.KernelIdeal.Gen.W5 m ρ c (Proc.devRef .tc Cert.KernelIdeal.main_arg11) from Cert.KernelIdeal.Gen.W6_of_ne m ρ c Cert.KernelIdeal.main_arg11 (by decide)).trans ((show Cert.KernelIdeal.Gen.W5 m ρ c (Proc.devRef .tc Cert.KernelIdeal.main_arg11) = Cert.KernelIdeal.Gen.W4 m ρ c (Proc.devRef .tc Cert.KernelIdeal.main_arg11) from Cert.KernelIdeal.Kept.host2 m ρ c Cert.KernelIdeal.main_arg11 (by decide)).trans ((show Cert.KernelIdeal.Gen.W4 m ρ c (Proc.devRef .tc Cert.KernelIdeal.main_arg11) = Cert.KernelIdeal.Gen.W3 m ρ c (Proc.devRef .tc Cert.KernelIdeal.main_arg11) from Cert.KernelIdeal.Gen.W4_of_ne m ρ c Cert.KernelIdeal.main_arg11 (by decide)).trans ((show Cert.KernelIdeal.Gen.W3 m ρ c (Proc.devRef .tc Cert.KernelIdeal.main_arg11) = Cert.KernelIdeal.Gen.W2 m ρ c (Proc.devRef .tc Cert.KernelIdeal.main_arg11) from Cert.KernelIdeal.Kept.host1 m ρ c Cert.KernelIdeal.main_arg11 (by decide)).trans ((show Cert.KernelIdeal.Gen.W2 m ρ c (Proc.devRef .tc Cert.KernelIdeal.main_arg11) = Cert.KernelIdeal.Gen.W1 m ρ c (Proc.devRef .tc Cert.KernelIdeal.main_arg11) from Cert.KernelIdeal.Gen.W2_of_ne m ρ c Cert.KernelIdeal.main_arg11 (by decide)).trans (show Cert.KernelIdeal.Gen.W1 m ρ c (Proc.devRef .tc Cert.KernelIdeal.main_arg11) = Cert.KernelIdeal.Gen.W0 m ρ c (Proc.devRef .tc Cert.KernelIdeal.main_arg11) from Cert.KernelIdeal.Kept.host0 m ρ c Cert.KernelIdeal.main_arg11 (by decide)))))))))).trans ((show Cert.KernelIdeal.Gen.W0 m ρ c (Proc.devRef .tc Cert.KernelIdeal.main_arg11) = Cert.ReferenceIdeal.Line.U0 m' c (Proc.devRef .tc Cert.ReferenceIdeal.main_arg11) from hA.a11.symm).trans (((show Cert.ReferenceIdeal.Line.U7 m' c (Proc.devRef .tc Cert.ReferenceIdeal.main_arg11) = Cert.ReferenceIdeal.Line.U6 m' c (Proc.devRef .tc Cert.ReferenceIdeal.main_arg11) from Cert.ReferenceIdeal.Kept.keep6 m' c Cert.ReferenceIdeal.main_arg11 (by decide)).trans ((show Cert.ReferenceIdeal.Line.U6 m' c (Proc.devRef .tc Cert.ReferenceIdeal.main_arg11) = Cert.ReferenceIdeal.Line.U5 m' c (Proc.devRef .tc Cert.ReferenceIdeal.main_arg11) from Cert.ReferenceIdeal.Kept.keep5 m' c Cert.ReferenceIdeal.main_arg11 (by decide)).trans ((show Cert.ReferenceIdeal.Line.U5 m' c (Proc.devRef .tc Cert.ReferenceIdeal.main_arg11) = Cert.ReferenceIdeal.Line.U4 m' c (Proc.devRef .tc Cert.ReferenceIdeal.main_arg11) from Cert.ReferenceIdeal.Kept.keep4 m' c Cert.ReferenceIdeal.main_arg11 (by decide)).trans ((show Cert.ReferenceIdeal.Line.U4 m' c (Proc.devRef .tc Cert.ReferenceIdeal.main_arg11) = Cert.ReferenceIdeal.Line.U3 m' c (Proc.devRef .tc Cert.ReferenceIdeal.main_arg11) from Cert.ReferenceIdeal.Kept.keep3 m' c Cert.ReferenceIdeal.main_arg11 (by decide)).trans ((show Cert.ReferenceIdeal.Line.U3 m' c (Proc.devRef .tc Cert.ReferenceIdeal.main_arg11) = Cert.ReferenceIdeal.Line.U2 m' c (Proc.devRef .tc Cert.ReferenceIdeal.main_arg11) from Cert.ReferenceIdeal.Kept.keep2 m' c Cert.ReferenceIdeal.main_arg11 (by decide)).trans ((show Cert.ReferenceIdeal.Line.U2 m' c (Proc.devRef .tc Cert.ReferenceIdeal.main_arg11) = Cert.ReferenceIdeal.Line.U1 m' c (Proc.devRef .tc Cert.ReferenceIdeal.main_arg11) from Cert.ReferenceIdeal.Kept.keep1 m' c Cert.ReferenceIdeal.main_arg11 (by decide)).trans (show Cert.ReferenceIdeal.Line.U1 m' c (Proc.devRef .tc Cert.ReferenceIdeal.main_arg11) = Cert.ReferenceIdeal.Line.U0 m' c (Proc.devRef .tc Cert.ReferenceIdeal.main_arg11) from Cert.ReferenceIdeal.Kept.keep0 m' c Cert.ReferenceIdeal.main_arg11 (by decide))))))))).symm))]
  exact cast_row _ _

theorem s_mu1 (hA : Agree m m' c) : Cert.KernelIdeal.Gen.W9 m ρ c (Proc.devRef .tc Cert.KernelIdeal.main_v105) = row (Cert.ReferenceIdeal.Line.U8 m' c (Proc.devRef .tc Cert.ReferenceIdeal.main_v125)) := by
  show StableHlo.after Cert.KernelIdeal.Gen.hostOps4 (Cert.KernelIdeal.Gen.W8 m ρ c) (Proc.devRef .tc Cert.KernelIdeal.main_v105) = row (StableHlo.after Cert.ReferenceIdeal.Line.seg7 (Cert.ReferenceIdeal.Line.U7 m' c) (Proc.devRef .tc Cert.ReferenceIdeal.main_v125))
  after_results_simp
  rw [((((show Cert.KernelIdeal.Gen.W8 m ρ c (Proc.devRef .tc Cert.KernelIdeal.main_arg12) = Cert.KernelIdeal.Gen.W7 m ρ c (Proc.devRef .tc Cert.KernelIdeal.main_arg12) from Cert.KernelIdeal.Gen.W8_of_ne m ρ c Cert.KernelIdeal.main_arg12 (by decide)).trans ((show Cert.KernelIdeal.Gen.W7 m ρ c (Proc.devRef .tc Cert.KernelIdeal.main_arg12) = Cert.KernelIdeal.Gen.W6 m ρ c (Proc.devRef .tc Cert.KernelIdeal.main_arg12) from Cert.KernelIdeal.Kept.host3 m ρ c Cert.KernelIdeal.main_arg12 (by decide)).trans ((show Cert.KernelIdeal.Gen.W6 m ρ c (Proc.devRef .tc Cert.KernelIdeal.main_arg12) = Cert.KernelIdeal.Gen.W5 m ρ c (Proc.devRef .tc Cert.KernelIdeal.main_arg12) from Cert.KernelIdeal.Gen.W6_of_ne m ρ c Cert.KernelIdeal.main_arg12 (by decide)).trans ((show Cert.KernelIdeal.Gen.W5 m ρ c (Proc.devRef .tc Cert.KernelIdeal.main_arg12) = Cert.KernelIdeal.Gen.W4 m ρ c (Proc.devRef .tc Cert.KernelIdeal.main_arg12) from Cert.KernelIdeal.Kept.host2 m ρ c Cert.KernelIdeal.main_arg12 (by decide)).trans ((show Cert.KernelIdeal.Gen.W4 m ρ c (Proc.devRef .tc Cert.KernelIdeal.main_arg12) = Cert.KernelIdeal.Gen.W3 m ρ c (Proc.devRef .tc Cert.KernelIdeal.main_arg12) from Cert.KernelIdeal.Gen.W4_of_ne m ρ c Cert.KernelIdeal.main_arg12 (by decide)).trans ((show Cert.KernelIdeal.Gen.W3 m ρ c (Proc.devRef .tc Cert.KernelIdeal.main_arg12) = Cert.KernelIdeal.Gen.W2 m ρ c (Proc.devRef .tc Cert.KernelIdeal.main_arg12) from Cert.KernelIdeal.Kept.host1 m ρ c Cert.KernelIdeal.main_arg12 (by decide)).trans ((show Cert.KernelIdeal.Gen.W2 m ρ c (Proc.devRef .tc Cert.KernelIdeal.main_arg12) = Cert.KernelIdeal.Gen.W1 m ρ c (Proc.devRef .tc Cert.KernelIdeal.main_arg12) from Cert.KernelIdeal.Gen.W2_of_ne m ρ c Cert.KernelIdeal.main_arg12 (by decide)).trans (show Cert.KernelIdeal.Gen.W1 m ρ c (Proc.devRef .tc Cert.KernelIdeal.main_arg12) = Cert.KernelIdeal.Gen.W0 m ρ c (Proc.devRef .tc Cert.KernelIdeal.main_arg12) from Cert.KernelIdeal.Kept.host0 m ρ c Cert.KernelIdeal.main_arg12 (by decide)))))))))).trans ((show Cert.KernelIdeal.Gen.W0 m ρ c (Proc.devRef .tc Cert.KernelIdeal.main_arg12) = Cert.ReferenceIdeal.Line.U0 m' c (Proc.devRef .tc Cert.ReferenceIdeal.main_arg12) from hA.a12.symm).trans (((show Cert.ReferenceIdeal.Line.U7 m' c (Proc.devRef .tc Cert.ReferenceIdeal.main_arg12) = Cert.ReferenceIdeal.Line.U6 m' c (Proc.devRef .tc Cert.ReferenceIdeal.main_arg12) from Cert.ReferenceIdeal.Kept.keep6 m' c Cert.ReferenceIdeal.main_arg12 (by decide)).trans ((show Cert.ReferenceIdeal.Line.U6 m' c (Proc.devRef .tc Cert.ReferenceIdeal.main_arg12) = Cert.ReferenceIdeal.Line.U5 m' c (Proc.devRef .tc Cert.ReferenceIdeal.main_arg12) from Cert.ReferenceIdeal.Kept.keep5 m' c Cert.ReferenceIdeal.main_arg12 (by decide)).trans ((show Cert.ReferenceIdeal.Line.U5 m' c (Proc.devRef .tc Cert.ReferenceIdeal.main_arg12) = Cert.ReferenceIdeal.Line.U4 m' c (Proc.devRef .tc Cert.ReferenceIdeal.main_arg12) from Cert.ReferenceIdeal.Kept.keep4 m' c Cert.ReferenceIdeal.main_arg12 (by decide)).trans ((show Cert.ReferenceIdeal.Line.U4 m' c (Proc.devRef .tc Cert.ReferenceIdeal.main_arg12) = Cert.ReferenceIdeal.Line.U3 m' c (Proc.devRef .tc Cert.ReferenceIdeal.main_arg12) from Cert.ReferenceIdeal.Kept.keep3 m' c Cert.ReferenceIdeal.main_arg12 (by decide)).trans ((show Cert.ReferenceIdeal.Line.U3 m' c (Proc.devRef .tc Cert.ReferenceIdeal.main_arg12) = Cert.ReferenceIdeal.Line.U2 m' c (Proc.devRef .tc Cert.ReferenceIdeal.main_arg12) from Cert.ReferenceIdeal.Kept.keep2 m' c Cert.ReferenceIdeal.main_arg12 (by decide)).trans ((show Cert.ReferenceIdeal.Line.U2 m' c (Proc.devRef .tc Cert.ReferenceIdeal.main_arg12) = Cert.ReferenceIdeal.Line.U1 m' c (Proc.devRef .tc Cert.ReferenceIdeal.main_arg12) from Cert.ReferenceIdeal.Kept.keep1 m' c Cert.ReferenceIdeal.main_arg12 (by decide)).trans (show Cert.ReferenceIdeal.Line.U1 m' c (Proc.devRef .tc Cert.ReferenceIdeal.main_arg12) = Cert.ReferenceIdeal.Line.U0 m' c (Proc.devRef .tc Cert.ReferenceIdeal.main_arg12) from Cert.ReferenceIdeal.Kept.keep0 m' c Cert.ReferenceIdeal.main_arg12 (by decide))))))))).symm))]
  exact cast_row _ _

theorem s_var1 (hA : Agree m m' c) : Cert.KernelIdeal.Gen.W9 m ρ c (Proc.devRef .tc Cert.KernelIdeal.main_v108) = row (Cert.ReferenceIdeal.Line.U8 m' c (Proc.devRef .tc Cert.ReferenceIdeal.main_v127)) := by
  show StableHlo.after Cert.KernelIdeal.Gen.hostOps4 (Cert.KernelIdeal.Gen.W8 m ρ c) (Proc.devRef .tc Cert.KernelIdeal.main_v108) = row (StableHlo.after Cert.ReferenceIdeal.Line.seg7 (Cert.ReferenceIdeal.Line.U7 m' c) (Proc.devRef .tc Cert.ReferenceIdeal.main_v127))
  after_results_simp
  rw [((((show Cert.KernelIdeal.Gen.W8 m ρ c (Proc.devRef .tc Cert.KernelIdeal.main_arg13) = Cert.KernelIdeal.Gen.W7 m ρ c (Proc.devRef .tc Cert.KernelIdeal.main_arg13) from Cert.KernelIdeal.Gen.W8_of_ne m ρ c Cert.KernelIdeal.main_arg13 (by decide)).trans ((show Cert.KernelIdeal.Gen.W7 m ρ c (Proc.devRef .tc Cert.KernelIdeal.main_arg13) = Cert.KernelIdeal.Gen.W6 m ρ c (Proc.devRef .tc Cert.KernelIdeal.main_arg13) from Cert.KernelIdeal.Kept.host3 m ρ c Cert.KernelIdeal.main_arg13 (by decide)).trans ((show Cert.KernelIdeal.Gen.W6 m ρ c (Proc.devRef .tc Cert.KernelIdeal.main_arg13) = Cert.KernelIdeal.Gen.W5 m ρ c (Proc.devRef .tc Cert.KernelIdeal.main_arg13) from Cert.KernelIdeal.Gen.W6_of_ne m ρ c Cert.KernelIdeal.main_arg13 (by decide)).trans ((show Cert.KernelIdeal.Gen.W5 m ρ c (Proc.devRef .tc Cert.KernelIdeal.main_arg13) = Cert.KernelIdeal.Gen.W4 m ρ c (Proc.devRef .tc Cert.KernelIdeal.main_arg13) from Cert.KernelIdeal.Kept.host2 m ρ c Cert.KernelIdeal.main_arg13 (by decide)).trans ((show Cert.KernelIdeal.Gen.W4 m ρ c (Proc.devRef .tc Cert.KernelIdeal.main_arg13) = Cert.KernelIdeal.Gen.W3 m ρ c (Proc.devRef .tc Cert.KernelIdeal.main_arg13) from Cert.KernelIdeal.Gen.W4_of_ne m ρ c Cert.KernelIdeal.main_arg13 (by decide)).trans ((show Cert.KernelIdeal.Gen.W3 m ρ c (Proc.devRef .tc Cert.KernelIdeal.main_arg13) = Cert.KernelIdeal.Gen.W2 m ρ c (Proc.devRef .tc Cert.KernelIdeal.main_arg13) from Cert.KernelIdeal.Kept.host1 m ρ c Cert.KernelIdeal.main_arg13 (by decide)).trans ((show Cert.KernelIdeal.Gen.W2 m ρ c (Proc.devRef .tc Cert.KernelIdeal.main_arg13) = Cert.KernelIdeal.Gen.W1 m ρ c (Proc.devRef .tc Cert.KernelIdeal.main_arg13) from Cert.KernelIdeal.Gen.W2_of_ne m ρ c Cert.KernelIdeal.main_arg13 (by decide)).trans (show Cert.KernelIdeal.Gen.W1 m ρ c (Proc.devRef .tc Cert.KernelIdeal.main_arg13) = Cert.KernelIdeal.Gen.W0 m ρ c (Proc.devRef .tc Cert.KernelIdeal.main_arg13) from Cert.KernelIdeal.Kept.host0 m ρ c Cert.KernelIdeal.main_arg13 (by decide)))))))))).trans ((show Cert.KernelIdeal.Gen.W0 m ρ c (Proc.devRef .tc Cert.KernelIdeal.main_arg13) = Cert.ReferenceIdeal.Line.U0 m' c (Proc.devRef .tc Cert.ReferenceIdeal.main_arg13) from hA.a13.symm).trans (((show Cert.ReferenceIdeal.Line.U7 m' c (Proc.devRef .tc Cert.ReferenceIdeal.main_arg13) = Cert.ReferenceIdeal.Line.U6 m' c (Proc.devRef .tc Cert.ReferenceIdeal.main_arg13) from Cert.ReferenceIdeal.Kept.keep6 m' c Cert.ReferenceIdeal.main_arg13 (by decide)).trans ((show Cert.ReferenceIdeal.Line.U6 m' c (Proc.devRef .tc Cert.ReferenceIdeal.main_arg13) = Cert.ReferenceIdeal.Line.U5 m' c (Proc.devRef .tc Cert.ReferenceIdeal.main_arg13) from Cert.ReferenceIdeal.Kept.keep5 m' c Cert.ReferenceIdeal.main_arg13 (by decide)).trans ((show Cert.ReferenceIdeal.Line.U5 m' c (Proc.devRef .tc Cert.ReferenceIdeal.main_arg13) = Cert.ReferenceIdeal.Line.U4 m' c (Proc.devRef .tc Cert.ReferenceIdeal.main_arg13) from Cert.ReferenceIdeal.Kept.keep4 m' c Cert.ReferenceIdeal.main_arg13 (by decide)).trans ((show Cert.ReferenceIdeal.Line.U4 m' c (Proc.devRef .tc Cert.ReferenceIdeal.main_arg13) = Cert.ReferenceIdeal.Line.U3 m' c (Proc.devRef .tc Cert.ReferenceIdeal.main_arg13) from Cert.ReferenceIdeal.Kept.keep3 m' c Cert.ReferenceIdeal.main_arg13 (by decide)).trans ((show Cert.ReferenceIdeal.Line.U3 m' c (Proc.devRef .tc Cert.ReferenceIdeal.main_arg13) = Cert.ReferenceIdeal.Line.U2 m' c (Proc.devRef .tc Cert.ReferenceIdeal.main_arg13) from Cert.ReferenceIdeal.Kept.keep2 m' c Cert.ReferenceIdeal.main_arg13 (by decide)).trans ((show Cert.ReferenceIdeal.Line.U2 m' c (Proc.devRef .tc Cert.ReferenceIdeal.main_arg13) = Cert.ReferenceIdeal.Line.U1 m' c (Proc.devRef .tc Cert.ReferenceIdeal.main_arg13) from Cert.ReferenceIdeal.Kept.keep1 m' c Cert.ReferenceIdeal.main_arg13 (by decide)).trans (show Cert.ReferenceIdeal.Line.U1 m' c (Proc.devRef .tc Cert.ReferenceIdeal.main_arg13) = Cert.ReferenceIdeal.Line.U0 m' c (Proc.devRef .tc Cert.ReferenceIdeal.main_arg13) from Cert.ReferenceIdeal.Kept.keep0 m' c Cert.ReferenceIdeal.main_arg13 (by decide))))))))).symm))]
  exact cast_row _ _

theorem k_c1 : Cert.KernelIdeal.Gen.W10 m ρ c (Proc.devRef .tc Cert.KernelIdeal.main_v109) = combine (Cert.KernelIdeal.Gen.W9 m ρ c (Proc.devRef .tc Cert.KernelIdeal.main_v93)) (Cert.KernelIdeal.Gen.W9 m ρ c (Proc.devRef .tc Cert.KernelIdeal.main_v65)) (Cert.KernelIdeal.Gen.W9 m ρ c (Proc.devRef .tc Cert.KernelIdeal.main_v13)) (Cert.KernelIdeal.Gen.W9 m ρ c (Proc.devRef .tc Cert.KernelIdeal.main_v96)) (Cert.KernelIdeal.Gen.W9 m ρ c (Proc.devRef .tc Cert.KernelIdeal.main_v99)) (Cert.KernelIdeal.Gen.W9 m ρ c (Proc.devRef .tc Cert.KernelIdeal.main_v102)) (Cert.KernelIdeal.Gen.W9 m ρ c (Proc.devRef .tc Cert.KernelIdeal.main_v105)) (Cert.KernelIdeal.Gen.W9 m ρ c (Proc.devRef .tc Cert.KernelIdeal.main_v108)) :=
  (Cert.KernelIdeal.Gen.W10_arr m ρ c 8).trans ((Cert.KernelIdeal.Regions.final4 (Cert.KernelIdeal.Gen.V9 m ρ) c).trans rfl)

theorem r_c1 : Cert.ReferenceIdeal.Line.U8 m' c (Proc.devRef .tc Cert.ReferenceIdeal.main_v141) = combine (Cert.ReferenceIdeal.Line.U7 m' c (Proc.devRef .tc Cert.ReferenceIdeal.main_v112)) (Cert.ReferenceIdeal.Line.U7 m' c (Proc.devRef .tc Cert.ReferenceIdeal.main_v84)) (col (Cert.ReferenceIdeal.Line.U7 m' c (Proc.devRef .tc Cert.ReferenceIdeal.main_v12))) (row (Cert.ReferenceIdeal.Line.U7 m' c (Proc.devRef .tc Cert.ReferenceIdeal.main_v83))) (row (Cert.ReferenceIdeal.Line.U8 m' c (Proc.devRef .tc Cert.ReferenceIdeal.main_v121))) (row (Cert.ReferenceIdeal.Line.U8 m' c (Proc.devRef .tc Cert.ReferenceIdeal.main_v123))) (row (Cert.ReferenceIdeal.Line.U8 m' c (Proc.devRef .tc Cert.ReferenceIdeal.main_v125))) (row (Cert.ReferenceIdeal.Line.U8 m' c (Proc.devRef .tc Cert.ReferenceIdeal.main_v127))) := by
  show StableHlo.after Cert.ReferenceIdeal.Line.seg7 (Cert.ReferenceIdeal.Line.U7 m' c) (Proc.devRef .tc Cert.ReferenceIdeal.main_v141) = combine (Cert.ReferenceIdeal.Line.U7 m' c (Proc.devRef .tc Cert.ReferenceIdeal.main_v112)) (Cert.ReferenceIdeal.Line.U7 m' c (Proc.devRef .tc Cert.ReferenceIdeal.main_v84)) (col (Cert.ReferenceIdeal.Line.U7 m' c (Proc.devRef .tc Cert.ReferenceIdeal.main_v12))) (row (Cert.ReferenceIdeal.Line.U7 m' c (Proc.devRef .tc Cert.ReferenceIdeal.main_v83))) (row (StableHlo.after Cert.ReferenceIdeal.Line.seg7 (Cert.ReferenceIdeal.Line.U7 m' c) (Proc.devRef .tc Cert.ReferenceIdeal.main_v121))) (row (StableHlo.after Cert.ReferenceIdeal.Line.seg7 (Cert.ReferenceIdeal.Line.U7 m' c) (Proc.devRef .tc Cert.ReferenceIdeal.main_v123))) (row (StableHlo.after Cert.ReferenceIdeal.Line.seg7 (Cert.ReferenceIdeal.Line.U7 m' c) (Proc.devRef .tc Cert.ReferenceIdeal.main_v125))) (row (StableHlo.after Cert.ReferenceIdeal.Line.seg7 (Cert.ReferenceIdeal.Line.U7 m' c) (Proc.devRef .tc Cert.ReferenceIdeal.main_v127)))
  after_results_simp
  rw [← RefOps.ref_combine (hb1 := Cert.ReferenceIdeal.Gen.bcast_S256_S1x256_1) (hb2 := Cert.ReferenceIdeal.Gen.bcast_S1x256_S50000x256_0_1) (hz := Cert.ReferenceIdeal.Gen.bcast_S_S50000x256) (hv := Cert.ReferenceIdeal.Gen.bcast_S_S256) (hc0 := Cert.ReferenceIdeal.Gen.bcast_S50000_S50000x1_0) (hc1 := Cert.ReferenceIdeal.Gen.bcast_S50000x1_S50000x256_0_1)]
  have relu_strip : ∀ X : (⟨Cert.ReferenceIdeal.S50000x256, .f32⟩ : BufTy).Contents (Elt Ideal),
      (TRef.of (T := (⟨Cert.ReferenceIdeal.S50000x256, .f32⟩ : BufTy)) Cert.ReferenceIdeal.main_v141).toBuf (Val := Elt Ideal) (maximumf (F := Ideal) (s := Cert.ReferenceIdeal.S50000x256) (φ := .f32) ((TRef.of (T := (⟨Cert.ReferenceIdeal.S50000x256, .f32⟩ : BufTy)) Cert.ReferenceIdeal.main_v140).ofBuf (Val := Elt Ideal) X) ((TRef.of (T := (⟨Cert.ReferenceIdeal.S50000x256, .f32⟩ : BufTy)) Cert.ReferenceIdeal.main_call2_v0).ofBuf (Val := Elt Ideal) ((TRef.of (T := (⟨Cert.ReferenceIdeal.S50000x256, .f32⟩ : BufTy)) Cert.ReferenceIdeal.main_call2_v0).toBuf (Val := Elt Ideal) (broadcastInDim Cert.ReferenceIdeal.S50000x256 ![] Cert.ReferenceIdeal.Gen.bcast_S_S50000x256 ((TRef.of (T := (⟨Cert.ReferenceIdeal.S_, .f32⟩ : BufTy)) Cert.ReferenceIdeal.main_call2_cst).ofBuf (Val := Elt Ideal) ((TRef.of (T := (⟨Cert.ReferenceIdeal.S_, .f32⟩ : BufTy)) Cert.ReferenceIdeal.main_call2_cst).toBuf (Val := Elt Ideal) (constant (F := Ideal) Cert.ReferenceIdeal.S_ .f32 0x00000000#32)))))))
        = maximumf (F := Ideal) (s := Cert.ReferenceIdeal.S50000x256) (φ := .f32) X (broadcastInDim Cert.ReferenceIdeal.S50000x256 ![] Cert.ReferenceIdeal.Gen.bcast_S_S50000x256 (constant (F := Ideal) Cert.ReferenceIdeal.S_ .f32 0x00000000#32)) := fun X => rfl
  refine (relu_strip _).trans ?_
  rfl

theorem s_c1 (hA : Agree m m' c) : Cert.KernelIdeal.Gen.W10 m ρ c (Proc.devRef .tc Cert.KernelIdeal.main_v109) = Cert.ReferenceIdeal.Line.U8 m' c (Proc.devRef .tc Cert.ReferenceIdeal.main_v141) := by
  have i1 := s_agg1 m ρ m' c hA
  have i2 : Cert.KernelIdeal.Gen.W9 m ρ c (Proc.devRef .tc Cert.KernelIdeal.main_v65) = Cert.ReferenceIdeal.Line.U7 m' c (Proc.devRef .tc Cert.ReferenceIdeal.main_v84) := ((show Cert.KernelIdeal.Gen.W9 m ρ c (Proc.devRef .tc Cert.KernelIdeal.main_v65) = Cert.KernelIdeal.Gen.W8 m ρ c (Proc.devRef .tc Cert.KernelIdeal.main_v65) from Cert.KernelIdeal.Kept.host4 m ρ c Cert.KernelIdeal.main_v65 (by decide))).trans ((s_p1 m ρ m' c hA).trans ((show Cert.ReferenceIdeal.Line.U7 m' c (Proc.devRef .tc Cert.ReferenceIdeal.main_v84) = Cert.ReferenceIdeal.Line.U6 m' c (Proc.devRef .tc Cert.ReferenceIdeal.main_v84) from Cert.ReferenceIdeal.Kept.keep6 m' c Cert.ReferenceIdeal.main_v84 (by decide))).symm)
  have i3 : Cert.KernelIdeal.Gen.W9 m ρ c (Proc.devRef .tc Cert.KernelIdeal.main_v13) = col (Cert.ReferenceIdeal.Line.U7 m' c (Proc.devRef .tc Cert.ReferenceIdeal.main_v12)) :=
    (((show Cert.KernelIdeal.Gen.W9 m ρ c (Proc.devRef .tc Cert.KernelIdeal.main_v13) = Cert.KernelIdeal.Gen.W8 m ρ c (Proc.devRef .tc Cert.KernelIdeal.main_v13) from Cert.KernelIdeal.Kept.host4 m ρ c Cert.KernelIdeal.main_v13 (by decide)).trans ((show Cert.KernelIdeal.Gen.W8 m ρ c (Proc.devRef .tc Cert.KernelIdeal.main_v13) = Cert.KernelIdeal.Gen.W7 m ρ c (Proc.devRef .tc Cert.KernelIdeal.main_v13) from Cert.KernelIdeal.Gen.W8_of_ne m ρ c Cert.KernelIdeal.main_v13 (by decide)).trans ((show Cert.KernelIdeal.Gen.W7 m ρ c (Proc.devRef .tc Cert.KernelIdeal.main_v13) = Cert.KernelIdeal.Gen.W6 m ρ c (Proc.devRef .tc Cert.KernelIdeal.main_v13) from Cert.KernelIdeal.Kept.host3 m ρ c Cert.KernelIdeal.main_v13 (by decide)).trans ((show Cert.KernelIdeal.Gen.W6 m ρ c (Proc.devRef .tc Cert.KernelIdeal.main_v13) = Cert.KernelIdeal.Gen.W5 m ρ c (Proc.devRef .tc Cert.KernelIdeal.main_v13) from (Cert.KernelIdeal.Gen.W6_arr m ρ c 2).trans (((Cert.KernelIdeal.Gen.dat2 (Cert.KernelIdeal.Gen.V5 m ρ) c).arrAt_in 2 rfl _).trans (Cert.KernelIdeal.Gen.A_eq2 (Cert.KernelIdeal.Gen.V5 m ρ) c 2))).trans ((show Cert.KernelIdeal.Gen.W5 m ρ c (Proc.devRef .tc Cert.KernelIdeal.main_v13) = Cert.KernelIdeal.Gen.W4 m ρ c (Proc.devRef .tc Cert.KernelIdeal.main_v13) from Cert.KernelIdeal.Kept.host2 m ρ c Cert.KernelIdeal.main_v13 (by decide)).trans ((show Cert.KernelIdeal.Gen.W4 m ρ c (Proc.devRef .tc Cert.KernelIdeal.main_v13) = Cert.KernelIdeal.Gen.W3 m ρ c (Proc.devRef .tc Cert.KernelIdeal.main_v13) from Cert.KernelIdeal.Gen.W4_of_ne m ρ c Cert.KernelIdeal.main_v13 (by decide)).trans ((show Cert.KernelIdeal.Gen.W3 m ρ c (Proc.devRef .tc Cert.KernelIdeal.main_v13) = Cert.KernelIdeal.Gen.W2 m ρ c (Proc.devRef .tc Cert.KernelIdeal.main_v13) from Cert.KernelIdeal.Kept.host1 m ρ c Cert.KernelIdeal.main_v13 (by decide)).trans (show Cert.KernelIdeal.Gen.W2 m ρ c (Proc.devRef .tc Cert.KernelIdeal.main_v13) = Cert.KernelIdeal.Gen.W1 m ρ c (Proc.devRef .tc Cert.KernelIdeal.main_v13) from Cert.KernelIdeal.Gen.W2_of_ne m ρ c Cert.KernelIdeal.main_v13 (by decide)))))))))).trans ((b_v13 m ρ m' c hA).trans (congrArg col (((show Cert.ReferenceIdeal.Line.U7 m' c (Proc.devRef .tc Cert.ReferenceIdeal.main_v12) = Cert.ReferenceIdeal.Line.U6 m' c (Proc.devRef .tc Cert.ReferenceIdeal.main_v12) from Cert.ReferenceIdeal.Kept.keep6 m' c Cert.ReferenceIdeal.main_v12 (by decide)).trans ((show Cert.ReferenceIdeal.Line.U6 m' c (Proc.devRef .tc Cert.ReferenceIdeal.main_v12) = Cert.ReferenceIdeal.Line.U5 m' c (Proc.devRef .tc Cert.ReferenceIdeal.main_v12) from Cert.ReferenceIdeal.Kept.keep5 m' c Cert.ReferenceIdeal.main_v12 (by decide)).trans ((show Cert.ReferenceIdeal.Line.U5 m' c (Proc.devRef .tc Cert.ReferenceIdeal.main_v12) = Cert.ReferenceIdeal.Line.U4 m' c (Proc.devRef .tc Cert.ReferenceIdeal.main_v12) from Cert.ReferenceIdeal.Kept.keep4 m' c Cert.ReferenceIdeal.main_v12 (by decide)).trans ((show Cert.ReferenceIdeal.Line.U4 m' c (Proc.devRef .tc Cert.ReferenceIdeal.main_v12) = Cert.ReferenceIdeal.Line.U3 m' c (Proc.devRef .tc Cert.ReferenceIdeal.main_v12) from Cert.ReferenceIdeal.Kept.keep3 m' c Cert.ReferenceIdeal.main_v12 (by decide)).trans ((show Cert.ReferenceIdeal.Line.U3 m' c (Proc.devRef .tc Cert.ReferenceIdeal.main_v12) = Cert.ReferenceIdeal.Line.U2 m' c (Proc.devRef .tc Cert.ReferenceIdeal.main_v12) from Cert.ReferenceIdeal.Kept.keep2 m' c Cert.ReferenceIdeal.main_v12 (by decide)).trans (show Cert.ReferenceIdeal.Line.U2 m' c (Proc.devRef .tc Cert.ReferenceIdeal.main_v12) = Cert.ReferenceIdeal.Line.U1 m' c (Proc.devRef .tc Cert.ReferenceIdeal.main_v12) from Cert.ReferenceIdeal.Kept.keep1 m' c Cert.ReferenceIdeal.main_v12 (by decide)))))))).symm))
  have i4 : Cert.KernelIdeal.Gen.W9 m ρ c (Proc.devRef .tc Cert.KernelIdeal.main_v96) = row (Cert.ReferenceIdeal.Line.U7 m' c (Proc.devRef .tc Cert.ReferenceIdeal.main_v83)) := (s_b1 m ρ m' c hA).trans (congrArg row ((show Cert.ReferenceIdeal.Line.U7 m' c (Proc.devRef .tc Cert.ReferenceIdeal.main_v83) = Cert.ReferenceIdeal.Line.U6 m' c (Proc.devRef .tc Cert.ReferenceIdeal.main_v83) from Cert.ReferenceIdeal.Kept.keep6 m' c Cert.ReferenceIdeal.main_v83 (by decide))).symm)
  rw [k_c1 m ρ c, i1, i2, i3, i4, s_g1 m ρ m' c hA, s_be1 m ρ m' c hA, s_mu1 m ρ m' c hA, s_var1 m ρ m' c hA, r_c1 m' c]

end Cert.Sim

end
-- ==== Proof.Region5.lean ====
/-
  One grid launch of the network: 25 points, point t holding rows 2000·t … 2000·t + 1999 of every row-tiled array and
  the whole of every parameter array.  The body's value at entry (p, q) of its block depends on row p of the row-tiled
  blocks only, and row p of block t is row 2000·t + p of the array; so what point t writes back is block t of the layer
  applied to the whole arrays, and since the 25 blocks tile the output, the output array after the launch is that layer.
-/
import proofs.«169431_j32804960207311_2_alg».proof.Proof.Gen.KernelIdeal.Frame
import proofs.«169431_j32804960207311_2_alg».proof.Proof.Spec
import proofs.«169431_j32804960207311_2_alg».proof.Proof.BodyDense
import proofs.«169431_j32804960207311_2_alg».proof.Proof.RegionRows
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen Cert.GraphNet

variable (V : (c : Dev nD) → (b : Ref sig .tc) → Buf (Elt Ideal) ((c : Thread nD τ).loc b))

/-! ## Launch 5: `proj` of the arrays it finds -/

/-- The printed block index maps over the grid: a row window's block index is the point, a fixed window's is zero. -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- Point `t` writes back rows 2000·t … 2000·t + 1999 of the layer of the arrays the launch finds. -/
theorem flushed5 (c : Dev nD) (t : Fin cfg5.N) :
    (dat5 V c).flushed 2 t = ((cfg5.win 2).blk t).view.read (Elt Ideal) (proj (V c main_v109) (V c main_v111)) := by
  show (cfg5.win 2).cut (grid5.coords t) ((dat5 V c).after 2 t) = _
  rw [after5_2]
  unfold out5_2
  rw [View.canon_unit_zero hz]
  simp only [View.ld_unit_zero (S := S2000x256) hz, View.ld_unit_zero (S := S256x256) hz]
  obtain ⟨e0, e1, e2, e3, e4, e5⟩ := idx5 t
  funext j
  obtain ⟨p, q, rfl⟩ : ∃ (p : Fin 2000) (q : Fin 256), j = ix2 p q := ⟨j 0, j 1, eq_ix2 j⟩
  refine (Body.pay5_apply (iblk5 V c 0 t) (iblk5 V c 1 t) p q).trans ?_
  have ho : ((cfg5.win 2).blk t).view.emb (ix2 p q) = ix2 (rowAt N_5 t p) q := by
    funext d; apply Fin.ext
    match d with
    | ⟨0, _⟩ => show win5_2.index t (0 : Fin 2) * 2000 + 1 * p.val = t.val * 2000 + p.val; omega
    | ⟨1, _⟩ => show win5_2.index t (1 : Fin 2) * 256 + 1 * q.val = q.val; omega
  have hw0 : ∀ (a : Fin 2000) (b : Fin 256), ((cfg5.win 0).blk t).view.emb (ix2 a b) = ix2 (rowAt N_5 t a) b := by
    intro a b; funext d; apply Fin.ext
    match d with
    | ⟨0, _⟩ => show win5_0.index t (0 : Fin 2) * 2000 + 1 * a.val = t.val * 2000 + a.val; omega
    | ⟨1, _⟩ => show win5_0.index t (1 : Fin 2) * 256 + 1 * b.val = b.val; omega
  have hw1 : ∀ (a : Fin 256) (b : Fin 256), ((cfg5.win 1).blk t).view.emb (ix2 a b) = ix2 a b := by
    intro a b; funext d; apply Fin.ext
    match d with
    | ⟨0, _⟩ => show win5_1.index t (0 : Fin 2) * 256 + 1 * a.val = a.val; omega
    | ⟨1, _⟩ => show win5_1.index t (1 : Fin 2) * 256 + 1 * b.val = b.val; omega
  show _ = (proj (V c main_v109) (V c main_v111)) (((cfg5.win 2).blk t).view.emb (ix2 p q))
  rw [ho]
  show (∑ k : Fin 256, (id (V c main_v109 (((cfg5.win 0).blk t).view.emb (ix2 p k))) : EReal) * (id (V c main_v111 (((cfg5.win 1).blk t).view.emb (ix2 k q))) : EReal))
    = (∑ k : Fin 256, (id (V c main_v109 (ix2 (rowAt N_5 t p) k)) : EReal) * (id (V c main_v111 (ix2 k q)) : EReal))
  simp only [hw0, hw1]

/-- An index is in point `t`'s block iff each coordinate is in the block's range. -/
theorem mem_blk5 (t : Fin cfg5.N) (i : S50000x256.Idx) :
    i ∈ ((cfg5.win 2).blk t).view.set ↔ ∀ a : Fin 2, win5_2.index t a * S2000x256.size a ≤ (i a).val ∧ (i a).val < win5_2.index t a * S2000x256.size a + S2000x256.size a := by
  show i ∈ ((View.whole main_v112).slice (win5_2.rect t)).set ↔ _
  rw [View.set_slice_whole, Rect.mem_set_unit]
  exact Iff.rfl

/-- The 25 blocks of 2000 rows tile the array: row r is in block r / 2000. -/
theorem cover5 (c : Dev nD) (i : S50000x256.Idx) :
    ∃ t : Fin cfg5.N, (cfg5.win 2).flush t = true ∧ i ∈ ((cfg5.win 2).blk t).view.set := by
  have hi0 : (i 0).val < 50000 := (i 0).isLt
  have hi1 : (i 1).val < 256 := (i 1).isLt
  have hN : cfg5.N = 25 := N_5
  have ht : (i 0).val / 2000 < cfg5.N := by omega
  obtain ⟨e0, e1, e2, e3, e4, e5⟩ := idx5 ⟨(i 0).val / 2000, ht⟩
  refine ⟨⟨(i 0).val / 2000, ht⟩, flush5_2 _, ?_⟩
  rw [mem_blk5]
  intro a
  match a with
  | ⟨0, _⟩ => show win5_2.index ⟨(i 0).val / 2000, ht⟩ (0 : Fin 2) * 2000 ≤ (i 0).val ∧ (i 0).val < win5_2.index ⟨(i 0).val / 2000, ht⟩ (0 : Fin 2) * 2000 + 2000; simp only [e4]; omega
  | ⟨1, _⟩ => show win5_2.index ⟨(i 0).val / 2000, ht⟩ (1 : Fin 2) * 256 ≤ (i 1).val ∧ (i 1).val < win5_2.index ⟨(i 0).val / 2000, ht⟩ (1 : Fin 2) * 256 + 256; simp only [e5]; omega

/-- After launch 5 its output array is the layer of the arrays it found. -/
theorem final5 (c : Dev nD) : (dat5 V c).arrAt 2 cfg5.N = (proj (V c main_v109) (V c main_v111)) :=
  (dat5 V c).arrAt_eq_of_cover 2 _ (fun t _ => flushed5 V c t) (cover5 c)

end Cert.KernelIdeal.Regions

end
-- ==== Proof.Region6.lean ====
/-
  One grid launch of the network: 25 points, point t holding rows 2000·t … 2000·t + 1999 of every row-tiled array and
  the whole of every parameter array.  The body's value at entry (p, q) of its block depends on row p of the row-tiled
  blocks only, and row p of block t is row 2000·t + p of the array; so what point t writes back is block t of the layer
  applied to the whole arrays, and since the 25 blocks tile the output, the output array after the launch is that layer.
-/
import proofs.«169431_j32804960207311_2_alg».proof.Proof.Gen.KernelIdeal.Frame
import proofs.«169431_j32804960207311_2_alg».proof.Proof.Spec
import proofs.«169431_j32804960207311_2_alg».proof.Proof.BodyCombine
import proofs.«169431_j32804960207311_2_alg».proof.Proof.RegionRows
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen Cert.GraphNet

variable (V : (c : Dev nD) → (b : Ref sig .tc) → Buf (Elt Ideal) ((c : Thread nD τ).loc b))

/-! ## Launch 6: `combine` of the arrays it finds -/

/-- The printed block index maps over the grid: a row window's block index is the point, a fixed window's is zero. -/
theorem idx6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) = t.val
    ∧ win6_8.index t (1 : Fin 2) = 0 :=
  (by decide +kernel : ∀ t : Fin grid6.N, _)

set_option maxHeartbeats 4000000 in
/-- Point `t` writes back rows 2000·t … 2000·t + 1999 of the layer of the arrays the launch finds. -/
theorem flushed6 (c : Dev nD) (t : Fin cfg6.N) :
    (dat6 V c).flushed 8 t = ((cfg6.win 8).blk t).view.read (Elt Ideal) (combine (V c main_v140) (V c main_v112) (V c main_v13) (V c main_v143) (V c main_v146) (V c main_v149) (V c main_v152) (V c main_v155)) := by
  show (cfg6.win 8).cut (grid6.coords t) ((dat6 V c).after 8 t) = _
  rw [after6_8]
  unfold out6_8
  rw [View.canon_unit_zero hz]
  simp only [View.ld_unit_zero (S := S2000x256) hz, View.ld_unit_zero (S := S2000x1) hz, View.ld_unit_zero (S := S1x256) hz]
  obtain ⟨e0, e1, e2, e3, e4, e5, e6, e7, e8, e9, e10, e11, e12, e13, e14, e15, e16, e17⟩ := idx6 t
  funext j
  obtain ⟨p, q, rfl⟩ : ∃ (p : Fin 2000) (q : Fin 256), j = ix2 p q := ⟨j 0, j 1, eq_ix2 j⟩
  refine (Body.pay6_apply (iblk6 V c 0 t) (iblk6 V c 1 t) (iblk6 V c 2 t) (iblk6 V c 3 t) (iblk6 V c 4 t) (iblk6 V c 7 t) (iblk6 V c 6 t) (iblk6 V c 5 t) p q).trans ?_
  have ho : ((cfg6.win 8).blk t).view.emb (ix2 p q) = ix2 (rowAt N_6 t p) q := by
    funext d; apply Fin.ext
    match d with
    | ⟨0, _⟩ => show win6_8.index t (0 : Fin 2) * 2000 + 1 * p.val = t.val * 2000 + p.val; omega
    | ⟨1, _⟩ => show win6_8.index t (1 : Fin 2) * 256 + 1 * q.val = q.val; omega
  have hw0 : ∀ (a : Fin 2000) (b : Fin 256), ((cfg6.win 0).blk t).view.emb (ix2 a b) = ix2 (rowAt N_6 t a) b := by
    intro a b; funext d; apply Fin.ext
    match d with
    | ⟨0, _⟩ => show win6_0.index t (0 : Fin 2) * 2000 + 1 * a.val = t.val * 2000 + a.val; omega
    | ⟨1, _⟩ => show win6_0.index t (1 : Fin 2) * 256 + 1 * b.val = b.val; omega
  have hw1 : ∀ (a : Fin 2000) (b : Fin 256), ((cfg6.win 1).blk t).view.emb (ix2 a b) = ix2 (rowAt N_6 t a) b := by
    intro a b; funext d; apply Fin.ext
    match d with
    | ⟨0, _⟩ => show win6_1.index t (0 : Fin 2) * 2000 + 1 * a.val = t.val * 2000 + a.val; omega
    | ⟨1, _⟩ => show win6_1.index t (1 : Fin 2) * 256 + 1 * b.val = b.val; omega
  have hw2 : ∀ (a : Fin 2000) (b : Fin 1), ((cfg6.win 2).blk t).view.emb (ix2 a b) = ix2 (rowAt N_6 t a) b := by
    intro a b; funext d; apply Fin.ext
    match d with
    | ⟨0, _⟩ => show win6_2.index t (0 : Fin 2) * 2000 + 1 * a.val = t.val * 2000 + a.val; omega
    | ⟨1, _⟩ => show win6_2.index t (1 : Fin 2) * 1 + 1 * b.val = b.val; omega
  have hw3 : ∀ (a : Fin 1) (b : Fin 256), ((cfg6.win 3).blk t).view.emb (ix2 a b) = ix2 a b := by
    intro a b; funext d; apply Fin.ext
    match d with
    | ⟨0, _⟩ => show win6_3.index t (0 : Fin 2) * 1 + 1 * a.val = a.val; omega
    | ⟨1, _⟩ => show win6_3.index t (1 : Fin 2) * 256 + 1 * b.val = b.val; omega
  have hw4 : ∀ (a : Fin 1) (b : Fin 256), ((cfg6.win 4).blk t).view.emb (ix2 a b) = ix2 a b := by
    intro a b; funext d; apply Fin.ext
    match d with
    | ⟨0, _⟩ => show win6_4.index t (0 : Fin 2) * 1 + 1 * a.val = a.val; omega
    | ⟨1, _⟩ => show win6_4.index t (1 : Fin 2) * 256 + 1 * b.val = b.val; omega
  have hw5 : ∀ (a : Fin 1) (b : Fin 256), ((cfg6.win 5).blk t).view.emb (ix2 a b) = ix2 a b := by
    intro a b; funext d; apply Fin.ext
    match d with
    | ⟨0, _⟩ => show win6_5.index t (0 : Fin 2) * 1 + 1 * a.val = a.val; omega
    | ⟨1, _⟩ => show win6_5.index t (1 : Fin 2) * 256 + 1 * b.val = b.val; omega
  have hw6 : ∀ (a : Fin 1) (b : Fin 256), ((cfg6.win 6).blk t).view.emb (ix2 a b) = ix2 a b := by
    intro a b; funext d; apply Fin.ext
    match d with
    | ⟨0, _⟩ => show win6_6.index t (0 : Fin 2) * 1 + 1 * a.val = a.val; omega
    | ⟨1, _⟩ => show win6_6.index t (1 : Fin 2) * 256 + 1 * b.val = b.val; omega
  have hw7 : ∀ (a : Fin 1) (b : Fin 256), ((cfg6.win 7).blk t).view.emb (ix2 a b) = ix2 a b := by
    intro a b; funext d; apply Fin.ext
    match d with
    | ⟨0, _⟩ => show win6_7.index t (0 : Fin 2) * 1 + 1 * a.val = a.val; omega
    | ⟨1, _⟩ => show win6_7.index t (1 : Fin 2) * 256 + 1 * b.val = b.val; omega
  show _ = (combine (V c main_v140) (V c main_v112) (V c main_v13) (V c main_v143) (V c main_v146) (V c main_v149) (V c main_v152) (V c main_v155)) (((cfg6.win 8).blk t).view.emb (ix2 p q))
  rw [ho]
  show (max (bn ((id (V c main_v140 (((cfg6.win 0).blk t).view.emb (ix2 p q))) : EReal) + (id (V c main_v112 (((cfg6.win 1).blk t).view.emb (ix2 p q))) : EReal) * (id (V c main_v13 (((cfg6.win 2).blk t).view.emb (ix2 p (0 : Fin 1)))) : EReal) + (id (V c main_v143 (((cfg6.win 3).blk t).view.emb (ix2 (0 : Fin 1) q))) : EReal)) (id (V c main_v146 (((cfg6.win 4).blk t).view.emb (ix2 (0 : Fin 1) q))) : EReal) (id (V c main_v149 (((cfg6.win 5).blk t).view.emb (ix2 (0 : Fin 1) q))) : EReal) (id (V c main_v152 (((cfg6.win 6).blk t).view.emb (ix2 (0 : Fin 1) q))) : EReal) (id (V c main_v155 (((cfg6.win 7).blk t).view.emb (ix2 (0 : Fin 1) q))) : EReal)) zero32)
    = (max (bn ((id (V c main_v140 (ix2 (rowAt N_6 t p) q)) : EReal) + (id (V c main_v112 (ix2 (rowAt N_6 t p) q)) : EReal) * (id (V c main_v13 (ix2 (rowAt N_6 t p) (0 : Fin 1))) : EReal) + (id (V c main_v143 (ix2 (0 : Fin 1) q)) : EReal)) (id (V c main_v146 (ix2 (0 : Fin 1) q)) : EReal) (id (V c main_v149 (ix2 (0 : Fin 1) q)) : EReal) (id (V c main_v152 (ix2 (0 : Fin 1) q)) : EReal) (id (V c main_v155 (ix2 (0 : Fin 1) q)) : EReal)) zero32)
  simp only [hw0, hw1, hw2, hw3, hw4, hw5, hw6, hw7]

/-- An index is in point `t`'s block iff each coordinate is in the block's range. -/
theorem mem_blk6 (t : Fin cfg6.N) (i : S50000x256.Idx) :
    i ∈ ((cfg6.win 8).blk t).view.set ↔ ∀ a : Fin 2, win6_8.index t a * S2000x256.size a ≤ (i a).val ∧ (i a).val < win6_8.index t a * S2000x256.size a + S2000x256.size a := by
  show i ∈ ((View.whole main_v156).slice (win6_8.rect t)).set ↔ _
  rw [View.set_slice_whole, Rect.mem_set_unit]
  exact Iff.rfl

/-- The 25 blocks of 2000 rows tile the array: row r is in block r / 2000. -/
theorem cover6 (c : Dev nD) (i : S50000x256.Idx) :
    ∃ t : Fin cfg6.N, (cfg6.win 8).flush t = true ∧ i ∈ ((cfg6.win 8).blk t).view.set := by
  have hi0 : (i 0).val < 50000 := (i 0).isLt
  have hi1 : (i 1).val < 256 := (i 1).isLt
  have hN : cfg6.N = 25 := N_6
  have ht : (i 0).val / 2000 < cfg6.N := by omega
  obtain ⟨e0, e1, e2, e3, e4, e5, e6, e7, e8, e9, e10, e11, e12, e13, e14, e15, e16, e17⟩ := idx6 ⟨(i 0).val / 2000, ht⟩
  refine ⟨⟨(i 0).val / 2000, ht⟩, flush6_8 _, ?_⟩
  rw [mem_blk6]
  intro a
  match a with
  | ⟨0, _⟩ => show win6_8.index ⟨(i 0).val / 2000, ht⟩ (0 : Fin 2) * 2000 ≤ (i 0).val ∧ (i 0).val < win6_8.index ⟨(i 0).val / 2000, ht⟩ (0 : Fin 2) * 2000 + 2000; simp only [e16]; omega
  | ⟨1, _⟩ => show win6_8.index ⟨(i 0).val / 2000, ht⟩ (1 : Fin 2) * 256 ≤ (i 1).val ∧ (i 1).val < win6_8.index ⟨(i 0).val / 2000, ht⟩ (1 : Fin 2) * 256 + 256; simp only [e17]; omega

/-- After launch 6 its output array is the layer of the arrays it found. -/
theorem final6 (c : Dev nD) : (dat6 V c).arrAt 8 cfg6.N = (combine (V c main_v140) (V c main_v112) (V c main_v13) (V c main_v143) (V c main_v146) (V c main_v149) (V c main_v152) (V c main_v155)) :=
  (dat6 V c).arrAt_eq_of_cover 8 _ (fun t _ => flushed6 V c t) (cover6 c)

end Cert.KernelIdeal.Regions

end
-- ==== Proof.Sim3.lean ====
/-
  The third graph convolution on both programs.
-/
import proofs.«169431_j32804960207311_2_alg».proof.Proof.Gen.KernelIdeal.Frame
import proofs.«169431_j32804960207311_2_alg».proof.Proof.RefRun
import proofs.«169431_j32804960207311_2_alg».proof.Proof.KernelKept
import proofs.«169431_j32804960207311_2_alg».proof.Proof.RefKept
import proofs.«169431_j32804960207311_2_alg».proof.Proof.Spec
import proofs.«169431_j32804960207311_2_alg».proof.Proof.Casts
import proofs.«169431_j32804960207311_2_alg».proof.Proof.RefOps
import proofs.«169431_j32804960207311_2_alg».proof.Proof.Sim2
import proofs.«169431_j32804960207311_2_alg».proof.Proof.Region5
import proofs.«169431_j32804960207311_2_alg».proof.Proof.Region6
import Idealize.ShloMosaic.PureOps.Ideal
import Idealize.ShloMosaic.Lib.StableHlo.Run

set_option maxRecDepth 16384
set_option maxHeartbeats 8000000

noncomputable section

namespace Cert.Sim

open Idealize.ShloMosaic Idealize.ShloMosaic.TcCoe Idealize.ShloMosaic.StableHlo Idealize.SL.Sem Cert.GraphNet

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)
/-! ## Graph convolution 3: the projection, the edge gather and scatter, and the normalised combination -/

theorem s_w2 (hA : Agree m m' c) : Cert.KernelIdeal.Gen.W11 m ρ c (Proc.devRef .tc Cert.KernelIdeal.main_v111) = Cert.ReferenceIdeal.Line.U9 m' c (Proc.devRef .tc Cert.ReferenceIdeal.main_v143) := by
  show StableHlo.after Cert.KernelIdeal.Gen.hostOps5 (Cert.KernelIdeal.Gen.W10 m ρ c) (Proc.devRef .tc Cert.KernelIdeal.main_v111) = StableHlo.after Cert.ReferenceIdeal.Line.seg8 (Cert.ReferenceIdeal.Line.U8 m' c) (Proc.devRef .tc Cert.ReferenceIdeal.main_v143)
  after_results
  rw [((((show Cert.KernelIdeal.Gen.W10 m ρ c (Proc.devRef .tc Cert.KernelIdeal.main_arg4) = Cert.KernelIdeal.Gen.W9 m ρ c (Proc.devRef .tc Cert.KernelIdeal.main_arg4) from Cert.KernelIdeal.Gen.W10_of_ne m ρ c Cert.KernelIdeal.main_arg4 (by decide)).trans ((show Cert.KernelIdeal.Gen.W9 m ρ c (Proc.devRef .tc Cert.KernelIdeal.main_arg4) = Cert.KernelIdeal.Gen.W8 m ρ c (Proc.devRef .tc Cert.KernelIdeal.main_arg4) from Cert.KernelIdeal.Kept.host4 m ρ c Cert.KernelIdeal.main_arg4 (by decide)).trans ((show Cert.KernelIdeal.Gen.W8 m ρ c (Proc.devRef .tc Cert.KernelIdeal.main_arg4) = Cert.KernelIdeal.Gen.W7 m ρ c (Proc.devRef .tc Cert.KernelIdeal.main_arg4) from Cert.KernelIdeal.Gen.W8_of_ne m ρ c Cert.KernelIdeal.main_arg4 (by decide)).trans ((show Cert.KernelIdeal.Gen.W7 m ρ c (Proc.devRef .tc Cert.KernelIdeal.main_arg4) = Cert.KernelIdeal.Gen.W6 m ρ c (Proc.devRef .tc Cert.KernelIdeal.main_arg4) from Cert.KernelIdeal.Kept.host3 m ρ c Cert.KernelIdeal.main_arg4 (by decide)).trans ((show Cert.KernelIdeal.Gen.W6 m ρ c (Proc.devRef .tc Cert.KernelIdeal.main_arg4) = Cert.KernelIdeal.Gen.W5 m ρ c (Proc.devRef .tc Cert.KernelIdeal.main_arg4) from Cert.KernelIdeal.Gen.W6_of_ne m ρ c Cert.KernelIdeal.main_arg4 (by decide)).trans ((show Cert.KernelIdeal.Gen.W5 m ρ c (Proc.devRef .tc Cert.KernelIdeal.main_arg4) = Cert.KernelIdeal.Gen.W4 m ρ c (Proc.devRef .tc Cert.KernelIdeal.main_arg4) from Cert.KernelIdeal.Kept.host2 m ρ c Cert.KernelIdeal.main_arg4 (by decide)).trans ((show Cert.KernelIdeal.Gen.W4 m ρ c (Proc.devRef .tc Cert.KernelIdeal.main_arg4) = Cert.KernelIdeal.Gen.W3 m ρ c (Proc.devRef .tc Cert.KernelIdeal.main_arg4) from Cert.KernelIdeal.Gen.W4_of_ne m ρ c Cert.KernelIdeal.main_arg4 (by decide)).trans ((show Cert.KernelIdeal.Gen.W3 m ρ c (Proc.devRef .tc Cert.KernelIdeal.main_arg4) = Cert.KernelIdeal.Gen.W2 m ρ c (Proc.devRef .tc Cert.KernelIdeal.main_arg4) from Cert.KernelIdeal.Kept.host1 m ρ c Cert.KernelIdeal.main_arg4 (by decide)).trans ((show Cert.KernelIdeal.Gen.W2 m ρ c (Proc.devRef .tc Cert.KernelIdeal.main_arg4) = Cert.KernelIdeal.Gen.W1 m ρ c (Proc.devRef .tc Cert.KernelIdeal.main_arg4) from Cert.KernelIdeal.Gen.W2_of_ne m ρ c Cert.KernelIdeal.main_arg4 (by decide)).trans (show Cert.KernelIdeal.Gen.W1 m ρ c (Proc.devRef .tc Cert.KernelIdeal.main_arg4) = Cert.KernelIdeal.Gen.W0 m ρ c (Proc.devRef .tc Cert.KernelIdeal.main_arg4) from Cert.KernelIdeal.Kept.host0 m ρ c Cert.KernelIdeal.main_arg4 (by decide)))))))))))).trans ((show Cert.KernelIdeal.Gen.W0 m ρ c (Proc.devRef .tc Cert.KernelIdeal.main_arg4) = Cert.ReferenceIdeal.Line.U0 m' c (Proc.devRef .tc Cert.ReferenceIdeal.main_arg4) from hA.a4.symm).trans (((show Cert.ReferenceIdeal.Line.U8 m' c (Proc.devRef .tc Cert.ReferenceIdeal.main_arg4) = Cert.ReferenceIdeal.Line.U7 m' c (Proc.devRef .tc Cert.ReferenceIdeal.main_arg4) from Cert.ReferenceIdeal.Kept.keep7 m' c Cert.ReferenceIdeal.main_arg4 (by decide)).trans ((show Cert.ReferenceIdeal.Line.U7 m' c (Proc.devRef .tc Cert.ReferenceIdeal.main_arg4) = Cert.ReferenceIdeal.Line.U6 m' c (Proc.devRef .tc Cert.ReferenceIdeal.main_arg4) from Cert.ReferenceIdeal.Kept.keep6 m' c Cert.ReferenceIdeal.main_arg4 (by decide)).trans ((show Cert.ReferenceIdeal.Line.U6 m' c (Proc.devRef .tc Cert.ReferenceIdeal.main_arg4) = Cert.ReferenceIdeal.Line.U5 m' c (Proc.devRef .tc Cert.ReferenceIdeal.main_arg4) from Cert.ReferenceIdeal.Kept.keep5 m' c Cert.ReferenceIdeal.main_arg4 (by decide)).trans ((show Cert.ReferenceIdeal.Line.U5 m' c (Proc.devRef .tc Cert.ReferenceIdeal.main_arg4) = Cert.ReferenceIdeal.Line.U4 m' c (Proc.devRef .tc Cert.ReferenceIdeal.main_arg4) from Cert.ReferenceIdeal.Kept.keep4 m' c Cert.ReferenceIdeal.main_arg4 (by decide)).trans ((show Cert.ReferenceIdeal.Line.U4 m' c (Proc.devRef .tc Cert.ReferenceIdeal.main_arg4) = Cert.ReferenceIdeal.Line.U3 m' c (Proc.devRef .tc Cert.ReferenceIdeal.main_arg4) from Cert.ReferenceIdeal.Kept.keep3 m' c Cert.ReferenceIdeal.main_arg4 (by decide)).trans ((show Cert.ReferenceIdeal.Line.U3 m' c (Proc.devRef .tc Cert.ReferenceIdeal.main_arg4) = Cert.ReferenceIdeal.Line.U2 m' c (Proc.devRef .tc Cert.ReferenceIdeal.main_arg4) from Cert.ReferenceIdeal.Kept.keep2 m' c Cert.ReferenceIdeal.main_arg4 (by decide)).trans ((show Cert.ReferenceIdeal.Line.U2 m' c (Proc.devRef .tc Cert.ReferenceIdeal.main_arg4) = Cert.ReferenceIdeal.Line.U1 m' c (Proc.devRef .tc Cert.ReferenceIdeal.main_arg4) from Cert.ReferenceIdeal.Kept.keep1 m' c Cert.ReferenceIdeal.main_arg4 (by decide)).trans (show Cert.ReferenceIdeal.Line.U1 m' c (Proc.devRef .tc Cert.ReferenceIdeal.main_arg4) = Cert.ReferenceIdeal.Line.U0 m' c (Proc.devRef .tc Cert.ReferenceIdeal.main_arg4) from Cert.ReferenceIdeal.Kept.keep0 m' c Cert.ReferenceIdeal.main_arg4 (by decide)))))))))).symm))]
  rfl

theorem k_p2 : Cert.KernelIdeal.Gen.W12 m ρ c (Proc.devRef .tc Cert.KernelIdeal.main_v112) = proj (Cert.KernelIdeal.Gen.W11 m ρ c (Proc.devRef .tc Cert.KernelIdeal.main_v109)) (Cert.KernelIdeal.Gen.W11 m ρ c (Proc.devRef .tc Cert.KernelIdeal.main_v111)) :=
  (Cert.KernelIdeal.Gen.W12_arr m ρ c 2).trans ((Cert.KernelIdeal.Regions.final5 (Cert.KernelIdeal.Gen.V11 m ρ) c).trans rfl)

theorem r_p2 : Cert.ReferenceIdeal.Line.U9 m' c (Proc.devRef .tc Cert.ReferenceIdeal.main_v146) = proj (Cert.ReferenceIdeal.Line.U8 m' c (Proc.devRef .tc Cert.ReferenceIdeal.main_v141)) (Cert.ReferenceIdeal.Line.U9 m' c (Proc.devRef .tc Cert.ReferenceIdeal.main_v143)) := by
  show StableHlo.after Cert.ReferenceIdeal.Line.seg8 (Cert.ReferenceIdeal.Line.U8 m' c) (Proc.devRef .tc Cert.ReferenceIdeal.main_v146) = proj (Cert.ReferenceIdeal.Line.U8 m' c (Proc.devRef .tc Cert.ReferenceIdeal.main_v141)) (StableHlo.after Cert.ReferenceIdeal.Line.seg8 (Cert.ReferenceIdeal.Line.U8 m' c) (Proc.devRef .tc Cert.ReferenceIdeal.main_v143))
  after_results
  exact RefOps.ref_proj _ rfl rfl rfl rfl rfl rfl _ _

theorem s_p2 (hA : Agree m m' c) : Cert.KernelIdeal.Gen.W12 m ρ c (Proc.devRef .tc Cert.KernelIdeal.main_v112) = Cert.ReferenceIdeal.Line.U9 m' c (Proc.devRef .tc Cert.ReferenceIdeal.main_v146) := by
  have ih : Cert.KernelIdeal.Gen.W11 m ρ c (Proc.devRef .tc Cert.KernelIdeal.main_v109) = Cert.ReferenceIdeal.Line.U8 m' c (Proc.devRef .tc Cert.ReferenceIdeal.main_v141) := ((show Cert.KernelIdeal.Gen.W11 m ρ c (Proc.devRef .tc Cert.KernelIdeal.main_v109) = Cert.KernelIdeal.Gen.W10 m ρ c (Proc.devRef .tc Cert.KernelIdeal.main_v109) from Cert.KernelIdeal.Kept.host5 m ρ c Cert.KernelIdeal.main_v109 (by decide))).trans (s_c1 m ρ m' c hA)
  rw [k_p2 m ρ c, ih, s_w2 m ρ m' c hA, r_p2 m' c]

theorem s_agg2 (hA : Agree m m' c) : Cert.KernelIdeal.Gen.W13 m ρ c (Proc.devRef .tc Cert.KernelIdeal.main_v140) = Cert.ReferenceIdeal.Line.U10 m' c (Proc.devRef .tc Cert.ReferenceIdeal.main_v174) := by
  have l1 : Cert.KernelIdeal.Gen.W12 m ρ c (Proc.devRef .tc Cert.KernelIdeal.main_v1) = Cert.ReferenceIdeal.Line.U9 m' c (Proc.devRef .tc Cert.ReferenceIdeal.main_v1) := (((show Cert.KernelIdeal.Gen.W12 m ρ c (Proc.devRef .tc Cert.KernelIdeal.main_v1) = Cert.KernelIdeal.Gen.W11 m ρ c (Proc.devRef .tc Cert.KernelIdeal.main_v1) from Cert.KernelIdeal.Gen.W12_of_ne m ρ c Cert.KernelIdeal.main_v1 (by decide)).trans ((show Cert.KernelIdeal.Gen.W11 m ρ c (Proc.devRef .tc Cert.KernelIdeal.main_v1) = Cert.KernelIdeal.Gen.W10 m ρ c (Proc.devRef .tc Cert.KernelIdeal.main_v1) from Cert.KernelIdeal.Kept.host5 m ρ c Cert.KernelIdeal.main_v1 (by decide)).trans ((show Cert.KernelIdeal.Gen.W10 m ρ c (Proc.devRef .tc Cert.KernelIdeal.main_v1) = Cert.KernelIdeal.Gen.W9 m ρ c (Proc.devRef .tc Cert.KernelIdeal.main_v1) from Cert.KernelIdeal.Gen.W10_of_ne m ρ c Cert.KernelIdeal.main_v1 (by decide)).trans ((show Cert.KernelIdeal.Gen.W9 m ρ c (Proc.devRef .tc Cert.KernelIdeal.main_v1) = Cert.KernelIdeal.Gen.W8 m ρ c (Proc.devRef .tc Cert.KernelIdeal.main_v1) from Cert.KernelIdeal.Kept.host4 m ρ c Cert.KernelIdeal.main_v1 (by decide)).trans ((show Cert.KernelIdeal.Gen.W8 m ρ c (Proc.devRef .tc Cert.KernelIdeal.main_v1) = Cert.KernelIdeal.Gen.W7 m ρ c (Proc.devRef .tc Cert.KernelIdeal.main_v1) from Cert.KernelIdeal.Gen.W8_of_ne m ρ c Cert.KernelIdeal.main_v1 (by decide)).trans ((show Cert.KernelIdeal.Gen.W7 m ρ c (Proc.devRef .tc Cert.KernelIdeal.main_v1) = Cert.KernelIdeal.Gen.W6 m ρ c (Proc.devRef .tc Cert.KernelIdeal.main_v1) from Cert.KernelIdeal.Kept.host3 m ρ c Cert.KernelIdeal.main_v1 (by decide)).trans ((show Cert.KernelIdeal.Gen.W6 m ρ c (Proc.devRef .tc Cert.KernelIdeal.main_v1) = Cert.KernelIdeal.Gen.W5 m ρ c (Proc.devRef .tc Cert.KernelIdeal.main_v1) from Cert.KernelIdeal.Gen.W6_of_ne m ρ c Cert.KernelIdeal.main_v1 (by decide)).trans ((show Cert.KernelIdeal.Gen.W5 m ρ c (Proc.devRef .tc Cert.KernelIdeal.main_v1) = Cert.KernelIdeal.Gen.W4 m ρ c (Proc.devRef .tc Cert.KernelIdeal.main_v1) from Cert.KernelIdeal.Kept.host2 m ρ c Cert.KernelIdeal.main_v1 (by decide)).trans ((show Cert.KernelIdeal.Gen.W4 m ρ c (Proc.devRef .tc Cert.KernelIdeal.main_v1) = Cert.KernelIdeal.Gen.W3 m ρ c (Proc.devRef .tc Cert.KernelIdeal.main_v1) from Cert.KernelIdeal.Gen.W4_of_ne m ρ c Cert.KernelIdeal.main_v1 (by decide)).trans ((show Cert.KernelIdeal.Gen.W3 m ρ c (Proc.devRef .tc Cert.KernelIdeal.main_v1) = Cert.KernelIdeal.Gen.W2 m ρ c (Proc.devRef .tc Cert.KernelIdeal.main_v1) from Cert.KernelIdeal.Kept.host1 m ρ c Cert.KernelIdeal.main_v1 (by decide)).trans (show Cert.KernelIdeal.Gen.W2 m ρ c (Proc.devRef .tc Cert.KernelIdeal.main_v1) = Cert.KernelIdeal.Gen.W1 m ρ c (Proc.devRef .tc Cert.KernelIdeal.main_v1) from Cert.KernelIdeal.Gen.W2_of_ne m ρ c Cert.KernelIdeal.main_v1 (by decide))))))))))))).trans ((b_v1 m ρ m' c hA).trans (((show Cert.ReferenceIdeal.Line.U9 m' c (Proc.devRef .tc Cert.ReferenceIdeal.main_v1) = Cert.ReferenceIdeal.Line.U8 m' c (Proc.devRef .tc Cert.ReferenceIdeal.main_v1) from Cert.ReferenceIdeal.Kept.keep8 m' c Cert.ReferenceIdeal.main_v1 (by decide)).trans ((show Cert.ReferenceIdeal.Line.U8 m' c (Proc.devRef .tc Cert.ReferenceIdeal.main_v1) = Cert.ReferenceIdeal.Line.U7 m' c (Proc.devRef .tc Cert.ReferenceIdeal.main_v1) from Cert.ReferenceIdeal.Kept.keep7 m' c Cert.ReferenceIdeal.main_v1 (by decide)).trans ((show Cert.ReferenceIdeal.Line.U7 m' c (Proc.devRef .tc Cert.ReferenceIdeal.main_v1) = Cert.ReferenceIdeal.Line.U6 m' c (Proc.devRef .tc Cert.ReferenceIdeal.main_v1) from Cert.ReferenceIdeal.Kept.keep6 m' c Cert.ReferenceIdeal.main_v1 (by decide)).trans ((show Cert.ReferenceIdeal.Line.U6 m' c (Proc.devRef .tc Cert.ReferenceIdeal.main_v1) = Cert.ReferenceIdeal.Line.U5 m' c (Proc.devRef .tc Cert.ReferenceIdeal.main_v1) from Cert.ReferenceIdeal.Kept.keep5 m' c Cert.ReferenceIdeal.main_v1 (by decide)).trans ((show Cert.ReferenceIdeal.Line.U5 m' c (Proc.devRef .tc Cert.ReferenceIdeal.main_v1) = Cert.ReferenceIdeal.Line.U4 m' c (Proc.devRef .tc Cert.ReferenceIdeal.main_v1) from Cert.ReferenceIdeal.Kept.keep4 m' c Cert.ReferenceIdeal.main_v1 (by decide)).trans ((show Cert.ReferenceIdeal.Line.U4 m' c (Proc.devRef .tc Cert.ReferenceIdeal.main_v1) = Cert.ReferenceIdeal.Line.U3 m' c (Proc.devRef .tc Cert.ReferenceIdeal.main_v1) from Cert.ReferenceIdeal.Kept.keep3 m' c Cert.ReferenceIdeal.main_v1 (by decide)).trans ((show Cert.ReferenceIdeal.Line.U3 m' c (Proc.devRef .tc Cert.ReferenceIdeal.main_v1) = Cert.ReferenceIdeal.Line.U2 m' c (Proc.devRef .tc Cert.ReferenceIdeal.main_v1) from Cert.ReferenceIdeal.Kept.keep2 m' c Cert.ReferenceIdeal.main_v1 (by decide)).trans (show Cert.ReferenceIdeal.Line.U2 m' c (Proc.devRef .tc Cert.ReferenceIdeal.main_v1) = Cert.ReferenceIdeal.Line.U1 m' c (Proc.devRef .tc Cert.ReferenceIdeal.main_v1) from Cert.ReferenceIdeal.Kept.keep1 m' c Cert.ReferenceIdeal.main_v1 (by decide)))))))))).symm)
  have l3 : Cert.KernelIdeal.Gen.W12 m ρ c (Proc.devRef .tc Cert.KernelIdeal.main_v3) = Cert.ReferenceIdeal.Line.U9 m' c (Proc.devRef .tc Cert.ReferenceIdeal.main_v3) := (((show Cert.KernelIdeal.Gen.W12 m ρ c (Proc.devRef .tc Cert.KernelIdeal.main_v3) = Cert.KernelIdeal.Gen.W11 m ρ c (Proc.devRef .tc Cert.KernelIdeal.main_v3) from Cert.KernelIdeal.Gen.W12_of_ne m ρ c Cert.KernelIdeal.main_v3 (by decide)).trans ((show Cert.KernelIdeal.Gen.W11 m ρ c (Proc.devRef .tc Cert.KernelIdeal.main_v3) = Cert.KernelIdeal.Gen.W10 m ρ c (Proc.devRef .tc Cert.KernelIdeal.main_v3) from Cert.KernelIdeal.Kept.host5 m ρ c Cert.KernelIdeal.main_v3 (by decide)).trans ((show Cert.KernelIdeal.Gen.W10 m ρ c (Proc.devRef .tc Cert.KernelIdeal.main_v3) = Cert.KernelIdeal.Gen.W9 m ρ c (Proc.devRef .tc Cert.KernelIdeal.main_v3) from Cert.KernelIdeal.Gen.W10_of_ne m ρ c Cert.KernelIdeal.main_v3 (by decide)).trans ((show Cert.KernelIdeal.Gen.W9 m ρ c (Proc.devRef .tc Cert.KernelIdeal.main_v3) = Cert.KernelIdeal.Gen.W8 m ρ c (Proc.devRef .tc Cert.KernelIdeal.main_v3) from Cert.KernelIdeal.Kept.host4 m ρ c Cert.KernelIdeal.main_v3 (by decide)).trans ((show Cert.KernelIdeal.Gen.W8 m ρ c (Proc.devRef .tc Cert.KernelIdeal.main_v3) = Cert.KernelIdeal.Gen.W7 m ρ c (Proc.devRef .tc Cert.KernelIdeal.main_v3) from Cert.KernelIdeal.Gen.W8_of_ne m ρ c Cert.KernelIdeal.main_v3 (by decide)).trans ((show Cert.KernelIdeal.Gen.W7 m ρ c (Proc.devRef .tc Cert.KernelIdeal.main_v3) = Cert.KernelIdeal.Gen.W6 m ρ c (Proc.devRef .tc Cert.KernelIdeal.main_v3) from Cert.KernelIdeal.Kept.host3 m ρ c Cert.KernelIdeal.main_v3 (by decide)).trans ((show Cert.KernelIdeal.Gen.W6 m ρ c (Proc.devRef .tc Cert.KernelIdeal.main_v3) = Cert.KernelIdeal.Gen.W5 m ρ c (Proc.devRef .tc Cert.KernelIdeal.main_v3) from Cert.KernelIdeal.Gen.W6_of_ne m ρ c Cert.KernelIdeal.main_v3 (by decide)).trans ((show Cert.KernelIdeal.Gen.W5 m ρ c (Proc.devRef .tc Cert.KernelIdeal.main_v3) = Cert.KernelIdeal.Gen.W4 m ρ c (Proc.devRef .tc Cert.KernelIdeal.main_v3) from Cert.KernelIdeal.Kept.host2 m ρ c Cert.KernelIdeal.main_v3 (by decide)).trans ((show Cert.KernelIdeal.Gen.W4 m ρ c (Proc.devRef .tc Cert.KernelIdeal.main_v3) = Cert.KernelIdeal.Gen.W3 m ρ c (Proc.devRef .tc Cert.KernelIdeal.main_v3) from Cert.KernelIdeal.Gen.W4_of_ne m ρ c Cert.KernelIdeal.main_v3 (by decide)).trans ((show Cert.KernelIdeal.Gen.W3 m ρ c (Proc.devRef .tc Cert.KernelIdeal.main_v3) = Cert.KernelIdeal.Gen.W2 m ρ c (Proc.devRef .tc Cert.KernelIdeal.main_v3) from Cert.KernelIdeal.Kept.host1 m ρ c Cert.KernelIdeal.main_v3 (by decide)).trans (show Cert.KernelIdeal.Gen.W2 m ρ c (Proc.devRef .tc Cert.KernelIdeal.main_v3) = Cert.KernelIdeal.Gen.W1 m ρ c (Proc.devRef .tc Cert.KernelIdeal.main_v3) from Cert.KernelIdeal.Gen.W2_of_ne m ρ c Cert.KernelIdeal.main_v3 (by decide))))))))))))).trans ((b_v3 m ρ m' c hA).trans (((show Cert.ReferenceIdeal.Line.U9 m' c (Proc.devRef .tc Cert.ReferenceIdeal.main_v3) = Cert.ReferenceIdeal.Line.U8 m' c (Proc.devRef .tc Cert.ReferenceIdeal.main_v3) from Cert.ReferenceIdeal.Kept.keep8 m' c Cert.ReferenceIdeal.main_v3 (by decide)).trans ((show Cert.ReferenceIdeal.Line.U8 m' c (Proc.devRef .tc Cert.ReferenceIdeal.main_v3) = Cert.ReferenceIdeal.Line.U7 m' c (Proc.devRef .tc Cert.ReferenceIdeal.main_v3) from Cert.ReferenceIdeal.Kept.keep7 m' c Cert.ReferenceIdeal.main_v3 (by decide)).trans ((show Cert.ReferenceIdeal.Line.U7 m' c (Proc.devRef .tc Cert.ReferenceIdeal.main_v3) = Cert.ReferenceIdeal.Line.U6 m' c (Proc.devRef .tc Cert.ReferenceIdeal.main_v3) from Cert.ReferenceIdeal.Kept.keep6 m' c Cert.ReferenceIdeal.main_v3 (by decide)).trans ((show Cert.ReferenceIdeal.Line.U6 m' c (Proc.devRef .tc Cert.ReferenceIdeal.main_v3) = Cert.ReferenceIdeal.Line.U5 m' c (Proc.devRef .tc Cert.ReferenceIdeal.main_v3) from Cert.ReferenceIdeal.Kept.keep5 m' c Cert.ReferenceIdeal.main_v3 (by decide)).trans ((show Cert.ReferenceIdeal.Line.U5 m' c (Proc.devRef .tc Cert.ReferenceIdeal.main_v3) = Cert.ReferenceIdeal.Line.U4 m' c (Proc.devRef .tc Cert.ReferenceIdeal.main_v3) from Cert.ReferenceIdeal.Kept.keep4 m' c Cert.ReferenceIdeal.main_v3 (by decide)).trans ((show Cert.ReferenceIdeal.Line.U4 m' c (Proc.devRef .tc Cert.ReferenceIdeal.main_v3) = Cert.ReferenceIdeal.Line.U3 m' c (Proc.devRef .tc Cert.ReferenceIdeal.main_v3) from Cert.ReferenceIdeal.Kept.keep3 m' c Cert.ReferenceIdeal.main_v3 (by decide)).trans ((show Cert.ReferenceIdeal.Line.U3 m' c (Proc.devRef .tc Cert.ReferenceIdeal.main_v3) = Cert.ReferenceIdeal.Line.U2 m' c (Proc.devRef .tc Cert.ReferenceIdeal.main_v3) from Cert.ReferenceIdeal.Kept.keep2 m' c Cert.ReferenceIdeal.main_v3 (by decide)).trans (show Cert.ReferenceIdeal.Line.U2 m' c (Proc.devRef .tc Cert.ReferenceIdeal.main_v3) = Cert.ReferenceIdeal.Line.U1 m' c (Proc.devRef .tc Cert.ReferenceIdeal.main_v3) from Cert.ReferenceIdeal.Kept.keep1 m' c Cert.ReferenceIdeal.main_v3 (by decide)))))))))).symm)
  have l10 : Cert.KernelIdeal.Gen.W12 m ρ c (Proc.devRef .tc Cert.KernelIdeal.main_v10) = Cert.ReferenceIdeal.Line.U9 m' c (Proc.devRef .tc Cert.ReferenceIdeal.main_v10) := (((show Cert.KernelIdeal.Gen.W12 m ρ c (Proc.devRef .tc Cert.KernelIdeal.main_v10) = Cert.KernelIdeal.Gen.W11 m ρ c (Proc.devRef .tc Cert.KernelIdeal.main_v10) from Cert.KernelIdeal.Gen.W12_of_ne m ρ c Cert.KernelIdeal.main_v10 (by decide)).trans ((show Cert.KernelIdeal.Gen.W11 m ρ c (Proc.devRef .tc Cert.KernelIdeal.main_v10) = Cert.KernelIdeal.Gen.W10 m ρ c (Proc.devRef .tc Cert.KernelIdeal.main_v10) from Cert.KernelIdeal.Kept.host5 m ρ c Cert.KernelIdeal.main_v10 (by decide)).trans ((show Cert.KernelIdeal.Gen.W10 m ρ c (Proc.devRef .tc Cert.KernelIdeal.main_v10) = Cert.KernelIdeal.Gen.W9 m ρ c (Proc.devRef .tc Cert.KernelIdeal.main_v10) from Cert.KernelIdeal.Gen.W10_of_ne m ρ c Cert.KernelIdeal.main_v10 (by decide)).trans ((show Cert.KernelIdeal.Gen.W9 m ρ c (Proc.devRef .tc Cert.KernelIdeal.main_v10) = Cert.KernelIdeal.Gen.W8 m ρ c (Proc.devRef .tc Cert.KernelIdeal.main_v10) from Cert.KernelIdeal.Kept.host4 m ρ c Cert.KernelIdeal.main_v10 (by decide)).trans ((show Cert.KernelIdeal.Gen.W8 m ρ c (Proc.devRef .tc Cert.KernelIdeal.main_v10) = Cert.KernelIdeal.Gen.W7 m ρ c (Proc.devRef .tc Cert.KernelIdeal.main_v10) from Cert.KernelIdeal.Gen.W8_of_ne m ρ c Cert.KernelIdeal.main_v10 (by decide)).trans ((show Cert.KernelIdeal.Gen.W7 m ρ c (Proc.devRef .tc Cert.KernelIdeal.main_v10) = Cert.KernelIdeal.Gen.W6 m ρ c (Proc.devRef .tc Cert.KernelIdeal.main_v10) from Cert.KernelIdeal.Kept.host3 m ρ c Cert.KernelIdeal.main_v10 (by decide)).trans ((show Cert.KernelIdeal.Gen.W6 m ρ c (Proc.devRef .tc Cert.KernelIdeal.main_v10) = Cert.KernelIdeal.Gen.W5 m ρ c (Proc.devRef .tc Cert.KernelIdeal.main_v10) from Cert.KernelIdeal.Gen.W6_of_ne m ρ c Cert.KernelIdeal.main_v10 (by decide)).trans ((show Cert.KernelIdeal.Gen.W5 m ρ c (Proc.devRef .tc Cert.KernelIdeal.main_v10) = Cert.KernelIdeal.Gen.W4 m ρ c (Proc.devRef .tc Cert.KernelIdeal.main_v10) from Cert.KernelIdeal.Kept.host2 m ρ c Cert.KernelIdeal.main_v10 (by decide)).trans ((show Cert.KernelIdeal.Gen.W4 m ρ c (Proc.devRef .tc Cert.KernelIdeal.main_v10) = Cert.KernelIdeal.Gen.W3 m ρ c (Proc.devRef .tc Cert.KernelIdeal.main_v10) from Cert.KernelIdeal.Gen.W4_of_ne m ρ c Cert.KernelIdeal.main_v10 (by decide)).trans ((show Cert.KernelIdeal.Gen.W3 m ρ c (Proc.devRef .tc Cert.KernelIdeal.main_v10) = Cert.KernelIdeal.Gen.W2 m ρ c (Proc.devRef .tc Cert.KernelIdeal.main_v10) from Cert.KernelIdeal.Kept.host1 m ρ c Cert.KernelIdeal.main_v10 (by decide)).trans (show Cert.KernelIdeal.Gen.W2 m ρ c (Proc.devRef .tc Cert.KernelIdeal.main_v10) = Cert.KernelIdeal.Gen.W1 m ρ c (Proc.devRef .tc Cert.KernelIdeal.main_v10) from Cert.KernelIdeal.Gen.W2_of_ne m ρ c Cert.KernelIdeal.main_v10 (by decide))))))))))))).trans ((b_v10 m ρ m' c hA).trans (((show Cert.ReferenceIdeal.Line.U9 m' c (Proc.devRef .tc Cert.ReferenceIdeal.main_v10) = Cert.ReferenceIdeal.Line.U8 m' c (Proc.devRef .tc Cert.ReferenceIdeal.main_v10) from Cert.ReferenceIdeal.Kept.keep8 m' c Cert.ReferenceIdeal.main_v10 (by decide)).trans ((show Cert.ReferenceIdeal.Line.U8 m' c (Proc.devRef .tc Cert.ReferenceIdeal.main_v10) = Cert.ReferenceIdeal.Line.U7 m' c (Proc.devRef .tc Cert.ReferenceIdeal.main_v10) from Cert.ReferenceIdeal.Kept.keep7 m' c Cert.ReferenceIdeal.main_v10 (by decide)).trans ((show Cert.ReferenceIdeal.Line.U7 m' c (Proc.devRef .tc Cert.ReferenceIdeal.main_v10) = Cert.ReferenceIdeal.Line.U6 m' c (Proc.devRef .tc Cert.ReferenceIdeal.main_v10) from Cert.ReferenceIdeal.Kept.keep6 m' c Cert.ReferenceIdeal.main_v10 (by decide)).trans ((show Cert.ReferenceIdeal.Line.U6 m' c (Proc.devRef .tc Cert.ReferenceIdeal.main_v10) = Cert.ReferenceIdeal.Line.U5 m' c (Proc.devRef .tc Cert.ReferenceIdeal.main_v10) from Cert.ReferenceIdeal.Kept.keep5 m' c Cert.ReferenceIdeal.main_v10 (by decide)).trans ((show Cert.ReferenceIdeal.Line.U5 m' c (Proc.devRef .tc Cert.ReferenceIdeal.main_v10) = Cert.ReferenceIdeal.Line.U4 m' c (Proc.devRef .tc Cert.ReferenceIdeal.main_v10) from Cert.ReferenceIdeal.Kept.keep4 m' c Cert.ReferenceIdeal.main_v10 (by decide)).trans ((show Cert.ReferenceIdeal.Line.U4 m' c (Proc.devRef .tc Cert.ReferenceIdeal.main_v10) = Cert.ReferenceIdeal.Line.U3 m' c (Proc.devRef .tc Cert.ReferenceIdeal.main_v10) from Cert.ReferenceIdeal.Kept.keep3 m' c Cert.ReferenceIdeal.main_v10 (by decide)).trans ((show Cert.ReferenceIdeal.Line.U3 m' c (Proc.devRef .tc Cert.ReferenceIdeal.main_v10) = Cert.ReferenceIdeal.Line.U2 m' c (Proc.devRef .tc Cert.ReferenceIdeal.main_v10) from Cert.ReferenceIdeal.Kept.keep2 m' c Cert.ReferenceIdeal.main_v10 (by decide)).trans (show Cert.ReferenceIdeal.Line.U2 m' c (Proc.devRef .tc Cert.ReferenceIdeal.main_v10) = Cert.ReferenceIdeal.Line.U1 m' c (Proc.devRef .tc Cert.ReferenceIdeal.main_v10) from Cert.ReferenceIdeal.Kept.keep1 m' c Cert.ReferenceIdeal.main_v10 (by decide)))))))))).symm)
  have lp := s_p2 m ρ m' c hA
  show StableHlo.after Cert.KernelIdeal.Gen.hostOps6 (Cert.KernelIdeal.Gen.W12 m ρ c) (Proc.devRef .tc Cert.KernelIdeal.main_v140) = StableHlo.after Cert.ReferenceIdeal.Line.seg9 (Cert.ReferenceIdeal.Line.U9 m' c) (Proc.devRef .tc Cert.ReferenceIdeal.main_v174)
  after_results_simp
  rw [l1, l3, l10, lp]
  rfl

theorem s_b2 (hA : Agree m m' c) : Cert.KernelIdeal.Gen.W13 m ρ c (Proc.devRef .tc Cert.KernelIdeal.main_v143) = row (Cert.ReferenceIdeal.Line.U9 m' c (Proc.devRef .tc Cert.ReferenceIdeal.main_v145)) := by
  show StableHlo.after Cert.KernelIdeal.Gen.hostOps6 (Cert.KernelIdeal.Gen.W12 m ρ c) (Proc.devRef .tc Cert.KernelIdeal.main_v143) = row (StableHlo.after Cert.ReferenceIdeal.Line.seg8 (Cert.ReferenceIdeal.Line.U8 m' c) (Proc.devRef .tc Cert.ReferenceIdeal.main_v145))
  after_results_simp
  rw [((((show Cert.KernelIdeal.Gen.W12 m ρ c (Proc.devRef .tc Cert.KernelIdeal.main_arg5) = Cert.KernelIdeal.Gen.W11 m ρ c (Proc.devRef .tc Cert.KernelIdeal.main_arg5) from Cert.KernelIdeal.Gen.W12_of_ne m ρ c Cert.KernelIdeal.main_arg5 (by decide)).trans ((show Cert.KernelIdeal.Gen.W11 m ρ c (Proc.devRef .tc Cert.KernelIdeal.main_arg5) = Cert.KernelIdeal.Gen.W10 m ρ c (Proc.devRef .tc Cert.KernelIdeal.main_arg5) from Cert.KernelIdeal.Kept.host5 m ρ c Cert.KernelIdeal.main_arg5 (by decide)).trans ((show Cert.KernelIdeal.Gen.W10 m ρ c (Proc.devRef .tc Cert.KernelIdeal.main_arg5) = Cert.KernelIdeal.Gen.W9 m ρ c (Proc.devRef .tc Cert.KernelIdeal.main_arg5) from Cert.KernelIdeal.Gen.W10_of_ne m ρ c Cert.KernelIdeal.main_arg5 (by decide)).trans ((show Cert.KernelIdeal.Gen.W9 m ρ c (Proc.devRef .tc Cert.KernelIdeal.main_arg5) = Cert.KernelIdeal.Gen.W8 m ρ c (Proc.devRef .tc Cert.KernelIdeal.main_arg5) from Cert.KernelIdeal.Kept.host4 m ρ c Cert.KernelIdeal.main_arg5 (by decide)).trans ((show Cert.KernelIdeal.Gen.W8 m ρ c (Proc.devRef .tc Cert.KernelIdeal.main_arg5) = Cert.KernelIdeal.Gen.W7 m ρ c (Proc.devRef .tc Cert.KernelIdeal.main_arg5) from Cert.KernelIdeal.Gen.W8_of_ne m ρ c Cert.KernelIdeal.main_arg5 (by decide)).trans ((show Cert.KernelIdeal.Gen.W7 m ρ c (Proc.devRef .tc Cert.KernelIdeal.main_arg5) = Cert.KernelIdeal.Gen.W6 m ρ c (Proc.devRef .tc Cert.KernelIdeal.main_arg5) from Cert.KernelIdeal.Kept.host3 m ρ c Cert.KernelIdeal.main_arg5 (by decide)).trans ((show Cert.KernelIdeal.Gen.W6 m ρ c (Proc.devRef .tc Cert.KernelIdeal.main_arg5) = Cert.KernelIdeal.Gen.W5 m ρ c (Proc.devRef .tc Cert.KernelIdeal.main_arg5) from Cert.KernelIdeal.Gen.W6_of_ne m ρ c Cert.KernelIdeal.main_arg5 (by decide)).trans ((show Cert.KernelIdeal.Gen.W5 m ρ c (Proc.devRef .tc Cert.KernelIdeal.main_arg5) = Cert.KernelIdeal.Gen.W4 m ρ c (Proc.devRef .tc Cert.KernelIdeal.main_arg5) from Cert.KernelIdeal.Kept.host2 m ρ c Cert.KernelIdeal.main_arg5 (by decide)).trans ((show Cert.KernelIdeal.Gen.W4 m ρ c (Proc.devRef .tc Cert.KernelIdeal.main_arg5) = Cert.KernelIdeal.Gen.W3 m ρ c (Proc.devRef .tc Cert.KernelIdeal.main_arg5) from Cert.KernelIdeal.Gen.W4_of_ne m ρ c Cert.KernelIdeal.main_arg5 (by decide)).trans ((show Cert.KernelIdeal.Gen.W3 m ρ c (Proc.devRef .tc Cert.KernelIdeal.main_arg5) = Cert.KernelIdeal.Gen.W2 m ρ c (Proc.devRef .tc Cert.KernelIdeal.main_arg5) from Cert.KernelIdeal.Kept.host1 m ρ c Cert.KernelIdeal.main_arg5 (by decide)).trans ((show Cert.KernelIdeal.Gen.W2 m ρ c (Proc.devRef .tc Cert.KernelIdeal.main_arg5) = Cert.KernelIdeal.Gen.W1 m ρ c (Proc.devRef .tc Cert.KernelIdeal.main_arg5) from Cert.KernelIdeal.Gen.W2_of_ne m ρ c Cert.KernelIdeal.main_arg5 (by decide)).trans (show Cert.KernelIdeal.Gen.W1 m ρ c (Proc.devRef .tc Cert.KernelIdeal.main_arg5) = Cert.KernelIdeal.Gen.W0 m ρ c (Proc.devRef .tc Cert.KernelIdeal.main_arg5) from Cert.KernelIdeal.Kept.host0 m ρ c Cert.KernelIdeal.main_arg5 (by decide)))))))))))))).trans ((show Cert.KernelIdeal.Gen.W0 m ρ c (Proc.devRef .tc Cert.KernelIdeal.main_arg5) = Cert.ReferenceIdeal.Line.U0 m' c (Proc.devRef .tc Cert.ReferenceIdeal.main_arg5) from hA.a5.symm).trans (((show Cert.ReferenceIdeal.Line.U8 m' c (Proc.devRef .tc Cert.ReferenceIdeal.main_arg5) = Cert.ReferenceIdeal.Line.U7 m' c (Proc.devRef .tc Cert.ReferenceIdeal.main_arg5) from Cert.ReferenceIdeal.Kept.keep7 m' c Cert.ReferenceIdeal.main_arg5 (by decide)).trans ((show Cert.ReferenceIdeal.Line.U7 m' c (Proc.devRef .tc Cert.ReferenceIdeal.main_arg5) = Cert.ReferenceIdeal.Line.U6 m' c (Proc.devRef .tc Cert.ReferenceIdeal.main_arg5) from Cert.ReferenceIdeal.Kept.keep6 m' c Cert.ReferenceIdeal.main_arg5 (by decide)).trans ((show Cert.ReferenceIdeal.Line.U6 m' c (Proc.devRef .tc Cert.ReferenceIdeal.main_arg5) = Cert.ReferenceIdeal.Line.U5 m' c (Proc.devRef .tc Cert.ReferenceIdeal.main_arg5) from Cert.ReferenceIdeal.Kept.keep5 m' c Cert.ReferenceIdeal.main_arg5 (by decide)).trans ((show Cert.ReferenceIdeal.Line.U5 m' c (Proc.devRef .tc Cert.ReferenceIdeal.main_arg5) = Cert.ReferenceIdeal.Line.U4 m' c (Proc.devRef .tc Cert.ReferenceIdeal.main_arg5) from Cert.ReferenceIdeal.Kept.keep4 m' c Cert.ReferenceIdeal.main_arg5 (by decide)).trans ((show Cert.ReferenceIdeal.Line.U4 m' c (Proc.devRef .tc Cert.ReferenceIdeal.main_arg5) = Cert.ReferenceIdeal.Line.U3 m' c (Proc.devRef .tc Cert.ReferenceIdeal.main_arg5) from Cert.ReferenceIdeal.Kept.keep3 m' c Cert.ReferenceIdeal.main_arg5 (by decide)).trans ((show Cert.ReferenceIdeal.Line.U3 m' c (Proc.devRef .tc Cert.ReferenceIdeal.main_arg5) = Cert.ReferenceIdeal.Line.U2 m' c (Proc.devRef .tc Cert.ReferenceIdeal.main_arg5) from Cert.ReferenceIdeal.Kept.keep2 m' c Cert.ReferenceIdeal.main_arg5 (by decide)).trans ((show Cert.ReferenceIdeal.Line.U2 m' c (Proc.devRef .tc Cert.ReferenceIdeal.main_arg5) = Cert.ReferenceIdeal.Line.U1 m' c (Proc.devRef .tc Cert.ReferenceIdeal.main_arg5) from Cert.ReferenceIdeal.Kept.keep1 m' c Cert.ReferenceIdeal.main_arg5 (by decide)).trans (show Cert.ReferenceIdeal.Line.U1 m' c (Proc.devRef .tc Cert.ReferenceIdeal.main_arg5) = Cert.ReferenceIdeal.Line.U0 m' c (Proc.devRef .tc Cert.ReferenceIdeal.main_arg5) from Cert.ReferenceIdeal.Kept.keep0 m' c Cert.ReferenceIdeal.main_arg5 (by decide)))))))))).symm))]
  exact cast_row _ _

theorem s_g2 (hA : Agree m m' c) : Cert.KernelIdeal.Gen.W13 m ρ c (Proc.devRef .tc Cert.KernelIdeal.main_v146) = row (Cert.ReferenceIdeal.Line.U11 m' c (Proc.devRef .tc Cert.ReferenceIdeal.main_v183)) := by
  show StableHlo.after Cert.KernelIdeal.Gen.hostOps6 (Cert.KernelIdeal.Gen.W12 m ρ c) (Proc.devRef .tc Cert.KernelIdeal.main_v146) = row (StableHlo.after Cert.ReferenceIdeal.Line.seg10 (Cert.ReferenceIdeal.Line.U10 m' c) (Proc.devRef .tc Cert.ReferenceIdeal.main_v183))
  after_results_simp
  rw [((((show Cert.KernelIdeal.Gen.W12 m ρ c (Proc.devRef .tc Cert.KernelIdeal.main_arg10) = Cert.KernelIdeal.Gen.W11 m ρ c (Proc.devRef .tc Cert.KernelIdeal.main_arg10) from Cert.KernelIdeal.Gen.W12_of_ne m ρ c Cert.KernelIdeal.main_arg10 (by decide)).trans ((show Cert.KernelIdeal.Gen.W11 m ρ c (Proc.devRef .tc Cert.KernelIdeal.main_arg10) = Cert.KernelIdeal.Gen.W10 m ρ c (Proc.devRef .tc Cert.KernelIdeal.main_arg10) from Cert.KernelIdeal.Kept.host5 m ρ c Cert.KernelIdeal.main_arg10 (by decide)).trans ((show Cert.KernelIdeal.Gen.W10 m ρ c (Proc.devRef .tc Cert.KernelIdeal.main_arg10) = Cert.KernelIdeal.Gen.W9 m ρ c (Proc.devRef .tc Cert.KernelIdeal.main_arg10) from Cert.KernelIdeal.Gen.W10_of_ne m ρ c Cert.KernelIdeal.main_arg10 (by decide)).trans ((show Cert.KernelIdeal.Gen.W9 m ρ c (Proc.devRef .tc Cert.KernelIdeal.main_arg10) = Cert.KernelIdeal.Gen.W8 m ρ c (Proc.devRef .tc Cert.KernelIdeal.main_arg10) from Cert.KernelIdeal.Kept.host4 m ρ c Cert.KernelIdeal.main_arg10 (by decide)).trans ((show Cert.KernelIdeal.Gen.W8 m ρ c (Proc.devRef .tc Cert.KernelIdeal.main_arg10) = Cert.KernelIdeal.Gen.W7 m ρ c (Proc.devRef .tc Cert.KernelIdeal.main_arg10) from Cert.KernelIdeal.Gen.W8_of_ne m ρ c Cert.KernelIdeal.main_arg10 (by decide)).trans ((show Cert.KernelIdeal.Gen.W7 m ρ c (Proc.devRef .tc Cert.KernelIdeal.main_arg10) = Cert.KernelIdeal.Gen.W6 m ρ c (Proc.devRef .tc Cert.KernelIdeal.main_arg10) from Cert.KernelIdeal.Kept.host3 m ρ c Cert.KernelIdeal.main_arg10 (by decide)).trans ((show Cert.KernelIdeal.Gen.W6 m ρ c (Proc.devRef .tc Cert.KernelIdeal.main_arg10) = Cert.KernelIdeal.Gen.W5 m ρ c (Proc.devRef .tc Cert.KernelIdeal.main_arg10) from Cert.KernelIdeal.Gen.W6_of_ne m ρ c Cert.KernelIdeal.main_arg10 (by decide)).trans ((show Cert.KernelIdeal.Gen.W5 m ρ c (Proc.devRef .tc Cert.KernelIdeal.main_arg10) = Cert.KernelIdeal.Gen.W4 m ρ c (Proc.devRef .tc Cert.KernelIdeal.main_arg10) from Cert.KernelIdeal.Kept.host2 m ρ c Cert.KernelIdeal.main_arg10 (by decide)).trans ((show Cert.KernelIdeal.Gen.W4 m ρ c (Proc.devRef .tc Cert.KernelIdeal.main_arg10) = Cert.KernelIdeal.Gen.W3 m ρ c (Proc.devRef .tc Cert.KernelIdeal.main_arg10) from Cert.KernelIdeal.Gen.W4_of_ne m ρ c Cert.KernelIdeal.main_arg10 (by decide)).trans ((show Cert.KernelIdeal.Gen.W3 m ρ c (Proc.devRef .tc Cert.KernelIdeal.main_arg10) = Cert.KernelIdeal.Gen.W2 m ρ c (Proc.devRef .tc Cert.KernelIdeal.main_arg10) from Cert.KernelIdeal.Kept.host1 m ρ c Cert.KernelIdeal.main_arg10 (by decide)).trans ((show Cert.KernelIdeal.Gen.W2 m ρ c (Proc.devRef .tc Cert.KernelIdeal.main_arg10) = Cert.KernelIdeal.Gen.W1 m ρ c (Proc.devRef .tc Cert.KernelIdeal.main_arg10) from Cert.KernelIdeal.Gen.W2_of_ne m ρ c Cert.KernelIdeal.main_arg10 (by decide)).trans (show Cert.KernelIdeal.Gen.W1 m ρ c (Proc.devRef .tc Cert.KernelIdeal.main_arg10) = Cert.KernelIdeal.Gen.W0 m ρ c (Proc.devRef .tc Cert.KernelIdeal.main_arg10) from Cert.KernelIdeal.Kept.host0 m ρ c Cert.KernelIdeal.main_arg10 (by decide)))))))))))))).trans ((show Cert.KernelIdeal.Gen.W0 m ρ c (Proc.devRef .tc Cert.KernelIdeal.main_arg10) = Cert.ReferenceIdeal.Line.U0 m' c (Proc.devRef .tc Cert.ReferenceIdeal.main_arg10) from hA.a10.symm).trans (((show Cert.ReferenceIdeal.Line.U10 m' c (Proc.devRef .tc Cert.ReferenceIdeal.main_arg10) = Cert.ReferenceIdeal.Line.U9 m' c (Proc.devRef .tc Cert.ReferenceIdeal.main_arg10) from Cert.ReferenceIdeal.Kept.keep9 m' c Cert.ReferenceIdeal.main_arg10 (by decide)).trans ((show Cert.ReferenceIdeal.Line.U9 m' c (Proc.devRef .tc Cert.ReferenceIdeal.main_arg10) = Cert.ReferenceIdeal.Line.U8 m' c (Proc.devRef .tc Cert.ReferenceIdeal.main_arg10) from Cert.ReferenceIdeal.Kept.keep8 m' c Cert.ReferenceIdeal.main_arg10 (by decide)).trans ((show Cert.ReferenceIdeal.Line.U8 m' c (Proc.devRef .tc Cert.ReferenceIdeal.main_arg10) = Cert.ReferenceIdeal.Line.U7 m' c (Proc.devRef .tc Cert.ReferenceIdeal.main_arg10) from Cert.ReferenceIdeal.Kept.keep7 m' c Cert.ReferenceIdeal.main_arg10 (by decide)).trans ((show Cert.ReferenceIdeal.Line.U7 m' c (Proc.devRef .tc Cert.ReferenceIdeal.main_arg10) = Cert.ReferenceIdeal.Line.U6 m' c (Proc.devRef .tc Cert.ReferenceIdeal.main_arg10) from Cert.ReferenceIdeal.Kept.keep6 m' c Cert.ReferenceIdeal.main_arg10 (by decide)).trans ((show Cert.ReferenceIdeal.Line.U6 m' c (Proc.devRef .tc Cert.ReferenceIdeal.main_arg10) = Cert.ReferenceIdeal.Line.U5 m' c (Proc.devRef .tc Cert.ReferenceIdeal.main_arg10) from Cert.ReferenceIdeal.Kept.keep5 m' c Cert.ReferenceIdeal.main_arg10 (by decide)).trans ((show Cert.ReferenceIdeal.Line.U5 m' c (Proc.devRef .tc Cert.ReferenceIdeal.main_arg10) = Cert.ReferenceIdeal.Line.U4 m' c (Proc.devRef .tc Cert.ReferenceIdeal.main_arg10) from Cert.ReferenceIdeal.Kept.keep4 m' c Cert.ReferenceIdeal.main_arg10 (by decide)).trans ((show Cert.ReferenceIdeal.Line.U4 m' c (Proc.devRef .tc Cert.ReferenceIdeal.main_arg10) = Cert.ReferenceIdeal.Line.U3 m' c (Proc.devRef .tc Cert.ReferenceIdeal.main_arg10) from Cert.ReferenceIdeal.Kept.keep3 m' c Cert.ReferenceIdeal.main_arg10 (by decide)).trans ((show Cert.ReferenceIdeal.Line.U3 m' c (Proc.devRef .tc Cert.ReferenceIdeal.main_arg10) = Cert.ReferenceIdeal.Line.U2 m' c (Proc.devRef .tc Cert.ReferenceIdeal.main_arg10) from Cert.ReferenceIdeal.Kept.keep2 m' c Cert.ReferenceIdeal.main_arg10 (by decide)).trans ((show Cert.ReferenceIdeal.Line.U2 m' c (Proc.devRef .tc Cert.ReferenceIdeal.main_arg10) = Cert.ReferenceIdeal.Line.U1 m' c (Proc.devRef .tc Cert.ReferenceIdeal.main_arg10) from Cert.ReferenceIdeal.Kept.keep1 m' c Cert.ReferenceIdeal.main_arg10 (by decide)).trans (show Cert.ReferenceIdeal.Line.U1 m' c (Proc.devRef .tc Cert.ReferenceIdeal.main_arg10) = Cert.ReferenceIdeal.Line.U0 m' c (Proc.devRef .tc Cert.ReferenceIdeal.main_arg10) from Cert.ReferenceIdeal.Kept.keep0 m' c Cert.ReferenceIdeal.main_arg10 (by decide)))))))))))).symm))]
  exact cast_row _ _

theorem s_be2 (hA : Agree m m' c) : Cert.KernelIdeal.Gen.W13 m ρ c (Proc.devRef .tc Cert.KernelIdeal.main_v149) = row (Cert.ReferenceIdeal.Line.U11 m' c (Proc.devRef .tc Cert.ReferenceIdeal.main_v185)) := by
  show StableHlo.after Cert.KernelIdeal.Gen.hostOps6 (Cert.KernelIdeal.Gen.W12 m ρ c) (Proc.devRef .tc Cert.KernelIdeal.main_v149) = row (StableHlo.after Cert.ReferenceIdeal.Line.seg10 (Cert.ReferenceIdeal.Line.U10 m' c) (Proc.devRef .tc Cert.ReferenceIdeal.main_v185))
  after_results_simp
  rw [((((show Cert.KernelIdeal.Gen.W12 m ρ c (Proc.devRef .tc Cert.KernelIdeal.main_arg11) = Cert.KernelIdeal.Gen.W11 m ρ c (Proc.devRef .tc Cert.KernelIdeal.main_arg11) from Cert.KernelIdeal.Gen.W12_of_ne m ρ c Cert.KernelIdeal.main_arg11 (by decide)).trans ((show Cert.KernelIdeal.Gen.W11 m ρ c (Proc.devRef .tc Cert.KernelIdeal.main_arg11) = Cert.KernelIdeal.Gen.W10 m ρ c (Proc.devRef .tc Cert.KernelIdeal.main_arg11) from Cert.KernelIdeal.Kept.host5 m ρ c Cert.KernelIdeal.main_arg11 (by decide)).trans ((show Cert.KernelIdeal.Gen.W10 m ρ c (Proc.devRef .tc Cert.KernelIdeal.main_arg11) = Cert.KernelIdeal.Gen.W9 m ρ c (Proc.devRef .tc Cert.KernelIdeal.main_arg11) from Cert.KernelIdeal.Gen.W10_of_ne m ρ c Cert.KernelIdeal.main_arg11 (by decide)).trans ((show Cert.KernelIdeal.Gen.W9 m ρ c (Proc.devRef .tc Cert.KernelIdeal.main_arg11) = Cert.KernelIdeal.Gen.W8 m ρ c (Proc.devRef .tc Cert.KernelIdeal.main_arg11) from Cert.KernelIdeal.Kept.host4 m ρ c Cert.KernelIdeal.main_arg11 (by decide)).trans ((show Cert.KernelIdeal.Gen.W8 m ρ c (Proc.devRef .tc Cert.KernelIdeal.main_arg11) = Cert.KernelIdeal.Gen.W7 m ρ c (Proc.devRef .tc Cert.KernelIdeal.main_arg11) from Cert.KernelIdeal.Gen.W8_of_ne m ρ c Cert.KernelIdeal.main_arg11 (by decide)).trans ((show Cert.KernelIdeal.Gen.W7 m ρ c (Proc.devRef .tc Cert.KernelIdeal.main_arg11) = Cert.KernelIdeal.Gen.W6 m ρ c (Proc.devRef .tc Cert.KernelIdeal.main_arg11) from Cert.KernelIdeal.Kept.host3 m ρ c Cert.KernelIdeal.main_arg11 (by decide)).trans ((show Cert.KernelIdeal.Gen.W6 m ρ c (Proc.devRef .tc Cert.KernelIdeal.main_arg11) = Cert.KernelIdeal.Gen.W5 m ρ c (Proc.devRef .tc Cert.KernelIdeal.main_arg11) from Cert.KernelIdeal.Gen.W6_of_ne m ρ c Cert.KernelIdeal.main_arg11 (by decide)).trans ((show Cert.KernelIdeal.Gen.W5 m ρ c (Proc.devRef .tc Cert.KernelIdeal.main_arg11) = Cert.KernelIdeal.Gen.W4 m ρ c (Proc.devRef .tc Cert.KernelIdeal.main_arg11) from Cert.KernelIdeal.Kept.host2 m ρ c Cert.KernelIdeal.main_arg11 (by decide)).trans ((show Cert.KernelIdeal.Gen.W4 m ρ c (Proc.devRef .tc Cert.KernelIdeal.main_arg11) = Cert.KernelIdeal.Gen.W3 m ρ c (Proc.devRef .tc Cert.KernelIdeal.main_arg11) from Cert.KernelIdeal.Gen.W4_of_ne m ρ c Cert.KernelIdeal.main_arg11 (by decide)).trans ((show Cert.KernelIdeal.Gen.W3 m ρ c (Proc.devRef .tc Cert.KernelIdeal.main_arg11) = Cert.KernelIdeal.Gen.W2 m ρ c (Proc.devRef .tc Cert.KernelIdeal.main_arg11) from Cert.KernelIdeal.Kept.host1 m ρ c Cert.KernelIdeal.main_arg11 (by decide)).trans ((show Cert.KernelIdeal.Gen.W2 m ρ c (Proc.devRef .tc Cert.KernelIdeal.main_arg11) = Cert.KernelIdeal.Gen.W1 m ρ c (Proc.devRef .tc Cert.KernelIdeal.main_arg11) from Cert.KernelIdeal.Gen.W2_of_ne m ρ c Cert.KernelIdeal.main_arg11 (by decide)).trans (show Cert.KernelIdeal.Gen.W1 m ρ c (Proc.devRef .tc Cert.KernelIdeal.main_arg11) = Cert.KernelIdeal.Gen.W0 m ρ c (Proc.devRef .tc Cert.KernelIdeal.main_arg11) from Cert.KernelIdeal.Kept.host0 m ρ c Cert.KernelIdeal.main_arg11 (by decide)))))))))))))).trans ((show Cert.KernelIdeal.Gen.W0 m ρ c (Proc.devRef .tc Cert.KernelIdeal.main_arg11) = Cert.ReferenceIdeal.Line.U0 m' c (Proc.devRef .tc Cert.ReferenceIdeal.main_arg11) from hA.a11.symm).trans (((show Cert.ReferenceIdeal.Line.U10 m' c (Proc.devRef .tc Cert.ReferenceIdeal.main_arg11) = Cert.ReferenceIdeal.Line.U9 m' c (Proc.devRef .tc Cert.ReferenceIdeal.main_arg11) from Cert.ReferenceIdeal.Kept.keep9 m' c Cert.ReferenceIdeal.main_arg11 (by decide)).trans ((show Cert.ReferenceIdeal.Line.U9 m' c (Proc.devRef .tc Cert.ReferenceIdeal.main_arg11) = Cert.ReferenceIdeal.Line.U8 m' c (Proc.devRef .tc Cert.ReferenceIdeal.main_arg11) from Cert.ReferenceIdeal.Kept.keep8 m' c Cert.ReferenceIdeal.main_arg11 (by decide)).trans ((show Cert.ReferenceIdeal.Line.U8 m' c (Proc.devRef .tc Cert.ReferenceIdeal.main_arg11) = Cert.ReferenceIdeal.Line.U7 m' c (Proc.devRef .tc Cert.ReferenceIdeal.main_arg11) from Cert.ReferenceIdeal.Kept.keep7 m' c Cert.ReferenceIdeal.main_arg11 (by decide)).trans ((show Cert.ReferenceIdeal.Line.U7 m' c (Proc.devRef .tc Cert.ReferenceIdeal.main_arg11) = Cert.ReferenceIdeal.Line.U6 m' c (Proc.devRef .tc Cert.ReferenceIdeal.main_arg11) from Cert.ReferenceIdeal.Kept.keep6 m' c Cert.ReferenceIdeal.main_arg11 (by decide)).trans ((show Cert.ReferenceIdeal.Line.U6 m' c (Proc.devRef .tc Cert.ReferenceIdeal.main_arg11) = Cert.ReferenceIdeal.Line.U5 m' c (Proc.devRef .tc Cert.ReferenceIdeal.main_arg11) from Cert.ReferenceIdeal.Kept.keep5 m' c Cert.ReferenceIdeal.main_arg11 (by decide)).trans ((show Cert.ReferenceIdeal.Line.U5 m' c (Proc.devRef .tc Cert.ReferenceIdeal.main_arg11) = Cert.ReferenceIdeal.Line.U4 m' c (Proc.devRef .tc Cert.ReferenceIdeal.main_arg11) from Cert.ReferenceIdeal.Kept.keep4 m' c Cert.ReferenceIdeal.main_arg11 (by decide)).trans ((show Cert.ReferenceIdeal.Line.U4 m' c (Proc.devRef .tc Cert.ReferenceIdeal.main_arg11) = Cert.ReferenceIdeal.Line.U3 m' c (Proc.devRef .tc Cert.ReferenceIdeal.main_arg11) from Cert.ReferenceIdeal.Kept.keep3 m' c Cert.ReferenceIdeal.main_arg11 (by decide)).trans ((show Cert.ReferenceIdeal.Line.U3 m' c (Proc.devRef .tc Cert.ReferenceIdeal.main_arg11) = Cert.ReferenceIdeal.Line.U2 m' c (Proc.devRef .tc Cert.ReferenceIdeal.main_arg11) from Cert.ReferenceIdeal.Kept.keep2 m' c Cert.ReferenceIdeal.main_arg11 (by decide)).trans ((show Cert.ReferenceIdeal.Line.U2 m' c (Proc.devRef .tc Cert.ReferenceIdeal.main_arg11) = Cert.ReferenceIdeal.Line.U1 m' c (Proc.devRef .tc Cert.ReferenceIdeal.main_arg11) from Cert.ReferenceIdeal.Kept.keep1 m' c Cert.ReferenceIdeal.main_arg11 (by decide)).trans (show Cert.ReferenceIdeal.Line.U1 m' c (Proc.devRef .tc Cert.ReferenceIdeal.main_arg11) = Cert.ReferenceIdeal.Line.U0 m' c (Proc.devRef .tc Cert.ReferenceIdeal.main_arg11) from Cert.ReferenceIdeal.Kept.keep0 m' c Cert.ReferenceIdeal.main_arg11 (by decide)))))))))))).symm))]
  exact cast_row _ _

theorem s_mu2 (hA : Agree m m' c) : Cert.KernelIdeal.Gen.W13 m ρ c (Proc.devRef .tc Cert.KernelIdeal.main_v152) = row (Cert.ReferenceIdeal.Line.U11 m' c (Proc.devRef .tc Cert.ReferenceIdeal.main_v187)) := by
  show StableHlo.after Cert.KernelIdeal.Gen.hostOps6 (Cert.KernelIdeal.Gen.W12 m ρ c) (Proc.devRef .tc Cert.KernelIdeal.main_v152) = row (StableHlo.after Cert.ReferenceIdeal.Line.seg10 (Cert.ReferenceIdeal.Line.U10 m' c) (Proc.devRef .tc Cert.ReferenceIdeal.main_v187))
  after_results_simp
  rw [((((show Cert.KernelIdeal.Gen.W12 m ρ c (Proc.devRef .tc Cert.KernelIdeal.main_arg12) = Cert.KernelIdeal.Gen.W11 m ρ c (Proc.devRef .tc Cert.KernelIdeal.main_arg12) from Cert.KernelIdeal.Gen.W12_of_ne m ρ c Cert.KernelIdeal.main_arg12 (by decide)).trans ((show Cert.KernelIdeal.Gen.W11 m ρ c (Proc.devRef .tc Cert.KernelIdeal.main_arg12) = Cert.KernelIdeal.Gen.W10 m ρ c (Proc.devRef .tc Cert.KernelIdeal.main_arg12) from Cert.KernelIdeal.Kept.host5 m ρ c Cert.KernelIdeal.main_arg12 (by decide)).trans ((show Cert.KernelIdeal.Gen.W10 m ρ c (Proc.devRef .tc Cert.KernelIdeal.main_arg12) = Cert.KernelIdeal.Gen.W9 m ρ c (Proc.devRef .tc Cert.KernelIdeal.main_arg12) from Cert.KernelIdeal.Gen.W10_of_ne m ρ c Cert.KernelIdeal.main_arg12 (by decide)).trans ((show Cert.KernelIdeal.Gen.W9 m ρ c (Proc.devRef .tc Cert.KernelIdeal.main_arg12) = Cert.KernelIdeal.Gen.W8 m ρ c (Proc.devRef .tc Cert.KernelIdeal.main_arg12) from Cert.KernelIdeal.Kept.host4 m ρ c Cert.KernelIdeal.main_arg12 (by decide)).trans ((show Cert.KernelIdeal.Gen.W8 m ρ c (Proc.devRef .tc Cert.KernelIdeal.main_arg12) = Cert.KernelIdeal.Gen.W7 m ρ c (Proc.devRef .tc Cert.KernelIdeal.main_arg12) from Cert.KernelIdeal.Gen.W8_of_ne m ρ c Cert.KernelIdeal.main_arg12 (by decide)).trans ((show Cert.KernelIdeal.Gen.W7 m ρ c (Proc.devRef .tc Cert.KernelIdeal.main_arg12) = Cert.KernelIdeal.Gen.W6 m ρ c (Proc.devRef .tc Cert.KernelIdeal.main_arg12) from Cert.KernelIdeal.Kept.host3 m ρ c Cert.KernelIdeal.main_arg12 (by decide)).trans ((show Cert.KernelIdeal.Gen.W6 m ρ c (Proc.devRef .tc Cert.KernelIdeal.main_arg12) = Cert.KernelIdeal.Gen.W5 m ρ c (Proc.devRef .tc Cert.KernelIdeal.main_arg12) from Cert.KernelIdeal.Gen.W6_of_ne m ρ c Cert.KernelIdeal.main_arg12 (by decide)).trans ((show Cert.KernelIdeal.Gen.W5 m ρ c (Proc.devRef .tc Cert.KernelIdeal.main_arg12) = Cert.KernelIdeal.Gen.W4 m ρ c (Proc.devRef .tc Cert.KernelIdeal.main_arg12) from Cert.KernelIdeal.Kept.host2 m ρ c Cert.KernelIdeal.main_arg12 (by decide)).trans ((show Cert.KernelIdeal.Gen.W4 m ρ c (Proc.devRef .tc Cert.KernelIdeal.main_arg12) = Cert.KernelIdeal.Gen.W3 m ρ c (Proc.devRef .tc Cert.KernelIdeal.main_arg12) from Cert.KernelIdeal.Gen.W4_of_ne m ρ c Cert.KernelIdeal.main_arg12 (by decide)).trans ((show Cert.KernelIdeal.Gen.W3 m ρ c (Proc.devRef .tc Cert.KernelIdeal.main_arg12) = Cert.KernelIdeal.Gen.W2 m ρ c (Proc.devRef .tc Cert.KernelIdeal.main_arg12) from Cert.KernelIdeal.Kept.host1 m ρ c Cert.KernelIdeal.main_arg12 (by decide)).trans ((show Cert.KernelIdeal.Gen.W2 m ρ c (Proc.devRef .tc Cert.KernelIdeal.main_arg12) = Cert.KernelIdeal.Gen.W1 m ρ c (Proc.devRef .tc Cert.KernelIdeal.main_arg12) from Cert.KernelIdeal.Gen.W2_of_ne m ρ c Cert.KernelIdeal.main_arg12 (by decide)).trans (show Cert.KernelIdeal.Gen.W1 m ρ c (Proc.devRef .tc Cert.KernelIdeal.main_arg12) = Cert.KernelIdeal.Gen.W0 m ρ c (Proc.devRef .tc Cert.KernelIdeal.main_arg12) from Cert.KernelIdeal.Kept.host0 m ρ c Cert.KernelIdeal.main_arg12 (by decide)))))))))))))).trans ((show Cert.KernelIdeal.Gen.W0 m ρ c (Proc.devRef .tc Cert.KernelIdeal.main_arg12) = Cert.ReferenceIdeal.Line.U0 m' c (Proc.devRef .tc Cert.ReferenceIdeal.main_arg12) from hA.a12.symm).trans (((show Cert.ReferenceIdeal.Line.U10 m' c (Proc.devRef .tc Cert.ReferenceIdeal.main_arg12) = Cert.ReferenceIdeal.Line.U9 m' c (Proc.devRef .tc Cert.ReferenceIdeal.main_arg12) from Cert.ReferenceIdeal.Kept.keep9 m' c Cert.ReferenceIdeal.main_arg12 (by decide)).trans ((show Cert.ReferenceIdeal.Line.U9 m' c (Proc.devRef .tc Cert.ReferenceIdeal.main_arg12) = Cert.ReferenceIdeal.Line.U8 m' c (Proc.devRef .tc Cert.ReferenceIdeal.main_arg12) from Cert.ReferenceIdeal.Kept.keep8 m' c Cert.ReferenceIdeal.main_arg12 (by decide)).trans ((show Cert.ReferenceIdeal.Line.U8 m' c (Proc.devRef .tc Cert.ReferenceIdeal.main_arg12) = Cert.ReferenceIdeal.Line.U7 m' c (Proc.devRef .tc Cert.ReferenceIdeal.main_arg12) from Cert.ReferenceIdeal.Kept.keep7 m' c Cert.ReferenceIdeal.main_arg12 (by decide)).trans ((show Cert.ReferenceIdeal.Line.U7 m' c (Proc.devRef .tc Cert.ReferenceIdeal.main_arg12) = Cert.ReferenceIdeal.Line.U6 m' c (Proc.devRef .tc Cert.ReferenceIdeal.main_arg12) from Cert.ReferenceIdeal.Kept.keep6 m' c Cert.ReferenceIdeal.main_arg12 (by decide)).trans ((show Cert.ReferenceIdeal.Line.U6 m' c (Proc.devRef .tc Cert.ReferenceIdeal.main_arg12) = Cert.ReferenceIdeal.Line.U5 m' c (Proc.devRef .tc Cert.ReferenceIdeal.main_arg12) from Cert.ReferenceIdeal.Kept.keep5 m' c Cert.ReferenceIdeal.main_arg12 (by decide)).trans ((show Cert.ReferenceIdeal.Line.U5 m' c (Proc.devRef .tc Cert.ReferenceIdeal.main_arg12) = Cert.ReferenceIdeal.Line.U4 m' c (Proc.devRef .tc Cert.ReferenceIdeal.main_arg12) from Cert.ReferenceIdeal.Kept.keep4 m' c Cert.ReferenceIdeal.main_arg12 (by decide)).trans ((show Cert.ReferenceIdeal.Line.U4 m' c (Proc.devRef .tc Cert.ReferenceIdeal.main_arg12) = Cert.ReferenceIdeal.Line.U3 m' c (Proc.devRef .tc Cert.ReferenceIdeal.main_arg12) from Cert.ReferenceIdeal.Kept.keep3 m' c Cert.ReferenceIdeal.main_arg12 (by decide)).trans ((show Cert.ReferenceIdeal.Line.U3 m' c (Proc.devRef .tc Cert.ReferenceIdeal.main_arg12) = Cert.ReferenceIdeal.Line.U2 m' c (Proc.devRef .tc Cert.ReferenceIdeal.main_arg12) from Cert.ReferenceIdeal.Kept.keep2 m' c Cert.ReferenceIdeal.main_arg12 (by decide)).trans ((show Cert.ReferenceIdeal.Line.U2 m' c (Proc.devRef .tc Cert.ReferenceIdeal.main_arg12) = Cert.ReferenceIdeal.Line.U1 m' c (Proc.devRef .tc Cert.ReferenceIdeal.main_arg12) from Cert.ReferenceIdeal.Kept.keep1 m' c Cert.ReferenceIdeal.main_arg12 (by decide)).trans (show Cert.ReferenceIdeal.Line.U1 m' c (Proc.devRef .tc Cert.ReferenceIdeal.main_arg12) = Cert.ReferenceIdeal.Line.U0 m' c (Proc.devRef .tc Cert.ReferenceIdeal.main_arg12) from Cert.ReferenceIdeal.Kept.keep0 m' c Cert.ReferenceIdeal.main_arg12 (by decide)))))))))))).symm))]
  exact cast_row _ _

theorem s_var2 (hA : Agree m m' c) : Cert.KernelIdeal.Gen.W13 m ρ c (Proc.devRef .tc Cert.KernelIdeal.main_v155) = row (Cert.ReferenceIdeal.Line.U11 m' c (Proc.devRef .tc Cert.ReferenceIdeal.main_v189)) := by
  show StableHlo.after Cert.KernelIdeal.Gen.hostOps6 (Cert.KernelIdeal.Gen.W12 m ρ c) (Proc.devRef .tc Cert.KernelIdeal.main_v155) = row (StableHlo.after Cert.ReferenceIdeal.Line.seg10 (Cert.ReferenceIdeal.Line.U10 m' c) (Proc.devRef .tc Cert.ReferenceIdeal.main_v189))
  after_results_simp
  rw [((((show Cert.KernelIdeal.Gen.W12 m ρ c (Proc.devRef .tc Cert.KernelIdeal.main_arg13) = Cert.KernelIdeal.Gen.W11 m ρ c (Proc.devRef .tc Cert.KernelIdeal.main_arg13) from Cert.KernelIdeal.Gen.W12_of_ne m ρ c Cert.KernelIdeal.main_arg13 (by decide)).trans ((show Cert.KernelIdeal.Gen.W11 m ρ c (Proc.devRef .tc Cert.KernelIdeal.main_arg13) = Cert.KernelIdeal.Gen.W10 m ρ c (Proc.devRef .tc Cert.KernelIdeal.main_arg13) from Cert.KernelIdeal.Kept.host5 m ρ c Cert.KernelIdeal.main_arg13 (by decide)).trans ((show Cert.KernelIdeal.Gen.W10 m ρ c (Proc.devRef .tc Cert.KernelIdeal.main_arg13) = Cert.KernelIdeal.Gen.W9 m ρ c (Proc.devRef .tc Cert.KernelIdeal.main_arg13) from Cert.KernelIdeal.Gen.W10_of_ne m ρ c Cert.KernelIdeal.main_arg13 (by decide)).trans ((show Cert.KernelIdeal.Gen.W9 m ρ c (Proc.devRef .tc Cert.KernelIdeal.main_arg13) = Cert.KernelIdeal.Gen.W8 m ρ c (Proc.devRef .tc Cert.KernelIdeal.main_arg13) from Cert.KernelIdeal.Kept.host4 m ρ c Cert.KernelIdeal.main_arg13 (by decide)).trans ((show Cert.KernelIdeal.Gen.W8 m ρ c (Proc.devRef .tc Cert.KernelIdeal.main_arg13) = Cert.KernelIdeal.Gen.W7 m ρ c (Proc.devRef .tc Cert.KernelIdeal.main_arg13) from Cert.KernelIdeal.Gen.W8_of_ne m ρ c Cert.KernelIdeal.main_arg13 (by decide)).trans ((show Cert.KernelIdeal.Gen.W7 m ρ c (Proc.devRef .tc Cert.KernelIdeal.main_arg13) = Cert.KernelIdeal.Gen.W6 m ρ c (Proc.devRef .tc Cert.KernelIdeal.main_arg13) from Cert.KernelIdeal.Kept.host3 m ρ c Cert.KernelIdeal.main_arg13 (by decide)).trans ((show Cert.KernelIdeal.Gen.W6 m ρ c (Proc.devRef .tc Cert.KernelIdeal.main_arg13) = Cert.KernelIdeal.Gen.W5 m ρ c (Proc.devRef .tc Cert.KernelIdeal.main_arg13) from Cert.KernelIdeal.Gen.W6_of_ne m ρ c Cert.KernelIdeal.main_arg13 (by decide)).trans ((show Cert.KernelIdeal.Gen.W5 m ρ c (Proc.devRef .tc Cert.KernelIdeal.main_arg13) = Cert.KernelIdeal.Gen.W4 m ρ c (Proc.devRef .tc Cert.KernelIdeal.main_arg13) from Cert.KernelIdeal.Kept.host2 m ρ c Cert.KernelIdeal.main_arg13 (by decide)).trans ((show Cert.KernelIdeal.Gen.W4 m ρ c (Proc.devRef .tc Cert.KernelIdeal.main_arg13) = Cert.KernelIdeal.Gen.W3 m ρ c (Proc.devRef .tc Cert.KernelIdeal.main_arg13) from Cert.KernelIdeal.Gen.W4_of_ne m ρ c Cert.KernelIdeal.main_arg13 (by decide)).trans ((show Cert.KernelIdeal.Gen.W3 m ρ c (Proc.devRef .tc Cert.KernelIdeal.main_arg13) = Cert.KernelIdeal.Gen.W2 m ρ c (Proc.devRef .tc Cert.KernelIdeal.main_arg13) from Cert.KernelIdeal.Kept.host1 m ρ c Cert.KernelIdeal.main_arg13 (by decide)).trans ((show Cert.KernelIdeal.Gen.W2 m ρ c (Proc.devRef .tc Cert.KernelIdeal.main_arg13) = Cert.KernelIdeal.Gen.W1 m ρ c (Proc.devRef .tc Cert.KernelIdeal.main_arg13) from Cert.KernelIdeal.Gen.W2_of_ne m ρ c Cert.KernelIdeal.main_arg13 (by decide)).trans (show Cert.KernelIdeal.Gen.W1 m ρ c (Proc.devRef .tc Cert.KernelIdeal.main_arg13) = Cert.KernelIdeal.Gen.W0 m ρ c (Proc.devRef .tc Cert.KernelIdeal.main_arg13) from Cert.KernelIdeal.Kept.host0 m ρ c Cert.KernelIdeal.main_arg13 (by decide)))))))))))))).trans ((show Cert.KernelIdeal.Gen.W0 m ρ c (Proc.devRef .tc Cert.KernelIdeal.main_arg13) = Cert.ReferenceIdeal.Line.U0 m' c (Proc.devRef .tc Cert.ReferenceIdeal.main_arg13) from hA.a13.symm).trans (((show Cert.ReferenceIdeal.Line.U10 m' c (Proc.devRef .tc Cert.ReferenceIdeal.main_arg13) = Cert.ReferenceIdeal.Line.U9 m' c (Proc.devRef .tc Cert.ReferenceIdeal.main_arg13) from Cert.ReferenceIdeal.Kept.keep9 m' c Cert.ReferenceIdeal.main_arg13 (by decide)).trans ((show Cert.ReferenceIdeal.Line.U9 m' c (Proc.devRef .tc Cert.ReferenceIdeal.main_arg13) = Cert.ReferenceIdeal.Line.U8 m' c (Proc.devRef .tc Cert.ReferenceIdeal.main_arg13) from Cert.ReferenceIdeal.Kept.keep8 m' c Cert.ReferenceIdeal.main_arg13 (by decide)).trans ((show Cert.ReferenceIdeal.Line.U8 m' c (Proc.devRef .tc Cert.ReferenceIdeal.main_arg13) = Cert.ReferenceIdeal.Line.U7 m' c (Proc.devRef .tc Cert.ReferenceIdeal.main_arg13) from Cert.ReferenceIdeal.Kept.keep7 m' c Cert.ReferenceIdeal.main_arg13 (by decide)).trans ((show Cert.ReferenceIdeal.Line.U7 m' c (Proc.devRef .tc Cert.ReferenceIdeal.main_arg13) = Cert.ReferenceIdeal.Line.U6 m' c (Proc.devRef .tc Cert.ReferenceIdeal.main_arg13) from Cert.ReferenceIdeal.Kept.keep6 m' c Cert.ReferenceIdeal.main_arg13 (by decide)).trans ((show Cert.ReferenceIdeal.Line.U6 m' c (Proc.devRef .tc Cert.ReferenceIdeal.main_arg13) = Cert.ReferenceIdeal.Line.U5 m' c (Proc.devRef .tc Cert.ReferenceIdeal.main_arg13) from Cert.ReferenceIdeal.Kept.keep5 m' c Cert.ReferenceIdeal.main_arg13 (by decide)).trans ((show Cert.ReferenceIdeal.Line.U5 m' c (Proc.devRef .tc Cert.ReferenceIdeal.main_arg13) = Cert.ReferenceIdeal.Line.U4 m' c (Proc.devRef .tc Cert.ReferenceIdeal.main_arg13) from Cert.ReferenceIdeal.Kept.keep4 m' c Cert.ReferenceIdeal.main_arg13 (by decide)).trans ((show Cert.ReferenceIdeal.Line.U4 m' c (Proc.devRef .tc Cert.ReferenceIdeal.main_arg13) = Cert.ReferenceIdeal.Line.U3 m' c (Proc.devRef .tc Cert.ReferenceIdeal.main_arg13) from Cert.ReferenceIdeal.Kept.keep3 m' c Cert.ReferenceIdeal.main_arg13 (by decide)).trans ((show Cert.ReferenceIdeal.Line.U3 m' c (Proc.devRef .tc Cert.ReferenceIdeal.main_arg13) = Cert.ReferenceIdeal.Line.U2 m' c (Proc.devRef .tc Cert.ReferenceIdeal.main_arg13) from Cert.ReferenceIdeal.Kept.keep2 m' c Cert.ReferenceIdeal.main_arg13 (by decide)).trans ((show Cert.ReferenceIdeal.Line.U2 m' c (Proc.devRef .tc Cert.ReferenceIdeal.main_arg13) = Cert.ReferenceIdeal.Line.U1 m' c (Proc.devRef .tc Cert.ReferenceIdeal.main_arg13) from Cert.ReferenceIdeal.Kept.keep1 m' c Cert.ReferenceIdeal.main_arg13 (by decide)).trans (show Cert.ReferenceIdeal.Line.U1 m' c (Proc.devRef .tc Cert.ReferenceIdeal.main_arg13) = Cert.ReferenceIdeal.Line.U0 m' c (Proc.devRef .tc Cert.ReferenceIdeal.main_arg13) from Cert.ReferenceIdeal.Kept.keep0 m' c Cert.ReferenceIdeal.main_arg13 (by decide)))))))))))).symm))]
  exact cast_row _ _

theorem k_c2 : Cert.KernelIdeal.Gen.W14 m ρ c (Proc.devRef .tc Cert.KernelIdeal.main_v156) = combine (Cert.KernelIdeal.Gen.W13 m ρ c (Proc.devRef .tc Cert.KernelIdeal.main_v140)) (Cert.KernelIdeal.Gen.W13 m ρ c (Proc.devRef .tc Cert.KernelIdeal.main_v112)) (Cert.KernelIdeal.Gen.W13 m ρ c (Proc.devRef .tc Cert.KernelIdeal.main_v13)) (Cert.KernelIdeal.Gen.W13 m ρ c (Proc.devRef .tc Cert.KernelIdeal.main_v143)) (Cert.KernelIdeal.Gen.W13 m ρ c (Proc.devRef .tc Cert.KernelIdeal.main_v146)) (Cert.KernelIdeal.Gen.W13 m ρ c (Proc.devRef .tc Cert.KernelIdeal.main_v149)) (Cert.KernelIdeal.Gen.W13 m ρ c (Proc.devRef .tc Cert.KernelIdeal.main_v152)) (Cert.KernelIdeal.Gen.W13 m ρ c (Proc.devRef .tc Cert.KernelIdeal.main_v155)) :=
  (Cert.KernelIdeal.Gen.W14_arr m ρ c 8).trans ((Cert.KernelIdeal.Regions.final6 (Cert.KernelIdeal.Gen.V13 m ρ) c).trans rfl)

theorem r_c2 : Cert.ReferenceIdeal.Line.U11 m' c (Proc.devRef .tc Cert.ReferenceIdeal.main_v203) = combine (Cert.ReferenceIdeal.Line.U10 m' c (Proc.devRef .tc Cert.ReferenceIdeal.main_v174)) (Cert.ReferenceIdeal.Line.U10 m' c (Proc.devRef .tc Cert.ReferenceIdeal.main_v146)) (col (Cert.ReferenceIdeal.Line.U10 m' c (Proc.devRef .tc Cert.ReferenceIdeal.main_v12))) (row (Cert.ReferenceIdeal.Line.U10 m' c (Proc.devRef .tc Cert.ReferenceIdeal.main_v145))) (row (Cert.ReferenceIdeal.Line.U11 m' c (Proc.devRef .tc Cert.ReferenceIdeal.main_v183))) (row (Cert.ReferenceIdeal.Line.U11 m' c (Proc.devRef .tc Cert.ReferenceIdeal.main_v185))) (row (Cert.ReferenceIdeal.Line.U11 m' c (Proc.devRef .tc Cert.ReferenceIdeal.main_v187))) (row (Cert.ReferenceIdeal.Line.U11 m' c (Proc.devRef .tc Cert.ReferenceIdeal.main_v189))) := by
  show StableHlo.after Cert.ReferenceIdeal.Line.seg10 (Cert.ReferenceIdeal.Line.U10 m' c) (Proc.devRef .tc Cert.ReferenceIdeal.main_v203) = combine (Cert.ReferenceIdeal.Line.U10 m' c (Proc.devRef .tc Cert.ReferenceIdeal.main_v174)) (Cert.ReferenceIdeal.Line.U10 m' c (Proc.devRef .tc Cert.ReferenceIdeal.main_v146)) (col (Cert.ReferenceIdeal.Line.U10 m' c (Proc.devRef .tc Cert.ReferenceIdeal.main_v12))) (row (Cert.ReferenceIdeal.Line.U10 m' c (Proc.devRef .tc Cert.ReferenceIdeal.main_v145))) (row (StableHlo.after Cert.ReferenceIdeal.Line.seg10 (Cert.ReferenceIdeal.Line.U10 m' c) (Proc.devRef .tc Cert.ReferenceIdeal.main_v183))) (row (StableHlo.after Cert.ReferenceIdeal.Line.seg10 (Cert.ReferenceIdeal.Line.U10 m' c) (Proc.devRef .tc Cert.ReferenceIdeal.main_v185))) (row (StableHlo.after Cert.ReferenceIdeal.Line.seg10 (Cert.ReferenceIdeal.Line.U10 m' c) (Proc.devRef .tc Cert.ReferenceIdeal.main_v187))) (row (StableHlo.after Cert.ReferenceIdeal.Line.seg10 (Cert.ReferenceIdeal.Line.U10 m' c) (Proc.devRef .tc Cert.ReferenceIdeal.main_v189)))
  after_results_simp
  rw [← RefOps.ref_combine (hb1 := Cert.ReferenceIdeal.Gen.bcast_S256_S1x256_1) (hb2 := Cert.ReferenceIdeal.Gen.bcast_S1x256_S50000x256_0_1) (hz := Cert.ReferenceIdeal.Gen.bcast_S_S50000x256) (hv := Cert.ReferenceIdeal.Gen.bcast_S_S256) (hc0 := Cert.ReferenceIdeal.Gen.bcast_S50000_S50000x1_0) (hc1 := Cert.ReferenceIdeal.Gen.bcast_S50000x1_S50000x256_0_1)]
  have relu_strip : ∀ X : (⟨Cert.ReferenceIdeal.S50000x256, .f32⟩ : BufTy).Contents (Elt Ideal),
      (TRef.of (T := (⟨Cert.ReferenceIdeal.S50000x256, .f32⟩ : BufTy)) Cert.ReferenceIdeal.main_v203).toBuf (Val := Elt Ideal) (maximumf (F := Ideal) (s := Cert.ReferenceIdeal.S50000x256) (φ := .f32) ((TRef.of (T := (⟨Cert.ReferenceIdeal.S50000x256, .f32⟩ : BufTy)) Cert.ReferenceIdeal.main_v202).ofBuf (Val := Elt Ideal) X) ((TRef.of (T := (⟨Cert.ReferenceIdeal.S50000x256, .f32⟩ : BufTy)) Cert.ReferenceIdeal.main_call3_v0).ofBuf (Val := Elt Ideal) ((TRef.of (T := (⟨Cert.ReferenceIdeal.S50000x256, .f32⟩ : BufTy)) Cert.ReferenceIdeal.main_call3_v0).toBuf (Val := Elt Ideal) (broadcastInDim Cert.ReferenceIdeal.S50000x256 ![] Cert.ReferenceIdeal.Gen.bcast_S_S50000x256 ((TRef.of (T := (⟨Cert.ReferenceIdeal.S_, .f32⟩ : BufTy)) Cert.ReferenceIdeal.main_call3_cst).ofBuf (Val := Elt Ideal) ((TRef.of (T := (⟨Cert.ReferenceIdeal.S_, .f32⟩ : BufTy)) Cert.ReferenceIdeal.main_call3_cst).toBuf (Val := Elt Ideal) (constant (F := Ideal) Cert.ReferenceIdeal.S_ .f32 0x00000000#32)))))))
        = maximumf (F := Ideal) (s := Cert.ReferenceIdeal.S50000x256) (φ := .f32) X (broadcastInDim Cert.ReferenceIdeal.S50000x256 ![] Cert.ReferenceIdeal.Gen.bcast_S_S50000x256 (constant (F := Ideal) Cert.ReferenceIdeal.S_ .f32 0x00000000#32)) := fun X => rfl
  refine (relu_strip _).trans ?_
  rfl

theorem s_c2 (hA : Agree m m' c) : Cert.KernelIdeal.Gen.W14 m ρ c (Proc.devRef .tc Cert.KernelIdeal.main_v156) = Cert.ReferenceIdeal.Line.U11 m' c (Proc.devRef .tc Cert.ReferenceIdeal.main_v203) := by
  have i1 := s_agg2 m ρ m' c hA
  have i2 : Cert.KernelIdeal.Gen.W13 m ρ c (Proc.devRef .tc Cert.KernelIdeal.main_v112) = Cert.ReferenceIdeal.Line.U10 m' c (Proc.devRef .tc Cert.ReferenceIdeal.main_v146) := ((show Cert.KernelIdeal.Gen.W13 m ρ c (Proc.devRef .tc Cert.KernelIdeal.main_v112) = Cert.KernelIdeal.Gen.W12 m ρ c (Proc.devRef .tc Cert.KernelIdeal.main_v112) from Cert.KernelIdeal.Kept.host6 m ρ c Cert.KernelIdeal.main_v112 (by decide))).trans ((s_p2 m ρ m' c hA).trans ((show Cert.ReferenceIdeal.Line.U10 m' c (Proc.devRef .tc Cert.ReferenceIdeal.main_v146) = Cert.ReferenceIdeal.Line.U9 m' c (Proc.devRef .tc Cert.ReferenceIdeal.main_v146) from Cert.ReferenceIdeal.Kept.keep9 m' c Cert.ReferenceIdeal.main_v146 (by decide))).symm)
  have i3 : Cert.KernelIdeal.Gen.W13 m ρ c (Proc.devRef .tc Cert.KernelIdeal.main_v13) = col (Cert.ReferenceIdeal.Line.U10 m' c (Proc.devRef .tc Cert.ReferenceIdeal.main_v12)) :=
    (((show Cert.KernelIdeal.Gen.W13 m ρ c (Proc.devRef .tc Cert.KernelIdeal.main_v13) = Cert.KernelIdeal.Gen.W12 m ρ c (Proc.devRef .tc Cert.KernelIdeal.main_v13) from Cert.KernelIdeal.Kept.host6 m ρ c Cert.KernelIdeal.main_v13 (by decide)).trans ((show Cert.KernelIdeal.Gen.W12 m ρ c (Proc.devRef .tc Cert.KernelIdeal.main_v13) = Cert.KernelIdeal.Gen.W11 m ρ c (Proc.devRef .tc Cert.KernelIdeal.main_v13) from Cert.KernelIdeal.Gen.W12_of_ne m ρ c Cert.KernelIdeal.main_v13 (by decide)).trans ((show Cert.KernelIdeal.Gen.W11 m ρ c (Proc.devRef .tc Cert.KernelIdeal.main_v13) = Cert.KernelIdeal.Gen.W10 m ρ c (Proc.devRef .tc Cert.KernelIdeal.main_v13) from Cert.KernelIdeal.Kept.host5 m ρ c Cert.KernelIdeal.main_v13 (by decide)).trans ((show Cert.KernelIdeal.Gen.W10 m ρ c (Proc.devRef .tc Cert.KernelIdeal.main_v13) = Cert.KernelIdeal.Gen.W9 m ρ c (Proc.devRef .tc Cert.KernelIdeal.main_v13) from (Cert.KernelIdeal.Gen.W10_arr m ρ c 2).trans (((Cert.KernelIdeal.Gen.dat4 (Cert.KernelIdeal.Gen.V9 m ρ) c).arrAt_in 2 rfl _).trans (Cert.KernelIdeal.Gen.A_eq4 (Cert.KernelIdeal.Gen.V9 m ρ) c 2))).trans ((show Cert.KernelIdeal.Gen.W9 m ρ c (Proc.devRef .tc Cert.KernelIdeal.main_v13) = Cert.KernelIdeal.Gen.W8 m ρ c (Proc.devRef .tc Cert.KernelIdeal.main_v13) from Cert.KernelIdeal.Kept.host4 m ρ c Cert.KernelIdeal.main_v13 (by decide)).trans ((show Cert.KernelIdeal.Gen.W8 m ρ c (Proc.devRef .tc Cert.KernelIdeal.main_v13) = Cert.KernelIdeal.Gen.W7 m ρ c (Proc.devRef .tc Cert.KernelIdeal.main_v13) from Cert.KernelIdeal.Gen.W8_of_ne m ρ c Cert.KernelIdeal.main_v13 (by decide)).trans ((show Cert.KernelIdeal.Gen.W7 m ρ c (Proc.devRef .tc Cert.KernelIdeal.main_v13) = Cert.KernelIdeal.Gen.W6 m ρ c (Proc.devRef .tc Cert.KernelIdeal.main_v13) from Cert.KernelIdeal.Kept.host3 m ρ c Cert.KernelIdeal.main_v13 (by decide)).trans ((show Cert.KernelIdeal.Gen.W6 m ρ c (Proc.devRef .tc Cert.KernelIdeal.main_v13) = Cert.KernelIdeal.Gen.W5 m ρ c (Proc.devRef .tc Cert.KernelIdeal.main_v13) from (Cert.KernelIdeal.Gen.W6_arr m ρ c 2).trans (((Cert.KernelIdeal.Gen.dat2 (Cert.KernelIdeal.Gen.V5 m ρ) c).arrAt_in 2 rfl _).trans (Cert.KernelIdeal.Gen.A_eq2 (Cert.KernelIdeal.Gen.V5 m ρ) c 2))).trans ((show Cert.KernelIdeal.Gen.W5 m ρ c (Proc.devRef .tc Cert.KernelIdeal.main_v13) = Cert.KernelIdeal.Gen.W4 m ρ c (Proc.devRef .tc Cert.KernelIdeal.main_v13) from Cert.KernelIdeal.Kept.host2 m ρ c Cert.KernelIdeal.main_v13 (by decide)).trans ((show Cert.KernelIdeal.Gen.W4 m ρ c (Proc.devRef .tc Cert.KernelIdeal.main_v13) = Cert.KernelIdeal.Gen.W3 m ρ c (Proc.devRef .tc Cert.KernelIdeal.main_v13) from Cert.KernelIdeal.Gen.W4_of_ne m ρ c Cert.KernelIdeal.main_v13 (by decide)).trans ((show Cert.KernelIdeal.Gen.W3 m ρ c (Proc.devRef .tc Cert.KernelIdeal.main_v13) = Cert.KernelIdeal.Gen.W2 m ρ c (Proc.devRef .tc Cert.KernelIdeal.main_v13) from Cert.KernelIdeal.Kept.host1 m ρ c Cert.KernelIdeal.main_v13 (by decide)).trans (show Cert.KernelIdeal.Gen.W2 m ρ c (Proc.devRef .tc Cert.KernelIdeal.main_v13) = Cert.KernelIdeal.Gen.W1 m ρ c (Proc.devRef .tc Cert.KernelIdeal.main_v13) from Cert.KernelIdeal.Gen.W2_of_ne m ρ c Cert.KernelIdeal.main_v13 (by decide)))))))))))))).trans ((b_v13 m ρ m' c hA).trans (congrArg col (((show Cert.ReferenceIdeal.Line.U10 m' c (Proc.devRef .tc Cert.ReferenceIdeal.main_v12) = Cert.ReferenceIdeal.Line.U9 m' c (Proc.devRef .tc Cert.ReferenceIdeal.main_v12) from Cert.ReferenceIdeal.Kept.keep9 m' c Cert.ReferenceIdeal.main_v12 (by decide)).trans ((show Cert.ReferenceIdeal.Line.U9 m' c (Proc.devRef .tc Cert.ReferenceIdeal.main_v12) = Cert.ReferenceIdeal.Line.U8 m' c (Proc.devRef .tc Cert.ReferenceIdeal.main_v12) from Cert.ReferenceIdeal.Kept.keep8 m' c Cert.ReferenceIdeal.main_v12 (by decide)).trans ((show Cert.ReferenceIdeal.Line.U8 m' c (Proc.devRef .tc Cert.ReferenceIdeal.main_v12) = Cert.ReferenceIdeal.Line.U7 m' c (Proc.devRef .tc Cert.ReferenceIdeal.main_v12) from Cert.ReferenceIdeal.Kept.keep7 m' c Cert.ReferenceIdeal.main_v12 (by decide)).trans ((show Cert.ReferenceIdeal.Line.U7 m' c (Proc.devRef .tc Cert.ReferenceIdeal.main_v12) = Cert.ReferenceIdeal.Line.U6 m' c (Proc.devRef .tc Cert.ReferenceIdeal.main_v12) from Cert.ReferenceIdeal.Kept.keep6 m' c Cert.ReferenceIdeal.main_v12 (by decide)).trans ((show Cert.ReferenceIdeal.Line.U6 m' c (Proc.devRef .tc Cert.ReferenceIdeal.main_v12) = Cert.ReferenceIdeal.Line.U5 m' c (Proc.devRef .tc Cert.ReferenceIdeal.main_v12) from Cert.ReferenceIdeal.Kept.keep5 m' c Cert.ReferenceIdeal.main_v12 (by decide)).trans ((show Cert.ReferenceIdeal.Line.U5 m' c (Proc.devRef .tc Cert.ReferenceIdeal.main_v12) = Cert.ReferenceIdeal.Line.U4 m' c (Proc.devRef .tc Cert.ReferenceIdeal.main_v12) from Cert.ReferenceIdeal.Kept.keep4 m' c Cert.ReferenceIdeal.main_v12 (by decide)).trans ((show Cert.ReferenceIdeal.Line.U4 m' c (Proc.devRef .tc Cert.ReferenceIdeal.main_v12) = Cert.ReferenceIdeal.Line.U3 m' c (Proc.devRef .tc Cert.ReferenceIdeal.main_v12) from Cert.ReferenceIdeal.Kept.keep3 m' c Cert.ReferenceIdeal.main_v12 (by decide)).trans ((show Cert.ReferenceIdeal.Line.U3 m' c (Proc.devRef .tc Cert.ReferenceIdeal.main_v12) = Cert.ReferenceIdeal.Line.U2 m' c (Proc.devRef .tc Cert.ReferenceIdeal.main_v12) from Cert.ReferenceIdeal.Kept.keep2 m' c Cert.ReferenceIdeal.main_v12 (by decide)).trans (show Cert.ReferenceIdeal.Line.U2 m' c (Proc.devRef .tc Cert.ReferenceIdeal.main_v12) = Cert.ReferenceIdeal.Line.U1 m' c (Proc.devRef .tc Cert.ReferenceIdeal.main_v12) from Cert.ReferenceIdeal.Kept.keep1 m' c Cert.ReferenceIdeal.main_v12 (by decide))))))))))).symm))
  have i4 : Cert.KernelIdeal.Gen.W13 m ρ c (Proc.devRef .tc Cert.KernelIdeal.main_v143) = row (Cert.ReferenceIdeal.Line.U10 m' c (Proc.devRef .tc Cert.ReferenceIdeal.main_v145)) := (s_b2 m ρ m' c hA).trans (congrArg row ((show Cert.ReferenceIdeal.Line.U10 m' c (Proc.devRef .tc Cert.ReferenceIdeal.main_v145) = Cert.ReferenceIdeal.Line.U9 m' c (Proc.devRef .tc Cert.ReferenceIdeal.main_v145) from Cert.ReferenceIdeal.Kept.keep9 m' c Cert.ReferenceIdeal.main_v145 (by decide))).symm)
  rw [k_c2 m ρ c, i1, i2, i3, i4, s_g2 m ρ m' c hA, s_be2 m ρ m' c hA, s_mu2 m ρ m' c hA, s_var2 m ρ m' c hA, r_c2 m' c]

end Cert.Sim

end
-- ==== Proof.Region7.lean ====
/-
  One grid launch of the network: 25 points, point t holding rows 2000·t … 2000·t + 1999 of every row-tiled array and
  the whole of every parameter array.  The body's value at entry (p, q) of its block depends on row p of the row-tiled
  blocks only, and row p of block t is row 2000·t + p of the array; so what point t writes back is block t of the layer
  applied to the whole arrays, and since the 25 blocks tile the output, the output array after the launch is that layer.
-/
import proofs.«169431_j32804960207311_2_alg».proof.Proof.Gen.KernelIdeal.Frame
import proofs.«169431_j32804960207311_2_alg».proof.Proof.Spec
import proofs.«169431_j32804960207311_2_alg».proof.Proof.BodyDense
import proofs.«169431_j32804960207311_2_alg».proof.Proof.RegionRows
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen Cert.GraphNet

variable (V : (c : Dev nD) → (b : Ref sig .tc) → Buf (Elt Ideal) ((c : Thread nD τ).loc b))

/-! ## Launch 7: `denseBn` of the arrays it finds -/

/-- The printed block index maps over the grid: a row window's block index is the point, a fixed window's is zero. -/
theorem idx7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (0 : Fin 2) = t.val
    ∧ win7_7.index t (1 : Fin 2) = 0 :=
  (by decide +kernel : ∀ t : Fin grid7.N, _)

set_option maxHeartbeats 4000000 in
/-- Point `t` writes back rows 2000·t … 2000·t + 1999 of the layer of the arrays the launch finds. -/
theorem flushed7 (c : Dev nD) (t : Fin cfg7.N) :
    (dat7 V c).flushed 7 t = ((cfg7.win 7).blk t).view.read (Elt Ideal) (denseBn (V c main_v156) (V c main_arg6) (V c main_v157) (V c main_v160) (V c main_v163) (V c main_v166) (V c main_v169)) := by
  show (cfg7.win 7).cut (grid7.coords t) ((dat7 V c).after 7 t) = _
  rw [after7_7]
  unfold out7_7
  rw [View.canon_unit_zero hz]
  simp only [View.ld_unit_zero (S := S2000x256) hz, View.ld_unit_zero (S := S256x256) hz, View.ld_unit_zero (S := S1x256) hz]
  obtain ⟨e0, e1, e2, e3, e4, e5, e6, e7, e8, e9, e10, e11, e12, e13, e14, e15⟩ := idx7 t
  funext j
  obtain ⟨p, q, rfl⟩ : ∃ (p : Fin 2000) (q : Fin 256), j = ix2 p q := ⟨j 0, j 1, eq_ix2 j⟩
  refine (Body.pay7_apply (iblk7 V c 0 t) (iblk7 V c 1 t) (iblk7 V c 2 t) (iblk7 V c 3 t) (iblk7 V c 6 t) (iblk7 V c 5 t) (iblk7 V c 4 t) p q).trans ?_
  have ho : ((cfg7.win 7).blk t).view.emb (ix2 p q) = ix2 (rowAt N_7 t p) q := by
    funext d; apply Fin.ext
    match d with
    | ⟨0, _⟩ => show win7_7.index t (0 : Fin 2) * 2000 + 1 * p.val = t.val * 2000 + p.val; omega
    | ⟨1, _⟩ => show win7_7.index t (1 : Fin 2) * 256 + 1 * q.val = q.val; omega
  have hw0 : ∀ (a : Fin 2000) (b : Fin 256), ((cfg7.win 0).blk t).view.emb (ix2 a b) = ix2 (rowAt N_7 t a) b := by
    intro a b; funext d; apply Fin.ext
    match d with
    | ⟨0, _⟩ => show win7_0.index t (0 : Fin 2) * 2000 + 1 * a.val = t.val * 2000 + a.val; omega
    | ⟨1, _⟩ => show win7_0.index t (1 : Fin 2) * 256 + 1 * b.val = b.val; omega
  have hw1 : ∀ (a : Fin 256) (b : Fin 256), ((cfg7.win 1).blk t).view.emb (ix2 a b) = ix2 a b := by
    intro a b; funext d; apply Fin.ext
    match d with
    | ⟨0, _⟩ => show win7_1.index t (0 : Fin 2) * 256 + 1 * a.val = a.val; omega
    | ⟨1, _⟩ => show win7_1.index t (1 : Fin 2) * 256 + 1 * b.val = b.val; omega
  have hw2 : ∀ (a : Fin 1) (b : Fin 256), ((cfg7.win 2).blk t).view.emb (ix2 a b) = ix2 a b := by
    intro a b; funext d; apply Fin.ext
    match d with
    | ⟨0, _⟩ => show win7_2.index t (0 : Fin 2) * 1 + 1 * a.val = a.val; omega
    | ⟨1, _⟩ => show win7_2.index t (1 : Fin 2) * 256 + 1 * b.val = b.val; omega
  have hw3 : ∀ (a : Fin 1) (b : Fin 256), ((cfg7.win 3).blk t).view.emb (ix2 a b) = ix2 a b := by
    intro a b; funext d; apply Fin.ext
    match d with
    | ⟨0, _⟩ => show win7_3.index t (0 : Fin 2) * 1 + 1 * a.val = a.val; omega
    | ⟨1, _⟩ => show win7_3.index t (1 : Fin 2) * 256 + 1 * b.val = b.val; omega
  have hw4 : ∀ (a : Fin 1) (b : Fin 256), ((cfg7.win 4).blk t).view.emb (ix2 a b) = ix2 a b := by
    intro a b; funext d; apply Fin.ext
    match d with
    | ⟨0, _⟩ => show win7_4.index t (0 : Fin 2) * 1 + 1 * a.val = a.val; omega
    | ⟨1, _⟩ => show win7_4.index t (1 : Fin 2) * 256 + 1 * b.val = b.val; omega
  have hw5 : ∀ (a : Fin 1) (b : Fin 256), ((cfg7.win 5).blk t).view.emb (ix2 a b) = ix2 a b := by
    intro a b; funext d; apply Fin.ext
    match d with
    | ⟨0, _⟩ => show win7_5.index t (0 : Fin 2) * 1 + 1 * a.val = a.val; omega
    | ⟨1, _⟩ => show win7_5.index t (1 : Fin 2) * 256 + 1 * b.val = b.val; omega
  have hw6 : ∀ (a : Fin 1) (b : Fin 256), ((cfg7.win 6).blk t).view.emb (ix2 a b) = ix2 a b := by
    intro a b; funext d; apply Fin.ext
    match d with
    | ⟨0, _⟩ => show win7_6.index t (0 : Fin 2) * 1 + 1 * a.val = a.val; omega
    | ⟨1, _⟩ => show win7_6.index t (1 : Fin 2) * 256 + 1 * b.val = b.val; omega
  show _ = (denseBn (V c main_v156) (V c main_arg6) (V c main_v157) (V c main_v160) (V c main_v163) (V c main_v166) (V c main_v169)) (((cfg7.win 7).blk t).view.emb (ix2 p q))
  rw [ho]
  show (max (bn ((∑ k : Fin 256, (id (V c main_v156 (((cfg7.win 0).blk t).view.emb (ix2 p k))) : EReal) * (id (V c main_arg6 (((cfg7.win 1).blk t).view.emb (ix2 k q))) : EReal)) + (id (V c main_v157 (((cfg7.win 2).blk t).view.emb (ix2 (0 : Fin 1) q))) : EReal)) (id (V c main_v160 (((cfg7.win 3).blk t).view.emb (ix2 (0 : Fin 1) q))) : EReal) (id (V c main_v163 (((cfg7.win 4).blk t).view.emb (ix2 (0 : Fin 1) q))) : EReal) (id (V c main_v166 (((cfg7.win 5).blk t).view.emb (ix2 (0 : Fin 1) q))) : EReal) (id (V c main_v169 (((cfg7.win 6).blk t).view.emb (ix2 (0 : Fin 1) q))) : EReal)) zero32)
    = (max (bn ((∑ k : Fin 256, (id (V c main_v156 (ix2 (rowAt N_7 t p) k)) : EReal) * (id (V c main_arg6 (ix2 k q)) : EReal)) + (id (V c main_v157 (ix2 (0 : Fin 1) q)) : EReal)) (id (V c main_v160 (ix2 (0 : Fin 1) q)) : EReal) (id (V c main_v163 (ix2 (0 : Fin 1) q)) : EReal) (id (V c main_v166 (ix2 (0 : Fin 1) q)) : EReal) (id (V c main_v169 (ix2 (0 : Fin 1) q)) : EReal)) zero32)
  simp only [hw0, hw1, hw2, hw3, hw4, hw5, hw6]

/-- An index is in point `t`'s block iff each coordinate is in the block's range. -/
theorem mem_blk7 (t : Fin cfg7.N) (i : S50000x256.Idx) :
    i ∈ ((cfg7.win 7).blk t).view.set ↔ ∀ a : Fin 2, win7_7.index t a * S2000x256.size a ≤ (i a).val ∧ (i a).val < win7_7.index t a * S2000x256.size a + S2000x256.size a := by
  show i ∈ ((View.whole main_v170).slice (win7_7.rect t)).set ↔ _
  rw [View.set_slice_whole, Rect.mem_set_unit]
  exact Iff.rfl

/-- The 25 blocks of 2000 rows tile the array: row r is in block r / 2000. -/
theorem cover7 (c : Dev nD) (i : S50000x256.Idx) :
    ∃ t : Fin cfg7.N, (cfg7.win 7).flush t = true ∧ i ∈ ((cfg7.win 7).blk t).view.set := by
  have hi0 : (i 0).val < 50000 := (i 0).isLt
  have hi1 : (i 1).val < 256 := (i 1).isLt
  have hN : cfg7.N = 25 := N_7
  have ht : (i 0).val / 2000 < cfg7.N := by omega
  obtain ⟨e0, e1, e2, e3, e4, e5, e6, e7, e8, e9, e10, e11, e12, e13, e14, e15⟩ := idx7 ⟨(i 0).val / 2000, ht⟩
  refine ⟨⟨(i 0).val / 2000, ht⟩, flush7_7 _, ?_⟩
  rw [mem_blk7]
  intro a
  match a with
  | ⟨0, _⟩ => show win7_7.index ⟨(i 0).val / 2000, ht⟩ (0 : Fin 2) * 2000 ≤ (i 0).val ∧ (i 0).val < win7_7.index ⟨(i 0).val / 2000, ht⟩ (0 : Fin 2) * 2000 + 2000; simp only [e14]; omega
  | ⟨1, _⟩ => show win7_7.index ⟨(i 0).val / 2000, ht⟩ (1 : Fin 2) * 256 ≤ (i 1).val ∧ (i 1).val < win7_7.index ⟨(i 0).val / 2000, ht⟩ (1 : Fin 2) * 256 + 256; simp only [e15]; omega

/-- After launch 7 its output array is the layer of the arrays it found. -/
theorem final7 (c : Dev nD) : (dat7 V c).arrAt 7 cfg7.N = (denseBn (V c main_v156) (V c main_arg6) (V c main_v157) (V c main_v160) (V c main_v163) (V c main_v166) (V c main_v169)) :=
  (dat7 V c).arrAt_eq_of_cover 7 _ (fun t _ => flushed7 V c t) (cover7 c)

end Cert.KernelIdeal.Regions

end
-- ==== Proof.BodySoftmax.lean ====
/-
  The last stage, the log-softmax of every row of h·W + b, read at one entry.

  The stage forms y = h·W + b, takes each row's maximum as a running maximum from −∞, keeps it as a column and repeats
  it along the row, subtracts it, exponentiates, sums each row, takes the logarithm of the sum (again a column repeated
  along the row) and subtracts that.  A reduction along the columns at row p ranges over the entries (p, r) of that
  row; a vector of one value per row cast to a column reads, in row p, the vector's value p; and a column repeated along
  the rows reads, at (p, r), the column's value in row p.  So entry (p, q) depends on row p of y only and is
  (y q − max y) − log Σ exp (y − max y) for that row.
-/
import proofs.«169431_j32804960207311_2_alg».proof.Proof.Gen.KernelIdeal.Skeleton
import proofs.«169431_j32804960207311_2_alg».proof.Proof.Spec
import proofs.«169431_j32804960207311_2_alg».proof.Proof.LibProduct
import proofs.«169431_j32804960207311_2_alg».proof.Proof.LibColumnBroadcast
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Body

open Idealize.ShloMosaic Idealize.ShloMosaic.ValueIdx Cert.GraphNet

/-- The row index p with the column coordinate k put back on the reduced axis is the entry (p, k). -/
theorem lift_row (hred : S2000x40.Reduces [1] S2000) (p : Fin 2000) (k : Fin 40) :
    hred.lift (ix1 p) k = ix2 p k := by
  funext c
  refine Fin.ext ?_
  match c with
  | ⟨0, _⟩ => rfl
  | ⟨1, _⟩ => rfl

/-- A vector of one value per row cast to a column reads, in row p, the vector's value p: both sit at row-major
    position p. -/
theorem castCol_apply {α : Type} (v : S2000.Idx → α) (hsc : S2000.ShapeCasts S2000x1) (p : Fin 2000) :
    shapeCast S2000x1 v hsc (ix2 p (0 : Fin 1)) = v (ix1 p) :=
  shapeCast_apply v hsc _ _ (by
    rw [Shape.rowMajor_val_two, Shape.rowMajor_val_one]
    show p.val = p.val * 1 + 0
    omega)

/-- A per-row vector kept as a column and repeated along each row reads, at (p, r), the vector's value p. -/
theorem colOfRows_apply {α : Type} (v : S2000.Idx → α) (hsc : S2000.ShapeCasts S2000x1) (hbc : S2000x1.Broadcasts S2000x40)
    (p : Fin 2000) (r : Fin 40) : broadcastTo S2000x40 (shapeCast S2000x1 v hsc) hbc (ix2 p r) = v (ix1 p) := by
  rw [LibColumnBroadcast.broadcastTo_a1_ab_apply (shapeCast S2000x1 v hsc) hbc p r]
  exact castCol_apply v hsc p

/-- The running maximum along the columns, at row p, is the row's maximum from −∞. -/
theorem rowMax_apply (y : FVec Ideal S2000x40 .f32) (hred : S2000x40.Reduces [1] S2000) (hf : FKind.Formats .f32)
    (hacc : (0xFF800000#32 : BitVec FTy.f32.bits) = FKind.maximumf.neutral .f32 hf) (p : Fin 2000) :
    multiReduction (F := Ideal) .maximumf [1] S2000 y 0xFF800000#32 hred hf hacc (ix1 p) = rowMax fun r : Fin 40 => y (ix2 p r) := by
  rw [Ideal.multiReduction_maximumf_single]
  have e : y ∘ hred.lift (ix1 p) = fun r : Fin 40 => y (ix2 p r) := funext fun k => congrArg y (lift_row hred p k)
  rw [e]
  rfl

/-- The sum along the columns, at row p, is the sum of the row's entries. -/
theorem rowSum_apply (e : FVec Ideal S2000x40 .f32) (hred : S2000x40.Reduces [1] S2000) (hf : FKind.Formats .f32)
    (hacc : (0x00000000#32 : BitVec FTy.f32.bits) = FKind.add.neutral .f32 hf) (p : Fin 2000) :
    multiReduction (F := Ideal) .add [1] S2000 e 0x00000000#32 hred hf hacc (ix1 p) = ∑ r : Fin 40, e (ix2 p r) := by
  rw [Ideal.multiReduction_add_single]
  exact Finset.sum_congr rfl fun k _ => congrArg e (lift_row hred p k)

/-- THE LOG-SOFTMAX STEPS ON ANY ARRAY y, at entry (p, q): the log-softmax of row p of y at q. -/
theorem softmax_entry (y : FVec Ideal S2000x40 .f32) (hred : S2000x40.Reduces [1] S2000) (hf : FKind.Formats .f32)
    (hmax : (0xFF800000#32 : BitVec FTy.f32.bits) = FKind.maximumf.neutral .f32 hf)
    (hadd : (0x00000000#32 : BitVec FTy.f32.bits) = FKind.add.neutral .f32 hf)
    (hsc : S2000.ShapeCasts S2000x1) (hbc : S2000x1.Broadcasts S2000x40) (p : Fin 2000) (q : Fin 40) :
    subf
        (subf y (broadcastTo S2000x40 (shapeCast S2000x1 (multiReduction (F := Ideal) .maximumf [1] S2000 y 0xFF800000#32 hred hf hmax) hsc) hbc))
        (broadcastTo S2000x40
          (log (shapeCast S2000x1
            (multiReduction (F := Ideal) .add [1] S2000
              (exp (subf y (broadcastTo S2000x40
                (shapeCast S2000x1 (multiReduction (F := Ideal) .maximumf [1] S2000 y 0xFF800000#32 hred hf hmax) hsc) hbc)))
              0x00000000#32 hred hf hadd) hsc)) hbc) (ix2 p q)
      = logSoftmaxRow (fun r : Fin 40 => y (ix2 p r)) q := by
  -- the centred array y − max y at an entry of row p
  have hc : ∀ r : Fin 40,
      subf y (broadcastTo S2000x40 (shapeCast S2000x1 (multiReduction (F := Ideal) .maximumf [1] S2000 y 0xFF800000#32 hred hf hmax) hsc) hbc) (ix2 p r)
        = y (ix2 p r) - rowMax fun c : Fin 40 => y (ix2 p c) := fun r => by
    show y (ix2 p r) - broadcastTo S2000x40 (shapeCast S2000x1 _ hsc) hbc (ix2 p r) = _
    rw [colOfRows_apply _ hsc hbc p r, rowMax_apply y hred hf hmax p]
  show subf y _ (ix2 p q) - broadcastTo S2000x40 (log (shapeCast S2000x1 _ hsc)) hbc (ix2 p q) = _
  rw [hc q, LibColumnBroadcast.broadcastTo_a1_ab_apply _ hbc p q]
  show _ - Ideal.log (shapeCast S2000x1 _ hsc (ix2 p (0 : Fin 1))) = _
  rw [castCol_apply _ hsc p, rowSum_apply _ hred hf hadd p]
  unfold logSoftmaxRow
  refine congrArg (fun s => _ - Ideal.log s) (Finset.sum_congr rfl fun r _ => ?_)
  show Ideal.exp (subf y _ (ix2 p r)) = _
  rw [hc r]

/-- Row p of h·W + b as the stage computes it: the product on the matrix unit into a zero accumulator (the format
    changes of its operands are the identity on extended reals) plus the bias row repeated down the columns. -/
theorem logits_entry (h : Vec Ideal S2000x256 .f32) (w : Vec Ideal S256x40 .f32) (b : Vec Ideal S1x40 .f32)
    (h16 : FTy.bf16.bits < FTy.f32.bits) (hr : S1x40.Broadcasts S2000x40) (p : Fin 2000) (r : Fin 40) :
    (addf
        (matmul dot_S2000x256_S256x40_S2000x40_1_0_0_1_n_n none (truncf .bf16 h h16) (truncf .bf16 w h16)
          (constant (F := Ideal) S2000x40 .f32 0x00000000#32))
        (broadcastTo S2000x40 b hr) : FVec Ideal S2000x40 .f32) (ix2 p r)
      = logits h w b p r := by
  show FloatOps.matmul (F := Ideal) dot_S2000x256_S256x40_S2000x40_1_0_0_1_n_n none (truncf .bf16 h h16) (truncf .bf16 w h16)
        (constant (F := Ideal) S2000x40 .f32 0x00000000#32) (ix2 p r) + broadcastTo S2000x40 b hr (ix2 p r) = _
  rw [Cert.LibProduct.matmul_zero_apply dot_S2000x256_S256x40_S2000x40_1_0_0_1_n_n rfl rfl rfl rfl rfl rfl none _ _ p r,
    broadcastTo_1b_ab_apply b hr p r]
  rfl

theorem pay8_apply (h : Vec Ideal S2000x256 .f32) (w : Vec Ideal S256x40 .f32) (b : Vec Ideal S1x40 .f32) (p : Fin 2000) (q : Fin 40) :
    Gen.k8_pay1 (F := Ideal) h w b (ix2 p q) = logSoftmaxRow (logits h w b p) q := by
  unfold Gen.k8_pay1
  simp only [shapeCast_self]
  refine (softmax_entry _ _ _ _ _ _ _ p q).trans ?_
  exact congrArg (fun y => logSoftmaxRow y q) (funext fun r => logits_entry h w b _ _ p r)

end Cert.KernelIdeal.Body

end
-- ==== Proof.Region8.lean ====
/-
  One grid launch of the network: 25 points, point t holding rows 2000·t … 2000·t + 1999 of every row-tiled array and
  the whole of every parameter array.  The body's value at entry (p, q) of its block depends on row p of the row-tiled
  blocks only, and row p of block t is row 2000·t + p of the array; so what point t writes back is block t of the layer
  applied to the whole arrays, and since the 25 blocks tile the output, the output array after the launch is that layer.
-/
import proofs.«169431_j32804960207311_2_alg».proof.Proof.Gen.KernelIdeal.Frame
import proofs.«169431_j32804960207311_2_alg».proof.Proof.Spec
import proofs.«169431_j32804960207311_2_alg».proof.Proof.BodySoftmax
import proofs.«169431_j32804960207311_2_alg».proof.Proof.RegionRows
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx
open Idealize.ShloMosaic.Pipeline (Dat Cfg Window)
open Cert.KernelIdeal Cert.KernelIdeal.Gen Cert.GraphNet

variable (V : (c : Dev nD) → (b : Ref sig .tc) → Buf (Elt Ideal) ((c : Thread nD τ).loc b))

/-! ## Launch 8: `logSoftmax` of the arrays it finds -/

/-- The printed block index maps over the grid: a row window's block index is the point, a fixed window's is zero. -/
theorem idx8 : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = t.val
    ∧ win8_3.index t (1 : Fin 2) = 0 :=
  (by decide +kernel : ∀ t : Fin grid8.N, _)

/-- Point `t` writes back rows 2000·t … 2000·t + 1999 of the layer of the arrays the launch finds. -/
theorem flushed8 (c : Dev nD) (t : Fin cfg8.N) :
    (dat8 V c).flushed 3 t = ((cfg8.win 3).blk t).view.read (Elt Ideal) (logSoftmax (V c main_v170) (V c main_arg8) (V c main_v171)) := by
  show (cfg8.win 3).cut (grid8.coords t) ((dat8 V c).after 3 t) = _
  rw [after8_3]
  unfold out8_3
  rw [View.canon_unit_zero hz]
  simp only [View.ld_unit_zero (S := S2000x256) hz, View.ld_unit_zero (S := S256x40) hz, View.ld_unit_zero (S := S1x40) hz, View.ld_unit_zero (S := S2000x40) hz]
  obtain ⟨e0, e1, e2, e3, e4, e5, e6, e7⟩ := idx8 t
  funext j
  obtain ⟨p, q, rfl⟩ : ∃ (p : Fin 2000) (q : Fin 40), j = ix2 p q := ⟨j 0, j 1, eq_ix2 j⟩
  refine (Body.pay8_apply (iblk8 V c 0 t) (iblk8 V c 1 t) (iblk8 V c 2 t) p q).trans ?_
  have ho : ((cfg8.win 3).blk t).view.emb (ix2 p q) = ix2 (rowAt N_8 t p) q := by
    funext d; apply Fin.ext
    match d with
    | ⟨0, _⟩ => show win8_3.index t (0 : Fin 2) * 2000 + 1 * p.val = t.val * 2000 + p.val; omega
    | ⟨1, _⟩ => show win8_3.index t (1 : Fin 2) * 40 + 1 * q.val = q.val; omega
  have hw0 : ∀ (a : Fin 2000) (b : Fin 256), ((cfg8.win 0).blk t).view.emb (ix2 a b) = ix2 (rowAt N_8 t a) b := by
    intro a b; funext d; apply Fin.ext
    match d with
    | ⟨0, _⟩ => show win8_0.index t (0 : Fin 2) * 2000 + 1 * a.val = t.val * 2000 + a.val; omega
    | ⟨1, _⟩ => show win8_0.index t (1 : Fin 2) * 256 + 1 * b.val = b.val; omega
  have hw1 : ∀ (a : Fin 256) (b : Fin 40), ((cfg8.win 1).blk t).view.emb (ix2 a b) = ix2 a b := by
    intro a b; funext d; apply Fin.ext
    match d with
    | ⟨0, _⟩ => show win8_1.index t (0 : Fin 2) * 256 + 1 * a.val = a.val; omega
    | ⟨1, _⟩ => show win8_1.index t (1 : Fin 2) * 40 + 1 * b.val = b.val; omega
  have hw2 : ∀ (a : Fin 1) (b : Fin 40), ((cfg8.win 2).blk t).view.emb (ix2 a b) = ix2 a b := by
    intro a b; funext d; apply Fin.ext
    match d with
    | ⟨0, _⟩ => show win8_2.index t (0 : Fin 2) * 1 + 1 * a.val = a.val; omega
    | ⟨1, _⟩ => show win8_2.index t (1 : Fin 2) * 40 + 1 * b.val = b.val; omega
  show _ = (logSoftmax (V c main_v170) (V c main_arg8) (V c main_v171)) (((cfg8.win 3).blk t).view.emb (ix2 p q))
  rw [ho]
  show (logSoftmaxRow (fun q' : Fin 40 => (∑ k : Fin 256, (id (V c main_v170 (((cfg8.win 0).blk t).view.emb (ix2 p k))) : EReal) * (id (V c main_arg8 (((cfg8.win 1).blk t).view.emb (ix2 k q'))) : EReal)) + (id (V c main_v171 (((cfg8.win 2).blk t).view.emb (ix2 (0 : Fin 1) q'))) : EReal)) q)
    = (logSoftmaxRow (fun q' : Fin 40 => (∑ k : Fin 256, (id (V c main_v170 (ix2 (rowAt N_8 t p) k)) : EReal) * (id (V c main_arg8 (ix2 k q')) : EReal)) + (id (V c main_v171 (ix2 (0 : Fin 1) q')) : EReal)) q)
  simp only [hw0, hw1, hw2]

/-- An index is in point `t`'s block iff each coordinate is in the block's range. -/
theorem mem_blk8 (t : Fin cfg8.N) (i : S50000x40.Idx) :
    i ∈ ((cfg8.win 3).blk t).view.set ↔ ∀ a : Fin 2, win8_3.index t a * S2000x40.size a ≤ (i a).val ∧ (i a).val < win8_3.index t a * S2000x40.size a + S2000x40.size a := by
  show i ∈ ((View.whole main_v172).slice (win8_3.rect t)).set ↔ _
  rw [View.set_slice_whole, Rect.mem_set_unit]
  exact Iff.rfl

/-- The 25 blocks of 2000 rows tile the array: row r is in block r / 2000. -/
theorem cover8 (c : Dev nD) (i : S50000x40.Idx) :
    ∃ t : Fin cfg8.N, (cfg8.win 3).flush t = true ∧ i ∈ ((cfg8.win 3).blk t).view.set := by
  have hi0 : (i 0).val < 50000 := (i 0).isLt
  have hi1 : (i 1).val < 40 := (i 1).isLt
  have hN : cfg8.N = 25 := N_8
  have ht : (i 0).val / 2000 < cfg8.N := by omega
  obtain ⟨e0, e1, e2, e3, e4, e5, e6, e7⟩ := idx8 ⟨(i 0).val / 2000, ht⟩
  refine ⟨⟨(i 0).val / 2000, ht⟩, flush8_3 _, ?_⟩
  rw [mem_blk8]
  intro a
  match a with
  | ⟨0, _⟩ => show win8_3.index ⟨(i 0).val / 2000, ht⟩ (0 : Fin 2) * 2000 ≤ (i 0).val ∧ (i 0).val < win8_3.index ⟨(i 0).val / 2000, ht⟩ (0 : Fin 2) * 2000 + 2000; simp only [e6]; omega
  | ⟨1, _⟩ => show win8_3.index ⟨(i 0).val / 2000, ht⟩ (1 : Fin 2) * 40 ≤ (i 1).val ∧ (i 1).val < win8_3.index ⟨(i 0).val / 2000, ht⟩ (1 : Fin 2) * 40 + 40; simp only [e7]; omega

/-- After launch 8 its output array is the layer of the arrays it found. -/
theorem final8 (c : Dev nD) : (dat8 V c).arrAt 3 cfg8.N = (logSoftmax (V c main_v170) (V c main_arg8) (V c main_v171)) :=
  (dat8 V c).arrAt_eq_of_cover 3 _ (fun t _ => flushed8 V c t) (cover8 c)

end Cert.KernelIdeal.Regions

end
-- ==== Proof.Sim4.lean ====
/-
  The normalised dense layer and the output layer on both programs, and the conclusion: the two result buffers
  hold the same array.
-/
import proofs.«169431_j32804960207311_2_alg».proof.Proof.Gen.KernelIdeal.Frame
import proofs.«169431_j32804960207311_2_alg».proof.Proof.RefRun
import proofs.«169431_j32804960207311_2_alg».proof.Proof.KernelKept
import proofs.«169431_j32804960207311_2_alg».proof.Proof.RefKept
import proofs.«169431_j32804960207311_2_alg».proof.Proof.Spec
import proofs.«169431_j32804960207311_2_alg».proof.Proof.Casts
import proofs.«169431_j32804960207311_2_alg».proof.Proof.RefOps
import proofs.«169431_j32804960207311_2_alg».proof.Proof.Sim3
import proofs.«169431_j32804960207311_2_alg».proof.Proof.Region7
import proofs.«169431_j32804960207311_2_alg».proof.Proof.Region8
import Idealize.ShloMosaic.PureOps.Ideal
import Idealize.ShloMosaic.Lib.StableHlo.Run

set_option maxRecDepth 16384
set_option maxHeartbeats 8000000

noncomputable section

namespace Cert.Sim

open Idealize.ShloMosaic Idealize.ShloMosaic.TcCoe Idealize.ShloMosaic.StableHlo Idealize.SL.Sem Cert.GraphNet

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)
/-! ## The normalised dense layer -/

theorem s7_b (hA : Agree m m' c) : Cert.KernelIdeal.Gen.W15 m ρ c (Proc.devRef .tc Cert.KernelIdeal.main_v157) = row (Cert.ReferenceIdeal.Line.U11 m' c (Proc.devRef .tc Cert.ReferenceIdeal.main_arg7)) := by
  show StableHlo.after Cert.KernelIdeal.Gen.hostOps7 (Cert.KernelIdeal.Gen.W14 m ρ c) (Proc.devRef .tc Cert.KernelIdeal.main_v157) = _
  after_results_simp
  rw [((((show Cert.KernelIdeal.Gen.W14 m ρ c (Proc.devRef .tc Cert.KernelIdeal.main_arg7) = Cert.KernelIdeal.Gen.W13 m ρ c (Proc.devRef .tc Cert.KernelIdeal.main_arg7) from Cert.KernelIdeal.Gen.W14_of_ne m ρ c Cert.KernelIdeal.main_arg7 (by decide)).trans ((show Cert.KernelIdeal.Gen.W13 m ρ c (Proc.devRef .tc Cert.KernelIdeal.main_arg7) = Cert.KernelIdeal.Gen.W12 m ρ c (Proc.devRef .tc Cert.KernelIdeal.main_arg7) from Cert.KernelIdeal.Kept.host6 m ρ c Cert.KernelIdeal.main_arg7 (by decide)).trans ((show Cert.KernelIdeal.Gen.W12 m ρ c (Proc.devRef .tc Cert.KernelIdeal.main_arg7) = Cert.KernelIdeal.Gen.W11 m ρ c (Proc.devRef .tc Cert.KernelIdeal.main_arg7) from Cert.KernelIdeal.Gen.W12_of_ne m ρ c Cert.KernelIdeal.main_arg7 (by decide)).trans ((show Cert.KernelIdeal.Gen.W11 m ρ c (Proc.devRef .tc Cert.KernelIdeal.main_arg7) = Cert.KernelIdeal.Gen.W10 m ρ c (Proc.devRef .tc Cert.KernelIdeal.main_arg7) from Cert.KernelIdeal.Kept.host5 m ρ c Cert.KernelIdeal.main_arg7 (by decide)).trans ((show Cert.KernelIdeal.Gen.W10 m ρ c (Proc.devRef .tc Cert.KernelIdeal.main_arg7) = Cert.KernelIdeal.Gen.W9 m ρ c (Proc.devRef .tc Cert.KernelIdeal.main_arg7) from Cert.KernelIdeal.Gen.W10_of_ne m ρ c Cert.KernelIdeal.main_arg7 (by decide)).trans ((show Cert.KernelIdeal.Gen.W9 m ρ c (Proc.devRef .tc Cert.KernelIdeal.main_arg7) = Cert.KernelIdeal.Gen.W8 m ρ c (Proc.devRef .tc Cert.KernelIdeal.main_arg7) from Cert.KernelIdeal.Kept.host4 m ρ c Cert.KernelIdeal.main_arg7 (by decide)).trans ((show Cert.KernelIdeal.Gen.W8 m ρ c (Proc.devRef .tc Cert.KernelIdeal.main_arg7) = Cert.KernelIdeal.Gen.W7 m ρ c (Proc.devRef .tc Cert.KernelIdeal.main_arg7) from Cert.KernelIdeal.Gen.W8_of_ne m ρ c Cert.KernelIdeal.main_arg7 (by decide)).trans ((show Cert.KernelIdeal.Gen.W7 m ρ c (Proc.devRef .tc Cert.KernelIdeal.main_arg7) = Cert.KernelIdeal.Gen.W6 m ρ c (Proc.devRef .tc Cert.KernelIdeal.main_arg7) from Cert.KernelIdeal.Kept.host3 m ρ c Cert.KernelIdeal.main_arg7 (by decide)).trans ((show Cert.KernelIdeal.Gen.W6 m ρ c (Proc.devRef .tc Cert.KernelIdeal.main_arg7) = Cert.KernelIdeal.Gen.W5 m ρ c (Proc.devRef .tc Cert.KernelIdeal.main_arg7) from Cert.KernelIdeal.Gen.W6_of_ne m ρ c Cert.KernelIdeal.main_arg7 (by decide)).trans ((show Cert.KernelIdeal.Gen.W5 m ρ c (Proc.devRef .tc Cert.KernelIdeal.main_arg7) = Cert.KernelIdeal.Gen.W4 m ρ c (Proc.devRef .tc Cert.KernelIdeal.main_arg7) from Cert.KernelIdeal.Kept.host2 m ρ c Cert.KernelIdeal.main_arg7 (by decide)).trans ((show Cert.KernelIdeal.Gen.W4 m ρ c (Proc.devRef .tc Cert.KernelIdeal.main_arg7) = Cert.KernelIdeal.Gen.W3 m ρ c (Proc.devRef .tc Cert.KernelIdeal.main_arg7) from Cert.KernelIdeal.Gen.W4_of_ne m ρ c Cert.KernelIdeal.main_arg7 (by decide)).trans ((show Cert.KernelIdeal.Gen.W3 m ρ c (Proc.devRef .tc Cert.KernelIdeal.main_arg7) = Cert.KernelIdeal.Gen.W2 m ρ c (Proc.devRef .tc Cert.KernelIdeal.main_arg7) from Cert.KernelIdeal.Kept.host1 m ρ c Cert.KernelIdeal.main_arg7 (by decide)).trans ((show Cert.KernelIdeal.Gen.W2 m ρ c (Proc.devRef .tc Cert.KernelIdeal.main_arg7) = Cert.KernelIdeal.Gen.W1 m ρ c (Proc.devRef .tc Cert.KernelIdeal.main_arg7) from Cert.KernelIdeal.Gen.W2_of_ne m ρ c Cert.KernelIdeal.main_arg7 (by decide)).trans (show Cert.KernelIdeal.Gen.W1 m ρ c (Proc.devRef .tc Cert.KernelIdeal.main_arg7) = Cert.KernelIdeal.Gen.W0 m ρ c (Proc.devRef .tc Cert.KernelIdeal.main_arg7) from Cert.KernelIdeal.Kept.host0 m ρ c Cert.KernelIdeal.main_arg7 (by decide)))))))))))))))).trans ((show Cert.KernelIdeal.Gen.W0 m ρ c (Proc.devRef .tc Cert.KernelIdeal.main_arg7) = Cert.ReferenceIdeal.Line.U0 m' c (Proc.devRef .tc Cert.ReferenceIdeal.main_arg7) from hA.a7.symm).trans (((show Cert.ReferenceIdeal.Line.U11 m' c (Proc.devRef .tc Cert.ReferenceIdeal.main_arg7) = Cert.ReferenceIdeal.Line.U10 m' c (Proc.devRef .tc Cert.ReferenceIdeal.main_arg7) from Cert.ReferenceIdeal.Kept.keep10 m' c Cert.ReferenceIdeal.main_arg7 (by decide)).trans ((show Cert.ReferenceIdeal.Line.U10 m' c (Proc.devRef .tc Cert.ReferenceIdeal.main_arg7) = Cert.ReferenceIdeal.Line.U9 m' c (Proc.devRef .tc Cert.ReferenceIdeal.main_arg7) from Cert.ReferenceIdeal.Kept.keep9 m' c Cert.ReferenceIdeal.main_arg7 (by decide)).trans ((show Cert.ReferenceIdeal.Line.U9 m' c (Proc.devRef .tc Cert.ReferenceIdeal.main_arg7) = Cert.ReferenceIdeal.Line.U8 m' c (Proc.devRef .tc Cert.ReferenceIdeal.main_arg7) from Cert.ReferenceIdeal.Kept.keep8 m' c Cert.ReferenceIdeal.main_arg7 (by decide)).trans ((show Cert.ReferenceIdeal.Line.U8 m' c (Proc.devRef .tc Cert.ReferenceIdeal.main_arg7) = Cert.ReferenceIdeal.Line.U7 m' c (Proc.devRef .tc Cert.ReferenceIdeal.main_arg7) from Cert.ReferenceIdeal.Kept.keep7 m' c Cert.ReferenceIdeal.main_arg7 (by decide)).trans ((show Cert.ReferenceIdeal.Line.U7 m' c (Proc.devRef .tc Cert.ReferenceIdeal.main_arg7) = Cert.ReferenceIdeal.Line.U6 m' c (Proc.devRef .tc Cert.ReferenceIdeal.main_arg7) from Cert.ReferenceIdeal.Kept.keep6 m' c Cert.ReferenceIdeal.main_arg7 (by decide)).trans ((show Cert.ReferenceIdeal.Line.U6 m' c (Proc.devRef .tc Cert.ReferenceIdeal.main_arg7) = Cert.ReferenceIdeal.Line.U5 m' c (Proc.devRef .tc Cert.ReferenceIdeal.main_arg7) from Cert.ReferenceIdeal.Kept.keep5 m' c Cert.ReferenceIdeal.main_arg7 (by decide)).trans ((show Cert.ReferenceIdeal.Line.U5 m' c (Proc.devRef .tc Cert.ReferenceIdeal.main_arg7) = Cert.ReferenceIdeal.Line.U4 m' c (Proc.devRef .tc Cert.ReferenceIdeal.main_arg7) from Cert.ReferenceIdeal.Kept.keep4 m' c Cert.ReferenceIdeal.main_arg7 (by decide)).trans ((show Cert.ReferenceIdeal.Line.U4 m' c (Proc.devRef .tc Cert.ReferenceIdeal.main_arg7) = Cert.ReferenceIdeal.Line.U3 m' c (Proc.devRef .tc Cert.ReferenceIdeal.main_arg7) from Cert.ReferenceIdeal.Kept.keep3 m' c Cert.ReferenceIdeal.main_arg7 (by decide)).trans ((show Cert.ReferenceIdeal.Line.U3 m' c (Proc.devRef .tc Cert.ReferenceIdeal.main_arg7) = Cert.ReferenceIdeal.Line.U2 m' c (Proc.devRef .tc Cert.ReferenceIdeal.main_arg7) from Cert.ReferenceIdeal.Kept.keep2 m' c Cert.ReferenceIdeal.main_arg7 (by decide)).trans ((show Cert.ReferenceIdeal.Line.U2 m' c (Proc.devRef .tc Cert.ReferenceIdeal.main_arg7) = Cert.ReferenceIdeal.Line.U1 m' c (Proc.devRef .tc Cert.ReferenceIdeal.main_arg7) from Cert.ReferenceIdeal.Kept.keep1 m' c Cert.ReferenceIdeal.main_arg7 (by decide)).trans (show Cert.ReferenceIdeal.Line.U1 m' c (Proc.devRef .tc Cert.ReferenceIdeal.main_arg7) = Cert.ReferenceIdeal.Line.U0 m' c (Proc.devRef .tc Cert.ReferenceIdeal.main_arg7) from Cert.ReferenceIdeal.Kept.keep0 m' c Cert.ReferenceIdeal.main_arg7 (by decide))))))))))))).symm))]
  exact cast_row _ _

theorem s7_g (hA : Agree m m' c) : Cert.KernelIdeal.Gen.W15 m ρ c (Proc.devRef .tc Cert.KernelIdeal.main_v160) = row (Cert.ReferenceIdeal.Line.U12 m' c (Proc.devRef .tc Cert.ReferenceIdeal.main_v209)) := by
  show StableHlo.after Cert.KernelIdeal.Gen.hostOps7 (Cert.KernelIdeal.Gen.W14 m ρ c) (Proc.devRef .tc Cert.KernelIdeal.main_v160) = row (StableHlo.after Cert.ReferenceIdeal.Line.seg11 (Cert.ReferenceIdeal.Line.U11 m' c) (Proc.devRef .tc Cert.ReferenceIdeal.main_v209))
  after_results_simp
  rw [((((show Cert.KernelIdeal.Gen.W14 m ρ c (Proc.devRef .tc Cert.KernelIdeal.main_arg10) = Cert.KernelIdeal.Gen.W13 m ρ c (Proc.devRef .tc Cert.KernelIdeal.main_arg10) from Cert.KernelIdeal.Gen.W14_of_ne m ρ c Cert.KernelIdeal.main_arg10 (by decide)).trans ((show Cert.KernelIdeal.Gen.W13 m ρ c (Proc.devRef .tc Cert.KernelIdeal.main_arg10) = Cert.KernelIdeal.Gen.W12 m ρ c (Proc.devRef .tc Cert.KernelIdeal.main_arg10) from Cert.KernelIdeal.Kept.host6 m ρ c Cert.KernelIdeal.main_arg10 (by decide)).trans ((show Cert.KernelIdeal.Gen.W12 m ρ c (Proc.devRef .tc Cert.KernelIdeal.main_arg10) = Cert.KernelIdeal.Gen.W11 m ρ c (Proc.devRef .tc Cert.KernelIdeal.main_arg10) from Cert.KernelIdeal.Gen.W12_of_ne m ρ c Cert.KernelIdeal.main_arg10 (by decide)).trans ((show Cert.KernelIdeal.Gen.W11 m ρ c (Proc.devRef .tc Cert.KernelIdeal.main_arg10) = Cert.KernelIdeal.Gen.W10 m ρ c (Proc.devRef .tc Cert.KernelIdeal.main_arg10) from Cert.KernelIdeal.Kept.host5 m ρ c Cert.KernelIdeal.main_arg10 (by decide)).trans ((show Cert.KernelIdeal.Gen.W10 m ρ c (Proc.devRef .tc Cert.KernelIdeal.main_arg10) = Cert.KernelIdeal.Gen.W9 m ρ c (Proc.devRef .tc Cert.KernelIdeal.main_arg10) from Cert.KernelIdeal.Gen.W10_of_ne m ρ c Cert.KernelIdeal.main_arg10 (by decide)).trans ((show Cert.KernelIdeal.Gen.W9 m ρ c (Proc.devRef .tc Cert.KernelIdeal.main_arg10) = Cert.KernelIdeal.Gen.W8 m ρ c (Proc.devRef .tc Cert.KernelIdeal.main_arg10) from Cert.KernelIdeal.Kept.host4 m ρ c Cert.KernelIdeal.main_arg10 (by decide)).trans ((show Cert.KernelIdeal.Gen.W8 m ρ c (Proc.devRef .tc Cert.KernelIdeal.main_arg10) = Cert.KernelIdeal.Gen.W7 m ρ c (Proc.devRef .tc Cert.KernelIdeal.main_arg10) from Cert.KernelIdeal.Gen.W8_of_ne m ρ c Cert.KernelIdeal.main_arg10 (by decide)).trans ((show Cert.KernelIdeal.Gen.W7 m ρ c (Proc.devRef .tc Cert.KernelIdeal.main_arg10) = Cert.KernelIdeal.Gen.W6 m ρ c (Proc.devRef .tc Cert.KernelIdeal.main_arg10) from Cert.KernelIdeal.Kept.host3 m ρ c Cert.KernelIdeal.main_arg10 (by decide)).trans ((show Cert.KernelIdeal.Gen.W6 m ρ c (Proc.devRef .tc Cert.KernelIdeal.main_arg10) = Cert.KernelIdeal.Gen.W5 m ρ c (Proc.devRef .tc Cert.KernelIdeal.main_arg10) from Cert.KernelIdeal.Gen.W6_of_ne m ρ c Cert.KernelIdeal.main_arg10 (by decide)).trans ((show Cert.KernelIdeal.Gen.W5 m ρ c (Proc.devRef .tc Cert.KernelIdeal.main_arg10) = Cert.KernelIdeal.Gen.W4 m ρ c (Proc.devRef .tc Cert.KernelIdeal.main_arg10) from Cert.KernelIdeal.Kept.host2 m ρ c Cert.KernelIdeal.main_arg10 (by decide)).trans ((show Cert.KernelIdeal.Gen.W4 m ρ c (Proc.devRef .tc Cert.KernelIdeal.main_arg10) = Cert.KernelIdeal.Gen.W3 m ρ c (Proc.devRef .tc Cert.KernelIdeal.main_arg10) from Cert.KernelIdeal.Gen.W4_of_ne m ρ c Cert.KernelIdeal.main_arg10 (by decide)).trans ((show Cert.KernelIdeal.Gen.W3 m ρ c (Proc.devRef .tc Cert.KernelIdeal.main_arg10) = Cert.KernelIdeal.Gen.W2 m ρ c (Proc.devRef .tc Cert.KernelIdeal.main_arg10) from Cert.KernelIdeal.Kept.host1 m ρ c Cert.KernelIdeal.main_arg10 (by decide)).trans ((show Cert.KernelIdeal.Gen.W2 m ρ c (Proc.devRef .tc Cert.KernelIdeal.main_arg10) = Cert.KernelIdeal.Gen.W1 m ρ c (Proc.devRef .tc Cert.KernelIdeal.main_arg10) from Cert.KernelIdeal.Gen.W2_of_ne m ρ c Cert.KernelIdeal.main_arg10 (by decide)).trans (show Cert.KernelIdeal.Gen.W1 m ρ c (Proc.devRef .tc Cert.KernelIdeal.main_arg10) = Cert.KernelIdeal.Gen.W0 m ρ c (Proc.devRef .tc Cert.KernelIdeal.main_arg10) from Cert.KernelIdeal.Kept.host0 m ρ c Cert.KernelIdeal.main_arg10 (by decide)))))))))))))))).trans ((show Cert.KernelIdeal.Gen.W0 m ρ c (Proc.devRef .tc Cert.KernelIdeal.main_arg10) = Cert.ReferenceIdeal.Line.U0 m' c (Proc.devRef .tc Cert.ReferenceIdeal.main_arg10) from hA.a10.symm).trans (((show Cert.ReferenceIdeal.Line.U11 m' c (Proc.devRef .tc Cert.ReferenceIdeal.main_arg10) = Cert.ReferenceIdeal.Line.U10 m' c (Proc.devRef .tc Cert.ReferenceIdeal.main_arg10) from Cert.ReferenceIdeal.Kept.keep10 m' c Cert.ReferenceIdeal.main_arg10 (by decide)).trans ((show Cert.ReferenceIdeal.Line.U10 m' c (Proc.devRef .tc Cert.ReferenceIdeal.main_arg10) = Cert.ReferenceIdeal.Line.U9 m' c (Proc.devRef .tc Cert.ReferenceIdeal.main_arg10) from Cert.ReferenceIdeal.Kept.keep9 m' c Cert.ReferenceIdeal.main_arg10 (by decide)).trans ((show Cert.ReferenceIdeal.Line.U9 m' c (Proc.devRef .tc Cert.ReferenceIdeal.main_arg10) = Cert.ReferenceIdeal.Line.U8 m' c (Proc.devRef .tc Cert.ReferenceIdeal.main_arg10) from Cert.ReferenceIdeal.Kept.keep8 m' c Cert.ReferenceIdeal.main_arg10 (by decide)).trans ((show Cert.ReferenceIdeal.Line.U8 m' c (Proc.devRef .tc Cert.ReferenceIdeal.main_arg10) = Cert.ReferenceIdeal.Line.U7 m' c (Proc.devRef .tc Cert.ReferenceIdeal.main_arg10) from Cert.ReferenceIdeal.Kept.keep7 m' c Cert.ReferenceIdeal.main_arg10 (by decide)).trans ((show Cert.ReferenceIdeal.Line.U7 m' c (Proc.devRef .tc Cert.ReferenceIdeal.main_arg10) = Cert.ReferenceIdeal.Line.U6 m' c (Proc.devRef .tc Cert.ReferenceIdeal.main_arg10) from Cert.ReferenceIdeal.Kept.keep6 m' c Cert.ReferenceIdeal.main_arg10 (by decide)).trans ((show Cert.ReferenceIdeal.Line.U6 m' c (Proc.devRef .tc Cert.ReferenceIdeal.main_arg10) = Cert.ReferenceIdeal.Line.U5 m' c (Proc.devRef .tc Cert.ReferenceIdeal.main_arg10) from Cert.ReferenceIdeal.Kept.keep5 m' c Cert.ReferenceIdeal.main_arg10 (by decide)).trans ((show Cert.ReferenceIdeal.Line.U5 m' c (Proc.devRef .tc Cert.ReferenceIdeal.main_arg10) = Cert.ReferenceIdeal.Line.U4 m' c (Proc.devRef .tc Cert.ReferenceIdeal.main_arg10) from Cert.ReferenceIdeal.Kept.keep4 m' c Cert.ReferenceIdeal.main_arg10 (by decide)).trans ((show Cert.ReferenceIdeal.Line.U4 m' c (Proc.devRef .tc Cert.ReferenceIdeal.main_arg10) = Cert.ReferenceIdeal.Line.U3 m' c (Proc.devRef .tc Cert.ReferenceIdeal.main_arg10) from Cert.ReferenceIdeal.Kept.keep3 m' c Cert.ReferenceIdeal.main_arg10 (by decide)).trans ((show Cert.ReferenceIdeal.Line.U3 m' c (Proc.devRef .tc Cert.ReferenceIdeal.main_arg10) = Cert.ReferenceIdeal.Line.U2 m' c (Proc.devRef .tc Cert.ReferenceIdeal.main_arg10) from Cert.ReferenceIdeal.Kept.keep2 m' c Cert.ReferenceIdeal.main_arg10 (by decide)).trans ((show Cert.ReferenceIdeal.Line.U2 m' c (Proc.devRef .tc Cert.ReferenceIdeal.main_arg10) = Cert.ReferenceIdeal.Line.U1 m' c (Proc.devRef .tc Cert.ReferenceIdeal.main_arg10) from Cert.ReferenceIdeal.Kept.keep1 m' c Cert.ReferenceIdeal.main_arg10 (by decide)).trans (show Cert.ReferenceIdeal.Line.U1 m' c (Proc.devRef .tc Cert.ReferenceIdeal.main_arg10) = Cert.ReferenceIdeal.Line.U0 m' c (Proc.devRef .tc Cert.ReferenceIdeal.main_arg10) from Cert.ReferenceIdeal.Kept.keep0 m' c Cert.ReferenceIdeal.main_arg10 (by decide))))))))))))).symm))]
  exact cast_row _ _

theorem s7_be (hA : Agree m m' c) : Cert.KernelIdeal.Gen.W15 m ρ c (Proc.devRef .tc Cert.KernelIdeal.main_v163) = row (Cert.ReferenceIdeal.Line.U12 m' c (Proc.devRef .tc Cert.ReferenceIdeal.main_v211)) := by
  show StableHlo.after Cert.KernelIdeal.Gen.hostOps7 (Cert.KernelIdeal.Gen.W14 m ρ c) (Proc.devRef .tc Cert.KernelIdeal.main_v163) = row (StableHlo.after Cert.ReferenceIdeal.Line.seg11 (Cert.ReferenceIdeal.Line.U11 m' c) (Proc.devRef .tc Cert.ReferenceIdeal.main_v211))
  after_results_simp
  rw [((((show Cert.KernelIdeal.Gen.W14 m ρ c (Proc.devRef .tc Cert.KernelIdeal.main_arg11) = Cert.KernelIdeal.Gen.W13 m ρ c (Proc.devRef .tc Cert.KernelIdeal.main_arg11) from Cert.KernelIdeal.Gen.W14_of_ne m ρ c Cert.KernelIdeal.main_arg11 (by decide)).trans ((show Cert.KernelIdeal.Gen.W13 m ρ c (Proc.devRef .tc Cert.KernelIdeal.main_arg11) = Cert.KernelIdeal.Gen.W12 m ρ c (Proc.devRef .tc Cert.KernelIdeal.main_arg11) from Cert.KernelIdeal.Kept.host6 m ρ c Cert.KernelIdeal.main_arg11 (by decide)).trans ((show Cert.KernelIdeal.Gen.W12 m ρ c (Proc.devRef .tc Cert.KernelIdeal.main_arg11) = Cert.KernelIdeal.Gen.W11 m ρ c (Proc.devRef .tc Cert.KernelIdeal.main_arg11) from Cert.KernelIdeal.Gen.W12_of_ne m ρ c Cert.KernelIdeal.main_arg11 (by decide)).trans ((show Cert.KernelIdeal.Gen.W11 m ρ c (Proc.devRef .tc Cert.KernelIdeal.main_arg11) = Cert.KernelIdeal.Gen.W10 m ρ c (Proc.devRef .tc Cert.KernelIdeal.main_arg11) from Cert.KernelIdeal.Kept.host5 m ρ c Cert.KernelIdeal.main_arg11 (by decide)).trans ((show Cert.KernelIdeal.Gen.W10 m ρ c (Proc.devRef .tc Cert.KernelIdeal.main_arg11) = Cert.KernelIdeal.Gen.W9 m ρ c (Proc.devRef .tc Cert.KernelIdeal.main_arg11) from Cert.KernelIdeal.Gen.W10_of_ne m ρ c Cert.KernelIdeal.main_arg11 (by decide)).trans ((show Cert.KernelIdeal.Gen.W9 m ρ c (Proc.devRef .tc Cert.KernelIdeal.main_arg11) = Cert.KernelIdeal.Gen.W8 m ρ c (Proc.devRef .tc Cert.KernelIdeal.main_arg11) from Cert.KernelIdeal.Kept.host4 m ρ c Cert.KernelIdeal.main_arg11 (by decide)).trans ((show Cert.KernelIdeal.Gen.W8 m ρ c (Proc.devRef .tc Cert.KernelIdeal.main_arg11) = Cert.KernelIdeal.Gen.W7 m ρ c (Proc.devRef .tc Cert.KernelIdeal.main_arg11) from Cert.KernelIdeal.Gen.W8_of_ne m ρ c Cert.KernelIdeal.main_arg11 (by decide)).trans ((show Cert.KernelIdeal.Gen.W7 m ρ c (Proc.devRef .tc Cert.KernelIdeal.main_arg11) = Cert.KernelIdeal.Gen.W6 m ρ c (Proc.devRef .tc Cert.KernelIdeal.main_arg11) from Cert.KernelIdeal.Kept.host3 m ρ c Cert.KernelIdeal.main_arg11 (by decide)).trans ((show Cert.KernelIdeal.Gen.W6 m ρ c (Proc.devRef .tc Cert.KernelIdeal.main_arg11) = Cert.KernelIdeal.Gen.W5 m ρ c (Proc.devRef .tc Cert.KernelIdeal.main_arg11) from Cert.KernelIdeal.Gen.W6_of_ne m ρ c Cert.KernelIdeal.main_arg11 (by decide)).trans ((show Cert.KernelIdeal.Gen.W5 m ρ c (Proc.devRef .tc Cert.KernelIdeal.main_arg11) = Cert.KernelIdeal.Gen.W4 m ρ c (Proc.devRef .tc Cert.KernelIdeal.main_arg11) from Cert.KernelIdeal.Kept.host2 m ρ c Cert.KernelIdeal.main_arg11 (by decide)).trans ((show Cert.KernelIdeal.Gen.W4 m ρ c (Proc.devRef .tc Cert.KernelIdeal.main_arg11) = Cert.KernelIdeal.Gen.W3 m ρ c (Proc.devRef .tc Cert.KernelIdeal.main_arg11) from Cert.KernelIdeal.Gen.W4_of_ne m ρ c Cert.KernelIdeal.main_arg11 (by decide)).trans ((show Cert.KernelIdeal.Gen.W3 m ρ c (Proc.devRef .tc Cert.KernelIdeal.main_arg11) = Cert.KernelIdeal.Gen.W2 m ρ c (Proc.devRef .tc Cert.KernelIdeal.main_arg11) from Cert.KernelIdeal.Kept.host1 m ρ c Cert.KernelIdeal.main_arg11 (by decide)).trans ((show Cert.KernelIdeal.Gen.W2 m ρ c (Proc.devRef .tc Cert.KernelIdeal.main_arg11) = Cert.KernelIdeal.Gen.W1 m ρ c (Proc.devRef .tc Cert.KernelIdeal.main_arg11) from Cert.KernelIdeal.Gen.W2_of_ne m ρ c Cert.KernelIdeal.main_arg11 (by decide)).trans (show Cert.KernelIdeal.Gen.W1 m ρ c (Proc.devRef .tc Cert.KernelIdeal.main_arg11) = Cert.KernelIdeal.Gen.W0 m ρ c (Proc.devRef .tc Cert.KernelIdeal.main_arg11) from Cert.KernelIdeal.Kept.host0 m ρ c Cert.KernelIdeal.main_arg11 (by decide)))))))))))))))).trans ((show Cert.KernelIdeal.Gen.W0 m ρ c (Proc.devRef .tc Cert.KernelIdeal.main_arg11) = Cert.ReferenceIdeal.Line.U0 m' c (Proc.devRef .tc Cert.ReferenceIdeal.main_arg11) from hA.a11.symm).trans (((show Cert.ReferenceIdeal.Line.U11 m' c (Proc.devRef .tc Cert.ReferenceIdeal.main_arg11) = Cert.ReferenceIdeal.Line.U10 m' c (Proc.devRef .tc Cert.ReferenceIdeal.main_arg11) from Cert.ReferenceIdeal.Kept.keep10 m' c Cert.ReferenceIdeal.main_arg11 (by decide)).trans ((show Cert.ReferenceIdeal.Line.U10 m' c (Proc.devRef .tc Cert.ReferenceIdeal.main_arg11) = Cert.ReferenceIdeal.Line.U9 m' c (Proc.devRef .tc Cert.ReferenceIdeal.main_arg11) from Cert.ReferenceIdeal.Kept.keep9 m' c Cert.ReferenceIdeal.main_arg11 (by decide)).trans ((show Cert.ReferenceIdeal.Line.U9 m' c (Proc.devRef .tc Cert.ReferenceIdeal.main_arg11) = Cert.ReferenceIdeal.Line.U8 m' c (Proc.devRef .tc Cert.ReferenceIdeal.main_arg11) from Cert.ReferenceIdeal.Kept.keep8 m' c Cert.ReferenceIdeal.main_arg11 (by decide)).trans ((show Cert.ReferenceIdeal.Line.U8 m' c (Proc.devRef .tc Cert.ReferenceIdeal.main_arg11) = Cert.ReferenceIdeal.Line.U7 m' c (Proc.devRef .tc Cert.ReferenceIdeal.main_arg11) from Cert.ReferenceIdeal.Kept.keep7 m' c Cert.ReferenceIdeal.main_arg11 (by decide)).trans ((show Cert.ReferenceIdeal.Line.U7 m' c (Proc.devRef .tc Cert.ReferenceIdeal.main_arg11) = Cert.ReferenceIdeal.Line.U6 m' c (Proc.devRef .tc Cert.ReferenceIdeal.main_arg11) from Cert.ReferenceIdeal.Kept.keep6 m' c Cert.ReferenceIdeal.main_arg11 (by decide)).trans ((show Cert.ReferenceIdeal.Line.U6 m' c (Proc.devRef .tc Cert.ReferenceIdeal.main_arg11) = Cert.ReferenceIdeal.Line.U5 m' c (Proc.devRef .tc Cert.ReferenceIdeal.main_arg11) from Cert.ReferenceIdeal.Kept.keep5 m' c Cert.ReferenceIdeal.main_arg11 (by decide)).trans ((show Cert.ReferenceIdeal.Line.U5 m' c (Proc.devRef .tc Cert.ReferenceIdeal.main_arg11) = Cert.ReferenceIdeal.Line.U4 m' c (Proc.devRef .tc Cert.ReferenceIdeal.main_arg11) from Cert.ReferenceIdeal.Kept.keep4 m' c Cert.ReferenceIdeal.main_arg11 (by decide)).trans ((show Cert.ReferenceIdeal.Line.U4 m' c (Proc.devRef .tc Cert.ReferenceIdeal.main_arg11) = Cert.ReferenceIdeal.Line.U3 m' c (Proc.devRef .tc Cert.ReferenceIdeal.main_arg11) from Cert.ReferenceIdeal.Kept.keep3 m' c Cert.ReferenceIdeal.main_arg11 (by decide)).trans ((show Cert.ReferenceIdeal.Line.U3 m' c (Proc.devRef .tc Cert.ReferenceIdeal.main_arg11) = Cert.ReferenceIdeal.Line.U2 m' c (Proc.devRef .tc Cert.ReferenceIdeal.main_arg11) from Cert.ReferenceIdeal.Kept.keep2 m' c Cert.ReferenceIdeal.main_arg11 (by decide)).trans ((show Cert.ReferenceIdeal.Line.U2 m' c (Proc.devRef .tc Cert.ReferenceIdeal.main_arg11) = Cert.ReferenceIdeal.Line.U1 m' c (Proc.devRef .tc Cert.ReferenceIdeal.main_arg11) from Cert.ReferenceIdeal.Kept.keep1 m' c Cert.ReferenceIdeal.main_arg11 (by decide)).trans (show Cert.ReferenceIdeal.Line.U1 m' c (Proc.devRef .tc Cert.ReferenceIdeal.main_arg11) = Cert.ReferenceIdeal.Line.U0 m' c (Proc.devRef .tc Cert.ReferenceIdeal.main_arg11) from Cert.ReferenceIdeal.Kept.keep0 m' c Cert.ReferenceIdeal.main_arg11 (by decide))))))))))))).symm))]
  exact cast_row _ _

theorem s7_mu (hA : Agree m m' c) : Cert.KernelIdeal.Gen.W15 m ρ c (Proc.devRef .tc Cert.KernelIdeal.main_v166) = row (Cert.ReferenceIdeal.Line.U12 m' c (Proc.devRef .tc Cert.ReferenceIdeal.main_v213)) := by
  show StableHlo.after Cert.KernelIdeal.Gen.hostOps7 (Cert.KernelIdeal.Gen.W14 m ρ c) (Proc.devRef .tc Cert.KernelIdeal.main_v166) = row (StableHlo.after Cert.ReferenceIdeal.Line.seg11 (Cert.ReferenceIdeal.Line.U11 m' c) (Proc.devRef .tc Cert.ReferenceIdeal.main_v213))
  after_results_simp
  rw [((((show Cert.KernelIdeal.Gen.W14 m ρ c (Proc.devRef .tc Cert.KernelIdeal.main_arg12) = Cert.KernelIdeal.Gen.W13 m ρ c (Proc.devRef .tc Cert.KernelIdeal.main_arg12) from Cert.KernelIdeal.Gen.W14_of_ne m ρ c Cert.KernelIdeal.main_arg12 (by decide)).trans ((show Cert.KernelIdeal.Gen.W13 m ρ c (Proc.devRef .tc Cert.KernelIdeal.main_arg12) = Cert.KernelIdeal.Gen.W12 m ρ c (Proc.devRef .tc Cert.KernelIdeal.main_arg12) from Cert.KernelIdeal.Kept.host6 m ρ c Cert.KernelIdeal.main_arg12 (by decide)).trans ((show Cert.KernelIdeal.Gen.W12 m ρ c (Proc.devRef .tc Cert.KernelIdeal.main_arg12) = Cert.KernelIdeal.Gen.W11 m ρ c (Proc.devRef .tc Cert.KernelIdeal.main_arg12) from Cert.KernelIdeal.Gen.W12_of_ne m ρ c Cert.KernelIdeal.main_arg12 (by decide)).trans ((show Cert.KernelIdeal.Gen.W11 m ρ c (Proc.devRef .tc Cert.KernelIdeal.main_arg12) = Cert.KernelIdeal.Gen.W10 m ρ c (Proc.devRef .tc Cert.KernelIdeal.main_arg12) from Cert.KernelIdeal.Kept.host5 m ρ c Cert.KernelIdeal.main_arg12 (by decide)).trans ((show Cert.KernelIdeal.Gen.W10 m ρ c (Proc.devRef .tc Cert.KernelIdeal.main_arg12) = Cert.KernelIdeal.Gen.W9 m ρ c (Proc.devRef .tc Cert.KernelIdeal.main_arg12) from Cert.KernelIdeal.Gen.W10_of_ne m ρ c Cert.KernelIdeal.main_arg12 (by decide)).trans ((show Cert.KernelIdeal.Gen.W9 m ρ c (Proc.devRef .tc Cert.KernelIdeal.main_arg12) = Cert.KernelIdeal.Gen.W8 m ρ c (Proc.devRef .tc Cert.KernelIdeal.main_arg12) from Cert.KernelIdeal.Kept.host4 m ρ c Cert.KernelIdeal.main_arg12 (by decide)).trans ((show Cert.KernelIdeal.Gen.W8 m ρ c (Proc.devRef .tc Cert.KernelIdeal.main_arg12) = Cert.KernelIdeal.Gen.W7 m ρ c (Proc.devRef .tc Cert.KernelIdeal.main_arg12) from Cert.KernelIdeal.Gen.W8_of_ne m ρ c Cert.KernelIdeal.main_arg12 (by decide)).trans ((show Cert.KernelIdeal.Gen.W7 m ρ c (Proc.devRef .tc Cert.KernelIdeal.main_arg12) = Cert.KernelIdeal.Gen.W6 m ρ c (Proc.devRef .tc Cert.KernelIdeal.main_arg12) from Cert.KernelIdeal.Kept.host3 m ρ c Cert.KernelIdeal.main_arg12 (by decide)).trans ((show Cert.KernelIdeal.Gen.W6 m ρ c (Proc.devRef .tc Cert.KernelIdeal.main_arg12) = Cert.KernelIdeal.Gen.W5 m ρ c (Proc.devRef .tc Cert.KernelIdeal.main_arg12) from Cert.KernelIdeal.Gen.W6_of_ne m ρ c Cert.KernelIdeal.main_arg12 (by decide)).trans ((show Cert.KernelIdeal.Gen.W5 m ρ c (Proc.devRef .tc Cert.KernelIdeal.main_arg12) = Cert.KernelIdeal.Gen.W4 m ρ c (Proc.devRef .tc Cert.KernelIdeal.main_arg12) from Cert.KernelIdeal.Kept.host2 m ρ c Cert.KernelIdeal.main_arg12 (by decide)).trans ((show Cert.KernelIdeal.Gen.W4 m ρ c (Proc.devRef .tc Cert.KernelIdeal.main_arg12) = Cert.KernelIdeal.Gen.W3 m ρ c (Proc.devRef .tc Cert.KernelIdeal.main_arg12) from Cert.KernelIdeal.Gen.W4_of_ne m ρ c Cert.KernelIdeal.main_arg12 (by decide)).trans ((show Cert.KernelIdeal.Gen.W3 m ρ c (Proc.devRef .tc Cert.KernelIdeal.main_arg12) = Cert.KernelIdeal.Gen.W2 m ρ c (Proc.devRef .tc Cert.KernelIdeal.main_arg12) from Cert.KernelIdeal.Kept.host1 m ρ c Cert.KernelIdeal.main_arg12 (by decide)).trans ((show Cert.KernelIdeal.Gen.W2 m ρ c (Proc.devRef .tc Cert.KernelIdeal.main_arg12) = Cert.KernelIdeal.Gen.W1 m ρ c (Proc.devRef .tc Cert.KernelIdeal.main_arg12) from Cert.KernelIdeal.Gen.W2_of_ne m ρ c Cert.KernelIdeal.main_arg12 (by decide)).trans (show Cert.KernelIdeal.Gen.W1 m ρ c (Proc.devRef .tc Cert.KernelIdeal.main_arg12) = Cert.KernelIdeal.Gen.W0 m ρ c (Proc.devRef .tc Cert.KernelIdeal.main_arg12) from Cert.KernelIdeal.Kept.host0 m ρ c Cert.KernelIdeal.main_arg12 (by decide)))))))))))))))).trans ((show Cert.KernelIdeal.Gen.W0 m ρ c (Proc.devRef .tc Cert.KernelIdeal.main_arg12) = Cert.ReferenceIdeal.Line.U0 m' c (Proc.devRef .tc Cert.ReferenceIdeal.main_arg12) from hA.a12.symm).trans (((show Cert.ReferenceIdeal.Line.U11 m' c (Proc.devRef .tc Cert.ReferenceIdeal.main_arg12) = Cert.ReferenceIdeal.Line.U10 m' c (Proc.devRef .tc Cert.ReferenceIdeal.main_arg12) from Cert.ReferenceIdeal.Kept.keep10 m' c Cert.ReferenceIdeal.main_arg12 (by decide)).trans ((show Cert.ReferenceIdeal.Line.U10 m' c (Proc.devRef .tc Cert.ReferenceIdeal.main_arg12) = Cert.ReferenceIdeal.Line.U9 m' c (Proc.devRef .tc Cert.ReferenceIdeal.main_arg12) from Cert.ReferenceIdeal.Kept.keep9 m' c Cert.ReferenceIdeal.main_arg12 (by decide)).trans ((show Cert.ReferenceIdeal.Line.U9 m' c (Proc.devRef .tc Cert.ReferenceIdeal.main_arg12) = Cert.ReferenceIdeal.Line.U8 m' c (Proc.devRef .tc Cert.ReferenceIdeal.main_arg12) from Cert.ReferenceIdeal.Kept.keep8 m' c Cert.ReferenceIdeal.main_arg12 (by decide)).trans ((show Cert.ReferenceIdeal.Line.U8 m' c (Proc.devRef .tc Cert.ReferenceIdeal.main_arg12) = Cert.ReferenceIdeal.Line.U7 m' c (Proc.devRef .tc Cert.ReferenceIdeal.main_arg12) from Cert.ReferenceIdeal.Kept.keep7 m' c Cert.ReferenceIdeal.main_arg12 (by decide)).trans ((show Cert.ReferenceIdeal.Line.U7 m' c (Proc.devRef .tc Cert.ReferenceIdeal.main_arg12) = Cert.ReferenceIdeal.Line.U6 m' c (Proc.devRef .tc Cert.ReferenceIdeal.main_arg12) from Cert.ReferenceIdeal.Kept.keep6 m' c Cert.ReferenceIdeal.main_arg12 (by decide)).trans ((show Cert.ReferenceIdeal.Line.U6 m' c (Proc.devRef .tc Cert.ReferenceIdeal.main_arg12) = Cert.ReferenceIdeal.Line.U5 m' c (Proc.devRef .tc Cert.ReferenceIdeal.main_arg12) from Cert.ReferenceIdeal.Kept.keep5 m' c Cert.ReferenceIdeal.main_arg12 (by decide)).trans ((show Cert.ReferenceIdeal.Line.U5 m' c (Proc.devRef .tc Cert.ReferenceIdeal.main_arg12) = Cert.ReferenceIdeal.Line.U4 m' c (Proc.devRef .tc Cert.ReferenceIdeal.main_arg12) from Cert.ReferenceIdeal.Kept.keep4 m' c Cert.ReferenceIdeal.main_arg12 (by decide)).trans ((show Cert.ReferenceIdeal.Line.U4 m' c (Proc.devRef .tc Cert.ReferenceIdeal.main_arg12) = Cert.ReferenceIdeal.Line.U3 m' c (Proc.devRef .tc Cert.ReferenceIdeal.main_arg12) from Cert.ReferenceIdeal.Kept.keep3 m' c Cert.ReferenceIdeal.main_arg12 (by decide)).trans ((show Cert.ReferenceIdeal.Line.U3 m' c (Proc.devRef .tc Cert.ReferenceIdeal.main_arg12) = Cert.ReferenceIdeal.Line.U2 m' c (Proc.devRef .tc Cert.ReferenceIdeal.main_arg12) from Cert.ReferenceIdeal.Kept.keep2 m' c Cert.ReferenceIdeal.main_arg12 (by decide)).trans ((show Cert.ReferenceIdeal.Line.U2 m' c (Proc.devRef .tc Cert.ReferenceIdeal.main_arg12) = Cert.ReferenceIdeal.Line.U1 m' c (Proc.devRef .tc Cert.ReferenceIdeal.main_arg12) from Cert.ReferenceIdeal.Kept.keep1 m' c Cert.ReferenceIdeal.main_arg12 (by decide)).trans (show Cert.ReferenceIdeal.Line.U1 m' c (Proc.devRef .tc Cert.ReferenceIdeal.main_arg12) = Cert.ReferenceIdeal.Line.U0 m' c (Proc.devRef .tc Cert.ReferenceIdeal.main_arg12) from Cert.ReferenceIdeal.Kept.keep0 m' c Cert.ReferenceIdeal.main_arg12 (by decide))))))))))))).symm))]
  exact cast_row _ _

theorem s7_var (hA : Agree m m' c) : Cert.KernelIdeal.Gen.W15 m ρ c (Proc.devRef .tc Cert.KernelIdeal.main_v169) = row (Cert.ReferenceIdeal.Line.U12 m' c (Proc.devRef .tc Cert.ReferenceIdeal.main_v215)) := by
  show StableHlo.after Cert.KernelIdeal.Gen.hostOps7 (Cert.KernelIdeal.Gen.W14 m ρ c) (Proc.devRef .tc Cert.KernelIdeal.main_v169) = row (StableHlo.after Cert.ReferenceIdeal.Line.seg11 (Cert.ReferenceIdeal.Line.U11 m' c) (Proc.devRef .tc Cert.ReferenceIdeal.main_v215))
  after_results_simp
  rw [((((show Cert.KernelIdeal.Gen.W14 m ρ c (Proc.devRef .tc Cert.KernelIdeal.main_arg13) = Cert.KernelIdeal.Gen.W13 m ρ c (Proc.devRef .tc Cert.KernelIdeal.main_arg13) from Cert.KernelIdeal.Gen.W14_of_ne m ρ c Cert.KernelIdeal.main_arg13 (by decide)).trans ((show Cert.KernelIdeal.Gen.W13 m ρ c (Proc.devRef .tc Cert.KernelIdeal.main_arg13) = Cert.KernelIdeal.Gen.W12 m ρ c (Proc.devRef .tc Cert.KernelIdeal.main_arg13) from Cert.KernelIdeal.Kept.host6 m ρ c Cert.KernelIdeal.main_arg13 (by decide)).trans ((show Cert.KernelIdeal.Gen.W12 m ρ c (Proc.devRef .tc Cert.KernelIdeal.main_arg13) = Cert.KernelIdeal.Gen.W11 m ρ c (Proc.devRef .tc Cert.KernelIdeal.main_arg13) from Cert.KernelIdeal.Gen.W12_of_ne m ρ c Cert.KernelIdeal.main_arg13 (by decide)).trans ((show Cert.KernelIdeal.Gen.W11 m ρ c (Proc.devRef .tc Cert.KernelIdeal.main_arg13) = Cert.KernelIdeal.Gen.W10 m ρ c (Proc.devRef .tc Cert.KernelIdeal.main_arg13) from Cert.KernelIdeal.Kept.host5 m ρ c Cert.KernelIdeal.main_arg13 (by decide)).trans ((show Cert.KernelIdeal.Gen.W10 m ρ c (Proc.devRef .tc Cert.KernelIdeal.main_arg13) = Cert.KernelIdeal.Gen.W9 m ρ c (Proc.devRef .tc Cert.KernelIdeal.main_arg13) from Cert.KernelIdeal.Gen.W10_of_ne m ρ c Cert.KernelIdeal.main_arg13 (by decide)).trans ((show Cert.KernelIdeal.Gen.W9 m ρ c (Proc.devRef .tc Cert.KernelIdeal.main_arg13) = Cert.KernelIdeal.Gen.W8 m ρ c (Proc.devRef .tc Cert.KernelIdeal.main_arg13) from Cert.KernelIdeal.Kept.host4 m ρ c Cert.KernelIdeal.main_arg13 (by decide)).trans ((show Cert.KernelIdeal.Gen.W8 m ρ c (Proc.devRef .tc Cert.KernelIdeal.main_arg13) = Cert.KernelIdeal.Gen.W7 m ρ c (Proc.devRef .tc Cert.KernelIdeal.main_arg13) from Cert.KernelIdeal.Gen.W8_of_ne m ρ c Cert.KernelIdeal.main_arg13 (by decide)).trans ((show Cert.KernelIdeal.Gen.W7 m ρ c (Proc.devRef .tc Cert.KernelIdeal.main_arg13) = Cert.KernelIdeal.Gen.W6 m ρ c (Proc.devRef .tc Cert.KernelIdeal.main_arg13) from Cert.KernelIdeal.Kept.host3 m ρ c Cert.KernelIdeal.main_arg13 (by decide)).trans ((show Cert.KernelIdeal.Gen.W6 m ρ c (Proc.devRef .tc Cert.KernelIdeal.main_arg13) = Cert.KernelIdeal.Gen.W5 m ρ c (Proc.devRef .tc Cert.KernelIdeal.main_arg13) from Cert.KernelIdeal.Gen.W6_of_ne m ρ c Cert.KernelIdeal.main_arg13 (by decide)).trans ((show Cert.KernelIdeal.Gen.W5 m ρ c (Proc.devRef .tc Cert.KernelIdeal.main_arg13) = Cert.KernelIdeal.Gen.W4 m ρ c (Proc.devRef .tc Cert.KernelIdeal.main_arg13) from Cert.KernelIdeal.Kept.host2 m ρ c Cert.KernelIdeal.main_arg13 (by decide)).trans ((show Cert.KernelIdeal.Gen.W4 m ρ c (Proc.devRef .tc Cert.KernelIdeal.main_arg13) = Cert.KernelIdeal.Gen.W3 m ρ c (Proc.devRef .tc Cert.KernelIdeal.main_arg13) from Cert.KernelIdeal.Gen.W4_of_ne m ρ c Cert.KernelIdeal.main_arg13 (by decide)).trans ((show Cert.KernelIdeal.Gen.W3 m ρ c (Proc.devRef .tc Cert.KernelIdeal.main_arg13) = Cert.KernelIdeal.Gen.W2 m ρ c (Proc.devRef .tc Cert.KernelIdeal.main_arg13) from Cert.KernelIdeal.Kept.host1 m ρ c Cert.KernelIdeal.main_arg13 (by decide)).trans ((show Cert.KernelIdeal.Gen.W2 m ρ c (Proc.devRef .tc Cert.KernelIdeal.main_arg13) = Cert.KernelIdeal.Gen.W1 m ρ c (Proc.devRef .tc Cert.KernelIdeal.main_arg13) from Cert.KernelIdeal.Gen.W2_of_ne m ρ c Cert.KernelIdeal.main_arg13 (by decide)).trans (show Cert.KernelIdeal.Gen.W1 m ρ c (Proc.devRef .tc Cert.KernelIdeal.main_arg13) = Cert.KernelIdeal.Gen.W0 m ρ c (Proc.devRef .tc Cert.KernelIdeal.main_arg13) from Cert.KernelIdeal.Kept.host0 m ρ c Cert.KernelIdeal.main_arg13 (by decide)))))))))))))))).trans ((show Cert.KernelIdeal.Gen.W0 m ρ c (Proc.devRef .tc Cert.KernelIdeal.main_arg13) = Cert.ReferenceIdeal.Line.U0 m' c (Proc.devRef .tc Cert.ReferenceIdeal.main_arg13) from hA.a13.symm).trans (((show Cert.ReferenceIdeal.Line.U11 m' c (Proc.devRef .tc Cert.ReferenceIdeal.main_arg13) = Cert.ReferenceIdeal.Line.U10 m' c (Proc.devRef .tc Cert.ReferenceIdeal.main_arg13) from Cert.ReferenceIdeal.Kept.keep10 m' c Cert.ReferenceIdeal.main_arg13 (by decide)).trans ((show Cert.ReferenceIdeal.Line.U10 m' c (Proc.devRef .tc Cert.ReferenceIdeal.main_arg13) = Cert.ReferenceIdeal.Line.U9 m' c (Proc.devRef .tc Cert.ReferenceIdeal.main_arg13) from Cert.ReferenceIdeal.Kept.keep9 m' c Cert.ReferenceIdeal.main_arg13 (by decide)).trans ((show Cert.ReferenceIdeal.Line.U9 m' c (Proc.devRef .tc Cert.ReferenceIdeal.main_arg13) = Cert.ReferenceIdeal.Line.U8 m' c (Proc.devRef .tc Cert.ReferenceIdeal.main_arg13) from Cert.ReferenceIdeal.Kept.keep8 m' c Cert.ReferenceIdeal.main_arg13 (by decide)).trans ((show Cert.ReferenceIdeal.Line.U8 m' c (Proc.devRef .tc Cert.ReferenceIdeal.main_arg13) = Cert.ReferenceIdeal.Line.U7 m' c (Proc.devRef .tc Cert.ReferenceIdeal.main_arg13) from Cert.ReferenceIdeal.Kept.keep7 m' c Cert.ReferenceIdeal.main_arg13 (by decide)).trans ((show Cert.ReferenceIdeal.Line.U7 m' c (Proc.devRef .tc Cert.ReferenceIdeal.main_arg13) = Cert.ReferenceIdeal.Line.U6 m' c (Proc.devRef .tc Cert.ReferenceIdeal.main_arg13) from Cert.ReferenceIdeal.Kept.keep6 m' c Cert.ReferenceIdeal.main_arg13 (by decide)).trans ((show Cert.ReferenceIdeal.Line.U6 m' c (Proc.devRef .tc Cert.ReferenceIdeal.main_arg13) = Cert.ReferenceIdeal.Line.U5 m' c (Proc.devRef .tc Cert.ReferenceIdeal.main_arg13) from Cert.ReferenceIdeal.Kept.keep5 m' c Cert.ReferenceIdeal.main_arg13 (by decide)).trans ((show Cert.ReferenceIdeal.Line.U5 m' c (Proc.devRef .tc Cert.ReferenceIdeal.main_arg13) = Cert.ReferenceIdeal.Line.U4 m' c (Proc.devRef .tc Cert.ReferenceIdeal.main_arg13) from Cert.ReferenceIdeal.Kept.keep4 m' c Cert.ReferenceIdeal.main_arg13 (by decide)).trans ((show Cert.ReferenceIdeal.Line.U4 m' c (Proc.devRef .tc Cert.ReferenceIdeal.main_arg13) = Cert.ReferenceIdeal.Line.U3 m' c (Proc.devRef .tc Cert.ReferenceIdeal.main_arg13) from Cert.ReferenceIdeal.Kept.keep3 m' c Cert.ReferenceIdeal.main_arg13 (by decide)).trans ((show Cert.ReferenceIdeal.Line.U3 m' c (Proc.devRef .tc Cert.ReferenceIdeal.main_arg13) = Cert.ReferenceIdeal.Line.U2 m' c (Proc.devRef .tc Cert.ReferenceIdeal.main_arg13) from Cert.ReferenceIdeal.Kept.keep2 m' c Cert.ReferenceIdeal.main_arg13 (by decide)).trans ((show Cert.ReferenceIdeal.Line.U2 m' c (Proc.devRef .tc Cert.ReferenceIdeal.main_arg13) = Cert.ReferenceIdeal.Line.U1 m' c (Proc.devRef .tc Cert.ReferenceIdeal.main_arg13) from Cert.ReferenceIdeal.Kept.keep1 m' c Cert.ReferenceIdeal.main_arg13 (by decide)).trans (show Cert.ReferenceIdeal.Line.U1 m' c (Proc.devRef .tc Cert.ReferenceIdeal.main_arg13) = Cert.ReferenceIdeal.Line.U0 m' c (Proc.devRef .tc Cert.ReferenceIdeal.main_arg13) from Cert.ReferenceIdeal.Kept.keep0 m' c Cert.ReferenceIdeal.main_arg13 (by decide))))))))))))).symm))]
  exact cast_row _ _

theorem k7 : Cert.KernelIdeal.Gen.W16 m ρ c (Proc.devRef .tc Cert.KernelIdeal.main_v170) = denseBn (Cert.KernelIdeal.Gen.W15 m ρ c (Proc.devRef .tc Cert.KernelIdeal.main_v156)) (Cert.KernelIdeal.Gen.W15 m ρ c (Proc.devRef .tc Cert.KernelIdeal.main_arg6)) (Cert.KernelIdeal.Gen.W15 m ρ c (Proc.devRef .tc Cert.KernelIdeal.main_v157)) (Cert.KernelIdeal.Gen.W15 m ρ c (Proc.devRef .tc Cert.KernelIdeal.main_v160)) (Cert.KernelIdeal.Gen.W15 m ρ c (Proc.devRef .tc Cert.KernelIdeal.main_v163)) (Cert.KernelIdeal.Gen.W15 m ρ c (Proc.devRef .tc Cert.KernelIdeal.main_v166)) (Cert.KernelIdeal.Gen.W15 m ρ c (Proc.devRef .tc Cert.KernelIdeal.main_v169)) :=
  (Cert.KernelIdeal.Gen.W16_arr m ρ c 7).trans ((Cert.KernelIdeal.Regions.final7 (Cert.KernelIdeal.Gen.V15 m ρ) c).trans rfl)

theorem r7 : Cert.ReferenceIdeal.Line.U12 m' c (Proc.devRef .tc Cert.ReferenceIdeal.main_v229) = denseBn (Cert.ReferenceIdeal.Line.U11 m' c (Proc.devRef .tc Cert.ReferenceIdeal.main_v203)) (Cert.ReferenceIdeal.Line.U11 m' c (Proc.devRef .tc Cert.ReferenceIdeal.main_arg6)) (row (Cert.ReferenceIdeal.Line.U11 m' c (Proc.devRef .tc Cert.ReferenceIdeal.main_arg7))) (row (Cert.ReferenceIdeal.Line.U12 m' c (Proc.devRef .tc Cert.ReferenceIdeal.main_v209))) (row (Cert.ReferenceIdeal.Line.U12 m' c (Proc.devRef .tc Cert.ReferenceIdeal.main_v211))) (row (Cert.ReferenceIdeal.Line.U12 m' c (Proc.devRef .tc Cert.ReferenceIdeal.main_v213))) (row (Cert.ReferenceIdeal.Line.U12 m' c (Proc.devRef .tc Cert.ReferenceIdeal.main_v215))) := by
  show StableHlo.after Cert.ReferenceIdeal.Line.seg11 (Cert.ReferenceIdeal.Line.U11 m' c) (Proc.devRef .tc Cert.ReferenceIdeal.main_v229) = denseBn (Cert.ReferenceIdeal.Line.U11 m' c (Proc.devRef .tc Cert.ReferenceIdeal.main_v203)) (Cert.ReferenceIdeal.Line.U11 m' c (Proc.devRef .tc Cert.ReferenceIdeal.main_arg6)) (row (Cert.ReferenceIdeal.Line.U11 m' c (Proc.devRef .tc Cert.ReferenceIdeal.main_arg7))) (row (StableHlo.after Cert.ReferenceIdeal.Line.seg11 (Cert.ReferenceIdeal.Line.U11 m' c) (Proc.devRef .tc Cert.ReferenceIdeal.main_v209))) (row (StableHlo.after Cert.ReferenceIdeal.Line.seg11 (Cert.ReferenceIdeal.Line.U11 m' c) (Proc.devRef .tc Cert.ReferenceIdeal.main_v211))) (row (StableHlo.after Cert.ReferenceIdeal.Line.seg11 (Cert.ReferenceIdeal.Line.U11 m' c) (Proc.devRef .tc Cert.ReferenceIdeal.main_v213))) (row (StableHlo.after Cert.ReferenceIdeal.Line.seg11 (Cert.ReferenceIdeal.Line.U11 m' c) (Proc.devRef .tc Cert.ReferenceIdeal.main_v215)))
  after_results_simp
  rw [← RefOps.ref_denseBn (hb1 := Cert.ReferenceIdeal.Gen.bcast_S256_S1x256_1) (hb2 := Cert.ReferenceIdeal.Gen.bcast_S1x256_S50000x256_0_1) (hz := Cert.ReferenceIdeal.Gen.bcast_S_S50000x256) (hv := Cert.ReferenceIdeal.Gen.bcast_S_S256) Cert.ReferenceIdeal.dot_S50000x256_S256x256_S50000x256_1_0_0_1_n_n rfl rfl rfl rfl rfl rfl]
  have relu_strip : ∀ X : (⟨Cert.ReferenceIdeal.S50000x256, .f32⟩ : BufTy).Contents (Elt Ideal),
      (TRef.of (T := (⟨Cert.ReferenceIdeal.S50000x256, .f32⟩ : BufTy)) Cert.ReferenceIdeal.main_v229).toBuf (Val := Elt Ideal) (maximumf (F := Ideal) (s := Cert.ReferenceIdeal.S50000x256) (φ := .f32) ((TRef.of (T := (⟨Cert.ReferenceIdeal.S50000x256, .f32⟩ : BufTy)) Cert.ReferenceIdeal.main_v228).ofBuf (Val := Elt Ideal) X) ((TRef.of (T := (⟨Cert.ReferenceIdeal.S50000x256, .f32⟩ : BufTy)) Cert.ReferenceIdeal.main_call4_v0).ofBuf (Val := Elt Ideal) ((TRef.of (T := (⟨Cert.ReferenceIdeal.S50000x256, .f32⟩ : BufTy)) Cert.ReferenceIdeal.main_call4_v0).toBuf (Val := Elt Ideal) (broadcastInDim Cert.ReferenceIdeal.S50000x256 ![] Cert.ReferenceIdeal.Gen.bcast_S_S50000x256 ((TRef.of (T := (⟨Cert.ReferenceIdeal.S_, .f32⟩ : BufTy)) Cert.ReferenceIdeal.main_call4_cst).ofBuf (Val := Elt Ideal) ((TRef.of (T := (⟨Cert.ReferenceIdeal.S_, .f32⟩ : BufTy)) Cert.ReferenceIdeal.main_call4_cst).toBuf (Val := Elt Ideal) (constant (F := Ideal) Cert.ReferenceIdeal.S_ .f32 0x00000000#32)))))))
        = maximumf (F := Ideal) (s := Cert.ReferenceIdeal.S50000x256) (φ := .f32) X (broadcastInDim Cert.ReferenceIdeal.S50000x256 ![] Cert.ReferenceIdeal.Gen.bcast_S_S50000x256 (constant (F := Ideal) Cert.ReferenceIdeal.S_ .f32 0x00000000#32)) := fun X => rfl
  refine (relu_strip _).trans ?_
  rfl

theorem s7 (hA : Agree m m' c) : Cert.KernelIdeal.Gen.W16 m ρ c (Proc.devRef .tc Cert.KernelIdeal.main_v170) = Cert.ReferenceIdeal.Line.U12 m' c (Proc.devRef .tc Cert.ReferenceIdeal.main_v229) := by
  have ih : Cert.KernelIdeal.Gen.W15 m ρ c (Proc.devRef .tc Cert.KernelIdeal.main_v156) = Cert.ReferenceIdeal.Line.U11 m' c (Proc.devRef .tc Cert.ReferenceIdeal.main_v203) := ((show Cert.KernelIdeal.Gen.W15 m ρ c (Proc.devRef .tc Cert.KernelIdeal.main_v156) = Cert.KernelIdeal.Gen.W14 m ρ c (Proc.devRef .tc Cert.KernelIdeal.main_v156) from Cert.KernelIdeal.Kept.host7 m ρ c Cert.KernelIdeal.main_v156 (by decide))).trans (s_c2 m ρ m' c hA)
  have iw : Cert.KernelIdeal.Gen.W15 m ρ c (Proc.devRef .tc Cert.KernelIdeal.main_arg6) = Cert.ReferenceIdeal.Line.U11 m' c (Proc.devRef .tc Cert.ReferenceIdeal.main_arg6) := ((((show Cert.KernelIdeal.Gen.W15 m ρ c (Proc.devRef .tc Cert.KernelIdeal.main_arg6) = Cert.KernelIdeal.Gen.W14 m ρ c (Proc.devRef .tc Cert.KernelIdeal.main_arg6) from Cert.KernelIdeal.Kept.host7 m ρ c Cert.KernelIdeal.main_arg6 (by decide)).trans ((show Cert.KernelIdeal.Gen.W14 m ρ c (Proc.devRef .tc Cert.KernelIdeal.main_arg6) = Cert.KernelIdeal.Gen.W13 m ρ c (Proc.devRef .tc Cert.KernelIdeal.main_arg6) from Cert.KernelIdeal.Gen.W14_of_ne m ρ c Cert.KernelIdeal.main_arg6 (by decide)).trans ((show Cert.KernelIdeal.Gen.W13 m ρ c (Proc.devRef .tc Cert.KernelIdeal.main_arg6) = Cert.KernelIdeal.Gen.W12 m ρ c (Proc.devRef .tc Cert.KernelIdeal.main_arg6) from Cert.KernelIdeal.Kept.host6 m ρ c Cert.KernelIdeal.main_arg6 (by decide)).trans ((show Cert.KernelIdeal.Gen.W12 m ρ c (Proc.devRef .tc Cert.KernelIdeal.main_arg6) = Cert.KernelIdeal.Gen.W11 m ρ c (Proc.devRef .tc Cert.KernelIdeal.main_arg6) from Cert.KernelIdeal.Gen.W12_of_ne m ρ c Cert.KernelIdeal.main_arg6 (by decide)).trans ((show Cert.KernelIdeal.Gen.W11 m ρ c (Proc.devRef .tc Cert.KernelIdeal.main_arg6) = Cert.KernelIdeal.Gen.W10 m ρ c (Proc.devRef .tc Cert.KernelIdeal.main_arg6) from Cert.KernelIdeal.Kept.host5 m ρ c Cert.KernelIdeal.main_arg6 (by decide)).trans ((show Cert.KernelIdeal.Gen.W10 m ρ c (Proc.devRef .tc Cert.KernelIdeal.main_arg6) = Cert.KernelIdeal.Gen.W9 m ρ c (Proc.devRef .tc Cert.KernelIdeal.main_arg6) from Cert.KernelIdeal.Gen.W10_of_ne m ρ c Cert.KernelIdeal.main_arg6 (by decide)).trans ((show Cert.KernelIdeal.Gen.W9 m ρ c (Proc.devRef .tc Cert.KernelIdeal.main_arg6) = Cert.KernelIdeal.Gen.W8 m ρ c (Proc.devRef .tc Cert.KernelIdeal.main_arg6) from Cert.KernelIdeal.Kept.host4 m ρ c Cert.KernelIdeal.main_arg6 (by decide)).trans ((show Cert.KernelIdeal.Gen.W8 m ρ c (Proc.devRef .tc Cert.KernelIdeal.main_arg6) = Cert.KernelIdeal.Gen.W7 m ρ c (Proc.devRef .tc Cert.KernelIdeal.main_arg6) from Cert.KernelIdeal.Gen.W8_of_ne m ρ c Cert.KernelIdeal.main_arg6 (by decide)).trans ((show Cert.KernelIdeal.Gen.W7 m ρ c (Proc.devRef .tc Cert.KernelIdeal.main_arg6) = Cert.KernelIdeal.Gen.W6 m ρ c (Proc.devRef .tc Cert.KernelIdeal.main_arg6) from Cert.KernelIdeal.Kept.host3 m ρ c Cert.KernelIdeal.main_arg6 (by decide)).trans ((show Cert.KernelIdeal.Gen.W6 m ρ c (Proc.devRef .tc Cert.KernelIdeal.main_arg6) = Cert.KernelIdeal.Gen.W5 m ρ c (Proc.devRef .tc Cert.KernelIdeal.main_arg6) from Cert.KernelIdeal.Gen.W6_of_ne m ρ c Cert.KernelIdeal.main_arg6 (by decide)).trans ((show Cert.KernelIdeal.Gen.W5 m ρ c (Proc.devRef .tc Cert.KernelIdeal.main_arg6) = Cert.KernelIdeal.Gen.W4 m ρ c (Proc.devRef .tc Cert.KernelIdeal.main_arg6) from Cert.KernelIdeal.Kept.host2 m ρ c Cert.KernelIdeal.main_arg6 (by decide)).trans ((show Cert.KernelIdeal.Gen.W4 m ρ c (Proc.devRef .tc Cert.KernelIdeal.main_arg6) = Cert.KernelIdeal.Gen.W3 m ρ c (Proc.devRef .tc Cert.KernelIdeal.main_arg6) from Cert.KernelIdeal.Gen.W4_of_ne m ρ c Cert.KernelIdeal.main_arg6 (by decide)).trans ((show Cert.KernelIdeal.Gen.W3 m ρ c (Proc.devRef .tc Cert.KernelIdeal.main_arg6) = Cert.KernelIdeal.Gen.W2 m ρ c (Proc.devRef .tc Cert.KernelIdeal.main_arg6) from Cert.KernelIdeal.Kept.host1 m ρ c Cert.KernelIdeal.main_arg6 (by decide)).trans ((show Cert.KernelIdeal.Gen.W2 m ρ c (Proc.devRef .tc Cert.KernelIdeal.main_arg6) = Cert.KernelIdeal.Gen.W1 m ρ c (Proc.devRef .tc Cert.KernelIdeal.main_arg6) from Cert.KernelIdeal.Gen.W2_of_ne m ρ c Cert.KernelIdeal.main_arg6 (by decide)).trans (show Cert.KernelIdeal.Gen.W1 m ρ c (Proc.devRef .tc Cert.KernelIdeal.main_arg6) = Cert.KernelIdeal.Gen.W0 m ρ c (Proc.devRef .tc Cert.KernelIdeal.main_arg6) from Cert.KernelIdeal.Kept.host0 m ρ c Cert.KernelIdeal.main_arg6 (by decide))))))))))))))))).trans ((show Cert.KernelIdeal.Gen.W0 m ρ c (Proc.devRef .tc Cert.KernelIdeal.main_arg6) = Cert.ReferenceIdeal.Line.U0 m' c (Proc.devRef .tc Cert.ReferenceIdeal.main_arg6) from hA.a6.symm).trans (((show Cert.ReferenceIdeal.Line.U11 m' c (Proc.devRef .tc Cert.ReferenceIdeal.main_arg6) = Cert.ReferenceIdeal.Line.U10 m' c (Proc.devRef .tc Cert.ReferenceIdeal.main_arg6) from Cert.ReferenceIdeal.Kept.keep10 m' c Cert.ReferenceIdeal.main_arg6 (by decide)).trans ((show Cert.ReferenceIdeal.Line.U10 m' c (Proc.devRef .tc Cert.ReferenceIdeal.main_arg6) = Cert.ReferenceIdeal.Line.U9 m' c (Proc.devRef .tc Cert.ReferenceIdeal.main_arg6) from Cert.ReferenceIdeal.Kept.keep9 m' c Cert.ReferenceIdeal.main_arg6 (by decide)).trans ((show Cert.ReferenceIdeal.Line.U9 m' c (Proc.devRef .tc Cert.ReferenceIdeal.main_arg6) = Cert.ReferenceIdeal.Line.U8 m' c (Proc.devRef .tc Cert.ReferenceIdeal.main_arg6) from Cert.ReferenceIdeal.Kept.keep8 m' c Cert.ReferenceIdeal.main_arg6 (by decide)).trans ((show Cert.ReferenceIdeal.Line.U8 m' c (Proc.devRef .tc Cert.ReferenceIdeal.main_arg6) = Cert.ReferenceIdeal.Line.U7 m' c (Proc.devRef .tc Cert.ReferenceIdeal.main_arg6) from Cert.ReferenceIdeal.Kept.keep7 m' c Cert.ReferenceIdeal.main_arg6 (by decide)).trans ((show Cert.ReferenceIdeal.Line.U7 m' c (Proc.devRef .tc Cert.ReferenceIdeal.main_arg6) = Cert.ReferenceIdeal.Line.U6 m' c (Proc.devRef .tc Cert.ReferenceIdeal.main_arg6) from Cert.ReferenceIdeal.Kept.keep6 m' c Cert.ReferenceIdeal.main_arg6 (by decide)).trans ((show Cert.ReferenceIdeal.Line.U6 m' c (Proc.devRef .tc Cert.ReferenceIdeal.main_arg6) = Cert.ReferenceIdeal.Line.U5 m' c (Proc.devRef .tc Cert.ReferenceIdeal.main_arg6) from Cert.ReferenceIdeal.Kept.keep5 m' c Cert.ReferenceIdeal.main_arg6 (by decide)).trans ((show Cert.ReferenceIdeal.Line.U5 m' c (Proc.devRef .tc Cert.ReferenceIdeal.main_arg6) = Cert.ReferenceIdeal.Line.U4 m' c (Proc.devRef .tc Cert.ReferenceIdeal.main_arg6) from Cert.ReferenceIdeal.Kept.keep4 m' c Cert.ReferenceIdeal.main_arg6 (by decide)).trans ((show Cert.ReferenceIdeal.Line.U4 m' c (Proc.devRef .tc Cert.ReferenceIdeal.main_arg6) = Cert.ReferenceIdeal.Line.U3 m' c (Proc.devRef .tc Cert.ReferenceIdeal.main_arg6) from Cert.ReferenceIdeal.Kept.keep3 m' c Cert.ReferenceIdeal.main_arg6 (by decide)).trans ((show Cert.ReferenceIdeal.Line.U3 m' c (Proc.devRef .tc Cert.ReferenceIdeal.main_arg6) = Cert.ReferenceIdeal.Line.U2 m' c (Proc.devRef .tc Cert.ReferenceIdeal.main_arg6) from Cert.ReferenceIdeal.Kept.keep2 m' c Cert.ReferenceIdeal.main_arg6 (by decide)).trans ((show Cert.ReferenceIdeal.Line.U2 m' c (Proc.devRef .tc Cert.ReferenceIdeal.main_arg6) = Cert.ReferenceIdeal.Line.U1 m' c (Proc.devRef .tc Cert.ReferenceIdeal.main_arg6) from Cert.ReferenceIdeal.Kept.keep1 m' c Cert.ReferenceIdeal.main_arg6 (by decide)).trans (show Cert.ReferenceIdeal.Line.U1 m' c (Proc.devRef .tc Cert.ReferenceIdeal.main_arg6) = Cert.ReferenceIdeal.Line.U0 m' c (Proc.devRef .tc Cert.ReferenceIdeal.main_arg6) from Cert.ReferenceIdeal.Kept.keep0 m' c Cert.ReferenceIdeal.main_arg6 (by decide))))))))))))).symm))
  rw [k7 m ρ c, ih, iw, s7_b m ρ m' c hA, s7_g m ρ m' c hA, s7_be m ρ m' c hA, s7_mu m ρ m' c hA, s7_var m ρ m' c hA, r7 m' c]

/-! ## The output layer -/

theorem s8_b (hA : Agree m m' c) : Cert.KernelIdeal.Gen.W17 m ρ c (Proc.devRef .tc Cert.KernelIdeal.main_v171) = row (Cert.ReferenceIdeal.Line.U12 m' c (Proc.devRef .tc Cert.ReferenceIdeal.main_arg9)) := by
  show StableHlo.after Cert.KernelIdeal.Gen.hostOps8 (Cert.KernelIdeal.Gen.W16 m ρ c) (Proc.devRef .tc Cert.KernelIdeal.main_v171) = _
  after_results
  rw [((((show Cert.KernelIdeal.Gen.W16 m ρ c (Proc.devRef .tc Cert.KernelIdeal.main_arg9) = Cert.KernelIdeal.Gen.W15 m ρ c (Proc.devRef .tc Cert.KernelIdeal.main_arg9) from Cert.KernelIdeal.Gen.W16_of_ne m ρ c Cert.KernelIdeal.main_arg9 (by decide)).trans ((show Cert.KernelIdeal.Gen.W15 m ρ c (Proc.devRef .tc Cert.KernelIdeal.main_arg9) = Cert.KernelIdeal.Gen.W14 m ρ c (Proc.devRef .tc Cert.KernelIdeal.main_arg9) from Cert.KernelIdeal.Kept.host7 m ρ c Cert.KernelIdeal.main_arg9 (by decide)).trans ((show Cert.KernelIdeal.Gen.W14 m ρ c (Proc.devRef .tc Cert.KernelIdeal.main_arg9) = Cert.KernelIdeal.Gen.W13 m ρ c (Proc.devRef .tc Cert.KernelIdeal.main_arg9) from Cert.KernelIdeal.Gen.W14_of_ne m ρ c Cert.KernelIdeal.main_arg9 (by decide)).trans ((show Cert.KernelIdeal.Gen.W13 m ρ c (Proc.devRef .tc Cert.KernelIdeal.main_arg9) = Cert.KernelIdeal.Gen.W12 m ρ c (Proc.devRef .tc Cert.KernelIdeal.main_arg9) from Cert.KernelIdeal.Kept.host6 m ρ c Cert.KernelIdeal.main_arg9 (by decide)).trans ((show Cert.KernelIdeal.Gen.W12 m ρ c (Proc.devRef .tc Cert.KernelIdeal.main_arg9) = Cert.KernelIdeal.Gen.W11 m ρ c (Proc.devRef .tc Cert.KernelIdeal.main_arg9) from Cert.KernelIdeal.Gen.W12_of_ne m ρ c Cert.KernelIdeal.main_arg9 (by decide)).trans ((show Cert.KernelIdeal.Gen.W11 m ρ c (Proc.devRef .tc Cert.KernelIdeal.main_arg9) = Cert.KernelIdeal.Gen.W10 m ρ c (Proc.devRef .tc Cert.KernelIdeal.main_arg9) from Cert.KernelIdeal.Kept.host5 m ρ c Cert.KernelIdeal.main_arg9 (by decide)).trans ((show Cert.KernelIdeal.Gen.W10 m ρ c (Proc.devRef .tc Cert.KernelIdeal.main_arg9) = Cert.KernelIdeal.Gen.W9 m ρ c (Proc.devRef .tc Cert.KernelIdeal.main_arg9) from Cert.KernelIdeal.Gen.W10_of_ne m ρ c Cert.KernelIdeal.main_arg9 (by decide)).trans ((show Cert.KernelIdeal.Gen.W9 m ρ c (Proc.devRef .tc Cert.KernelIdeal.main_arg9) = Cert.KernelIdeal.Gen.W8 m ρ c (Proc.devRef .tc Cert.KernelIdeal.main_arg9) from Cert.KernelIdeal.Kept.host4 m ρ c Cert.KernelIdeal.main_arg9 (by decide)).trans ((show Cert.KernelIdeal.Gen.W8 m ρ c (Proc.devRef .tc Cert.KernelIdeal.main_arg9) = Cert.KernelIdeal.Gen.W7 m ρ c (Proc.devRef .tc Cert.KernelIdeal.main_arg9) from Cert.KernelIdeal.Gen.W8_of_ne m ρ c Cert.KernelIdeal.main_arg9 (by decide)).trans ((show Cert.KernelIdeal.Gen.W7 m ρ c (Proc.devRef .tc Cert.KernelIdeal.main_arg9) = Cert.KernelIdeal.Gen.W6 m ρ c (Proc.devRef .tc Cert.KernelIdeal.main_arg9) from Cert.KernelIdeal.Kept.host3 m ρ c Cert.KernelIdeal.main_arg9 (by decide)).trans ((show Cert.KernelIdeal.Gen.W6 m ρ c (Proc.devRef .tc Cert.KernelIdeal.main_arg9) = Cert.KernelIdeal.Gen.W5 m ρ c (Proc.devRef .tc Cert.KernelIdeal.main_arg9) from Cert.KernelIdeal.Gen.W6_of_ne m ρ c Cert.KernelIdeal.main_arg9 (by decide)).trans ((show Cert.KernelIdeal.Gen.W5 m ρ c (Proc.devRef .tc Cert.KernelIdeal.main_arg9) = Cert.KernelIdeal.Gen.W4 m ρ c (Proc.devRef .tc Cert.KernelIdeal.main_arg9) from Cert.KernelIdeal.Kept.host2 m ρ c Cert.KernelIdeal.main_arg9 (by decide)).trans ((show Cert.KernelIdeal.Gen.W4 m ρ c (Proc.devRef .tc Cert.KernelIdeal.main_arg9) = Cert.KernelIdeal.Gen.W3 m ρ c (Proc.devRef .tc Cert.KernelIdeal.main_arg9) from Cert.KernelIdeal.Gen.W4_of_ne m ρ c Cert.KernelIdeal.main_arg9 (by decide)).trans ((show Cert.KernelIdeal.Gen.W3 m ρ c (Proc.devRef .tc Cert.KernelIdeal.main_arg9) = Cert.KernelIdeal.Gen.W2 m ρ c (Proc.devRef .tc Cert.KernelIdeal.main_arg9) from Cert.KernelIdeal.Kept.host1 m ρ c Cert.KernelIdeal.main_arg9 (by decide)).trans ((show Cert.KernelIdeal.Gen.W2 m ρ c (Proc.devRef .tc Cert.KernelIdeal.main_arg9) = Cert.KernelIdeal.Gen.W1 m ρ c (Proc.devRef .tc Cert.KernelIdeal.main_arg9) from Cert.KernelIdeal.Gen.W2_of_ne m ρ c Cert.KernelIdeal.main_arg9 (by decide)).trans (show Cert.KernelIdeal.Gen.W1 m ρ c (Proc.devRef .tc Cert.KernelIdeal.main_arg9) = Cert.KernelIdeal.Gen.W0 m ρ c (Proc.devRef .tc Cert.KernelIdeal.main_arg9) from Cert.KernelIdeal.Kept.host0 m ρ c Cert.KernelIdeal.main_arg9 (by decide)))))))))))))))))).trans ((show Cert.KernelIdeal.Gen.W0 m ρ c (Proc.devRef .tc Cert.KernelIdeal.main_arg9) = Cert.ReferenceIdeal.Line.U0 m' c (Proc.devRef .tc Cert.ReferenceIdeal.main_arg9) from hA.a9.symm).trans (((show Cert.ReferenceIdeal.Line.U12 m' c (Proc.devRef .tc Cert.ReferenceIdeal.main_arg9) = Cert.ReferenceIdeal.Line.U11 m' c (Proc.devRef .tc Cert.ReferenceIdeal.main_arg9) from Cert.ReferenceIdeal.Kept.keep11 m' c Cert.ReferenceIdeal.main_arg9 (by decide)).trans ((show Cert.ReferenceIdeal.Line.U11 m' c (Proc.devRef .tc Cert.ReferenceIdeal.main_arg9) = Cert.ReferenceIdeal.Line.U10 m' c (Proc.devRef .tc Cert.ReferenceIdeal.main_arg9) from Cert.ReferenceIdeal.Kept.keep10 m' c Cert.ReferenceIdeal.main_arg9 (by decide)).trans ((show Cert.ReferenceIdeal.Line.U10 m' c (Proc.devRef .tc Cert.ReferenceIdeal.main_arg9) = Cert.ReferenceIdeal.Line.U9 m' c (Proc.devRef .tc Cert.ReferenceIdeal.main_arg9) from Cert.ReferenceIdeal.Kept.keep9 m' c Cert.ReferenceIdeal.main_arg9 (by decide)).trans ((show Cert.ReferenceIdeal.Line.U9 m' c (Proc.devRef .tc Cert.ReferenceIdeal.main_arg9) = Cert.ReferenceIdeal.Line.U8 m' c (Proc.devRef .tc Cert.ReferenceIdeal.main_arg9) from Cert.ReferenceIdeal.Kept.keep8 m' c Cert.ReferenceIdeal.main_arg9 (by decide)).trans ((show Cert.ReferenceIdeal.Line.U8 m' c (Proc.devRef .tc Cert.ReferenceIdeal.main_arg9) = Cert.ReferenceIdeal.Line.U7 m' c (Proc.devRef .tc Cert.ReferenceIdeal.main_arg9) from Cert.ReferenceIdeal.Kept.keep7 m' c Cert.ReferenceIdeal.main_arg9 (by decide)).trans ((show Cert.ReferenceIdeal.Line.U7 m' c (Proc.devRef .tc Cert.ReferenceIdeal.main_arg9) = Cert.ReferenceIdeal.Line.U6 m' c (Proc.devRef .tc Cert.ReferenceIdeal.main_arg9) from Cert.ReferenceIdeal.Kept.keep6 m' c Cert.ReferenceIdeal.main_arg9 (by decide)).trans ((show Cert.ReferenceIdeal.Line.U6 m' c (Proc.devRef .tc Cert.ReferenceIdeal.main_arg9) = Cert.ReferenceIdeal.Line.U5 m' c (Proc.devRef .tc Cert.ReferenceIdeal.main_arg9) from Cert.ReferenceIdeal.Kept.keep5 m' c Cert.ReferenceIdeal.main_arg9 (by decide)).trans ((show Cert.ReferenceIdeal.Line.U5 m' c (Proc.devRef .tc Cert.ReferenceIdeal.main_arg9) = Cert.ReferenceIdeal.Line.U4 m' c (Proc.devRef .tc Cert.ReferenceIdeal.main_arg9) from Cert.ReferenceIdeal.Kept.keep4 m' c Cert.ReferenceIdeal.main_arg9 (by decide)).trans ((show Cert.ReferenceIdeal.Line.U4 m' c (Proc.devRef .tc Cert.ReferenceIdeal.main_arg9) = Cert.ReferenceIdeal.Line.U3 m' c (Proc.devRef .tc Cert.ReferenceIdeal.main_arg9) from Cert.ReferenceIdeal.Kept.keep3 m' c Cert.ReferenceIdeal.main_arg9 (by decide)).trans ((show Cert.ReferenceIdeal.Line.U3 m' c (Proc.devRef .tc Cert.ReferenceIdeal.main_arg9) = Cert.ReferenceIdeal.Line.U2 m' c (Proc.devRef .tc Cert.ReferenceIdeal.main_arg9) from Cert.ReferenceIdeal.Kept.keep2 m' c Cert.ReferenceIdeal.main_arg9 (by decide)).trans ((show Cert.ReferenceIdeal.Line.U2 m' c (Proc.devRef .tc Cert.ReferenceIdeal.main_arg9) = Cert.ReferenceIdeal.Line.U1 m' c (Proc.devRef .tc Cert.ReferenceIdeal.main_arg9) from Cert.ReferenceIdeal.Kept.keep1 m' c Cert.ReferenceIdeal.main_arg9 (by decide)).trans (show Cert.ReferenceIdeal.Line.U1 m' c (Proc.devRef .tc Cert.ReferenceIdeal.main_arg9) = Cert.ReferenceIdeal.Line.U0 m' c (Proc.devRef .tc Cert.ReferenceIdeal.main_arg9) from Cert.ReferenceIdeal.Kept.keep0 m' c Cert.ReferenceIdeal.main_arg9 (by decide)))))))))))))).symm))]
  exact cast_row _ _

theorem k8 : Cert.KernelIdeal.Gen.W18 m ρ c (Proc.devRef .tc Cert.KernelIdeal.main_v172) = logSoftmax (Cert.KernelIdeal.Gen.W17 m ρ c (Proc.devRef .tc Cert.KernelIdeal.main_v170)) (Cert.KernelIdeal.Gen.W17 m ρ c (Proc.devRef .tc Cert.KernelIdeal.main_arg8)) (Cert.KernelIdeal.Gen.W17 m ρ c (Proc.devRef .tc Cert.KernelIdeal.main_v171)) :=
  (Cert.KernelIdeal.Gen.W18_arr m ρ c 3).trans ((Cert.KernelIdeal.Regions.final8 (Cert.KernelIdeal.Gen.V17 m ρ) c).trans rfl)

theorem r8 : Cert.ReferenceIdeal.Line.U13 m' c (Proc.devRef .tc Cert.ReferenceIdeal.main_v234) = logSoftmax (Cert.ReferenceIdeal.Line.U12 m' c (Proc.devRef .tc Cert.ReferenceIdeal.main_v229)) (Cert.ReferenceIdeal.Line.U12 m' c (Proc.devRef .tc Cert.ReferenceIdeal.main_arg8)) (row (Cert.ReferenceIdeal.Line.U12 m' c (Proc.devRef .tc Cert.ReferenceIdeal.main_arg9))) := by
  show StableHlo.after Cert.ReferenceIdeal.Line.seg12 (Cert.ReferenceIdeal.Line.U12 m' c) (Proc.devRef .tc Cert.ReferenceIdeal.main_v234) = _
  after_results_simp
  rw [← RefOps.ref_logSoftmax (hb1 := Cert.ReferenceIdeal.Gen.bcast_S40_S1x40_1) (hb2 := Cert.ReferenceIdeal.Gen.bcast_S1x40_S50000x40_0_1) (hc0 := Cert.ReferenceIdeal.Gen.bcast_S50000_S50000x1_0) (hc1 := Cert.ReferenceIdeal.Gen.bcast_S50000x1_S50000x40_0_1) (hm := Cert.ReferenceIdeal.Gen.bcast_S_S50000) (hred := Cert.ReferenceIdeal.Gen.reducesTo_S50000x40_S50000_d1) (hS := Cert.ReferenceIdeal.Gen.h_S_) Cert.ReferenceIdeal.dot_S50000x256_S256x40_S50000x40_1_0_0_1_n_n rfl rfl rfl rfl rfl rfl]
  generalize (addf (F := Ideal) (Host.dotGeneral (F := Ideal) Cert.ReferenceIdeal.dot_S50000x256_S256x40_S50000x40_1_0_0_1_n_n none (Cert.ReferenceIdeal.Line.U12 m' c (Proc.devRef .tc Cert.ReferenceIdeal.main_v229) : FVec Ideal Cert.ReferenceIdeal.S50000x256 .f32) (Cert.ReferenceIdeal.Line.U12 m' c (Proc.devRef .tc Cert.ReferenceIdeal.main_arg8) : FVec Ideal Cert.ReferenceIdeal.S256x40 .f32)) (broadcastInDim Cert.ReferenceIdeal.S50000x40 ![0, 1] Cert.ReferenceIdeal.Gen.bcast_S1x40_S50000x40_0_1 (broadcastInDim Cert.ReferenceIdeal.S1x40 ![1] Cert.ReferenceIdeal.Gen.bcast_S40_S1x40_1 (Cert.ReferenceIdeal.Line.U12 m' c (Proc.devRef .tc Cert.ReferenceIdeal.main_arg9) : FVec Ideal Cert.ReferenceIdeal.S40 .f32)))) = Y
  have pair : ∀ {T : BufTy} (x : TRef Cert.ReferenceIdeal.sig T) (v : T.Contents (Elt Ideal)), x.ofBuf (x.toBuf v) = v := by
    intro T x v; simp only [TRef.ofBuf, TRef.toBuf, cast_cast, cast_eq]
  simp only [pair]
  have e1 : ∀ Z : FVec Ideal Cert.ReferenceIdeal.S50000x40 .f32, (TRef.of (T := (⟨Cert.ReferenceIdeal.S50000x40, .f32⟩ : BufTy)) Cert.ReferenceIdeal.main_v233).ofBuf (Val := Elt Ideal) Z = Z := fun _ => rfl
  have e2 : ∀ Z : FVec Ideal Cert.ReferenceIdeal.S50000x40 .f32, (TRef.of (T := (⟨Cert.ReferenceIdeal.S50000x40, .f32⟩ : BufTy)) Cert.ReferenceIdeal.main_v234).toBuf (Val := Elt Ideal) Z = Z := fun _ => rfl
  simp only [e1, e2]

/-- On memories that agree on the arguments, the kernel program's result buffer at its last boundary holds what the
    reference program's result buffer holds after its line. -/
theorem results_agree (hA : Agree m m' c) : Cert.KernelIdeal.Gen.W18 m ρ c (Proc.devRef .tc Cert.KernelIdeal.main_v172) = Cert.ReferenceIdeal.Line.U13 m' c (Proc.devRef .tc Cert.ReferenceIdeal.main_v234) := by
  have ih : Cert.KernelIdeal.Gen.W17 m ρ c (Proc.devRef .tc Cert.KernelIdeal.main_v170) = Cert.ReferenceIdeal.Line.U12 m' c (Proc.devRef .tc Cert.ReferenceIdeal.main_v229) := ((show Cert.KernelIdeal.Gen.W17 m ρ c (Proc.devRef .tc Cert.KernelIdeal.main_v170) = Cert.KernelIdeal.Gen.W16 m ρ c (Proc.devRef .tc Cert.KernelIdeal.main_v170) from Cert.KernelIdeal.Kept.host8 m ρ c Cert.KernelIdeal.main_v170 (by decide))).trans (s7 m ρ m' c hA)
  have iw : Cert.KernelIdeal.Gen.W17 m ρ c (Proc.devRef .tc Cert.KernelIdeal.main_arg8) = Cert.ReferenceIdeal.Line.U12 m' c (Proc.devRef .tc Cert.ReferenceIdeal.main_arg8) := ((((show Cert.KernelIdeal.Gen.W17 m ρ c (Proc.devRef .tc Cert.KernelIdeal.main_arg8) = Cert.KernelIdeal.Gen.W16 m ρ c (Proc.devRef .tc Cert.KernelIdeal.main_arg8) from Cert.KernelIdeal.Kept.host8 m ρ c Cert.KernelIdeal.main_arg8 (by decide)).trans ((show Cert.KernelIdeal.Gen.W16 m ρ c (Proc.devRef .tc Cert.KernelIdeal.main_arg8) = Cert.KernelIdeal.Gen.W15 m ρ c (Proc.devRef .tc Cert.KernelIdeal.main_arg8) from Cert.KernelIdeal.Gen.W16_of_ne m ρ c Cert.KernelIdeal.main_arg8 (by decide)).trans ((show Cert.KernelIdeal.Gen.W15 m ρ c (Proc.devRef .tc Cert.KernelIdeal.main_arg8) = Cert.KernelIdeal.Gen.W14 m ρ c (Proc.devRef .tc Cert.KernelIdeal.main_arg8) from Cert.KernelIdeal.Kept.host7 m ρ c Cert.KernelIdeal.main_arg8 (by decide)).trans ((show Cert.KernelIdeal.Gen.W14 m ρ c (Proc.devRef .tc Cert.KernelIdeal.main_arg8) = Cert.KernelIdeal.Gen.W13 m ρ c (Proc.devRef .tc Cert.KernelIdeal.main_arg8) from Cert.KernelIdeal.Gen.W14_of_ne m ρ c Cert.KernelIdeal.main_arg8 (by decide)).trans ((show Cert.KernelIdeal.Gen.W13 m ρ c (Proc.devRef .tc Cert.KernelIdeal.main_arg8) = Cert.KernelIdeal.Gen.W12 m ρ c (Proc.devRef .tc Cert.KernelIdeal.main_arg8) from Cert.KernelIdeal.Kept.host6 m ρ c Cert.KernelIdeal.main_arg8 (by decide)).trans ((show Cert.KernelIdeal.Gen.W12 m ρ c (Proc.devRef .tc Cert.KernelIdeal.main_arg8) = Cert.KernelIdeal.Gen.W11 m ρ c (Proc.devRef .tc Cert.KernelIdeal.main_arg8) from Cert.KernelIdeal.Gen.W12_of_ne m ρ c Cert.KernelIdeal.main_arg8 (by decide)).trans ((show Cert.KernelIdeal.Gen.W11 m ρ c (Proc.devRef .tc Cert.KernelIdeal.main_arg8) = Cert.KernelIdeal.Gen.W10 m ρ c (Proc.devRef .tc Cert.KernelIdeal.main_arg8) from Cert.KernelIdeal.Kept.host5 m ρ c Cert.KernelIdeal.main_arg8 (by decide)).trans ((show Cert.KernelIdeal.Gen.W10 m ρ c (Proc.devRef .tc Cert.KernelIdeal.main_arg8) = Cert.KernelIdeal.Gen.W9 m ρ c (Proc.devRef .tc Cert.KernelIdeal.main_arg8) from Cert.KernelIdeal.Gen.W10_of_ne m ρ c Cert.KernelIdeal.main_arg8 (by decide)).trans ((show Cert.KernelIdeal.Gen.W9 m ρ c (Proc.devRef .tc Cert.KernelIdeal.main_arg8) = Cert.KernelIdeal.Gen.W8 m ρ c (Proc.devRef .tc Cert.KernelIdeal.main_arg8) from Cert.KernelIdeal.Kept.host4 m ρ c Cert.KernelIdeal.main_arg8 (by decide)).trans ((show Cert.KernelIdeal.Gen.W8 m ρ c (Proc.devRef .tc Cert.KernelIdeal.main_arg8) = Cert.KernelIdeal.Gen.W7 m ρ c (Proc.devRef .tc Cert.KernelIdeal.main_arg8) from Cert.KernelIdeal.Gen.W8_of_ne m ρ c Cert.KernelIdeal.main_arg8 (by decide)).trans ((show Cert.KernelIdeal.Gen.W7 m ρ c (Proc.devRef .tc Cert.KernelIdeal.main_arg8) = Cert.KernelIdeal.Gen.W6 m ρ c (Proc.devRef .tc Cert.KernelIdeal.main_arg8) from Cert.KernelIdeal.Kept.host3 m ρ c Cert.KernelIdeal.main_arg8 (by decide)).trans ((show Cert.KernelIdeal.Gen.W6 m ρ c (Proc.devRef .tc Cert.KernelIdeal.main_arg8) = Cert.KernelIdeal.Gen.W5 m ρ c (Proc.devRef .tc Cert.KernelIdeal.main_arg8) from Cert.KernelIdeal.Gen.W6_of_ne m ρ c Cert.KernelIdeal.main_arg8 (by decide)).trans ((show Cert.KernelIdeal.Gen.W5 m ρ c (Proc.devRef .tc Cert.KernelIdeal.main_arg8) = Cert.KernelIdeal.Gen.W4 m ρ c (Proc.devRef .tc Cert.KernelIdeal.main_arg8) from Cert.KernelIdeal.Kept.host2 m ρ c Cert.KernelIdeal.main_arg8 (by decide)).trans ((show Cert.KernelIdeal.Gen.W4 m ρ c (Proc.devRef .tc Cert.KernelIdeal.main_arg8) = Cert.KernelIdeal.Gen.W3 m ρ c (Proc.devRef .tc Cert.KernelIdeal.main_arg8) from Cert.KernelIdeal.Gen.W4_of_ne m ρ c Cert.KernelIdeal.main_arg8 (by decide)).trans ((show Cert.KernelIdeal.Gen.W3 m ρ c (Proc.devRef .tc Cert.KernelIdeal.main_arg8) = Cert.KernelIdeal.Gen.W2 m ρ c (Proc.devRef .tc Cert.KernelIdeal.main_arg8) from Cert.KernelIdeal.Kept.host1 m ρ c Cert.KernelIdeal.main_arg8 (by decide)).trans ((show Cert.KernelIdeal.Gen.W2 m ρ c (Proc.devRef .tc Cert.KernelIdeal.main_arg8) = Cert.KernelIdeal.Gen.W1 m ρ c (Proc.devRef .tc Cert.KernelIdeal.main_arg8) from Cert.KernelIdeal.Gen.W2_of_ne m ρ c Cert.KernelIdeal.main_arg8 (by decide)).trans (show Cert.KernelIdeal.Gen.W1 m ρ c (Proc.devRef .tc Cert.KernelIdeal.main_arg8) = Cert.KernelIdeal.Gen.W0 m ρ c (Proc.devRef .tc Cert.KernelIdeal.main_arg8) from Cert.KernelIdeal.Kept.host0 m ρ c Cert.KernelIdeal.main_arg8 (by decide))))))))))))))))))).trans ((show Cert.KernelIdeal.Gen.W0 m ρ c (Proc.devRef .tc Cert.KernelIdeal.main_arg8) = Cert.ReferenceIdeal.Line.U0 m' c (Proc.devRef .tc Cert.ReferenceIdeal.main_arg8) from hA.a8.symm).trans (((show Cert.ReferenceIdeal.Line.U12 m' c (Proc.devRef .tc Cert.ReferenceIdeal.main_arg8) = Cert.ReferenceIdeal.Line.U11 m' c (Proc.devRef .tc Cert.ReferenceIdeal.main_arg8) from Cert.ReferenceIdeal.Kept.keep11 m' c Cert.ReferenceIdeal.main_arg8 (by decide)).trans ((show Cert.ReferenceIdeal.Line.U11 m' c (Proc.devRef .tc Cert.ReferenceIdeal.main_arg8) = Cert.ReferenceIdeal.Line.U10 m' c (Proc.devRef .tc Cert.ReferenceIdeal.main_arg8) from Cert.ReferenceIdeal.Kept.keep10 m' c Cert.ReferenceIdeal.main_arg8 (by decide)).trans ((show Cert.ReferenceIdeal.Line.U10 m' c (Proc.devRef .tc Cert.ReferenceIdeal.main_arg8) = Cert.ReferenceIdeal.Line.U9 m' c (Proc.devRef .tc Cert.ReferenceIdeal.main_arg8) from Cert.ReferenceIdeal.Kept.keep9 m' c Cert.ReferenceIdeal.main_arg8 (by decide)).trans ((show Cert.ReferenceIdeal.Line.U9 m' c (Proc.devRef .tc Cert.ReferenceIdeal.main_arg8) = Cert.ReferenceIdeal.Line.U8 m' c (Proc.devRef .tc Cert.ReferenceIdeal.main_arg8) from Cert.ReferenceIdeal.Kept.keep8 m' c Cert.ReferenceIdeal.main_arg8 (by decide)).trans ((show Cert.ReferenceIdeal.Line.U8 m' c (Proc.devRef .tc Cert.ReferenceIdeal.main_arg8) = Cert.ReferenceIdeal.Line.U7 m' c (Proc.devRef .tc Cert.ReferenceIdeal.main_arg8) from Cert.ReferenceIdeal.Kept.keep7 m' c Cert.ReferenceIdeal.main_arg8 (by decide)).trans ((show Cert.ReferenceIdeal.Line.U7 m' c (Proc.devRef .tc Cert.ReferenceIdeal.main_arg8) = Cert.ReferenceIdeal.Line.U6 m' c (Proc.devRef .tc Cert.ReferenceIdeal.main_arg8) from Cert.ReferenceIdeal.Kept.keep6 m' c Cert.ReferenceIdeal.main_arg8 (by decide)).trans ((show Cert.ReferenceIdeal.Line.U6 m' c (Proc.devRef .tc Cert.ReferenceIdeal.main_arg8) = Cert.ReferenceIdeal.Line.U5 m' c (Proc.devRef .tc Cert.ReferenceIdeal.main_arg8) from Cert.ReferenceIdeal.Kept.keep5 m' c Cert.ReferenceIdeal.main_arg8 (by decide)).trans ((show Cert.ReferenceIdeal.Line.U5 m' c (Proc.devRef .tc Cert.ReferenceIdeal.main_arg8) = Cert.ReferenceIdeal.Line.U4 m' c (Proc.devRef .tc Cert.ReferenceIdeal.main_arg8) from Cert.ReferenceIdeal.Kept.keep4 m' c Cert.ReferenceIdeal.main_arg8 (by decide)).trans ((show Cert.ReferenceIdeal.Line.U4 m' c (Proc.devRef .tc Cert.ReferenceIdeal.main_arg8) = Cert.ReferenceIdeal.Line.U3 m' c (Proc.devRef .tc Cert.ReferenceIdeal.main_arg8) from Cert.ReferenceIdeal.Kept.keep3 m' c Cert.ReferenceIdeal.main_arg8 (by decide)).trans ((show Cert.ReferenceIdeal.Line.U3 m' c (Proc.devRef .tc Cert.ReferenceIdeal.main_arg8) = Cert.ReferenceIdeal.Line.U2 m' c (Proc.devRef .tc Cert.ReferenceIdeal.main_arg8) from Cert.ReferenceIdeal.Kept.keep2 m' c Cert.ReferenceIdeal.main_arg8 (by decide)).trans ((show Cert.ReferenceIdeal.Line.U2 m' c (Proc.devRef .tc Cert.ReferenceIdeal.main_arg8) = Cert.ReferenceIdeal.Line.U1 m' c (Proc.devRef .tc Cert.ReferenceIdeal.main_arg8) from Cert.ReferenceIdeal.Kept.keep1 m' c Cert.ReferenceIdeal.main_arg8 (by decide)).trans (show Cert.ReferenceIdeal.Line.U1 m' c (Proc.devRef .tc Cert.ReferenceIdeal.main_arg8) = Cert.ReferenceIdeal.Line.U0 m' c (Proc.devRef .tc Cert.ReferenceIdeal.main_arg8) from Cert.ReferenceIdeal.Kept.keep0 m' c Cert.ReferenceIdeal.main_arg8 (by decide)))))))))))))).symm))
  rw [k8 m ρ c, ih, iw, s8_b m ρ m' c hA, r8 m' c]

end Cert.Sim

end
-- ==== Proof.lean ====
/-
  A three-layer graph convolution network with a log-softmax output, as a tiled kernel program against a plain reference:
  the certificate.

  Both programs compute, from the node features, the edge list and the layer parameters: the degree vectors; a dense
  layer max (x·W + b, 0); three graph convolutions, each a projection h·W, a gather of the projected rows along the
  edges scaled by the product of the endpoints' inverse square root degrees, a scatter-sum into the destination nodes,
  and max (bn (agg + hp/deg + b), 0); a dense layer with normalisation; and a log-softmax of a last dense layer.  The
  kernel program runs every dense stage as a grid launch over 25 blocks of 2000 rows; every such stage acts row by row,
  so the blocks written back tile the stage applied to whole arrays (the region modules).  The reference program is one
  line of host operations, read stretch by stretch.  The gather and scatter stretches are the same operations in both
  programs.  At the ideal instance a change of float format is the identity and a matrix product into a zero
  accumulator is the plain sum of products, so at matching boundaries the two programs hold the same arrays (the
  simulation modules), and in particular the same result.  No law of arithmetic beyond these readings is used, so the
  precondition is never opened.  The ideal pass rewrote nothing, so the preservation claim is trivial.
-/
import proofs.«169431_j32804960207311_2_alg».proof.Defs
import proofs.«169431_j32804960207311_2_alg».proof.Proof.Gen.Kernel
import proofs.«169431_j32804960207311_2_alg».proof.Proof.Gen.Kernel.Skeleton
import proofs.«169431_j32804960207311_2_alg».proof.Proof.Gen.Kernel.Launch
import proofs.«169431_j32804960207311_2_alg».proof.Proof.Gen.Kernel.Points
import proofs.«169431_j32804960207311_2_alg».proof.Proof.Gen.Kernel.Frame
import proofs.«169431_j32804960207311_2_alg».proof.Proof.Gen.KernelIdeal
import proofs.«169431_j32804960207311_2_alg».proof.Proof.Gen.KernelIdeal.Skeleton
import proofs.«169431_j32804960207311_2_alg».proof.Proof.Gen.KernelIdeal.Launch
import proofs.«169431_j32804960207311_2_alg».proof.Proof.Gen.KernelIdeal.Points
import proofs.«169431_j32804960207311_2_alg».proof.Proof.Gen.KernelIdeal.Frame
import proofs.«169431_j32804960207311_2_alg».proof.Proof.Gen.ReferenceIdeal
import proofs.«169431_j32804960207311_2_alg».proof.Proof.Gen.Pre_finite_inputs
import proofs.«169431_j32804960207311_2_alg».proof.Proof.KernelRun
import proofs.«169431_j32804960207311_2_alg».proof.Proof.RefRun
import proofs.«169431_j32804960207311_2_alg».proof.Proof.RefArgs
import proofs.«169431_j32804960207311_2_alg».proof.Proof.Sim4
import Idealize.ShloMosaic.Adequacy
import Idealize.ShloMosaic.Init

set_option maxRecDepth 16384

noncomputable section

namespace Cert.Proof

open Idealize.ShloMosaic Idealize.ShloMosaic.TcCoe Idealize.ShloMosaic.StableHlo Idealize.SL.Sem

/-- The reference program runs and leaves its arguments as launched: its line's fold, read at each argument. -/
theorem frame_ri : Cert.frame_ReferenceIdeal := fun m ρ _ =>
  (θ_run Cert.ReferenceIdeal.defs _ _).mono (fun r h c =>
    ⟨(h c Cert.ReferenceIdeal.main_arg0).trans (Cert.Sim.ref_arg0 m c),
      (h c Cert.ReferenceIdeal.main_arg1).trans (Cert.Sim.ref_arg1 m c),
      (h c Cert.ReferenceIdeal.main_arg2).trans (Cert.Sim.ref_arg2 m c),
      (h c Cert.ReferenceIdeal.main_arg3).trans (Cert.Sim.ref_arg3 m c),
      (h c Cert.ReferenceIdeal.main_arg4).trans (Cert.Sim.ref_arg4 m c),
      (h c Cert.ReferenceIdeal.main_arg5).trans (Cert.Sim.ref_arg5 m c),
      (h c Cert.ReferenceIdeal.main_arg6).trans (Cert.Sim.ref_arg6 m c),
      (h c Cert.ReferenceIdeal.main_arg7).trans (Cert.Sim.ref_arg7 m c),
      (h c Cert.ReferenceIdeal.main_arg8).trans (Cert.Sim.ref_arg8 m c),
      (h c Cert.ReferenceIdeal.main_arg9).trans (Cert.Sim.ref_arg9 m c),
      (h c Cert.ReferenceIdeal.main_arg10).trans (Cert.Sim.ref_arg10 m c),
      (h c Cert.ReferenceIdeal.main_arg11).trans (Cert.Sim.ref_arg11 m c),
      (h c Cert.ReferenceIdeal.main_arg12).trans (Cert.Sim.ref_arg12 m c),
      (h c Cert.ReferenceIdeal.main_arg13).trans (Cert.Sim.ref_arg13 m c)⟩)
    (Cert.ReferenceIdeal.Line.run_all (F := Ideal) m ρ)

/-- From memories agreeing on the arguments both programs run, and the reference's result is the kernel program's. -/
theorem algebraic : Cert.algebraic_KernelIdeal_ReferenceIdeal := by
  intro m ρ m' ρ' _ hagree
  refine ⟨fun c => Cert.KernelIdeal.Gen.W18 m ρ c (Proc.devRef .tc Cert.KernelIdeal.main_v172), Cert.KernelIdeal.Run.run_result (F := Ideal) m ρ, ?_⟩
  refine (θ_run Cert.ReferenceIdeal.defs _ _).mono (fun r h c => ⟨?_,
      (h c Cert.ReferenceIdeal.main_arg0).trans (Cert.Sim.ref_arg0 m' c),
      (h c Cert.ReferenceIdeal.main_arg1).trans (Cert.Sim.ref_arg1 m' c),
      (h c Cert.ReferenceIdeal.main_arg2).trans (Cert.Sim.ref_arg2 m' c),
      (h c Cert.ReferenceIdeal.main_arg3).trans (Cert.Sim.ref_arg3 m' c),
      (h c Cert.ReferenceIdeal.main_arg4).trans (Cert.Sim.ref_arg4 m' c),
      (h c Cert.ReferenceIdeal.main_arg5).trans (Cert.Sim.ref_arg5 m' c),
      (h c Cert.ReferenceIdeal.main_arg6).trans (Cert.Sim.ref_arg6 m' c),
      (h c Cert.ReferenceIdeal.main_arg7).trans (Cert.Sim.ref_arg7 m' c),
      (h c Cert.ReferenceIdeal.main_arg8).trans (Cert.Sim.ref_arg8 m' c),
      (h c Cert.ReferenceIdeal.main_arg9).trans (Cert.Sim.ref_arg9 m' c),
      (h c Cert.ReferenceIdeal.main_arg10).trans (Cert.Sim.ref_arg10 m' c),
      (h c Cert.ReferenceIdeal.main_arg11).trans (Cert.Sim.ref_arg11 m' c),
      (h c Cert.ReferenceIdeal.main_arg12).trans (Cert.Sim.ref_arg12 m' c),
      (h c Cert.ReferenceIdeal.main_arg13).trans (Cert.Sim.ref_arg13 m' c)⟩)
    (Cert.ReferenceIdeal.Line.run_all (F := Ideal) m' ρ')
  have hA : Cert.Sim.Agree m m' c :=
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2⟩
  refine (h c Cert.ReferenceIdeal.main_v234).trans ?_
  rw [Cert.ReferenceIdeal.Line.after_ops]
  exact (Cert.Sim.results_agree m ρ m' c hA).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
